-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x256x256 : Shape := ⟨4, ![32, 3, 256, 256]⟩
abbrev S3x3x3x64 : Shape := ⟨4, ![3, 3, 3, 64]⟩
abbrev S64 : Shape := ⟨1, ![64]⟩
abbrev S2x2x64x64 : Shape := ⟨4, ![2, 2, 64, 64]⟩
abbrev S3x3x64x3 : Shape := ⟨4, ![3, 3, 64, 3]⟩
abbrev S3 : Shape := ⟨1, ![3]⟩
abbrev S_ : Shape := ⟨0, ![]⟩

class Facts : Prop where
  bcast_S_S32x3x256x256 : S_.BroadcastsInDim S32x3x256x256 (![] : Fin 0 → Fin S32x3x256x256.rank)
  reducesTo_S32x3x256x256_S_d0_1_2_3 : S32x3x256x256.ReducesTo [0, 1, 2, 3] S_
  h_S_ : 0 < S_.numel
  bcast_S_S3x3x3x64 : S_.BroadcastsInDim S3x3x3x64 (![] : Fin 0 → Fin S3x3x3x64.rank)
  reducesTo_S3x3x3x64_S_d0_1_2_3 : S3x3x3x64.ReducesTo [0, 1, 2, 3] S_
  bcast_S_S64 : S_.BroadcastsInDim S64 (![] : Fin 0 → Fin S64.rank)
  reducesTo_S64_S_d0 : S64.ReducesTo [0] S_
  bcast_S_S2x2x64x64 : S_.BroadcastsInDim S2x2x64x64 (![] : Fin 0 → Fin S2x2x64x64.rank)
  reducesTo_S2x2x64x64_S_d0_1_2_3 : S2x2x64x64.ReducesTo [0, 1, 2, 3] S_
  bcast_S_S3x3x64x3 : S_.BroadcastsInDim S3x3x64x3 (![] : Fin 0 → Fin S3x3x64x3.rank)
  reducesTo_S3x3x64x3_S_d0_1_2_3 : S3x3x64x3.ReducesTo [0, 1, 2, 3] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg7 : FVec F S2x2x64x64 .f32) (main_arg8 : FVec F S64 .f32) (main_arg9 : FVec F S3x3x64x3 .f32) (main_arg10 : FVec F S3 .f32) (main_v33 : IVec S_ 1) : IVec S_ 1 :=
  let main_v34 : FVec F S2x2x64x64 .f32 := Host.absf main_arg7
  let main_cst_12 : FVec F S_ .f32 := constant S_ .f32 0x7F800000#32
  let main_v35 : FVec F S2x2x64x64 .f32 := broadcastInDim S2x2x64x64 ![] bcast_S_S2x2x64x64 main_cst_12
  let main_v36 : IVec S2x2x64x64 1 := cmpf .olt main_v34 main_v35
  let main_c_13 : IVec S_ 1 := constantI S_ 1 1#1
  let main_v37 : IVec S_ 1 := (fun x v => Host.reduce IntOp.andi x v reducesTo_S2x2x64x64_S_d0_1_2_3 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S3x3x64x3 .f32 := Host.absf main_arg9
  let main_cst_16 : FVec F S_ .f32 := constant S_ .f32 0x7F800000#32
  let main_v45 : FVec F S3x3x64x3 .f32 := broadcastInDim S3x3x64x3 ![] bcast_S_S3x3x64x3 main_cst_16
  let main_v46 : IVec S3x3x64x3 1 := cmpf .olt main_v44 main_v45
  let main_c_17 : IVec S_ 1 := constantI S_ 1 1#1
  let main_v47 : IVec S_ 1 := (fun x v => Host.reduce IntOp.andi x v reducesTo_S3x3x64x3_S_d0_1_2_3 h_S_) main_v46 main_c_17
  let main_v48 : IVec S_ 1 := andi main_v43 main_v47
  let main_v49 : FVec F S3 .f32 := Host.absf main_arg10
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg4 : FVec F S64 .f32) (main_arg5 : FVec F S2x2x64x64 .f32) (main_arg6 : FVec F S64 .f32) (main_arg7 : FVec F S2x2x64x64 .f32) (main_arg8 : FVec F S64 .f32) (main_arg9 : FVec F S3x3x64x3 .f32) (main_arg10 : FVec F S3 .f32) (main_v13 : IVec S_ 1) (main_v16 : IVec S2x2x64x64 1) : IVec S_ 1 :=
  let main_c_5 : IVec S_ 1 := constantI S_ 1 1#1
  let main_v17 : IVec S_ 1 := (fun x v => Host.reduce IntOp.andi x v reducesTo_S2x2x64x64_S_d0_1_2_3 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x2x64x64 .f32 := Host.absf main_arg5
  let main_cst_8 : FVec F S_ .f32 := constant S_ .f32 0x7F800000#32
  let main_v25 : FVec F S2x2x64x64 .f32 := broadcastInDim S2x2x64x64 ![] bcast_S_S2x2x64x64 main_cst_8
  let main_v26 : IVec S2x2x64x64 1 := cmpf .olt main_v24 main_v25
  let main_c_9 : IVec S_ 1 := constantI S_ 1 1#1
  let main_v27 : IVec S_ 1 := (fun x v => Host.reduce IntOp.andi x v reducesTo_S2x2x64x64_S_d0_1_2_3 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32x3x256x256 .f32) (main_arg1 : FVec F S3x3x3x64 .f32) (main_arg2 : FVec F S64 .f32) (main_arg3 : FVec F S2x2x64x64 .f32) (main_arg4 : FVec F S64 .f32) (main_arg5 : FVec F S2x2x64x64 .f32) (main_arg6 : FVec F S64 .f32) (main_arg7 : FVec F S2x2x64x64 .f32) (main_arg8 : FVec F S64 .f32) (main_arg9 : FVec F S3x3x64x3 .f32) (main_arg10 : FVec F S3 .f32) : IVec S_ 1 :=
  let main_v0 : FVec F S32x3x256x256 .f32 := Host.absf main_arg0
  let main_cst : FVec F S_ .f32 := constant S_ .f32 0x7F800000#32
  let main_v1 : FVec F S32x3x256x256 .f32 := broadcastInDim S32x3x256x256 ![] bcast_S_S32x3x256x256 main_cst
  let main_v2 : IVec S32x3x256x256 1 := cmpf .olt main_v0 main_v1
  let main_c : IVec S_ 1 := constantI S_ 1 1#1
  let main_v3 : IVec S_ 1 := (fun x v => Host.reduce IntOp.andi x v reducesTo_S32x3x256x256_S_d0_1_2_3 h_S_) main_v2 main_c
  let main_v4 : FVec F S3x3x3x64 .f32 := Host.absf main_arg1
  let main_cst_0 : FVec F S_ .f32 := constant S_ .f32 0x7F800000#32
  let main_v5 : FVec F S3x3x3x64 .f32 := broadcastInDim S3x3x3x64 ![] bcast_S_S3x3x3x64 main_cst_0
  let main_v6 : IVec S3x3x3x64 1 := cmpf .olt main_v4 main_v5
  let main_c_1 : IVec S_ 1 := constantI S_ 1 1#1
  let main_v7 : IVec S_ 1 := (fun x v => Host.reduce IntOp.andi x v reducesTo_S3x3x3x64_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x2x64x64 .f32 := Host.absf main_arg3
  let main_cst_4 : FVec F S_ .f32 := constant S_ .f32 0x7F800000#32
  let main_v15 : FVec F S2x2x64x64 .f32 := broadcastInDim S2x2x64x64 ![] bcast_S_S2x2x64x64 main_cst_4
  let main_v16 : IVec S2x2x64x64 1 := cmpf .olt main_v14 main_v15
  fn_part1 (F := F) main_arg4 main_arg5 main_arg6 main_arg7 main_arg8 main_arg9 main_arg10 main_v13 main_v16
-- ==== Kernel.lean ====
abbrev S32x3x256x256 : Shape := ⟨4, ![32, 3, 256, 256]⟩
abbrev S3x3x3x64 : Shape := ⟨4, ![3, 3, 3, 64]⟩
abbrev S64 : Shape := ⟨1, ![64]⟩
abbrev S2x2x64x64 : Shape := ⟨4, ![2, 2, 64, 64]⟩
abbrev S3x3x64x3 : Shape := ⟨4, ![3, 3, 64, 3]⟩
abbrev S3 : Shape := ⟨1, ![3]⟩
abbrev S32x256x256x3 : Shape := ⟨4, ![32, 256, 256, 3]⟩
abbrev S_ : Shape := ⟨0, ![]⟩
abbrev S32x288x258x8 : Shape := ⟨4, ![32, 288, 258, 8]⟩
abbrev S3x3x8x64 : Shape := ⟨4, ![3, 3, 8, 64]⟩
abbrev S72x64 : Shape := ⟨2, ![72, 64]⟩
abbrev S1x64 : Shape := ⟨2, ![1, 64]⟩
abbrev S576x3 : Shape := ⟨2, ![576, 3]⟩
abbrev S576x8 : Shape := ⟨2, ![576, 8]⟩
abbrev S8 : Shape := ⟨1, ![8]⟩
abbrev S1x8 : Shape := ⟨2, ![1, 8]⟩
abbrev S32x32x32x8 : Shape := ⟨4, ![32, 32, 32, 8]⟩
abbrev S32x32x32x3 : Shape := ⟨4, ![32, 32, 32, 3]⟩
abbrev S32x3x32x32 : Shape := ⟨4, ![32, 3, 32, 32]⟩
abbrev S1x16x258x8 : Shape := ⟨4, ![1, 16, 258, 8]⟩
abbrev S1x32x32x8 : Shape := ⟨4, ![1, 32, 32, 8]⟩
abbrev S32x32x64 : Shape := ⟨3, ![32, 32, 64]⟩
abbrev S16x258x8 : Shape := ⟨3, ![16, 258, 8]⟩
abbrev S48x258x8 : Shape := ⟨3, ![48, 258, 8]⟩
abbrev S32x256x8 : Shape := ⟨3, ![32, 256, 8]⟩
abbrev S8192x8 : Shape := ⟨2, ![8192, 8]⟩
abbrev S8192x72 : Shape := ⟨2, ![8192, 72]⟩
abbrev S8192x64 : Shape := ⟨2, ![8192, 64]⟩
abbrev S32x256x64 : Shape := ⟨3, ![32, 256, 64]⟩
abbrev S16x2x128x2x64 : Shape := ⟨5, ![16, 2, 128, 2, 64]⟩
abbrev S16x1x128x1x64 : Shape := ⟨5, ![16, 1, 128, 1, 64]⟩
abbrev S16x128x64 : Shape := ⟨3, ![16, 128, 64]⟩
abbrev S2048x64 : Shape := ⟨2, ![2048, 64]⟩
abbrev S1x1x64x64 : Shape := ⟨4, ![1, 1, 64, 64]⟩
abbrev S64x64 : Shape := ⟨2, ![64, 64]⟩
abbrev S8x2x64x2x64 : Shape := ⟨5, ![8, 2, 64, 2, 64]⟩
abbrev S8x1x64x1x64 : Shape := ⟨5, ![8, 1, 64, 1, 64]⟩
abbrev S8x64x64 : Shape := ⟨3, ![8, 64, 64]⟩
abbrev S512x64 : Shape := ⟨2, ![512, 64]⟩
abbrev S4x2x32x2x64 : Shape := ⟨5, ![4, 2, 32, 2, 64]⟩
abbrev S4x1x32x1x64 : Shape := ⟨5, ![4, 1, 32, 1, 64]⟩
abbrev S4x32x64 : Shape := ⟨3, ![4, 32, 64]⟩
abbrev S128x64 : Shape := ⟨2, ![128, 64]⟩
abbrev S1x32x64 : Shape := ⟨3, ![1, 32, 64]⟩
abbrev S33x32x64 : Shape := ⟨3, ![33, 32, 64]⟩
abbrev S34x32x64 : Shape := ⟨3, ![34, 32, 64]⟩
abbrev S34x1x64 : Shape := ⟨3, ![34, 1, 64]⟩
abbrev S34x33x64 : Shape := ⟨3, ![34, 33, 64]⟩
abbrev S34x34x64 : Shape := ⟨3, ![34, 34, 64]⟩
abbrev S1024x64 : Shape := ⟨2, ![1024, 64]⟩
abbrev S1024x576 : Shape := ⟨2, ![1024, 576]⟩
abbrev S1024x8 : Shape := ⟨2, ![1024, 8]⟩
abbrev S32x32x8 : Shape := ⟨3, ![32, 32, 8]⟩

abbrev nBuf : Space → Nat
  | .hbm => 34
  | .vmem => 19
  | .smem => 0
  | _ => 0

abbrev bufTy : (tb : Table) → Fin (tcTables nBuf tb) → BufTy
  | .hbm, ⟨0, _⟩ => ⟨S32x3x256x256, .f32⟩
  | .hbm, ⟨1, _⟩ => ⟨S3x3x3x64, .f32⟩
  | .hbm, ⟨2, _⟩ => ⟨S64, .f32⟩
  | .hbm, ⟨3, _⟩ => ⟨S2x2x64x64, .f32⟩
  | .hbm, ⟨4, _⟩ => ⟨S64, .f32⟩
  | .hbm, ⟨5, _⟩ => ⟨S2x2x64x64, .f32⟩
  | .hbm, ⟨6, _⟩ => ⟨S64, .f32⟩
  | .hbm, ⟨7, _⟩ => ⟨S2x2x64x64, .f32⟩
  | .hbm, ⟨8, _⟩ => ⟨S64, .f32⟩
  | .hbm, ⟨9, _⟩ => ⟨S3x3x64x3, .f32⟩
  | .hbm, ⟨10, _⟩ => ⟨S3, .f32⟩
  | .hbm, ⟨11, _⟩ => ⟨S32x256x256x3, .f32⟩
  | .hbm, ⟨12, _⟩ => ⟨S_, .i32⟩
  | .hbm, ⟨13, _⟩ => ⟨S_, .f32⟩
  | .hbm, ⟨14, _⟩ => ⟨S32x288x258x8, .f32⟩
  | .hbm, ⟨15, _⟩ => ⟨S_, .i32⟩
  | .hbm, ⟨16, _⟩ => ⟨S_, .f32⟩
  | .hbm, ⟨17, _⟩ => ⟨S3x3x8x64, .f32⟩
  | .hbm, ⟨18, _⟩ => ⟨S72x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S576x3, .f32⟩
  | .hbm, ⟨24, _⟩ => ⟨S_, .i32⟩
  | .hbm, ⟨25, _⟩ => ⟨S_, .f32⟩
  | .hbm, ⟨26, _⟩ => ⟨S576x8, .f32⟩
  | .hbm, ⟨27, _⟩ => ⟨S_, .i32⟩
  | .hbm, ⟨28, _⟩ => ⟨S_, .f32⟩
  | .hbm, ⟨29, _⟩ => ⟨S8, .f32⟩
  | .hbm, ⟨30, _⟩ => ⟨S1x8, .f32⟩
  | .hbm, ⟨31, _⟩ => ⟨S32x32x32x8, .f32⟩
  | .hbm, ⟨32, _⟩ => ⟨S32x32x32x3, .f32⟩
  | .hbm, ⟨33, _⟩ => ⟨S32x3x32x32, .f32⟩
  | .local _ .vmem, ⟨0, _⟩ => ⟨S1x16x258x8, .f32⟩
  | .local _ .vmem, ⟨1, _⟩ => ⟨S1x16x258x8, .f32⟩
  | .local _ .vmem, ⟨2, _⟩ => ⟨S1x16x258x8, .f32⟩
  | .local _ .vmem, ⟨3, _⟩ => ⟨S1x16x258x8, .f32⟩
  | .local _ .vmem, ⟨4, _⟩ => ⟨S1x16x258x8, .f32⟩
  | .local _ .vmem, ⟨5, _⟩ => ⟨S1x16x258x8, .f32⟩
  | .local _ .vmem, ⟨6, _⟩ => ⟨S72x64, .f32⟩
  | .local _ .vmem, ⟨7, _⟩ => ⟨S1x64, .f32⟩
  | .local _ .vmem, ⟨8, _⟩ => ⟨S2x2x64x64, .f32⟩
  | .local _ .vmem, ⟨9, _⟩ => ⟨S1x64, .f32⟩
  | .local _ .vmem, ⟨10, _⟩ => ⟨S2x2x64x64, .f32⟩
  | .local _ .vmem, ⟨11, _⟩ => ⟨S1x64, .f32⟩
  | .local _ .vmem, ⟨12, _⟩ => ⟨S2x2x64x64, .f32⟩
  | .local _ .vmem, ⟨13, _⟩ => ⟨S1x64, .f32⟩
  | .local _ .vmem, ⟨14, _⟩ => ⟨S576x8, .f32⟩
  | .local _ .vmem, ⟨15, _⟩ => ⟨S1x8, .f32⟩
  | .local _ .vmem, ⟨16, _⟩ => ⟨S1x32x32x8, .f32⟩
  | .local _ .vmem, ⟨17, _⟩ => ⟨S1x32x32x8, .f32⟩
  | .local _ .vmem, ⟨18, _⟩ => ⟨S32x32x64, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_c : Ref sig .tc := ⟨.hbm, 12, rfl⟩
abbrev main_call0_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_call1_v0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c_1 : Ref sig .tc := ⟨.hbm, 24, rfl⟩
abbrev main_call0_call2_v0 : Ref sig .tc := ⟨.hbm, 25, rfl⟩
abbrev main_call0_v9 : Ref sig .tc := ⟨.hbm, 26, rfl⟩
abbrev main_call0_c_2 : Ref sig .tc := ⟨.hbm, 27, rfl⟩
abbrev main_call0_call3_v0 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let c4_i32 : BitVec 32 := 4#32
  let v148 : BitVec 32 := Scalar.muli arg1 c4_i32
  let v149 : Index := Scalar.indexCast v148
  let c0_45 : Index := 0#32
  let c0_46 : Index := 0#32
  ![v149.toNat, 0, 0]
def k0_cond1 (i : grid0.Coords) : BitVec 1 :=
  let arg1 : BitVec 32 := BitVec.ofNat 32 (i 1).val
  let c7_i32 : BitVec 32 := 7#32
  let v153 : BitVec 1 := Scalar.cmpi .eq arg1 c7_i32
  let v154 : BitVec 32 := Scalar.extui v153
  let c0_i32 : BitVec 32 := 0#32
  let v155 : BitVec 1 := Scalar.cmpi .ne v154 c0_i32
  v155

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c0_i32_1 : BitVec 32 := 0#32
  let c0_i32_2 : BitVec 32 := 0#32
  ![arg0.toNat, v1.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x258x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x258x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x258x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S72x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x2x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x2x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S576x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x32x32x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  transposes_S32x3x256x256_S32x256x256x3_0_2_3_1 : S32x3x256x256.Transposes [0, 2, 3, 1] S32x256x256x3
  pads_S32x256x256x3_S32x288x258x8_000_1310_110_050 : S32x256x256x3.Pads (![0, 1, 1, 0] : Fin 4 → Nat) ![0, 31, 1, 5] ![0, 0, 0, 0] S32x288x258x8
  h_S_ : 0 < S_.numel
  pads_S3x3x3x64_S3x3x8x64_000_000_050_000 : S3x3x3x64.Pads (![0, 0, 0, 0] : Fin 4 → Nat) ![0, 0, 5, 0] ![0, 0, 0, 0] S3x3x8x64
  shapeCasts_S3x3x8x64_S72x64 : S3x3x8x64.ShapeCasts S72x64
  shapeCasts_S64_S1x64 : S64.ShapeCasts S1x64
  shapeCasts_S3x3x64x3_S576x3 : S3x3x64x3.ShapeCasts S576x3
  pads_S576x3_S576x8_000_050 : S576x3.Pads (![0, 0] : Fin 2 → Nat) ![0, 5] ![0, 0] S576x8
  pads_S3_S8_050 : S3.Pads (![0] : Fin 1 → Nat) ![5] ![0] S8
  shapeCasts_S8_S1x8 : S8.ShapeCasts S1x8
  slices_S32x32x32x8_S32x32x32x3_0_0_0_0 : S32x32x32x8.Slices ![0, 0, 0, 0] S32x32x32x3
  transposes_S32x32x32x3_S32x3x32x32_0_3_1_2 : S32x32x32x3.Transposes [0, 3, 1, 2] S32x3x32x32
  inb_S1x16x258x8_S1x16x258x8_0_0_0_0 : ∀ a, (![0, 0, 0, 0] : Fin 4 → Nat) a + S1x16x258x8.size a ≤ S1x16x258x8.size a
  h_S1x16x258x8 : 0 < S1x16x258x8.numel
  shapeCasts_S1x16x258x8_S16x258x8 : S1x16x258x8.ShapeCasts S16x258x8
  concatenates_S16x258x8_S16x258x8_S16x258x8_S48x258x8_d0 : Shape.Concatenates [S16x258x8, S16x258x8, S16x258x8] S48x258x8 0
  slices_S48x258x8_o0_0_0_S32x256x8 : S48x258x8.Slices ![0, 0, 0] S32x256x8
  shapeCasts_S32x256x8_S8192x8 : S32x256x8.ShapeCasts S8192x8
  slices_S48x258x8_o0_1_0_S32x256x8 : S48x258x8.Slices ![0, 1, 0] S32x256x8
  slices_S48x258x8_o0_2_0_S32x256x8 : S48x258x8.Slices ![0, 2, 0] S32x256x8
  slices_S48x258x8_o1_0_0_S32x256x8 : S48x258x8.Slices ![1, 0, 0] S32x256x8
  slices_S48x258x8_o1_1_0_S32x256x8 : S48x258x8.Slices ![1, 1, 0] S32x256x8
  slices_S48x258x8_o1_2_0_S32x256x8 : S48x258x8.Slices ![1, 2, 0] S32x256x8
  slices_S48x258x8_o2_0_0_S32x256x8 : S48x258x8.Slices ![2, 0, 0] S32x256x8
  slices_S48x258x8_o2_1_0_S32x256x8 : S48x258x8.Slices ![2, 1, 0] S32x256x8
  slices_S48x258x8_o2_2_0_S32x256x8 : S48x258x8.Slices ![2, 2, 0] S32x256x8
  concatenates_S8192x8_S8192x8_S8192x8_S8192x8_S8192x8_S8192x8_S8192x8_S8192x8_S8192x8_S8192x72_d1 : Shape.Concatenates [S8192x8, S8192x8, S8192x8, S8192x8, S8192x8, S8192x8, S8192x8, S8192x8, S8192x8] S8192x72 1
  inb_S72x64_S72x64_0_0 : ∀ a, (![0, 0] : Fin 2 → Nat) a + S72x64.size a ≤ S72x64.size a
  h_S72x64 : 0 < S72x64.numel
  shapeCasts_S72x64_S72x64 : S72x64.ShapeCasts S72x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  shapeCasts_S8192x64_S32x256x64 : S8192x64.ShapeCasts S32x256x64
  inb_S2x2x64x64_S2x2x64x64_0_0_0_0 : ∀ a, (![0, 0, 0, 0] : Fin 4 → Nat) a + S2x2x64x64.size a ≤ S2x2x64x64.size a
  h_S2x2x64x64 : 0 < S2x2x64x64.numel
  shapeCasts_S32x256x64_S16x2x128x2x64 : S32x256x64.ShapeCasts S16x2x128x2x64
  slices_S16x2x128x2x64_o0_0_0_0_0_S16x1x128x1x64 : S16x2x128x2x64.Slices ![0, 0, 0, 0, 0] S16x1x128x1x64
  shapeCasts_S16x1x128x1x64_S16x128x64 : S16x1x128x1x64.ShapeCasts S16x128x64
  slices_S16x2x128x2x64_o0_0_0_1_0_S16x1x128x1x64 : S16x2x128x2x64.Slices ![0, 0, 0, 1, 0] S16x1x128x1x64
  slices_S16x2x128x2x64_o0_1_0_0_0_S16x1x128x1x64 : S16x2x128x2x64.Slices ![0, 1, 0, 0, 0] S16x1x128x1x64
  slices_S16x2x128x2x64_o0_1_0_1_0_S16x1x128x1x64 : S16x2x128x2x64.Slices ![0, 1, 0, 1, 0] S16x1x128x1x64
  shapeCasts_S16x128x64_S2048x64 : S16x128x64.ShapeCasts S2048x64
  slices_S2x2x64x64_o0_0_0_0_S1x1x64x64 : S2x2x64x64.Slices ![0, 0, 0, 0] S1x1x64x64
  shapeCasts_S1x1x64x64_S64x64 : S1x1x64x64.ShapeCasts S64x64
  broadcasts_S1x64_S2048x64 : S1x64.Broadcasts S2048x64
  slices_S2x2x64x64_o0_1_0_0_S1x1x64x64 : S2x2x64x64.Slices ![0, 1, 0, 0] S1x1x64x64
  slices_S2x2x64x64_o1_0_0_0_S1x1x64x64 : S2x2x64x64.Slices ![1, 0, 0, 0] S1x1x64x64
  slices_S2x2x64x64_o1_1_0_0_S1x1x64x64 : S2x2x64x64.Slices ![1, 1, 0, 0] S1x1x64x64
  shapeCasts_S2048x64_S16x128x64 : S2048x64.ShapeCasts S16x128x64
  shapeCasts_S16x128x64_S8x2x64x2x64 : S16x128x64.ShapeCasts S8x2x64x2x64
  slices_S8x2x64x2x64_o0_0_0_0_0_S8x1x64x1x64 : S8x2x64x2x64.Slices ![0, 0, 0, 0, 0] S8x1x64x1x64
  shapeCasts_S8x1x64x1x64_S8x64x64 : S8x1x64x1x64.ShapeCasts S8x64x64
  slices_S8x2x64x2x64_o0_0_0_1_0_S8x1x64x1x64 : S8x2x64x2x64.Slices ![0, 0, 0, 1, 0] S8x1x64x1x64
  slices_S8x2x64x2x64_o0_1_0_0_0_S8x1x64x1x64 : S8x2x64x2x64.Slices ![0, 1, 0, 0, 0] S8x1x64x1x64
  slices_S8x2x64x2x64_o0_1_0_1_0_S8x1x64x1x64 : S8x2x64x2x64.Slices ![0, 1, 0, 1, 0] S8x1x64x1x64
  shapeCasts_S8x64x64_S512x64 : S8x64x64.ShapeCasts S512x64
  broadcasts_S1x64_S512x64 : S1x64.Broadcasts S512x64
  shapeCasts_S512x64_S8x64x64 : S512x64.ShapeCasts S8x64x64
  shapeCasts_S8x64x64_S4x2x32x2x64 : S8x64x64.ShapeCasts S4x2x32x2x64
  slices_S4x2x32x2x64_o0_0_0_0_0_S4x1x32x1x64 : S4x2x32x2x64.Slices ![0, 0, 0, 0, 0] S4x1x32x1x64
  shapeCasts_S4x1x32x1x64_S4x32x64 : S4x1x32x1x64.ShapeCasts S4x32x64
  slices_S4x2x32x2x64_o0_0_0_1_0_S4x1x32x1x64 : S4x2x32x2x64.Slices ![0, 0, 0, 1, 0] S4x1x32x1x64
  slices_S4x2x32x2x64_o0_1_0_0_0_S4x1x32x1x64 : S4x2x32x2x64.Slices ![0, 1, 0, 0, 0] S4x1x32x1x64
  slices_S4x2x32x2x64_o0_1_0_1_0_S4x1x32x1x64 : S4x2x32x2x64.Slices ![0, 1, 0, 1, 0] S4x1x32x1x64
  shapeCasts_S4x32x64_S128x64 : S4x32x64.ShapeCasts S128x64
  broadcasts_S1x64_S128x64 : S1x64.Broadcasts S128x64
  shapeCasts_S128x64_S4x32x64 : S128x64.ShapeCasts S4x32x64
  h_S4x32x64 : 0 < S4x32x64.numel
  shapeCasts_S4x32x64_S4x32x64 : S4x32x64.ShapeCasts S4x32x64
  inb_S32x32x64_S32x32x64_0_0_0 : ∀ a, (![0, 0, 0] : Fin 3 → Nat) a + S32x32x64.size a ≤ S32x32x64.size a
  h_S32x32x64 : 0 < S32x32x64.numel
  concatenates_S1x32x64_S32x32x64_S33x32x64_d0 : Shape.Concatenates [S1x32x64, S32x32x64] S33x32x64 0
  concatenates_S33x32x64_S1x32x64_S34x32x64_d0 : Shape.Concatenates [S33x32x64, S1x32x64] S34x32x64 0
  concatenates_S34x1x64_S34x32x64_S34x33x64_d1 : Shape.Concatenates [S34x1x64, S34x32x64] S34x33x64 1
  concatenates_S34x33x64_S34x1x64_S34x34x64_d1 : Shape.Concatenates [S34x33x64, S34x1x64] S34x34x64 1
  slices_S34x34x64_o0_0_0_S32x32x64 : S34x34x64.Slices ![0, 0, 0] S32x32x64
  shapeCasts_S32x32x64_S1024x64 : S32x32x64.ShapeCasts S1024x64
  slices_S34x34x64_o0_1_0_S32x32x64 : S34x34x64.Slices ![0, 1, 0] S32x32x64
  slices_S34x34x64_o0_2_0_S32x32x64 : S34x34x64.Slices ![0, 2, 0] S32x32x64
  slices_S34x34x64_o1_0_0_S32x32x64 : S34x34x64.Slices ![1, 0, 0] S32x32x64
  slices_S34x34x64_o1_1_0_S32x32x64 : S34x34x64.Slices ![1, 1, 0] S32x32x64
  slices_S34x34x64_o1_2_0_S32x32x64 : S34x34x64.Slices ![1, 2, 0] S32x32x64
  slices_S34x34x64_o2_0_0_S32x32x64 : S34x34x64.Slices ![2, 0, 0] S32x32x64
  slices_S34x34x64_o2_1_0_S32x32x64 : S34x34x64.Slices ![2, 1, 0] S32x32x64
  slices_S34x34x64_o2_2_0_S32x32x64 : S34x34x64.Slices ![2, 2, 0] S32x32x64
  concatenates_S1024x64_S1024x64_S1024x64_S1024x64_S1024x64_S1024x64_S1024x64_S1024x64_S1024x64_S1024x576_d1 : Shape.Concatenates [S1024x64, S1024x64, S1024x64, S1024x64, S1024x64, S1024x64, S1024x64, S1024x64, S1024x64] S1024x576 1
  inb_S576x8_S576x8_0_0 : ∀ a, (![0, 0] : Fin 2 → Nat) a + S576x8.size a ≤ S576x8.size a
  h_S576x8 : 0 < S576x8.numel
  shapeCasts_S576x8_S576x8 : S576x8.ShapeCasts S576x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  shapeCasts_S1024x8_S32x32x8 : S1024x8.ShapeCasts S32x32x8
  inb_S1x32x32x8_S1x32x32x8_0_0_0_0 : ∀ a, (![0, 0, 0, 0] : Fin 4 → Nat) a + S1x32x32x8.size a ≤ S1x32x32x8.size a
  h_S1x32x32x8 : 0 < S1x32x32x8.numel
  shapeCasts_S1x32x32x8_S32x32x8 : S1x32x32x8.ShapeCasts S32x32x8
  shapeCasts_S32x32x8_S1x32x32x8 : S32x32x8.ShapeCasts S1x32x32x8
  dot_S8192x72_S72x64_S8192x64_1_0_0_1_n_n_wf : DotDims.WF S8192x72 S72x64 S8192x64 [1] [0] [0] [1] [] []
  dot_S2048x64_S64x64_S2048x64_1_0_0_1_n_n_wf : DotDims.WF S2048x64 S64x64 S2048x64 [1] [0] [0] [1] [] []
  dot_S512x64_S64x64_S512x64_1_0_0_1_n_n_wf : DotDims.WF S512x64 S64x64 S512x64 [1] [0] [0] [1] [] []
  dot_S128x64_S64x64_S128x64_1_0_0_1_n_n_wf : DotDims.WF S128x64 S64x64 S128x64 [1] [0] [0] [1] [] []
  dot_S1024x576_S576x8_S1024x8_1_0_0_1_n_n_wf : DotDims.WF S1024x576 S576x8 S1024x8 [1] [0] [0] [1] [] []
  hrank0 : 0 < grid0.rank
  k0_off1_inb : ∀ i : grid0.Coords, ∀ a, (k0_off1 i) a + S4x32x64.size a ≤ S32x32x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x258x8.size a ≤ S32x288x258x8.size a
  hwx0_0 : ∀ i : grid0.Coords, EltTy.bits .f32 = 32 ∨ (Rect.block (s := S32x288x258x8) S1x16x258x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x258x8.size a ≤ S32x288x258x8.size a
  hwx0_1 : ∀ i : grid0.Coords, EltTy.bits .f32 = 32 ∨ (Rect.block (s := S32x288x258x8) S1x16x258x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x258x8.size a ≤ S32x288x258x8.size a
  hwx0_2 : ∀ i : grid0.Coords, EltTy.bits .f32 = 32 ∨ (Rect.block (s := S32x288x258x8) S1x16x258x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S72x64.size a ≤ S72x64.size a
  hwx0_3 : ∀ i : grid0.Coords, EltTy.bits .f32 = 32 ∨ (Rect.block (s := S72x64) S72x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2x64x64.size a ≤ S2x2x64x64.size a
  hwx0_5 : ∀ i : grid0.Coords, EltTy.bits .f32 = 32 ∨ (Rect.block (s := S2x2x64x64) S2x2x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x2x64x64.size a ≤ S2x2x64x64.size a
  hwx0_7 : ∀ i : grid0.Coords, EltTy.bits .f32 = 32 ∨ (Rect.block (s := S2x2x64x64) S2x2x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x2x64x64.size a ≤ S2x2x64x64.size a
  hwx0_9 : ∀ i : grid0.Coords, EltTy.bits .f32 = 32 ∨ (Rect.block (s := S2x2x64x64) S2x2x64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S576x8.size a ≤ S576x8.size a
  hwx0_11 : ∀ i : grid0.Coords, EltTy.bits .f32 = 32 ∨ (Rect.block (s := S576x8) S576x8.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x8.size a ≤ S1x8.size a
  hwx0_12 : ∀ i : grid0.Coords, EltTy.bits .f32 = 32 ∨ (Rect.block (s := S1x8) S1x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x32x32x8.size a ≤ S32x32x32x8.size a
  hwx0_13 : ∀ i : grid0.Coords, EltTy.bits .f32 = 32 ∨ (Rect.block (s := S32x32x32x8) S1x32x32x8.size (cc0_transform_13 i) (hinb0_13 i)).WholeWords (EltTy.packing .f32)

variable [Facts₀]

def dot_S8192x72_S72x64_S8192x64_1_0_0_1_n_n : DotDims S8192x72 S72x64 S8192x64 where
  lhsContracting := [1]
  rhsContracting := [0]
  lhsNonContracting := [0]
  rhsNonContracting := [1]
  lhsBatch := []
  rhsBatch := []
  wf := dot_S8192x72_S72x64_S8192x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S1024x576_S576x8_S1024x8_1_0_0_1_n_n : DotDims S1024x576 S576x8 S1024x8 where
  lhsContracting := [1]
  rhsContracting := [0]
  lhsNonContracting := [0]
  rhsNonContracting := [1]
  lhsBatch := []
  rhsBatch := []
  wf := dot_S1024x576_S576x8_S1024x8_1_0_0_1_n_n_wf

abbrev win0_0 : Pipeline.Window sig grid0 :=
  Pipeline.Window.ofSpec (Memref.whole main_call0_v1) S1x16x258x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x16x258x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x16x258x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S72x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S2x2x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S2x2x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S2x2x64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v7) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v9) S576x8.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v11) S1x8.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v12) S1x32x32x8.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond1 i == 1#1) | ⟨_ + 14, h⟩ => absurd h (Nat.not_lt.2 (Nat.le_add_left _ _))

class Facts : Prop extends Facts₀ where

variable [Facts]
-- ==== ReferenceIdeal.lean ====
abbrev S32x3x256x256 : Shape := ⟨4, ![32, 3, 256, 256]⟩
abbrev S3x3x3x64 : Shape := ⟨4, ![3, 3, 3, 64]⟩
abbrev S64 : Shape := ⟨1, ![64]⟩
abbrev S2x2x64x64 : Shape := ⟨4, ![2, 2, 64, 64]⟩
abbrev S3x3x64x3 : Shape := ⟨4, ![3, 3, 64, 3]⟩
abbrev S3 : Shape := ⟨1, ![3]⟩
abbrev S32x256x256x3 : Shape := ⟨4, ![32, 256, 256, 3]⟩
abbrev S_ : Shape := ⟨0, ![]⟩
abbrev S32x256x256x8 : Shape := ⟨4, ![32, 256, 256, 8]⟩
abbrev S3x3x8x64 : Shape := ⟨4, ![3, 3, 8, 64]⟩
abbrev S32x258x258x8 : Shape := ⟨4, ![32, 258, 258, 8]⟩
abbrev S32x256x258x8 : Shape := ⟨4, ![32, 256, 258, 8]⟩
abbrev S8192x258x8 : Shape := ⟨3, ![8192, 258, 8]⟩
abbrev S1x64 : Shape := ⟨2, ![1, 64]⟩
abbrev S8192x256x64 : Shape := ⟨3, ![8192, 256, 64]⟩
abbrev S32x256x256x64 : Shape := ⟨4, ![32, 256, 256, 64]⟩
abbrev S4096x256x128 : Shape := ⟨3, ![4096, 256, 128]⟩
abbrev S2x128x64 : Shape := ⟨3, ![2, 128, 64]⟩
abbrev S4096x128x64 : Shape := ⟨3, ![4096, 128, 64]⟩
abbrev S32x128x128x64 : Shape := ⟨4, ![32, 128, 128, 64]⟩
abbrev S2048x128x128 : Shape := ⟨3, ![2048, 128, 128]⟩
abbrev S2048x64x64 : Shape := ⟨3, ![2048, 64, 64]⟩
abbrev S32x64x64x64 : Shape := ⟨4, ![32, 64, 64, 64]⟩
abbrev S1024x64x128 : Shape := ⟨3, ![1024, 64, 128]⟩
abbrev S1024x32x64 : Shape := ⟨3, ![1024, 32, 64]⟩
abbrev S32x32x32x64 : Shape := ⟨4, ![32, 32, 32, 64]⟩
abbrev S3x3x64x128 : Shape := ⟨4, ![3, 3, 64, 128]⟩
abbrev S128 : Shape := ⟨1, ![128]⟩
abbrev S32x34x34x64 : Shape := ⟨4, ![32, 34, 34, 64]⟩
abbrev S32x32x34x64 : Shape := ⟨4, ![32, 32, 34, 64]⟩
abbrev S1024x34x64 : Shape := ⟨3, ![1024, 34, 64]⟩
abbrev S1x128 : Shape := ⟨2, ![1, 128]⟩
abbrev S1024x32x128 : Shape := ⟨3, ![1024, 32, 128]⟩
abbrev S32x32x32x128 : Shape := ⟨4, ![32, 32, 32, 128]⟩
abbrev S32x32x32x3 : Shape := ⟨4, ![32, 32, 32, 3]⟩
abbrev S32x3x32x32 : Shape := ⟨4, ![32, 3, 32, 32]⟩
abbrev S1x258x8 : Shape := ⟨3, ![1, 258, 8]⟩
abbrev S1x256x64 : Shape := ⟨3, ![1, 256, 64]⟩
abbrev S256x64 : Shape := ⟨2, ![256, 64]⟩
abbrev S1x256x8 : Shape := ⟨3, ![1, 256, 8]⟩
abbrev S256x8 : Shape := ⟨2, ![256, 8]⟩
abbrev S1x1x8x64 : Shape := ⟨4, ![1, 1, 8, 64]⟩
abbrev S8x64 : Shape := ⟨2, ![8, 64]⟩
abbrev S5x256x128 : Shape := ⟨3, ![5, 256, 128]⟩
abbrev S5x128x64 : Shape := ⟨3, ![5, 128, 64]⟩
abbrev S5x128x128 : Shape := ⟨3, ![5, 128, 128]⟩
abbrev S640x128 : Shape := ⟨2, ![640, 128]⟩
abbrev S640x64 : Shape := ⟨2, ![640, 64]⟩
abbrev S1x128x64 : Shape := ⟨3, ![1, 128, 64]⟩
abbrev S128x64 : Shape := ⟨2, ![128, 64]⟩
abbrev S8x128x128 : Shape := ⟨3, ![8, 128, 128]⟩
abbrev S8x64x64 : Shape := ⟨3, ![8, 64, 64]⟩
abbrev S8x64x128 : Shape := ⟨3, ![8, 64, 128]⟩
abbrev S512x128 : Shape := ⟨2, ![512, 128]⟩
abbrev S512x64 : Shape := ⟨2, ![512, 64]⟩
abbrev S16x64x128 : Shape := ⟨3, ![16, 64, 128]⟩
abbrev S16x32x64 : Shape := ⟨3, ![16, 32, 64]⟩
abbrev S16x32x128 : Shape := ⟨3, ![16, 32, 128]⟩
abbrev S8x34x64 : Shape := ⟨3, ![8, 34, 64]⟩
abbrev S8x32x128 : Shape := ⟨3, ![8, 32, 128]⟩
abbrev S256x128 : Shape := ⟨2, ![256, 128]⟩
abbrev S8x32x64 : Shape := ⟨3, ![8, 32, 64]⟩
abbrev S1x1x64x128 : Shape := ⟨4, ![1, 1, 64, 128]⟩
abbrev S64x128 : Shape := ⟨2, ![64, 128]⟩

abbrev nBuf : Space → Nat
  | .hbm => 65
  | .vmem => 38
  | .smem => 0
  | _ => 0

abbrev bufTy : (tb : Table) → Fin (tcTables nBuf tb) → BufTy
  | .hbm, ⟨0, _⟩ => ⟨S32x3x256x256, .f32⟩
  | .hbm, ⟨1, _⟩ => ⟨S3x3x3x64, .f32⟩
  | .hbm, ⟨2, _⟩ => ⟨S64, .f32⟩
  | .hbm, ⟨3, _⟩ => ⟨S2x2x64x64, .f32⟩
  | .hbm, ⟨4, _⟩ => ⟨S64, .f32⟩
  | .hbm, ⟨5, _⟩ => ⟨S2x2x64x64, .f32⟩
  | .hbm, ⟨6, _⟩ => ⟨S64, .f32⟩
  | .hbm, ⟨7, _⟩ => ⟨S2x2x64x64, .f32⟩
  | .hbm, ⟨8, _⟩ => ⟨S64, .f32⟩
  | .hbm, ⟨9, _⟩ => ⟨S3x3x64x3, .f32⟩
  | .hbm, ⟨10, _⟩ => ⟨S3, .f32⟩
  | .hbm, ⟨11, _⟩ => ⟨S32x256x256x3, .f32⟩
  | .hbm, ⟨12, _⟩ => ⟨S_, .i32⟩
  | .hbm, ⟨13, _⟩ => ⟨S_, .f32⟩
  | .hbm, ⟨14, _⟩ => ⟨S32x256x256x8, .f32⟩
  | .hbm, ⟨15, _⟩ => ⟨S_, .i32⟩
  | .hbm, ⟨16, _⟩ => ⟨S_, .f32⟩
  | .hbm, ⟨17, _⟩ => ⟨S3x3x8x64, .f32⟩
  | .hbm, ⟨18, _⟩ => ⟨S_, .i32⟩
  | .hbm, ⟨19, _⟩ => ⟨S_, .f32⟩
  | .hbm, ⟨20, _⟩ => ⟨S32x258x258x8, .f32⟩
  | .hbm, ⟨21, _⟩ => ⟨S32x256x258x8, .f32⟩
  | .hbm, ⟨22, _⟩ => ⟨S8192x258x8, .f32⟩
  | .hbm, ⟨23, _⟩ => ⟨S32x256x258x8, .f32⟩
  | .hbm, ⟨24, _⟩ => ⟨S8192x258x8, .f32⟩
  | .hbm, ⟨25, _⟩ => ⟨S32x256x258x8, .f32⟩
  | .hbm, ⟨26, _⟩ => ⟨S8192x258x8, .f32⟩
  | .hbm, ⟨27, _⟩ => ⟨S1x64, .f32⟩
  | .hbm, ⟨28, _⟩ => ⟨S8192x256x64, .f32⟩
  | .hbm, ⟨29, _⟩ => ⟨S32x256x256x64, .f32⟩
  | .hbm, ⟨30, _⟩ => ⟨S4096x256x128, .f32⟩
  | .hbm, ⟨31, _⟩ => ⟨S2x128x64, .f32⟩
  | .hbm, ⟨32, _⟩ => ⟨S1x64, .f32⟩
  | .hbm, ⟨33, _⟩ => ⟨S4096x128x64, .f32⟩
  | .hbm, ⟨34, _⟩ => ⟨S32x128x128x64, .f32⟩
  | .hbm, ⟨35, _⟩ => ⟨S2048x128x128, .f32⟩
  | .hbm, ⟨36, _⟩ => ⟨S2x128x64, .f32⟩
  | .hbm, ⟨37, _⟩ => ⟨S1x64, .f32⟩
  | .hbm, ⟨38, _⟩ => ⟨S2048x64x64, .f32⟩
  | .hbm, ⟨39, _⟩ => ⟨S32x64x64x64, .f32⟩
  | .hbm, ⟨40, _⟩ => ⟨S1024x64x128, .f32⟩
  | .hbm, ⟨41, _⟩ => ⟨S2x128x64, .f32⟩
  | .hbm, ⟨42, _⟩ => ⟨S1x64, .f32⟩
  | .hbm, ⟨43, _⟩ => ⟨S1024x32x64, .f32⟩
  | .hbm, ⟨44, _⟩ => ⟨S32x32x32x64, .f32⟩
  | .hbm, ⟨45, _⟩ => ⟨S_, .i32⟩
  | .hbm, ⟨46, _⟩ => ⟨S_, .f32⟩
  | .hbm, ⟨47, _⟩ => ⟨S3x3x64x128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S_, .i32⟩
  | .hbm, ⟨52, _⟩ => ⟨S_, .f32⟩
  | .hbm, ⟨53, _⟩ => ⟨S32x34x34x64, .f32⟩
  | .hbm, ⟨54, _⟩ => ⟨S32x32x34x64, .f32⟩
  | .hbm, ⟨55, _⟩ => ⟨S1024x34x64, .f32⟩
  | .hbm, ⟨56, _⟩ => ⟨S32x32x34x64, .f32⟩
  | .hbm, ⟨57, _⟩ => ⟨S1024x34x64, .f32⟩
  | .hbm, ⟨58, _⟩ => ⟨S32x32x34x64, .f32⟩
  | .hbm, ⟨59, _⟩ => ⟨S1024x34x64, .f32⟩
  | .hbm, ⟨60, _⟩ => ⟨S1x128, .f32⟩
  | .hbm, ⟨61, _⟩ => ⟨S1024x32x128, .f32⟩
  | .hbm, ⟨62, _⟩ => ⟨S32x32x32x128, .f32⟩
  | .hbm, ⟨63, _⟩ => ⟨S32x32x32x3, .f32⟩
  | .hbm, ⟨64, _⟩ => ⟨S32x3x32x32, .f32⟩
  | .local _ .vmem, ⟨0, _⟩ => ⟨S1x258x8, .f32⟩
  | .local _ .vmem, ⟨1, _⟩ => ⟨S1x258x8, .f32⟩
  | .local _ .vmem, ⟨2, _⟩ => ⟨S1x258x8, .f32⟩
  | .local _ .vmem, ⟨3, _⟩ => ⟨S1x258x8, .f32⟩
  | .local _ .vmem, ⟨4, _⟩ => ⟨S1x258x8, .f32⟩
  | .local _ .vmem, ⟨5, _⟩ => ⟨S1x258x8, .f32⟩
  | .local _ .vmem, ⟨6, _⟩ => ⟨S3x3x8x64, .f32⟩
  | .local _ .vmem, ⟨7, _⟩ => ⟨S1x64, .f32⟩
  | .local _ .vmem, ⟨8, _⟩ => ⟨S1x256x64, .f32⟩
  | .local _ .vmem, ⟨9, _⟩ => ⟨S1x256x64, .f32⟩
  | .local _ .vmem, ⟨10, _⟩ => ⟨S5x256x128, .f32⟩
  | .local _ .vmem, ⟨11, _⟩ => ⟨S5x256x128, .f32⟩
  | .local _ .vmem, ⟨12, _⟩ => ⟨S2x128x64, .f32⟩
  | .local _ .vmem, ⟨13, _⟩ => ⟨S1x64, .f32⟩
  | .local _ .vmem, ⟨14, _⟩ => ⟨S5x128x64, .f32⟩
  | .local _ .vmem, ⟨15, _⟩ => ⟨S5x128x64, .f32⟩
  | .local _ .vmem, ⟨16, _⟩ => ⟨S8x128x128, .f32⟩
  | .local _ .vmem, ⟨17, _⟩ => ⟨S8x128x128, .f32⟩
  | .local _ .vmem, ⟨18, _⟩ => ⟨S2x128x64, .f32⟩
  | .local _ .vmem, ⟨19, _⟩ => ⟨S1x64, .f32⟩
  | .local _ .vmem, ⟨20, _⟩ => ⟨S8x64x64, .f32⟩
  | .local _ .vmem, ⟨21, _⟩ => ⟨S8x64x64, .f32⟩
  | .local _ .vmem, ⟨22, _⟩ => ⟨S16x64x128, .f32⟩
  | .local _ .vmem, ⟨23, _⟩ => ⟨S16x64x128, .f32⟩
  | .local _ .vmem, ⟨24, _⟩ => ⟨S2x128x64, .f32⟩
  | .local _ .vmem, ⟨25, _⟩ => ⟨S1x64, .f32⟩
  | .local _ .vmem, ⟨26, _⟩ => ⟨S16x32x64, .f32⟩
  | .local _ .vmem, ⟨27, _⟩ => ⟨S16x32x64, .f32⟩
  | .local _ .vmem, ⟨28, _⟩ => ⟨S8x34x64, .f32⟩
  | .local _ .vmem, ⟨29, _⟩ => ⟨S8x34x64, .f32⟩
  | .local _ .vmem, ⟨30, _⟩ => ⟨S8x34x64, .f32⟩
  | .local _ .vmem, ⟨31, _⟩ => ⟨S8x34x64, .f32⟩
  | .local _ .vmem, ⟨32, _⟩ => ⟨S8x34x64, .f32⟩
  | .local _ .vmem, ⟨33, _⟩ => ⟨S8x34x64, .f32⟩
  | .local _ .vmem, ⟨34, _⟩ => ⟨S3x3x64x128, .f32⟩
  | .local _ .vmem, ⟨35, _⟩ => ⟨S1x128, .f32⟩
  | .local _ .vmem, ⟨36, _⟩ => ⟨S8x32x128, .f32⟩
  | .local _ .vmem, ⟨37, _⟩ => ⟨S8x32x128, .f32⟩
  | _, _ => ⟨S32x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_c : Ref sig .tc := ⟨.hbm, 12, rfl⟩
abbrev main_call0_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_call1_v0 : Ref sig .tc := ⟨.hbm, 16, rfl⟩
abbrev main_call0_v2 : Ref sig .tc := ⟨.hbm, 17, rfl⟩
abbrev main_call0_c_1 : Ref sig .tc := ⟨.hbm, 18, rfl⟩
abbrev main_call0_call2_v0 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_v19 : Ref sig .tc := ⟨.hbm, 36, rfl⟩
abbrev main_call0_v20 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_c_2 : Ref sig .tc := ⟨.hbm, 45, rfl⟩
abbrev main_call0_call3_v0 : Ref sig .tc := ⟨.hbm, 46, rfl⟩
abbrev main_call0_v28 : Ref sig .tc := ⟨.hbm, 47, rfl⟩
abbrev main_call0_c_3 : Ref sig .tc := ⟨.hbm, 48, rfl⟩
abbrev main_call0_call4_v0 : Ref sig .tc := ⟨.hbm, 49, rfl⟩
abbrev main_call0_v29 : Ref sig .tc := ⟨.hbm, 50, rfl⟩
abbrev main_call0_c_4 : Ref sig .tc := ⟨.hbm, 51, rfl⟩
abbrev main_call0_call5_v0 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_v0 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![8192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x258x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x258x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x258x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![820], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![256], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8x64x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S16x64x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S16x32x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S8x34x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8x34x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8x34x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x3x64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8x32x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  transposes_S32x3x256x256_S32x256x256x3_0_2_3_1 : S32x3x256x256.Transposes [0, 2, 3, 1] S32x256x256x3
  pads_S32x256x256x3_S32x256x256x8_000_000_000_050 : S32x256x256x3.Pads (![0, 0, 0, 0] : Fin 4 → Nat) ![0, 0, 0, 5] ![0, 0, 0, 0] S32x256x256x8
  h_S_ : 0 < S_.numel
  pads_S3x3x3x64_S3x3x8x64_000_000_050_000 : S3x3x3x64.Pads (![0, 0, 0, 0] : Fin 4 → Nat) ![0, 0, 5, 0] ![0, 0, 0, 0] S3x3x8x64
  pads_S32x256x256x8_S32x258x258x8_000_110_110_000 : S32x256x256x8.Pads (![0, 1, 1, 0] : Fin 4 → Nat) ![0, 1, 1, 0] ![0, 0, 0, 0] S32x258x258x8
  slices_S32x258x258x8_S32x256x258x8_0_0_0_0 : S32x258x258x8.Slices ![0, 0, 0, 0] S32x256x258x8
  shapeCasts_S32x256x258x8_S8192x258x8 : S32x256x258x8.ShapeCasts S8192x258x8
  slices_S32x258x258x8_S32x256x258x8_0_1_0_0 : S32x258x258x8.Slices ![0, 1, 0, 0] S32x256x258x8
  slices_S32x258x258x8_S32x256x258x8_0_2_0_0 : S32x258x258x8.Slices ![0, 2, 0, 0] S32x256x258x8
  shapeCasts_S64_S1x64 : S64.ShapeCasts S1x64
  shapeCasts_S8192x256x64_S32x256x256x64 : S8192x256x64.ShapeCasts S32x256x256x64
  shapeCasts_S32x256x256x64_S4096x256x128 : S32x256x256x64.ShapeCasts S4096x256x128
  shapeCasts_S2x2x64x64_S2x128x64 : S2x2x64x64.ShapeCasts S2x128x64
  shapeCasts_S4096x128x64_S32x128x128x64 : S4096x128x64.ShapeCasts S32x128x128x64
  shapeCasts_S32x128x128x64_S2048x128x128 : S32x128x128x64.ShapeCasts S2048x128x128
  shapeCasts_S2048x64x64_S32x64x64x64 : S2048x64x64.ShapeCasts S32x64x64x64
  shapeCasts_S32x64x64x64_S1024x64x128 : S32x64x64x64.ShapeCasts S1024x64x128
  shapeCasts_S1024x32x64_S32x32x32x64 : S1024x32x64.ShapeCasts S32x32x32x64
  pads_S3x3x64x3_S3x3x64x128_000_000_000_01250 : S3x3x64x3.Pads (![0, 0, 0, 0] : Fin 4 → Nat) ![0, 0, 0, 125] ![0, 0, 0, 0] S3x3x64x128
  pads_S3_S128_01250 : S3.Pads (![0] : Fin 1 → Nat) ![125] ![0] S128
  pads_S32x32x32x64_S32x34x34x64_000_110_110_000 : S32x32x32x64.Pads (![0, 1, 1, 0] : Fin 4 → Nat) ![0, 1, 1, 0] ![0, 0, 0, 0] S32x34x34x64
  slices_S32x34x34x64_S32x32x34x64_0_0_0_0 : S32x34x34x64.Slices ![0, 0, 0, 0] S32x32x34x64
  shapeCasts_S32x32x34x64_S1024x34x64 : S32x32x34x64.ShapeCasts S1024x34x64
  slices_S32x34x34x64_S32x32x34x64_0_1_0_0 : S32x34x34x64.Slices ![0, 1, 0, 0] S32x32x34x64
  slices_S32x34x34x64_S32x32x34x64_0_2_0_0 : S32x34x34x64.Slices ![0, 2, 0, 0] S32x32x34x64
  shapeCasts_S128_S1x128 : S128.ShapeCasts S1x128
  shapeCasts_S1024x32x128_S32x32x32x128 : S1024x32x128.ShapeCasts S32x32x32x128
  slices_S32x32x32x128_S32x32x32x3_0_0_0_0 : S32x32x32x128.Slices ![0, 0, 0, 0] S32x32x32x3
  transposes_S32x32x32x3_S32x3x32x32_0_3_1_2 : S32x32x32x3.Transposes [0, 3, 1, 2] S32x3x32x32
  inb_S1x258x8_S1x258x8_0_0_0 : ∀ a, (![0, 0, 0] : Fin 3 → Nat) a + S1x258x8.size a ≤ S1x258x8.size a
  h_S1x258x8 : 0 < S1x258x8.numel
  shapeCasts_S1x258x8_S1x258x8 : S1x258x8.ShapeCasts S1x258x8
  slices_S1x258x8_o0_0_0_S1x256x8 : S1x258x8.Slices ![0, 0, 0] S1x256x8
  shapeCasts_S1x256x8_S256x8 : S1x256x8.ShapeCasts S256x8
  inb_S3x3x8x64_S1x1x8x64_0_0_0_0 : ∀ a, (![0, 0, 0, 0] : Fin 4 → Nat) a + S1x1x8x64.size a ≤ S3x3x8x64.size a
  h_S1x1x8x64 : 0 < S1x1x8x64.numel
  shapeCasts_S1x1x8x64_S8x64 : S1x1x8x64.ShapeCasts S8x64
  slices_S1x258x8_o0_1_0_S1x256x8 : S1x258x8.Slices ![0, 1, 0] S1x256x8
  inb_S3x3x8x64_S1x1x8x64_0_1_0_0 : ∀ a, (![0, 1, 0, 0] : Fin 4 → Nat) a + S1x1x8x64.size a ≤ S3x3x8x64.size a
  slices_S1x258x8_o0_2_0_S1x256x8 : S1x258x8.Slices ![0, 2, 0] S1x256x8
  inb_S3x3x8x64_S1x1x8x64_0_2_0_0 : ∀ a, (![0, 2, 0, 0] : Fin 4 → Nat) a + S1x1x8x64.size a ≤ S3x3x8x64.size a
  inb_S3x3x8x64_S1x1x8x64_1_0_0_0 : ∀ a, (![1, 0, 0, 0] : Fin 4 → Nat) a + S1x1x8x64.size a ≤ S3x3x8x64.size a
  inb_S3x3x8x64_S1x1x8x64_1_1_0_0 : ∀ a, (![1, 1, 0, 0] : Fin 4 → Nat) a + S1x1x8x64.size a ≤ S3x3x8x64.size a
  inb_S3x3x8x64_S1x1x8x64_1_2_0_0 : ∀ a, (![1, 2, 0, 0] : Fin 4 → Nat) a + S1x1x8x64.size a ≤ S3x3x8x64.size a
  inb_S3x3x8x64_S1x1x8x64_2_0_0_0 : ∀ a, (![2, 0, 0, 0] : Fin 4 → Nat) a + S1x1x8x64.size a ≤ S3x3x8x64.size a
  inb_S3x3x8x64_S1x1x8x64_2_1_0_0 : ∀ a, (![2, 1, 0, 0] : Fin 4 → Nat) a + S1x1x8x64.size a ≤ S3x3x8x64.size a
  inb_S3x3x8x64_S1x1x8x64_2_2_0_0 : ∀ a, (![2, 2, 0, 0] : Fin 4 → Nat) a + S1x1x8x64.size a ≤ S3x3x8x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  shapeCasts_S256x64_S1x256x64 : S256x64.ShapeCasts S1x256x64
  inb_S1x256x64_S1x256x64_0_0_0 : ∀ a, (![0, 0, 0] : Fin 3 → Nat) a + S1x256x64.size a ≤ S1x256x64.size a
  h_S1x256x64 : 0 < S1x256x64.numel
  inb_S5x256x128_S5x256x128_0_0_0 : ∀ a, (![0, 0, 0] : Fin 3 → Nat) a + S5x256x128.size a ≤ S5x256x128.size a
  h_S5x256x128 : 0 < S5x256x128.numel
  shapeCasts_S5x256x128_S5x256x128 : S5x256x128.ShapeCasts S5x256x128
  slices_S5x256x128_o0_0_0_S5x128x128 : S5x256x128.Slices ![0, 0, 0] S5x128x128
  shapeCasts_S5x128x128_S640x128 : S5x128x128.ShapeCasts S640x128
  slices_S5x256x128_o0_128_0_S5x128x128 : S5x256x128.Slices ![0, 128, 0] S5x128x128
  slices_S640x128_o0_0_S640x64 : S640x128.Slices ![0, 0] S640x64
  slices_S640x128_o0_64_S640x64 : S640x128.Slices ![0, 64] S640x64
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x128x64_S1x128x64_1_0_0 : ∀ a, (![1, 0, 0] : Fin 3 → Nat) a + S1x128x64.size a ≤ S2x128x64.size a
  broadcasts_S1x64_S640x64 : S1x64.Broadcasts S640x64
  shapeCasts_S640x64_S5x128x64 : S640x64.ShapeCasts S5x128x64
  inb_S5x128x64_S5x128x64_0_0_0 : ∀ a, (![0, 0, 0] : Fin 3 → Nat) a + S5x128x64.size a ≤ S5x128x64.size a
  h_S5x128x64 : 0 < S5x128x64.numel
  inb_S8x128x128_S8x128x128_0_0_0 : ∀ a, (![0, 0, 0] : Fin 3 → Nat) a + S8x128x128.size a ≤ S8x128x128.size a
  h_S8x128x128 : 0 < S8x128x128.numel
  shapeCasts_S8x128x128_S8x128x128 : S8x128x128.ShapeCasts S8x128x128
  slices_S8x128x128_o0_0_0_S8x64x128 : S8x128x128.Slices ![0, 0, 0] S8x64x128
  shapeCasts_S8x64x128_S512x128 : S8x64x128.ShapeCasts S512x128
  slices_S8x128x128_o0_64_0_S8x64x128 : S8x128x128.Slices ![0, 64, 0] S8x64x128
  slices_S512x128_o0_0_S512x64 : S512x128.Slices ![0, 0] S512x64
  slices_S512x128_o0_64_S512x64 : S512x128.Slices ![0, 64] S512x64
  broadcasts_S1x64_S512x64 : S1x64.Broadcasts S512x64
  shapeCasts_S512x64_S8x64x64 : S512x64.ShapeCasts S8x64x64
  inb_S8x64x64_S8x64x64_0_0_0 : ∀ a, (![0, 0, 0] : Fin 3 → Nat) a + S8x64x64.size a ≤ S8x64x64.size a
  h_S8x64x64 : 0 < S8x64x64.numel
  inb_S16x64x128_S16x64x128_0_0_0 : ∀ a, (![0, 0, 0] : Fin 3 → Nat) a + S16x64x128.size a ≤ S16x64x128.size a
  h_S16x64x128 : 0 < S16x64x128.numel
  shapeCasts_S16x64x128_S16x64x128 : S16x64x128.ShapeCasts S16x64x128
  slices_S16x64x128_o0_0_0_S16x32x128 : S16x64x128.Slices ![0, 0, 0] S16x32x128
  shapeCasts_S16x32x128_S512x128 : S16x32x128.ShapeCasts S512x128
  slices_S16x64x128_o0_32_0_S16x32x128 : S16x64x128.Slices ![0, 32, 0] S16x32x128
  shapeCasts_S512x64_S16x32x64 : S512x64.ShapeCasts S16x32x64
  inb_S16x32x64_S16x32x64_0_0_0 : ∀ a, (![0, 0, 0] : Fin 3 → Nat) a + S16x32x64.size a ≤ S16x32x64.size a
  h_S16x32x64 : 0 < S16x32x64.numel
  inb_S8x34x64_S8x34x64_0_0_0 : ∀ a, (![0, 0, 0] : Fin 3 → Nat) a + S8x34x64.size a ≤ S8x34x64.size a
  h_S8x34x64 : 0 < S8x34x64.numel
  shapeCasts_S8x34x64_S8x34x64 : S8x34x64.ShapeCasts S8x34x64
  slices_S8x34x64_o0_0_0_S8x32x64 : S8x34x64.Slices ![0, 0, 0] S8x32x64
  shapeCasts_S8x32x64_S256x64 : S8x32x64.ShapeCasts S256x64
  inb_S3x3x64x128_S1x1x64x128_0_0_0_0 : ∀ a, (![0, 0, 0, 0] : Fin 4 → Nat) a + S1x1x64x128.size a ≤ S3x3x64x128.size a
  h_S1x1x64x128 : 0 < S1x1x64x128.numel
  shapeCasts_S1x1x64x128_S64x128 : S1x1x64x128.ShapeCasts S64x128
  slices_S8x34x64_o0_1_0_S8x32x64 : S8x34x64.Slices ![0, 1, 0] S8x32x64
  inb_S3x3x64x128_S1x1x64x128_0_1_0_0 : ∀ a, (![0, 1, 0, 0] : Fin 4 → Nat) a + S1x1x64x128.size a ≤ S3x3x64x128.size a
  slices_S8x34x64_o0_2_0_S8x32x64 : S8x34x64.Slices ![0, 2, 0] S8x32x64
  inb_S3x3x64x128_S1x1x64x128_0_2_0_0 : ∀ a, (![0, 2, 0, 0] : Fin 4 → Nat) a + S1x1x64x128.size a ≤ S3x3x64x128.size a
  inb_S3x3x64x128_S1x1x64x128_1_0_0_0 : ∀ a, (![1, 0, 0, 0] : Fin 4 → Nat) a + S1x1x64x128.size a ≤ S3x3x64x128.size a
  inb_S3x3x64x128_S1x1x64x128_1_1_0_0 : ∀ a, (![1, 1, 0, 0] : Fin 4 → Nat) a + S1x1x64x128.size a ≤ S3x3x64x128.size a
  inb_S3x3x64x128_S1x1x64x128_1_2_0_0 : ∀ a, (![1, 2, 0, 0] : Fin 4 → Nat) a + S1x1x64x128.size a ≤ S3x3x64x128.size a
  inb_S3x3x64x128_S1x1x64x128_2_0_0_0 : ∀ a, (![2, 0, 0, 0] : Fin 4 → Nat) a + S1x1x64x128.size a ≤ S3x3x64x128.size a
  inb_S3x3x64x128_S1x1x64x128_2_1_0_0 : ∀ a, (![2, 1, 0, 0] : Fin 4 → Nat) a + S1x1x64x128.size a ≤ S3x3x64x128.size a
  inb_S3x3x64x128_S1x1x64x128_2_2_0_0 : ∀ a, (![2, 2, 0, 0] : Fin 4 → Nat) a + S1x1x64x128.size a ≤ S3x3x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S256x128_S8x32x128 : S256x128.ShapeCasts S8x32x128
  inb_S8x32x128_S8x32x128_0_0_0 : ∀ a, (![0, 0, 0] : Fin 3 → Nat) a + S8x32x128.size a ≤ S8x32x128.size a
  h_S8x32x128 : 0 < S8x32x128.numel
  dot_S256x8_S8x64_S256x64_1_0_0_1_n_n_wf : DotDims.WF S256x8 S8x64 S256x64 [1] [0] [0] [1] [] []
  dot_S640x128_S128x64_S640x64_1_0_0_1_n_n_wf : DotDims.WF S640x128 S128x64 S640x64 [1] [0] [0] [1] [] []
  dot_S512x128_S128x64_S512x64_1_0_0_1_n_n_wf : DotDims.WF S512x128 S128x64 S512x64 [1] [0] [0] [1] [] []
  dot_S256x64_S64x128_S256x128_1_0_0_1_n_n_wf : DotDims.WF S256x64 S64x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x258x8.size a ≤ S8192x258x8.size a
  hwx0_0 : ∀ i : grid0.Coords, EltTy.bits .f32 = 32 ∨ (Rect.block (s := S8192x258x8) S1x258x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x258x8.size a ≤ S8192x258x8.size a
  hwx0_1 : ∀ i : grid0.Coords, EltTy.bits .f32 = 32 ∨ (Rect.block (s := S8192x258x8) S1x258x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x258x8.size a ≤ S8192x258x8.size a
  hwx0_2 : ∀ i : grid0.Coords, EltTy.bits .f32 = 32 ∨ (Rect.block (s := S8192x258x8) S1x258x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3x8x64.size a ≤ S3x3x8x64.size a
  hwx0_3 : ∀ i : grid0.Coords, EltTy.bits .f32 = 32 ∨ (Rect.block (s := S3x3x8x64) S3x3x8x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S8192x256x64.size a
  hwx0_5 : ∀ i : grid0.Coords, EltTy.bits .f32 = 32 ∨ (Rect.block (s := S8192x256x64) S1x256x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S5x256x128.size a < S4096x256x128.size a
  hwx1_0 : ∀ i : grid1.Coords, EltTy.bits .f32 = 32 ∨ (Rect.unit (s := S4096x256x128) (fun a => cc1_transform_0 i a * S5x256x128.size a) (fun a => (Pipeline.Clip.of (cc1_transform_0 i a) (S5x256x128.size a) (S4096x256x128.size a)).extent (S5x256x128.size a)) fun a => Pipeline.Clip.inb (Pipeline.Clip.ok_of (hstart1_0 i a))).WholeWords (EltTy.packing .f32)
  hwxs1_0 : ∀ i : grid1.Coords, EltTy.bits .f32 = 32 ∨ (Rect.unit (s := S5x256x128) (fun _ => 0) (fun a => (Pipeline.Clip.of (cc1_transform_0 i a) (S5x256x128.size a) (S4096x256x128.size a)).extent (S5x256x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128x64.size a ≤ S2x128x64.size a
  hwx1_1 : ∀ i : grid1.Coords, EltTy.bits .f32 = 32 ∨ (Rect.block (s := S2x128x64) S2x128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S5x128x64.size a < S4096x128x64.size a
  hwx1_3 : ∀ i : grid1.Coords, EltTy.bits .f32 = 32 ∨ (Rect.unit (s := S4096x128x64) (fun a => cc1_transform_3 i a * S5x128x64.size a) (fun a => (Pipeline.Clip.of (cc1_transform_3 i a) (S5x128x64.size a) (S4096x128x64.size a)).extent (S5x128x64.size a)) fun a => Pipeline.Clip.inb (Pipeline.Clip.ok_of (hstart1_3 i a))).WholeWords (EltTy.packing .f32)
  hwxs1_3 : ∀ i : grid1.Coords, EltTy.bits .f32 = 32 ∨ (Rect.unit (s := S5x128x64) (fun _ => 0) (fun a => (Pipeline.Clip.of (cc1_transform_3 i a) (S5x128x64.size a) (S4096x128x64.size a)).extent (S5x128x64.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x128.size a ≤ S2048x128x128.size a
  hwx2_0 : ∀ i : grid2.Coords, EltTy.bits .f32 = 32 ∨ (Rect.block (s := S2048x128x128) S8x128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128x64.size a ≤ S2x128x64.size a
  hwx2_1 : ∀ i : grid2.Coords, EltTy.bits .f32 = 32 ∨ (Rect.block (s := S2x128x64) S2x128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8x64x64.size a ≤ S2048x64x64.size a
  hwx2_3 : ∀ i : grid2.Coords, EltTy.bits .f32 = 32 ∨ (Rect.block (s := S2048x64x64) S8x64x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x64x128.size a ≤ S1024x64x128.size a
  hwx3_0 : ∀ i : grid3.Coords, EltTy.bits .f32 = 32 ∨ (Rect.block (s := S1024x64x128) S16x64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x128x64.size a ≤ S2x128x64.size a
  hwx3_1 : ∀ i : grid3.Coords, EltTy.bits .f32 = 32 ∨ (Rect.block (s := S2x128x64) S2x128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16x32x64.size a ≤ S1024x32x64.size a
  hwx3_3 : ∀ i : grid3.Coords, EltTy.bits .f32 = 32 ∨ (Rect.block (s := S1024x32x64) S16x32x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8x34x64.size a ≤ S1024x34x64.size a
  hwx4_0 : ∀ i : grid4.Coords, EltTy.bits .f32 = 32 ∨ (Rect.block (s := S1024x34x64) S8x34x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8x34x64.size a ≤ S1024x34x64.size a
  hwx4_1 : ∀ i : grid4.Coords, EltTy.bits .f32 = 32 ∨ (Rect.block (s := S1024x34x64) S8x34x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8x34x64.size a ≤ S1024x34x64.size a
  hwx4_2 : ∀ i : grid4.Coords, EltTy.bits .f32 = 32 ∨ (Rect.block (s := S1024x34x64) S8x34x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x3x64x128.size a ≤ S3x3x64x128.size a
  hwx4_3 : ∀ i : grid4.Coords, EltTy.bits .f32 = 32 ∨ (Rect.block (s := S3x3x64x128) S3x3x64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x32x128.size a ≤ S1024x32x128.size a
  hwx4_5 : ∀ i : grid4.Coords, EltTy.bits .f32 = 32 ∨ (Rect.block (s := S1024x32x128) S8x32x128.size (cc4_transform_5 i) (hinb4_5 i)).WholeWords (EltTy.packing .f32)

variable [Facts₀]

def dot_S256x8_S8x64_S256x64_1_0_0_1_n_n : DotDims S256x8 S8x64 S256x64 where
  lhsContracting := [1]
  rhsContracting := [0]
  lhsNonContracting := [0]
  rhsNonContracting := [1]
  lhsBatch := []
  rhsBatch := []
  wf := dot_S256x8_S8x64_S256x64_1_0_0_1_n_n_wf
def dot_S640x128_S128x64_S640x64_1_0_0_1_n_n : DotDims S640x128 S128x64 S640x64 where
  lhsContracting := [1]
  rhsContracting := [0]
  lhsNonContracting := [0]
  rhsNonContracting := [1]
  lhsBatch := []
  rhsBatch := []
  wf := dot_S640x128_S128x64_S640x64_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S256x64_S64x128_S256x128_1_0_0_1_n_n : DotDims S256x64 S64x128 S256x128 where
  lhsContracting := [1]
  rhsContracting := [0]
  lhsNonContracting := [0]
  rhsNonContracting := [1]
  lhsBatch := []
  rhsBatch := []
  wf := dot_S256x64_S64x128_S256x128_1_0_0_1_n_n_wf

abbrev win0_0 : Pipeline.Window sig grid0 :=
  Pipeline.Window.ofSpec (Memref.whole main_call0_v5) S1x258x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S1x258x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x258x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S3x3x8x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_call0_v13) S5x256x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_call0_v14) S2x128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v15) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpecClip (Memref.whole main_call0_v16) S5x128x64.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v18) S8x128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v19) S2x128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v20) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v21) S8x64x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v23) S16x64x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v24) S2x128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v25) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v26) S16x32x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v32) S8x34x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v34) S8x34x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v36) S8x34x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v28) S3x3x64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v37) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v38) S8x32x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== Proof.Spec.lean ====
/-
  The network both programs compute, as ONE function of the eleven argument arrays over the extended reals.

  Arrays are read at natural-number coordinates (zero outside the array), so that no stage has to build dependent
  indices and the zero paddings of the two programs (channels 3 -> 8, one pixel of zeros around an image) are the
  reads outside the array.  With v an image in NHWC coordinates:

    conv3 C H W v w b (n,h,x,o) = (sum over di,dj < 3 and c < C of  pad(v)(n, h+di, x+dj, c) * w(di,dj,c,o)) + b(o)
        where pad(v)(n,i,j,c) = v(n,i-1,j-1,c) for 1 <= i <= H and 1 <= j <= W, and 0 on the border;
    down v w b (n,p,q,o) = max(max(v(n,2p,2q,o), v(n,2p,2q+1,o)), max(v(n,2p+1,2q,o), v(n,2p+1,2q+1,o)))
                           + (b(o) + sum over ki,kj < 2 and c < 64 of v(n,2p+ki,2q+kj,c) * w(ki,kj,c,o));
    net = conv3 64 32 32 (down (down (down (conv3 8 256 256 x w1 b1) wd1 bd1) wd2 bd2) wd3 bd3) w2 b2,
  the image x given in NCHW and the result returned in NCHW.

  Addition and multiplication on the extended reals are commutative and associative and 0 * a = 0, a + 0 = a for every
  a, so any grouping or order of these sums, and any number of extra zero terms, is the same number: no finiteness
  is needed to compare two programs that differ only in how they tile and group the sums.
-/
import Idealize.ShloMosaic.Lib.ValueIdx
import Mathlib.Data.EReal.Basic
import Mathlib.Algebra.BigOperators.Fin

noncomputable section

namespace Cert.Spec

open Idealize.ShloMosaic Idealize.ShloMosaic.ValueIdx

/-- A rank-4 array over the natural numbers: zero wherever nothing is stored. -/
abbrev A4 : Type := Nat → Nat → Nat → Nat → EReal
/-- A rank-1 array over the natural numbers. -/
abbrev A1 : Type := Nat → EReal

/-- A rank-4 array read at natural-number coordinates: its entry where all four are in range, zero elsewhere. -/
def rd4 {n0 n1 n2 n3 : Nat} (x : (⟨4, ![n0, n1, n2, n3]⟩ : Shape).Idx → EReal) : A4 := fun a b c d =>
  if h : a < n0 ∧ b < n1 ∧ c < n2 ∧ d < n3 then x (ix4 ⟨a, h.1⟩ ⟨b, h.2.1⟩ ⟨c, h.2.2.1⟩ ⟨d, h.2.2.2⟩) else 0

/-- A vector read at a natural-number coordinate: its entry in range, zero elsewhere. -/
def rd1 {n : Nat} (x : (⟨1, ![n]⟩ : Shape).Idx → EReal) : A1 := fun a =>
  if h : a < n then x (ix1 ⟨a, h⟩) else 0

theorem rd4_of_lt {n0 n1 n2 n3 : Nat} (x : (⟨4, ![n0, n1, n2, n3]⟩ : Shape).Idx → EReal)
    (a : Fin n0) (b : Fin n1) (c : Fin n2) (d : Fin n3) : rd4 x a.val b.val c.val d.val = x (ix4 a b c d) := by
  unfold rd4; rw [dif_pos ⟨a.isLt, b.isLt, c.isLt, d.isLt⟩]

theorem rd4_of_not {n0 n1 n2 n3 : Nat} (x : (⟨4, ![n0, n1, n2, n3]⟩ : Shape).Idx → EReal)
    (a b c d : Nat) (h : ¬(a < n0 ∧ b < n1 ∧ c < n2 ∧ d < n3)) : rd4 x a b c d = 0 := by
  unfold rd4; rw [dif_neg h]

theorem rd1_of_lt {n : Nat} (x : (⟨1, ![n]⟩ : Shape).Idx → EReal) (a : Fin n) : rd1 x a.val = x (ix1 a) := by
  unfold rd1; rw [dif_pos a.isLt]

theorem rd1_of_not {n : Nat} (x : (⟨1, ![n]⟩ : Shape).Idx → EReal) (a : Nat) (h : ¬ a < n) : rd1 x a = 0 := by
  unfold rd1; rw [dif_neg h]

/-- An image given channel-first, read channel-last. -/
def nhwc (x : A4) : A4 := fun n h w c => x n c h w

/-- One pixel of zeros around an H x W image (channel-last): entry (i, j) of the padded image. -/
def pad1 (H W : Nat) (v : A4) : A4 := fun n i j c =>
  if 1 ≤ i ∧ i ≤ H ∧ 1 ≤ j ∧ j ≤ W then v n (i - 1) (j - 1) c else 0

/-- The 3 x 3 convolution with zero padding over C input channels, plus the bias. -/
def conv3 (C H W : Nat) (v w : A4) (b : A1) : A4 := fun n h x o =>
  (∑ di : Fin 3, ∑ dj : Fin 3, ∑ c : Fin C, pad1 H W v n (h + di.val) (x + dj.val) c * w di.val dj.val c.val o) + b o

/-- One down stage: the 2 x 2 maximum plus the 2 x 2 convolution of stride 2 with its bias. -/
def down (v w : A4) (b : A1) : A4 := fun n p q o =>
  max (max (v n (2 * p) (2 * q) o) (v n (2 * p) (2 * q + 1) o))
      (max (v n (2 * p + 1) (2 * q) o) (v n (2 * p + 1) (2 * q + 1) o))
    + (b o + ∑ ki : Fin 2, ∑ kj : Fin 2, ∑ c : Fin 64, v n (2 * p + ki.val) (2 * q + kj.val) c * w ki.val kj.val c.val o)

/-- The whole network over natural-number coordinates (n, h, x, o), channel-last. -/
def netN (x w1 : A4) (b1 : A1) (wd1 : A4) (bd1 : A1) (wd2 : A4) (bd2 : A1) (wd3 : A4) (bd3 : A1) (w2 : A4) (b2 : A1) : A4 :=
  conv3 64 32 32 (down (down (down (conv3 8 256 256 (nhwc x) w1 b1) wd1 bd1) wd2 bd2) wd3 bd3) w2 b2

/-- The network as a function of the eleven argument arrays; the result channel-first, as both programs return it. -/
def net (x : (⟨4, ![32, 3, 256, 256]⟩ : Shape).Idx → EReal) (w1 : (⟨4, ![3, 3, 3, 64]⟩ : Shape).Idx → EReal)
    (b1 : (⟨1, ![64]⟩ : Shape).Idx → EReal) (wd1 : (⟨4, ![2, 2, 64, 64]⟩ : Shape).Idx → EReal)
    (bd1 : (⟨1, ![64]⟩ : Shape).Idx → EReal) (wd2 : (⟨4, ![2, 2, 64, 64]⟩ : Shape).Idx → EReal)
    (bd2 : (⟨1, ![64]⟩ : Shape).Idx → EReal) (wd3 : (⟨4, ![2, 2, 64, 64]⟩ : Shape).Idx → EReal)
    (bd3 : (⟨1, ![64]⟩ : Shape).Idx → EReal) (w2 : (⟨4, ![3, 3, 64, 3]⟩ : Shape).Idx → EReal)
    (b2 : (⟨1, ![3]⟩ : Shape).Idx → EReal) : (⟨4, ![32, 3, 32, 32]⟩ : Shape).Idx → EReal := fun i =>
  netN (rd4 x) (rd4 w1) (rd1 b1) (rd4 wd1) (rd1 bd1) (rd4 wd2) (rd1 bd2) (rd4 wd3) (rd1 bd3) (rd4 w2) (rd1 b2)
    (i 0).val (i 2).val (i 3).val (i 1).val

/-! ## A stage depends only on the entries it reads -/

/-- The padded image depends only on the image's entries inside H x W. -/
theorem pad1_congr (H W : Nat) (v v' : A4) (n : Nat) (hv : ∀ i j c, i < H → j < W → v n i j c = v' n i j c)
    (i j c : Nat) : pad1 H W v n i j c = pad1 H W v' n i j c := by
  unfold pad1
  by_cases h : 1 ≤ i ∧ i ≤ H ∧ 1 ≤ j ∧ j ≤ W
  · rw [if_pos h, if_pos h]; exact hv _ _ _ (by omega) (by omega)
  · rw [if_neg h, if_neg h]

/-- The convolution at image n depends only on image n's entries inside H x W. -/
theorem conv3_congr (C H W : Nat) (v v' w : A4) (b : A1) (n : Nat)
    (hv : ∀ i j c, i < H → j < W → v n i j c = v' n i j c) (h x o : Nat) :
    conv3 C H W v w b n h x o = conv3 C H W v' w b n h x o := by
  unfold conv3
  refine congrArg (· + b o) ?_
  refine Finset.sum_congr rfl fun di _ => Finset.sum_congr rfl fun dj _ => Finset.sum_congr rfl fun c _ => ?_
  rw [pad1_congr H W v v' n hv]

/-- A down stage at (n, p, q) depends only on the four pixels of its 2 x 2 window. -/
theorem down_congr (v v' w : A4) (b : A1) (n p q : Nat)
    (hv : ∀ i j c, i < 2 → j < 2 → v n (2 * p + i) (2 * q + j) c = v' n (2 * p + i) (2 * q + j) c) (o : Nat) :
    down v w b n p q o = down v' w b n p q o := by
  unfold down
  have h00 := hv 0 0 o (by omega) (by omega)
  have h01 := hv 0 1 o (by omega) (by omega)
  have h10 := hv 1 0 o (by omega) (by omega)
  have h11 := hv 1 1 o (by omega) (by omega)
  simp only [Nat.add_zero] at h00 h01 h10 h11
  rw [h00, h01, h10, h11]
  refine congrArg (_ + ·) (congrArg (b o + ·) ?_)
  refine Finset.sum_congr rfl fun ki _ => Finset.sum_congr rfl fun kj _ => Finset.sum_congr rfl fun c _ => ?_
  rw [hv ki.val kj.val c.val ki.isLt kj.isLt]

end Cert.Spec

end
-- ==== Proof.KPayBits.lean ====
/- The value the fused kernel's body stores at a grid point, as ONE function of the eleven blocks it loads:
   the three row blocks of the padded image, the first convolution's weights and bias, and the three down stages'
   weights and biases. It is the composition of the body's payloads in the order the body threads them: the
   first convolution on 32 rows, then three times (2 x 2 maximum + 2 x 2 stride-2 convolution + bias). -/
import proofs.«178811_g2000006188366390_pallasbulk_758_10_alg».proof.Proof.Gen.Kernel.Skeleton

noncomputable section

namespace Cert.Kernel.Hand

open Cert.Kernel Cert.Kernel.Gen
open Idealize.ShloMosaic Idealize.SL.Sem

variable {F : FTy → Type} [FloatOps F]

/-- The [4, 32, 64] block a strip contributes to the scratch image: three down stages of the strip's first
   convolution. The first convolution feeds the first stage's four taps and their maximum; these five feed the
   second stage's taps, maximum and partial sums; those feed the last sum. -/
def stripPay (x0 x1 x2 : Vec F S1x16x258x8 .f32) (w1 : Vec F S72x64 .f32) (b1 : Vec F S1x64 .f32)
    (wk1 : Vec F S2x2x64x64 .f32) (bb1 : Vec F S1x64 .f32) (wk2 : Vec F S2x2x64x64 .f32) (bb2 : Vec F S1x64 .f32)
    (wk3 : Vec F S2x2x64x64 .f32) (bb3 : Vec F S1x64 .f32) : FVec F S4x32x64 .f32 :=
  k0_pay1 wk3
    (k0_pay14 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay15 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay16 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay17 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1) wk3 bb3)
    (k0_pay18 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay19 wk3)

end Cert.Kernel.Hand

end
-- ==== Proof.KBodyABits.lean ====
/- The fused kernel's body as a triple, in its two control cases.

   The body loads its eleven input blocks, stores the strip's [4, 32, 64] block into the scratch image at the
   strip's rows, and, at the last strip of an image, reads the whole scratch image back and stores the final
   convolution of it into the output block. -/
import proofs.«178811_g2000006188366390_pallasbulk_758_10_alg».proof.Proof.Gen.Kernel.Launch
import proofs.«178811_g2000006188366390_pallasbulk_758_10_alg».proof.Proof.Gen.Kernel.Skeleton
import proofs.«178811_g2000006188366390_pallasbulk_758_10_alg».proof.Proof.Gen.Kernel.Points
import proofs.«178811_g2000006188366390_pallasbulk_758_10_alg».proof.Proof.KPayBits
import Idealize.ShloMosaic.Lib.Pipeline.FrameBody
import Idealize.ShloMosaic.Lib.Pipeline.Value
import Idealize.ShloMosaic.Lib.WritesUnit
import Idealize.ShloMosaic.Lib.Tactic

set_option maxRecDepth 16384
set_option pp.maxSteps 20000
set_option pp.deepTerms false
set_option pp.proofs false

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z4 : (![0, 0, 0, 0] : Fin 4 → ℕ) = fun _ => 0 := by funext a; fin_cases a <;> rfl
theorem z3 : (![0, 0, 0] : Fin 3 → ℕ) = fun _ => 0 := by funext a; fin_cases a <;> rfl
theorem z2 : (![0, 0] : Fin 2 → ℕ) = fun _ => 0 := by funext a; fin_cases a <;> rfl

/-- The scratch image `g` with the [4, 32, 64] block `p` stored at offsets `off`: `p` at the position of an index
    inside the block's box, `g` elsewhere. -/
def stored (off : Fin 3 → ℕ) (g : Vec F S32x32x64 .f32) (p : FVec F S4x32x64 .f32) : Vec F S32x32x64 .f32 := fun y =>
  if h : ∀ a : Fin 3, off a ≤ (y a).val ∧ (y a).val < off a + S4x32x64.size a then
    p (Rect.unitLocal (s := S32x32x64) (off := off) (size := S4x32x64.size) y h)
  else g y

/-- One store of a [4, 32, 64] block through a unit-stride box reads back as `stored`. -/
theorem read_store {κ : Kind} {sp : Space} (v : View sig κ sp S32x32x64 .f32) (f : v.ty.Contents (Elt F))
    (off : Fin 3 → ℕ) (inb : ∀ a, off a + S4x32x64.size a ≤ S32x32x64.size a) (p : FVec F S4x32x64 .f32) :
    v.read (Elt F) (v.writes (Elt F) f [(⟨Rect.unit off S4x32x64.size inb, p⟩ : View.Piece (Elt F) S32x32x64 .f32)])
      = stored off (v.read (Elt F) f) p := by
  funext y
  unfold stored
  by_cases h : ∀ a : Fin 3, off a ≤ (y a).val ∧ (y a).val < off a + S4x32x64.size a
  · rw [dif_pos h]
    exact View.read_writes_cons_unit_of_mem v f inb p [] y (Rect.unitLocal (s := S32x32x64) (off := off) (size := S4x32x64.size) y h) rfl
      (fun a => by have := (h a).1; simp only [Rect.unitLocal_val]; omega)
  · rw [dif_neg h]
    have h' := h
    push Not at h'
    obtain ⟨a, ha⟩ := h'
    rw [View.read_writes_cons_unit_of_not_mem v f inb p [] y rfl a (by by_cases h1 : off a ≤ (y a).val; · exact .inr (ha h1)
                                                                       · exact .inl (by omega))]
    rfl

/-- Loads through the whole-block boxes read the blocks. -/
theorem stripPay_ld (x0 : Vec F S1x16x258x8 .f32) (x1 : Vec F S1x16x258x8 .f32) (x2 : Vec F S1x16x258x8 .f32) (w1 : Vec F S72x64 .f32) (b1 : Vec F S1x64 .f32) (wk1 : Vec F S2x2x64x64 .f32) (bb1 : Vec F S1x64 .f32) (wk2 : Vec F S2x2x64x64 .f32) (bb2 : Vec F S1x64 .f32) (wk3 : Vec F S2x2x64x64 .f32) (bb3 : Vec F S1x64 .f32) :
    stripPay
      (View.ld x0 (Rect.unit (s := S1x16x258x8) ![0, 0, 0, 0] S1x16x258x8.size inb_S1x16x258x8_S1x16x258x8_0_0_0_0))
      (View.ld x1 (Rect.unit (s := S1x16x258x8) ![0, 0, 0, 0] S1x16x258x8.size inb_S1x16x258x8_S1x16x258x8_0_0_0_0))
      (View.ld x2 (Rect.unit (s := S1x16x258x8) ![0, 0, 0, 0] S1x16x258x8.size inb_S1x16x258x8_S1x16x258x8_0_0_0_0))
      (View.ld w1 (Rect.unit (s := S72x64) ![0, 0] S72x64.size inb_S72x64_S72x64_0_0))
      (View.ld b1 (Rect.unit (s := S1x64) ![0, 0] S1x64.size inb_S1x64_S1x64_0_0))
      (View.ld wk1 (Rect.unit (s := S2x2x64x64) ![0, 0, 0, 0] S2x2x64x64.size inb_S2x2x64x64_S2x2x64x64_0_0_0_0))
      (View.ld bb1 (Rect.unit (s := S1x64) ![0, 0] S1x64.size inb_S1x64_S1x64_0_0))
      (View.ld wk2 (Rect.unit (s := S2x2x64x64) ![0, 0, 0, 0] S2x2x64x64.size inb_S2x2x64x64_S2x2x64x64_0_0_0_0))
      (View.ld bb2 (Rect.unit (s := S1x64) ![0, 0] S1x64.size inb_S1x64_S1x64_0_0))
      (View.ld wk3 (Rect.unit (s := S2x2x64x64) ![0, 0, 0, 0] S2x2x64x64.size inb_S2x2x64x64_S2x2x64x64_0_0_0_0))
      (View.ld bb3 (Rect.unit (s := S1x64) ![0, 0] S1x64.size inb_S1x64_S1x64_0_0))
      = stripPay x0 x1 x2 w1 b1 wk1 bb1 wk2 bb2 wk3 bb3 := by
  simp only [View.ld_unit_zero (S := S1x16x258x8) z4, View.ld_unit_zero (S := S72x64) z2, View.ld_unit_zero (S := S1x64) z2,
    View.ld_unit_zero (S := S2x2x64x64) z4]

set_option maxHeartbeats 4000000 in
/-- The body at a point that is not the last strip of its image: the inputs' and the output's memrefs come back as
    they were, the scratch with the strip's block stored at the strip's rows. -/
theorem sound_kernel_mid (c : Dev nD) (E : Set ℕ) (i : grid0.Coords) (arg2 : Memref sig .tc .vmem S1x16x258x8 .f32) (harg2 : arg2.IsWhole) (arg3 : Memref sig .tc .vmem S1x16x258x8 .f32) (harg3 : arg3.IsWhole) (arg4 : Memref sig .tc .vmem S1x16x258x8 .f32) (harg4 : arg4.IsWhole) (arg5 : Memref sig .tc .vmem S72x64 .f32) (harg5 : arg5.IsWhole) (arg6 : Memref sig .tc .vmem S1x64 .f32) (harg6 : arg6.IsWhole) (arg7 : Memref sig .tc .vmem S2x2x64x64 .f32) (harg7 : arg7.IsWhole) (arg8 : Memref sig .tc .vmem S1x64 .f32) (harg8 : arg8.IsWhole) (arg9 : Memref sig .tc .vmem S2x2x64x64 .f32) (harg9 : arg9.IsWhole) (arg10 : Memref sig .tc .vmem S1x64 .f32) (harg10 : arg10.IsWhole) (arg11 : Memref sig .tc .vmem S2x2x64x64 .f32) (harg11 : arg11.IsWhole) (arg12 : Memref sig .tc .vmem S1x64 .f32) (harg12 : arg12.IsWhole) (arg13 : Memref sig .tc .vmem S576x8 .f32) (harg13 : arg13.IsWhole) (arg14 : Memref sig .tc .vmem S1x8 .f32) (harg14 : arg14.IsWhole) (arg15 : Memref sig .tc .vmem S1x32x32x8 .f32) (harg15 : arg15.IsWhole) (arg16 : Memref sig .tc .vmem S32x32x64 .f32) (harg16 : arg16.IsWhole)
    (x0 : Vec F S1x16x258x8 .f32) (x1 : Vec F S1x16x258x8 .f32) (x2 : Vec F S1x16x258x8 .f32) (w1 : Vec F S72x64 .f32) (b1 : Vec F S1x64 .f32) (wk1 : Vec F S2x2x64x64 .f32) (bb1 : Vec F S1x64 .f32) (wk2 : Vec F S2x2x64x64 .f32) (bb2 : Vec F S1x64 .f32) (wk3 : Vec F S2x2x64x64 .f32) (bb3 : Vec F S1x64 .f32) (w2 : Vec F S576x8 .f32) (b2 : Vec F S1x8 .f32) (g : Vec F S32x32x64 .f32) (d : Vec F S1x32x32x8 .f32) (K : PUnit → sProp 𝕄)
    (hc : ¬ k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2 ∗ owns (c : Thread nD τ) arg15 fullShare d ∗ owns (c : Thread nD τ) arg16 fullShare g
        ∗ (iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2 ∗ owns (c : Thread nD τ) arg15 fullShare d
            ∗ owns (c : Thread nD τ) arg16 fullShare (stored (k0_off1 i) g (stripPay x0 x1 x2 w1 b1 wk1 bb1 wk2 bb2 wk3 bb3))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_body_eq_skeleton]; unfold cc0__fused_body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2 hf3 hf4 hf5 hf6 hf7 hf8 hf9 hf10 hf11 hf12 hf13 hf14 hf15 hf16
  sl_exec (disch := exact hc)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  isplitl [H15]
  · iexists f15; isplitr
    · ipureintro; rfl
    · iexact H15
  iexists _; isplitr
  swap; · iexact H16
  ipureintro
  refine (read_store _ _ _ _ _).trans ?_
  refine congrArg (stored (k0_off1 i) (View.read (Elt F) arg16.view f16)) ?_
  exact (show _ = stripPay
      (View.ld (View.read (Elt F) arg2.view f2) (Rect.unit (s := S1x16x258x8) ![0, 0, 0, 0] S1x16x258x8.size inb_S1x16x258x8_S1x16x258x8_0_0_0_0))
      (View.ld (View.read (Elt F) arg3.view f3) (Rect.unit (s := S1x16x258x8) ![0, 0, 0, 0] S1x16x258x8.size inb_S1x16x258x8_S1x16x258x8_0_0_0_0))
      (View.ld (View.read (Elt F) arg4.view f4) (Rect.unit (s := S1x16x258x8) ![0, 0, 0, 0] S1x16x258x8.size inb_S1x16x258x8_S1x16x258x8_0_0_0_0))
      (View.ld (View.read (Elt F) arg5.view f5) (Rect.unit (s := S72x64) ![0, 0] S72x64.size inb_S72x64_S72x64_0_0))
      (View.ld (View.read (Elt F) arg6.view f6) (Rect.unit (s := S1x64) ![0, 0] S1x64.size inb_S1x64_S1x64_0_0))
      (View.ld (View.read (Elt F) arg7.view f7) (Rect.unit (s := S2x2x64x64) ![0, 0, 0, 0] S2x2x64x64.size inb_S2x2x64x64_S2x2x64x64_0_0_0_0))
      (View.ld (View.read (Elt F) arg8.view f8) (Rect.unit (s := S1x64) ![0, 0] S1x64.size inb_S1x64_S1x64_0_0))
      (View.ld (View.read (Elt F) arg9.view f9) (Rect.unit (s := S2x2x64x64) ![0, 0, 0, 0] S2x2x64x64.size inb_S2x2x64x64_S2x2x64x64_0_0_0_0))
      (View.ld (View.read (Elt F) arg10.view f10) (Rect.unit (s := S1x64) ![0, 0] S1x64.size inb_S1x64_S1x64_0_0))
      (View.ld (View.read (Elt F) arg11.view f11) (Rect.unit (s := S2x2x64x64) ![0, 0, 0, 0] S2x2x64x64.size inb_S2x2x64x64_S2x2x64x64_0_0_0_0))
      (View.ld (View.read (Elt F) arg12.view f12) (Rect.unit (s := S1x64) ![0, 0] S1x64.size inb_S1x64_S1x64_0_0)) from rfl).trans (stripPay_ld _ _ _ _ _ _ _ _ _ _ _)

set_option maxHeartbeats 4000000 in
/-- The body at the last strip of an image: the scratch with the strip's block stored at the strip's rows, and the
    output's memref at the final convolution of that scratch image. -/
theorem sound_kernel_tail (c : Dev nD) (E : Set ℕ) (i : grid0.Coords) (arg2 : Memref sig .tc .vmem S1x16x258x8 .f32) (harg2 : arg2.IsWhole) (arg3 : Memref sig .tc .vmem S1x16x258x8 .f32) (harg3 : arg3.IsWhole) (arg4 : Memref sig .tc .vmem S1x16x258x8 .f32) (harg4 : arg4.IsWhole) (arg5 : Memref sig .tc .vmem S72x64 .f32) (harg5 : arg5.IsWhole) (arg6 : Memref sig .tc .vmem S1x64 .f32) (harg6 : arg6.IsWhole) (arg7 : Memref sig .tc .vmem S2x2x64x64 .f32) (harg7 : arg7.IsWhole) (arg8 : Memref sig .tc .vmem S1x64 .f32) (harg8 : arg8.IsWhole) (arg9 : Memref sig .tc .vmem S2x2x64x64 .f32) (harg9 : arg9.IsWhole) (arg10 : Memref sig .tc .vmem S1x64 .f32) (harg10 : arg10.IsWhole) (arg11 : Memref sig .tc .vmem S2x2x64x64 .f32) (harg11 : arg11.IsWhole) (arg12 : Memref sig .tc .vmem S1x64 .f32) (harg12 : arg12.IsWhole) (arg13 : Memref sig .tc .vmem S576x8 .f32) (harg13 : arg13.IsWhole) (arg14 : Memref sig .tc .vmem S1x8 .f32) (harg14 : arg14.IsWhole) (arg15 : Memref sig .tc .vmem S1x32x32x8 .f32) (harg15 : arg15.IsWhole) (arg16 : Memref sig .tc .vmem S32x32x64 .f32) (harg16 : arg16.IsWhole)
    (x0 : Vec F S1x16x258x8 .f32) (x1 : Vec F S1x16x258x8 .f32) (x2 : Vec F S1x16x258x8 .f32) (w1 : Vec F S72x64 .f32) (b1 : Vec F S1x64 .f32) (wk1 : Vec F S2x2x64x64 .f32) (bb1 : Vec F S1x64 .f32) (wk2 : Vec F S2x2x64x64 .f32) (bb2 : Vec F S1x64 .f32) (wk3 : Vec F S2x2x64x64 .f32) (bb3 : Vec F S1x64 .f32) (w2 : Vec F S576x8 .f32) (b2 : Vec F S1x8 .f32) (g : Vec F S32x32x64 .f32) (d : Vec F S1x32x32x8 .f32) (K : PUnit → sProp 𝕄)
    (hc : k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2 ∗ owns (c : Thread nD τ) arg15 fullShare d ∗ owns (c : Thread nD τ) arg16 fullShare g
        ∗ (iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2
            ∗ owns (c : Thread nD τ) arg15 fullShare (k0_pay2 (stored (k0_off1 i) g (stripPay x0 x1 x2 w1 b1 wk1 bb1 wk2 bb2 wk3 bb3)) w2 b2)
            ∗ owns (c : Thread nD τ) arg16 fullShare (stored (k0_off1 i) g (stripPay x0 x1 x2 w1 b1 wk1 bb1 wk2 bb2 wk3 bb3))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_body_eq_skeleton]; unfold cc0__fused_body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2 hf3 hf4 hf5 hf6 hf7 hf8 hf9 hf10 hf11 hf12 hf13 hf14 hf15 hf16
  sl_exec (disch := exact hc)
  sl_step
  have hst : View.read (Elt F) arg16.view (arg16.view.writes (Elt F) f16
      [(⟨Rect.unit (k0_off1 i) S4x32x64.size (k0_off1_inb i), stripPay
      (View.ld (View.read (Elt F) arg2.view f2) (Rect.unit (s := S1x16x258x8) ![0, 0, 0, 0] S1x16x258x8.size inb_S1x16x258x8_S1x16x258x8_0_0_0_0))
      (View.ld (View.read (Elt F) arg3.view f3) (Rect.unit (s := S1x16x258x8) ![0, 0, 0, 0] S1x16x258x8.size inb_S1x16x258x8_S1x16x258x8_0_0_0_0))
      (View.ld (View.read (Elt F) arg4.view f4) (Rect.unit (s := S1x16x258x8) ![0, 0, 0, 0] S1x16x258x8.size inb_S1x16x258x8_S1x16x258x8_0_0_0_0))
      (View.ld (View.read (Elt F) arg5.view f5) (Rect.unit (s := S72x64) ![0, 0] S72x64.size inb_S72x64_S72x64_0_0))
      (View.ld (View.read (Elt F) arg6.view f6) (Rect.unit (s := S1x64) ![0, 0] S1x64.size inb_S1x64_S1x64_0_0))
      (View.ld (View.read (Elt F) arg7.view f7) (Rect.unit (s := S2x2x64x64) ![0, 0, 0, 0] S2x2x64x64.size inb_S2x2x64x64_S2x2x64x64_0_0_0_0))
      (View.ld (View.read (Elt F) arg8.view f8) (Rect.unit (s := S1x64) ![0, 0] S1x64.size inb_S1x64_S1x64_0_0))
      (View.ld (View.read (Elt F) arg9.view f9) (Rect.unit (s := S2x2x64x64) ![0, 0, 0, 0] S2x2x64x64.size inb_S2x2x64x64_S2x2x64x64_0_0_0_0))
      (View.ld (View.read (Elt F) arg10.view f10) (Rect.unit (s := S1x64) ![0, 0] S1x64.size inb_S1x64_S1x64_0_0))
      (View.ld (View.read (Elt F) arg11.view f11) (Rect.unit (s := S2x2x64x64) ![0, 0, 0, 0] S2x2x64x64.size inb_S2x2x64x64_S2x2x64x64_0_0_0_0))
      (View.ld (View.read (Elt F) arg12.view f12) (Rect.unit (s := S1x64) ![0, 0] S1x64.size inb_S1x64_S1x64_0_0))⟩ : View.Piece (Elt F) S32x32x64 .f32)])
        = stored (k0_off1 i) (View.read (Elt F) arg16.view f16) (stripPay (View.read (Elt F) arg2.view f2) (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg12.view f12)) :=
    (read_store _ _ _ _ _).trans (congrArg (stored (k0_off1 i) (View.read (Elt F) arg16.view f16)) (stripPay_ld _ _ _ _ _ _ _ _ _ _ _))
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  isplitl [H15]
  · iexists _; isplitr
    swap; · iexact H15
    ipureintro
    refine (View.read_writes_eq_canon _ _ _ (fun y => ⟨_, List.mem_singleton_self _, View.mem_set_unit_zero (S := S1x32x32x8) z4 inb_S1x32x32x8_S1x32x32x8_0_0_0_0 y⟩)).trans ?_
    refine (View.canon_unit_zero (S := S1x32x32x8) z4 inb_S1x32x32x8_S1x32x32x8_0_0_0_0 _).trans ?_
    refine (show _ = k0_pay2
      (View.ld (View.read (Elt F) arg16.view (arg16.view.writes (Elt F) f16
        [(⟨Rect.unit (k0_off1 i) S4x32x64.size (k0_off1_inb i), stripPay
      (View.ld (View.read (Elt F) arg2.view f2) (Rect.unit (s := S1x16x258x8) ![0, 0, 0, 0] S1x16x258x8.size inb_S1x16x258x8_S1x16x258x8_0_0_0_0))
      (View.ld (View.read (Elt F) arg3.view f3) (Rect.unit (s := S1x16x258x8) ![0, 0, 0, 0] S1x16x258x8.size inb_S1x16x258x8_S1x16x258x8_0_0_0_0))
      (View.ld (View.read (Elt F) arg4.view f4) (Rect.unit (s := S1x16x258x8) ![0, 0, 0, 0] S1x16x258x8.size inb_S1x16x258x8_S1x16x258x8_0_0_0_0))
      (View.ld (View.read (Elt F) arg5.view f5) (Rect.unit (s := S72x64) ![0, 0] S72x64.size inb_S72x64_S72x64_0_0))
      (View.ld (View.read (Elt F) arg6.view f6) (Rect.unit (s := S1x64) ![0, 0] S1x64.size inb_S1x64_S1x64_0_0))
      (View.ld (View.read (Elt F) arg7.view f7) (Rect.unit (s := S2x2x64x64) ![0, 0, 0, 0] S2x2x64x64.size inb_S2x2x64x64_S2x2x64x64_0_0_0_0))
      (View.ld (View.read (Elt F) arg8.view f8) (Rect.unit (s := S1x64) ![0, 0] S1x64.size inb_S1x64_S1x64_0_0))
      (View.ld (View.read (Elt F) arg9.view f9) (Rect.unit (s := S2x2x64x64) ![0, 0, 0, 0] S2x2x64x64.size inb_S2x2x64x64_S2x2x64x64_0_0_0_0))
      (View.ld (View.read (Elt F) arg10.view f10) (Rect.unit (s := S1x64) ![0, 0] S1x64.size inb_S1x64_S1x64_0_0))
      (View.ld (View.read (Elt F) arg11.view f11) (Rect.unit (s := S2x2x64x64) ![0, 0, 0, 0] S2x2x64x64.size inb_S2x2x64x64_S2x2x64x64_0_0_0_0))
      (View.ld (View.read (Elt F) arg12.view f12) (Rect.unit (s := S1x64) ![0, 0] S1x64.size inb_S1x64_S1x64_0_0))⟩ : View.Piece (Elt F) S32x32x64 .f32)])) (Rect.unit (s := S32x32x64) ![0, 0, 0] S32x32x64.size inb_S32x32x64_S32x32x64_0_0_0))
      (View.ld (View.read (Elt F) arg13.view f13) (Rect.unit (s := S576x8) ![0, 0] S576x8.size inb_S576x8_S576x8_0_0))
      (View.ld (View.read (Elt F) arg14.view f14) (Rect.unit (s := S1x8) ![0, 0] S1x8.size inb_S1x8_S1x8_0_0)) from rfl).trans ?_
    rw [View.ld_unit_zero (S := S32x32x64) z3, View.ld_unit_zero (S := S576x8) z2, View.ld_unit_zero (S := S1x8) z2, hst]
  iexists _; isplitr
  swap; · iexact H16
  ipureintro
  exact hst

end Cert.Kernel.Hand
end
-- ==== Proof.KBodyBits.lean ====
/- The fused kernel's proof data and its body obligation.

   One region on a grid of 32 images x 8 row strips. At a point (i, s) the body stores one [4, 32, 64] block,
   the strip's contribution, into rows 4 s .. 4 s + 3 of a [32, 32, 64] scratch image carried from point to point;
   at the last strip of an image (s = 7) it reads the whole scratch image, which then holds the eight strips of
   image i, and stores the final convolution of it into the output block of image i.

   The region invariant says what the scratch holds: before point t = 8 i + s, rows 4 s' .. 4 s' + 3 are the
   block of strip s' of image i for every s' < s. -/
import proofs.«178811_g2000006188366390_pallasbulk_758_10_alg».proof.Proof.Gen.Kernel.Launch
import proofs.«178811_g2000006188366390_pallasbulk_758_10_alg».proof.Proof.Gen.Kernel.Skeleton
import proofs.«178811_g2000006188366390_pallasbulk_758_10_alg».proof.Proof.Gen.Kernel.Points
import proofs.«178811_g2000006188366390_pallasbulk_758_10_alg».proof.Proof.KPayBits
import proofs.«178811_g2000006188366390_pallasbulk_758_10_alg».proof.Proof.KBodyABits
import Idealize.ShloMosaic.Lib.Pipeline.FrameBody
import Idealize.ShloMosaic.Lib.WritesUnit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share of each input window's array: the padded image's full share dealt left / right-left / right-right
    among the three windows on it; every other array whole. -/
def q0 : Fin 14 → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare
  | ⟨6, _⟩ => fullShare
  | ⟨7, _⟩ => fullShare
  | ⟨8, _⟩ => fullShare
  | ⟨9, _⟩ => fullShare
  | ⟨10, _⟩ => fullShare
  | ⟨11, _⟩ => fullShare
  | ⟨12, _⟩ => fullShare
  | ⟨13, _⟩ => fullShare
  | ⟨_ + 14, h⟩ => absurd h (Nat.not_lt.2 (Nat.le_add_left _ _))

/-- The grid point of strip `s` of image `i`: the grid is 32 x 8, row-major. -/
def pt (i : Fin 32) (s : Fin 8) : Fin cfg0.N :=
  ⟨8 * i.val + s.val, lt_of_lt_of_eq (by have := i.isLt; have := s.isLt; omega) (show (256 : ℕ) = cfg0.N from N_0.symm)⟩

@[simp] theorem pt_val (i : Fin 32) (s : Fin 8) : (pt i s).val = 8 * i.val + s.val := rfl

/-- The image a position `n` of the grid works on. -/
def imgOf (n : ℕ) : Fin 32 := ⟨n / 8 % 32, Nat.mod_lt _ (by decide)⟩

@[simp] theorem imgOf_val (n : ℕ) : (imgOf n).val = n / 8 % 32 := rfl

/-- The scratch's own memref: the whole scoped buffer. -/
abbrev scM : Memref sig .tc .vmem S32x32x64 .f32 := Memref.whole cc0_scratch0

/-- An index of the scratch image lies in the box of strip `s`'s four rows exactly when its row is one of them. -/
theorem box_iff (y : S32x32x64.Idx) (s : ℕ) :
    (∀ a : Fin 3, (![4 * s, 0, 0] : Fin 3 → ℕ) a ≤ (y a).val
        ∧ (y a).val < (![4 * s, 0, 0] : Fin 3 → ℕ) a + S4x32x64.size a) ↔ (y 0).val / 4 = s := by
  have h1 : (y 1).val < 32 := (y 1).isLt
  have h2 : (y 2).val < 64 := (y 2).isLt
  constructor
  · intro h
    have h0 : 4 * s ≤ (y 0).val ∧ (y 0).val < 4 * s + 4 := h 0
    omega
  · intro h a
    fin_cases a
    · show 4 * s ≤ (y 0).val ∧ (y 0).val < 4 * s + 4
      omega
    · show 0 ≤ (y 1).val ∧ (y 1).val < 0 + 32
      omega
    · show 0 ≤ (y 2).val ∧ (y 2).val < 0 + 64
      omega

/-- An index of the scratch image lies in the box of the four rows of its strip. -/
theorem rowBox (y : S32x32x64.Idx) :
    ∀ a, (![4 * ((y 0).val / 4), 0, 0] : Fin 3 → ℕ) a ≤ (y a).val
      ∧ (y a).val < (![4 * ((y 0).val / 4), 0, 0] : Fin 3 → ℕ) a + S4x32x64.size a :=
  (box_iff y _).mpr rfl

/-- The strip an index of the scratch image belongs to. -/
def stripOf (y : S32x32x64.Idx) : Fin 8 := ⟨(y 0).val / 4, by have h : (y 0).val < 32 := (y 0).isLt; omega⟩

@[simp] theorem stripOf_val (y : S32x32x64.Idx) : (stripOf y).val = (y 0).val / 4 := rfl

/-- Its position within the strip's [4, 32, 64] block: row `y 0 % 4`, the other coordinates as they are. -/
def inStrip (y : S32x32x64.Idx) : S4x32x64.Idx :=
  Rect.unitLocal (s := S32x32x64) (off := ![4 * ((y 0).val / 4), 0, 0]) (size := S4x32x64.size) y (rowBox y)

@[simp] theorem inStrip_val (y : S32x32x64.Idx) (a : Fin 3) :
    (inStrip y a).val = (y a).val - (![4 * ((y 0).val / 4), 0, 0] : Fin 3 → ℕ) a := rfl

/-! ## The grid's closed forms -/

/-- The body's condition holds exactly at the last strip of an image. -/
theorem cond_iff : ∀ t : Fin cfg0.N, k0_cond1 (grid0.coords t) = 1#1 ↔ t.val % 8 = 7 :=
  (by decide +kernel : ∀ t : Fin grid0.N, k0_cond1 (grid0.coords t) = 1#1 ↔ t.val % 8 = 7)

/-- The store's offsets: row 4 s of the scratch image at strip s. -/
theorem off_apply : ∀ t : Fin cfg0.N, ∀ a : Fin 3, k0_off1 (grid0.coords t) a = (![4 * (t.val % 8), 0, 0] : Fin 3 → ℕ) a :=
  (by decide +kernel : ∀ t : Fin grid0.N, ∀ a : Fin 3, k0_off1 (grid0.coords t) a = (![4 * (t.val % 8), 0, 0] : Fin 3 → ℕ) a)

theorem off_eq (t : Fin cfg0.N) : k0_off1 (grid0.coords t) = ![4 * (t.val % 8), 0, 0] := funext (off_apply t)

/-- The output window is idle away from the last strip, live at it, and written back only there. -/
theorem idle13_mid (t : Fin cfg0.N) (h : ¬ t.val % 8 = 7) : cfg0.idle 13 (cfg0.grid.coords t) = true := by
  show (!(k0_cond1 (grid0.coords t) == 1#1)) = true
  rw [Bool.not_eq_true', beq_eq_false_iff_ne]
  exact fun e => h ((cond_iff t).mp e)

theorem live13_tail (t : Fin cfg0.N) (h : t.val % 8 = 7) : cfg0.idle 13 (cfg0.grid.coords t) = false := by
  show (!(k0_cond1 (grid0.coords t) == 1#1)) = false
  rw [Bool.not_eq_false', beq_iff_eq]
  exact (cond_iff t).mpr h

theorem noFlush13_mid (t : Fin cfg0.N) (h : ¬ t.val % 8 = 7) : (cfg0.win 13).flush t = false :=
  Bool.eq_false_iff.mpr fun e => h ((flush0_13 t).mp e)

section Region

variable (V : (c : Dev nD) → (b : Ref sig .tc) → Buf (Elt F) ((c : Thread nD τ).loc b))

/-! ## The windows' blocks and what the body computes from them -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The [4, 32, 64] block the body stores into the scratch at point `t`: the strip's three row blocks of the
    padded image through the first convolution and the three down stages. -/
def strip (c : Dev nD) (t : Fin cfg0.N) : FVec F S4x32x64 .f32 :=
  stripPay (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)

/-- The scratch image when image `i`'s last strip reads it: rows 4 s .. 4 s + 3 are the block of strip `s`. -/
def scrImg (c : Dev nD) (i : Fin 32) : Vec F S32x32x64 .f32 :=
  fun y => strip V c (pt i (stripOf y)) (inStrip y)

theorem scrImg_apply (c : Dev nD) (i : Fin 32) (y : S32x32x64.Idx) :
    scrImg V c i y = strip V c (pt i (stripOf y)) (inStrip y) := rfl

/-- The output block of the image point `t` works on: the final convolution of the scratch image. -/
def outblk (c : Dev nD) (t : Fin cfg0.N) : FVec F S1x32x32x8 .f32 :=
  k0_pay2 (scrImg V c (imgOf t.val)) (iblk0 V c 11 t) (iblk0 V c 12 t)

/-! ## The region invariant -/

/-- What is known of the scratch `g` before position `n` of the grid: the strips of the current image already
    stored (those below `n % 8`) are in place. Nothing at the first strip of an image. -/
def ScrOK (c : Dev nD) (n : ℕ) (g : Vec F S32x32x64 .f32) : Prop :=
  ∀ y : S32x32x64.Idx, (y 0).val / 4 < n % 8 → g y = scrImg V c (imgOf n) y

/-- The invariant before position `n`: the scratch at contents with the stored strips in place, and the generator
    register at some state. -/
def Phi0 (c : Dev nD) (n : ℕ) : sProp 𝕄 :=
  iprop((∃ g : Vec F S32x32x64 .f32, ⌜ScrOK V c n g⌝ ∗ owns (c : Thread nD τ) scM fullShare g) ∗ (∃ r, prngReg c r))

/-! ## The pipeline's proof data -/

/-- The proof data of the pipeline on core `c`: the arrays as the region finds them; after the body each input's
    buffer at its block and the output's at the final convolution of the image's scratch; the invariant `Phi0`;
    nothing owed; the padded image's share dealt among its three windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => outblk V c t
  Φ t := Phi0 V c t.val
  q := q0
  owed _ := 0

theorem A_eq0 (c : Dev nD) (w : Fin cfg0.W) : (dat0 V c).A w = V c (Pipeline.arrRef spec0 w) := by
  dsimp only [dat0]

theorem q_eq0 (c : Dev nD) : (dat0 V c).q = q0 := rfl
theorem owed_eq0 (c : Dev nD) (t : Fin (cfg0.N + 1)) : (dat0 V c).owed t = 0 := rfl
theorem Phi_eq0 (c : Dev nD) (t : Fin (cfg0.N + 1)) : (dat0 V c).Φ t = Phi0 V c t.val := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
/-- The output's buffer after the body is named at EVERY point as the final convolution of the image's scratch; only
    the last strip of an image stores it (and only there is the block written back). -/
theorem after0_13 (c : Dev nD) (t : Fin cfg0.N) : (dat0 V c).after 13 t = outblk V c t := by dsimp only [dat0]
theorem after0_13_tail (c : Dev nD) (t : Fin cfg0.N) (ht : t.val % 8 = 7) : (dat0 V c).after 13 t = outblk V c t :=
  after0_13 V c t

/-! ## The invariant at the region's ends -/

/-- What the launch hands the region is the invariant before the first point: nothing is claimed of the scratch. -/
theorem Phi_in (c : Dev nD) : Pipeline.ΦA spec0 c ⊢ (dat0 V c).Φ 0 := by
  rw [Phi_eq0]; unfold Pipeline.ΦA Phi0; rw [scopedRest0_eq]
  iintro ⟨⟨%f, H⟩, Hg⟩
  isplitl [H]
  · iexists f; isplitr
    · ipureintro
      intro y hy
      have h0 : ((0 : Fin (cfg0.N + 1)).val) = 0 := rfl
      rw [h0] at hy
      omega
    · rw [owns_whole]; iexact H
  · iexact Hg

/-- The invariant gives the class's back at any position: the scratch's named rows are forgotten. -/
theorem Phi_out (c : Dev nD) (t : Fin (cfg0.N + 1)) : (dat0 V c).Φ t ⊢ Pipeline.ΦA spec0 c := by
  rw [Phi_eq0]; unfold Pipeline.ΦA Phi0; rw [scopedRest0_eq]
  simp only [owns_whole]
  iintro ⟨⟨%g, %hg, H⟩, Hg⟩
  isplitl [H]
  · iexists g; iexact H
  · iexact Hg

/-! ## The scratch after the store -/

/-- The scratch with the strip's block stored agrees with the image's scratch on the rows of the strips up to this one. -/
theorem stored_eq (c : Dev nD) (t : Fin cfg0.N) (g : Vec F S32x32x64 .f32) (hg : ScrOK V c t.val g)
    (y : S32x32x64.Idx) (hy : (y 0).val / 4 ≤ t.val % 8) :
    stored (k0_off1 (grid0.coords t)) g (strip V c t) y = scrImg V c (imgOf t.val) y := by
  rw [off_eq]
  unfold stored
  by_cases h : (y 0).val / 4 = t.val % 8
  · rw [dif_pos ((box_iff y _).mpr h), scrImg_apply]
    have hpt : pt (imgOf t.val) (stripOf y) = t := Fin.ext (by
      have hN : t.val < 256 := lt_of_lt_of_eq t.isLt (show cfg0.N = 256 from N_0)
      simp only [pt_val, imgOf_val, stripOf_val]; omega)
    rw [hpt]
    congr 1
    funext a; apply Fin.ext
    simp only [Rect.unitLocal_val, inStrip_val]
    rw [h]
  · rw [dif_neg (fun hb => h ((box_iff y _).mp hb))]
    exact hg y (by omega)

/-- After the store the invariant's fact holds at the next position. -/
theorem ScrOK_step (c : Dev nD) (t : Fin cfg0.N) (g : Vec F S32x32x64 .f32) (hg : ScrOK V c t.val g) :
    ScrOK V c (t.val + 1) (stored (k0_off1 (grid0.coords t)) g (strip V c t)) := by
  intro y hy
  have hN : t.val < 256 := lt_of_lt_of_eq t.isLt (show cfg0.N = 256 from N_0)
  have himg : imgOf (t.val + 1) = imgOf t.val := Fin.ext (by simp only [imgOf_val]; omega)
  rw [himg]
  exact stored_eq V c t g hg y (by omega)

/-- At the last strip of an image the scratch after the store is the image's scratch. -/
theorem stored_tail (c : Dev nD) (t : Fin cfg0.N) (g : Vec F S32x32x64 .f32) (hg : ScrOK V c t.val g) (h7 : t.val % 8 = 7) :
    stored (k0_off1 (grid0.coords t)) g (strip V c t) = scrImg V c (imgOf t.val) :=
  funext fun y => stored_eq V c t g hg y (by have : (y 0).val < 32 := (y 0).isLt; omega)

/-! ## The inputs' buffers before the body -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
      (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
      (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
      (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
      (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
      (fun t => by rw [after0_12]; unfold Dat.blockOf iblk0; rw [A_eq0]; try rfl) t d).trans
    (by unfold Dat.fetched Dat.blockOf iblk0; rw [A_eq0]; try rfl)

end Region

end Cert.Kernel.Hand

end
-- ==== Proof.KBodyBBits.lean ====
/- The fused kernel's body obligation: at every grid point the body, called on the windows' staging memrefs and the
   scratch as the region invariant describes them, returns them as the proof data says. -/
import proofs.«178811_g2000006188366390_pallasbulk_758_10_alg».proof.Proof.KBodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ (dat0 V c).leavesExact 13 t)

set_option maxHeartbeats 4000000 in
/-- The body at any point: the inputs' memrefs hold their blocks; the invariant hands the scratch with the image's
    earlier strips in place and takes it back with this strip's stored; the output's memref comes back as found
    away from the last strip, and at it holds the final convolution of the image's scratch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = Phi0 V c (t.val + 1) from rfl, show (dat0 V c).Φ t.castSucc = Phi0 V c t.val from rfl,
    show (dat0 V c).owesAt () t.succ = (dat0 V c).owesAt () t.castSucc from rfl,
    after0_0, after0_1, after0_2, after0_3, after0_4, after0_5, after0_6, after0_7, after0_8, after0_9, after0_10, after0_11, after0_12]
  unfold Phi0
  by_cases h7 : t.val % 8 = 7
  · rw [show (dat0 V c).leavesExact 13 t = owns (c : Thread nD τ) (st0_13 t) fullShare ((dat0 V c).after 13 t) from by
      unfold Dat.leavesExact; rw [live13_tail t h7], after0_13]
    iintro ⟨⟨⟨%g, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_tail (F := F) c Set.univ (grid0.coords t) _ _ _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) g ((dat0 V c).before 13 t d13) _ ((cond_iff t).mpr h7))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iintro ⟨H0, H1, H2, H3, H4, H5, H6, H7, H8, H9, H10, H11, H12, H13, HS⟩
    isplitl [HS Hg]
    · isplitl [HS]
      · iexists _; isplitr
        swap; · iexact HS
        ipureintro; exact ScrOK_step V c t g hg
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold outblk
    rw [← stored_tail V c t g hg h7]
    iexact H13
  · rw [Dat.leavesExact_idle (dat0 V c) 13 t (idle13_mid t h7) (noFlush13_mid t h7)]
    iintro ⟨⟨⟨%g, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_mid (F := F) c Set.univ (grid0.coords t) _ _ _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) g ((dat0 V c).before 13 t d13) _ (fun e => h7 ((cond_iff t).mp e)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iintro ⟨H0, H1, H2, H3, H4, H5, H6, H7, H8, H9, H10, H11, H12, H13, HS⟩
    isplitl [HS Hg]
    · isplitl [HS]
      · iexists _; isplitr
        swap; · iexact HS
        ipureintro; exact ScrOK_step V c t g hg
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KRunArrBits.lean ====
import proofs.«178811_g2000006188366390_pallasbulk_758_10_alg».proof.Proof.Gen.Kernel.Launch
import proofs.«178811_g2000006188366390_pallasbulk_758_10_alg».proof.Proof.Gen.Kernel.Skeleton
import proofs.«178811_g2000006188366390_pallasbulk_758_10_alg».proof.Proof.Gen.Kernel.Points
import proofs.«178811_g2000006188366390_pallasbulk_758_10_alg».proof.Proof.KBodyBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused kernel's run: the buffer contents at the segment boundaries, and the shared padded image

@main is a stretch of twenty host operations (the layout changes and zero paddings that build the padded image and
the weight matrices), the one kernel region, and a stretch of two (the slice of the first three channels and the
transpose back). The region's three image windows read ONE padded array: its full share is dealt among them at the
region's entry and joined again at its exit, where only the output array has changed. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the twenty host operations (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_call0_v12) ((dat0 (V1 m ρ) c).arrAt 13 cfg0.N)
/-- The same read at the TensorCore's references. -/
abbrev V2 : (c : Dev nD) → (b : Ref sig .tc) → Buf (Elt F) ((c : Thread nD τ).loc b) := fun c b => W2 m ρ c b
/-- After the two closing host operations (the return). -/
abbrev W3 : Dev nD → Valuation τ sig (Elt F) := fun c => StableHlo.after hostOps1 (W2 m ρ c)

theorem W2_out (c : Dev nD) :
    W2 m ρ c (Proc.devRef .tc main_call0_v12) = (dat0 (V1 m ρ) c).arrAt 13 cfg0.N := by
  unfold W2; exact Function.update_self ..
theorem W2_of_ne (c : Dev nD) (b : Ref sig .tc) (hb : b ≠ main_call0_v12) :
    W2 m ρ c (Proc.devRef .tc b) = W1 m ρ c (Proc.devRef .tc b) := by
  unfold W2; exact Function.update_of_ne (StableHlo.devRef_ne_of_ne hb) ..

/-! ## What the host stretches write -/

/-- No operation of the opening stretch allocates a buffer. -/
theorem hostOps0_fresh : (hostOps0 : List (HloOp τ sig (Elt F))).Forall fun op => op.fresh = ∅ := by
  simp only [List.Forall]; repeat' constructor
/-- No operation of the closing stretch allocates a buffer. -/
theorem hostOps1_fresh : (hostOps1 : List (HloOp τ sig (Elt F))).Forall fun op => op.fresh = ∅ := by
  simp only [List.Forall]; repeat' constructor
/-- The references the opening stretch writes. -/
abbrev hostOps0_W : List (Ref sig .tc) := [main_call0_v0, main_call0_c, main_call0_call0_v0, main_call0_v1, main_call0_c_0, main_call0_call1_v0, main_call0_v2, main_call0_v3, main_call0_v4, main_call0_v5, main_call0_v6, main_call0_v7, main_call0_v8, main_call0_c_1, main_call0_call2_v0, main_call0_v9, main_call0_c_2, main_call0_call3_v0, main_call0_v10, main_call0_v11]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the closing stretch writes. -/
abbrev hostOps1_W : List (Ref sig .tc) := [main_call0_v13, main_v0]
theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the opening stretch does not write holds at the region's entry what it held at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the closing stretch does not write holds at the return what it held at the region's exit. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- An argument array ends as launched: neither stretch writes it and it is not the region's output. -/
theorem W3_arg (c : Dev nD) (r : Ref sig .tc) (h1 : r ∉ hostOps1_W) (h2 : r ≠ main_call0_v12) (h0 : r ∉ hostOps0_W) :
    W3 m ρ c (Proc.devRef .tc r) = m ((c : Thread nD τ).loc r) :=
  (W3_of m ρ c r h1).trans <| (W2_of_ne m ρ c r h2).trans <| (W1_of m ρ c r h0).trans rfl

/-! ## The shared padded image: the windows' arrays out of the unscoped buffers and back -/

section Arrays
variable (V : (c : Dev nD) → (b : Ref sig .tc) → Buf (Elt F) ((c : Thread nD τ).loc b))

/-- The twelve distinct buffers behind the fourteen windows' arrays, listed. -/
theorem arrBufs0_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_call0_v1) ↦{fullShare} A main_call0_v1) ∗ (((c : Thread nD τ).loc main_call0_v3) ↦{fullShare} A main_call0_v3) ∗ (((c : Thread nD τ).loc main_call0_v4) ↦{fullShare} A main_call0_v4) ∗ (((c : Thread nD τ).loc main_arg3) ↦{fullShare} A main_arg3) ∗ (((c : Thread nD τ).loc main_call0_v5) ↦{fullShare} A main_call0_v5) ∗ (((c : Thread nD τ).loc main_arg5) ↦{fullShare} A main_arg5) ∗ (((c : Thread nD τ).loc main_call0_v6) ↦{fullShare} A main_call0_v6) ∗ (((c : Thread nD τ).loc main_arg7) ↦{fullShare} A main_arg7) ∗ (((c : Thread nD τ).loc main_call0_v7) ↦{fullShare} A main_call0_v7) ∗ (((c : Thread nD τ).loc main_call0_v9) ↦{fullShare} A main_call0_v9) ∗ (((c : Thread nD τ).loc main_call0_v11) ↦{fullShare} A main_call0_v11) ∗ (((c : Thread nD τ).loc main_call0_v12) ↦{fullShare} A main_call0_v12)) := by
  unfold Pipeline.arrBufs
  exact bigSep_eq_bigSepL_of_eq [main_call0_v1, main_call0_v3, main_call0_v4, main_arg3, main_call0_v5, main_arg5, main_call0_v6, main_arg7, main_call0_v7, main_call0_v9, main_call0_v11, main_call0_v12] (by decide) (by decide) _

/-- The share each window's array is held at: the padded image's dealt among its three windows, every other whole. -/
theorem share0 (c : Dev nD) (w : Fin 14) : (dat0 V c).share w = (if w = 13 then fullShare else q0 w) := by
  unfold Dat.share; rw [q_eq0]
  revert w; decide

/-- The windows' arrays, window by window, each a whole buffer at its share. -/
theorem arrays0_eq (c : Dev nD) (Fn : (w : Fin cfg0.W) → Buf (Elt F) ((cfg0.win w).arr.view.loc (c.tc : Thread nD τ))) :
    ((dat0 V c).arrays Fn : sProp 𝕄)
      = iprop((((c : Thread nD τ).loc main_call0_v1) ↦{fullShare.left} Fn 0) ∗ (((c : Thread nD τ).loc main_call0_v1) ↦{fullShare.right.left} Fn 1) ∗ (((c : Thread nD τ).loc main_call0_v1) ↦{fullShare.right.right} Fn 2) ∗ (((c : Thread nD τ).loc main_call0_v3) ↦{fullShare} Fn 3) ∗ (((c : Thread nD τ).loc main_call0_v4) ↦{fullShare} Fn 4) ∗ (((c : Thread nD τ).loc main_arg3) ↦{fullShare} Fn 5) ∗ (((c : Thread nD τ).loc main_call0_v5) ↦{fullShare} Fn 6) ∗ (((c : Thread nD τ).loc main_arg5) ↦{fullShare} Fn 7) ∗ (((c : Thread nD τ).loc main_call0_v6) ↦{fullShare} Fn 8) ∗ (((c : Thread nD τ).loc main_arg7) ↦{fullShare} Fn 9) ∗ (((c : Thread nD τ).loc main_call0_v7) ↦{fullShare} Fn 10) ∗ (((c : Thread nD τ).loc main_call0_v9) ↦{fullShare} Fn 11) ∗ (((c : Thread nD τ).loc main_call0_v11) ↦{fullShare} Fn 12) ∗ (((c : Thread nD τ).loc main_call0_v12) ↦{fullShare} Fn 13)) := by
  have h : ((dat0 V c).arrays Fn : sProp 𝕄)
      = bigSep Finset.univ fun w : Fin 14 => (((c.tc : Thread nD τ).loc (Pipeline.arrRef spec0 w)) ↦{(dat0 V c).share w} Fn w : sProp 𝕄) := by
    unfold Dat.arrays
    exact bigSep_congr fun w _ => by rw [(arr_whole0 w).set_eq_univ]
  rw [h, bigSep_W0]
  simp only [share0]
  rfl
end Arrays

section Arrays
variable (V : (c : Dev nD) → (b : Ref sig .tc) → Buf (Elt F) ((c : Thread nD τ).loc b))

/-- ENTRY: the buffers behind the arrays, each whole, are the windows' arrays at the entry contents — the padded
    image's full share dealt left / right-left / right-right among the three windows that read it. -/
theorem arrays_split0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H1, H3, H4, H5, H6, H7, H8, H9, H10, H11, H12, H13⟩
  ihave H1' := (pointsTo_share (PosShare.mem_left_op_right fullShare)).1 $$ H1
  icases H1' with ⟨Ha, Hb⟩
  ihave Hb' := (pointsTo_share (PosShare.mem_left_op_right fullShare.right)).1 $$ Hb
  icases Hb' with ⟨Hb, Hc⟩
  isplitl [Ha]; · iexact Ha
  isplitl [Hb]; · iexact Hb
  isplitl [Hc]; · iexact Hc
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

omit [FloatOps F] in
/-- A points-to at equal contents. -/
theorem pointsTo_of_eq {ℓ : Loc nD τ sig} {q : PosShare TreeShare} {f g : Buf (Elt F) ℓ} (h : f = g) :
    (ℓ ↦{q} f : sProp 𝕄) ⊢ ℓ ↦{q} g := Entails.of_eq (by rw [h])

/-- Every window but the last reads its array and never writes it. -/
theorem isOut0 : ∀ w : Fin 14, w ≠ 13 → (cfg0.win w).isOut = false := by decide

/-- EXIT: the windows' arrays after the write-backs of the points below `n` are the buffers behind them, each whole, at any contents that
    have the output array at what the write-backs leave and every other buffer as entered: the three shares of the
    padded image, which no window writes, join again. -/
theorem arrays_join0 (c : Dev nD) (n : ℕ) (A' : (b : Ref sig .tc) → Buf (Elt F) ((c : Thread nD τ).loc b))
    (hne : ∀ b, b ≠ main_call0_v12 → A' b = V c b) (hout : A' main_call0_v12 = (dat0 V c).arrAt 13 n) :
    ((dat0 V c).arrays ((dat0 V c).arrAt · n) : sProp 𝕄)
      ⊢ Pipeline.arrBufs (Ix := Unit) (Name := ℕ) (U := UR sig nD τ) (Lvl := ℕ) spec0 c A' := by
  have e : ∀ (w : Fin 14) (hw : w ≠ 13), (dat0 V c).arrAt w n = V c (Pipeline.arrRef spec0 w) := fun w hw =>
    (Dat.arrAt_in (dat0 V c) w (isOut0 w hw) n).trans (A_eq0 V c w)
  rw [arrBufs0_eq, arrays0_eq]
  iintro ⟨Ha, Hb, Hc, H3, H4, H5, H6, H7, H8, H9, H10, H11, H12, H13⟩
  ihave Ha := pointsTo_of_eq ((e 0 (by decide)).trans (hne main_call0_v1 (by decide)).symm) $$ Ha
  ihave Hb := pointsTo_of_eq ((e 1 (by decide)).trans (hne main_call0_v1 (by decide)).symm) $$ Hb
  ihave Hc := pointsTo_of_eq ((e 2 (by decide)).trans (hne main_call0_v1 (by decide)).symm) $$ Hc
  ihave H3 := pointsTo_of_eq ((e 3 (by decide)).trans (hne main_call0_v3 (by decide)).symm) $$ H3
  ihave H4 := pointsTo_of_eq ((e 4 (by decide)).trans (hne main_call0_v4 (by decide)).symm) $$ H4
  ihave H5 := pointsTo_of_eq ((e 5 (by decide)).trans (hne main_arg3 (by decide)).symm) $$ H5
  ihave H6 := pointsTo_of_eq ((e 6 (by decide)).trans (hne main_call0_v5 (by decide)).symm) $$ H6
  ihave H7 := pointsTo_of_eq ((e 7 (by decide)).trans (hne main_arg5 (by decide)).symm) $$ H7
  ihave H8 := pointsTo_of_eq ((e 8 (by decide)).trans (hne main_call0_v6 (by decide)).symm) $$ H8
  ihave H9 := pointsTo_of_eq ((e 9 (by decide)).trans (hne main_arg7 (by decide)).symm) $$ H9
  ihave H10 := pointsTo_of_eq ((e 10 (by decide)).trans (hne main_call0_v7 (by decide)).symm) $$ H10
  ihave H11 := pointsTo_of_eq ((e 11 (by decide)).trans (hne main_call0_v9 (by decide)).symm) $$ H11
  ihave H12 := pointsTo_of_eq ((e 12 (by decide)).trans (hne main_call0_v11 (by decide)).symm) $$ H12
  ihave H13 := pointsTo_of_eq hout.symm $$ H13
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- ENTRY, out of all the unscoped buffers: the windows' arrays at the entry contents and the unscoped rest. -/
theorem unscopedBufs_arrays0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_split0 V c) .rfl

/-- EXIT, back among all the unscoped buffers, at contents that differ from the entry's at the output array only. -/
theorem arrays_unscopedBufs0 (c : Dev nD) (n : ℕ) (A' : (b : Ref sig .tc) → Buf (Elt F) ((c : Thread nD τ).loc b))
    (hne : ∀ b, b ≠ main_call0_v12 → A' b = V c b) (hout : A' main_call0_v12 = (dat0 V c).arrAt 13 n) :
    iprop((dat0 V c).arrays ((dat0 V c).arrAt · n)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c A' : sProp 𝕄) := by
  rw [Pipeline.unscopedBufs_split₀ cfgs 0 winFacts₀0.arr_unscoped c A']
  refine sep_mono (arrays_join0 V c n A' hne hout) (Entails.of_eq ?_)
  unfold Pipeline.unscopedRest
  exact bigSep_congr fun b hb => by
    rw [hne b fun e => (Finset.mem_sdiff.mp hb).2 (Finset.mem_image.mpr ⟨13, Finset.mem_univ _, e.symm⟩)]
end Arrays

end Cert.Kernel.Hand

end
-- ==== Proof.KRunBits.lean ====
import proofs.«178811_g2000006188366390_pallasbulk_758_10_alg».proof.Proof.Gen.Kernel.Launch
import proofs.«178811_g2000006188366390_pallasbulk_758_10_alg».proof.Proof.Gen.Kernel.Skeleton
import proofs.«178811_g2000006188366390_pallasbulk_758_10_alg».proof.Proof.Gen.Kernel.Points
import proofs.«178811_g2000006188366390_pallasbulk_758_10_alg».proof.Proof.KBodyBBits
import proofs.«178811_g2000006188366390_pallasbulk_758_10_alg».proof.Proof.KRunArrBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused kernel's run

@main is a stretch of twenty host operations (the layout changes and zero paddings that build the padded image and
the weight matrices), the one kernel region, and a stretch of two (the slice of the first three channels and the
transpose back). The region's three image windows read ONE padded array: its full share is dealt among them at the
region's entry and joined again at its exit, where only the output array has changed. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register
    at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V1 m ρ c)) := by
      rw [← Pipeline.unscopedBufs_held]; exact unscopedBufs_arrays0 (V1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (Phi_in (V1 m ρ) c)
    unfold Pipeline.ΦA
    iintro ⟨Hp, -, Hr⟩
    isplitl [Hr]; · iexact Hr
    iexact Hp
  hout c := by
    rw [Pipeline.ownSems0_none]
    refine (Phi_out (V1 m ρ) c _).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := by
      rw [← Pipeline.unscopedBufs_held]
      exact arrays_unscopedBufs0 (V1 m ρ) c cfg0.N (V2 m ρ c) (fun b hb => W2_of_ne m ρ c b hb) (W2_out m ρ c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds the result at what the valuations compute and the argument arrays as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hr, HO⟩
        isplitr [HO]
        · isplitl [Hh]; · iexact Hh
          iexact Hr
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_arg m ρ c main_arg0 (by decide) (by decide) (by decide)),
       (h c _ (mem_uc main_arg1 (by decide))).trans (W3_arg m ρ c main_arg1 (by decide) (by decide) (by decide)),
       (h c _ (mem_uc main_arg2 (by decide))).trans (W3_arg m ρ c main_arg2 (by decide) (by decide) (by decide)),
       (h c _ (mem_uc main_arg3 (by decide))).trans (W3_arg m ρ c main_arg3 (by decide) (by decide) (by decide)),
       (h c _ (mem_uc main_arg4 (by decide))).trans (W3_arg m ρ c main_arg4 (by decide) (by decide) (by decide)),
       (h c _ (mem_uc main_arg5 (by decide))).trans (W3_arg m ρ c main_arg5 (by decide) (by decide) (by decide)),
       (h c _ (mem_uc main_arg6 (by decide))).trans (W3_arg m ρ c main_arg6 (by decide) (by decide) (by decide)),
       (h c _ (mem_uc main_arg7 (by decide))).trans (W3_arg m ρ c main_arg7 (by decide) (by decide) (by decide)),
       (h c _ (mem_uc main_arg8 (by decide))).trans (W3_arg m ρ c main_arg8 (by decide) (by decide) (by decide)),
       (h c _ (mem_uc main_arg9 (by decide))).trans (W3_arg m ρ c main_arg9 (by decide) (by decide) (by decide)),
       (h c _ (mem_uc main_arg10 (by decide))).trans (W3_arg m ρ c main_arg10 (by decide) (by decide) (by decide))⟩)

/-- info: 'Cert.Kernel.Hand.run' depends on axioms: [propext, Classical.choice, Quot.sound] -/
#guard_msgs in #print axioms run

end Cert.Kernel.Hand

end
-- ==== Proof.KPay.lean ====
/- The value the fused kernel's body stores at a grid point, as ONE function of the eleven blocks it loads:
   the three row blocks of the padded image, the first convolution's weights and bias, and the three down stages'
   weights and biases. It is the composition of the body's payloads in the order the body threads them: the
   first convolution on 32 rows, then three times (2 x 2 maximum + 2 x 2 stride-2 convolution + bias). -/
import proofs.«178811_g2000006188366390_pallasbulk_758_10_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The [4, 32, 64] block a strip contributes to the scratch image: three down stages of the strip's first
   convolution. The first convolution feeds the first stage's four taps and their maximum; these five feed the
   second stage's taps, maximum and partial sums; those feed the last sum. -/
def stripPay (x0 x1 x2 : Vec F S1x16x258x8 .f32) (w1 : Vec F S72x64 .f32) (b1 : Vec F S1x64 .f32)
    (wk1 : Vec F S2x2x64x64 .f32) (bb1 : Vec F S1x64 .f32) (wk2 : Vec F S2x2x64x64 .f32) (bb2 : Vec F S1x64 .f32)
    (wk3 : Vec F S2x2x64x64 .f32) (bb3 : Vec F S1x64 .f32) : FVec F S4x32x64 .f32 :=
  k0_pay1 wk3
    (k0_pay14 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay15 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay16 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay17 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1) wk3 bb3)
    (k0_pay18 wk2 (k0_pay4 bb2)
      (k0_pay6 (k0_pay3 x0 x1 x2 w1 b1) wk1 bb1)
      (k0_pay7 (k0_pay3 x0 x1 x2 w1 b1) wk1 bb1)
      (k0_pay8 (k0_pay3 x0 x1 x2 w1 b1) wk1 bb1)
      (k0_pay9 (k0_pay3 x0 x1 x2 w1 b1) wk1 bb1)
      (k0_pay10 (k0_pay3 x0 x1 x2 w1 b1) wk1 bb1))
    (k0_pay19 wk3)

end Cert.KernelIdeal.Hand

end
-- ==== Proof.KBodyA.lean ====
/- The fused kernel's body as a triple, in its two control cases.

   The body loads its eleven input blocks, stores the strip's [4, 32, 64] block into the scratch image at the
   strip's rows, and, at the last strip of an image, reads the whole scratch image back and stores the final
   convolution of it into the output block. -/
import proofs.«178811_g2000006188366390_pallasbulk_758_10_alg».proof.Proof.Gen.KernelIdeal.Launch
import proofs.«178811_g2000006188366390_pallasbulk_758_10_alg».proof.Proof.Gen.KernelIdeal.Skeleton
import proofs.«178811_g2000006188366390_pallasbulk_758_10_alg».proof.Proof.Gen.KernelIdeal.Points
import proofs.«178811_g2000006188366390_pallasbulk_758_10_alg».proof.Proof.KPay
import Idealize.ShloMosaic.Lib.Pipeline.FrameBody
import Idealize.ShloMosaic.Lib.Pipeline.Value
import Idealize.ShloMosaic.Lib.WritesUnit
import Idealize.ShloMosaic.Lib.Tactic

set_option maxRecDepth 16384
set_option pp.maxSteps 20000
set_option pp.deepTerms false
set_option pp.proofs false

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem z4 : (![0, 0, 0, 0] : Fin 4 → ℕ) = fun _ => 0 := by funext a; fin_cases a <;> rfl
theorem z3 : (![0, 0, 0] : Fin 3 → ℕ) = fun _ => 0 := by funext a; fin_cases a <;> rfl
theorem z2 : (![0, 0] : Fin 2 → ℕ) = fun _ => 0 := by funext a; fin_cases a <;> rfl

/-- The scratch image `g` with the [4, 32, 64] block `p` stored at offsets `off`: `p` at the position of an index
    inside the block's box, `g` elsewhere. -/
def stored (off : Fin 3 → ℕ) (g : Vec F S32x32x64 .f32) (p : FVec F S4x32x64 .f32) : Vec F S32x32x64 .f32 := fun y =>
  if h : ∀ a : Fin 3, off a ≤ (y a).val ∧ (y a).val < off a + S4x32x64.size a then
    p (Rect.unitLocal (s := S32x32x64) (off := off) (size := S4x32x64.size) y h)
  else g y

/-- One store of a [4, 32, 64] block through a unit-stride box reads back as `stored`. -/
theorem read_store {κ : Kind} {sp : Space} (v : View sig κ sp S32x32x64 .f32) (f : v.ty.Contents (Elt F))
    (off : Fin 3 → ℕ) (inb : ∀ a, off a + S4x32x64.size a ≤ S32x32x64.size a) (p : FVec F S4x32x64 .f32) :
    v.read (Elt F) (v.writes (Elt F) f [(⟨Rect.unit off S4x32x64.size inb, p⟩ : View.Piece (Elt F) S32x32x64 .f32)])
      = stored off (v.read (Elt F) f) p := by
  funext y
  unfold stored
  by_cases h : ∀ a : Fin 3, off a ≤ (y a).val ∧ (y a).val < off a + S4x32x64.size a
  · rw [dif_pos h]
    exact View.read_writes_cons_unit_of_mem v f inb p [] y (Rect.unitLocal (s := S32x32x64) (off := off) (size := S4x32x64.size) y h) rfl
      (fun a => by have := (h a).1; simp only [Rect.unitLocal_val]; omega)
  · rw [dif_neg h]
    have h' := h
    push Not at h'
    obtain ⟨a, ha⟩ := h'
    rw [View.read_writes_cons_unit_of_not_mem v f inb p [] y rfl a (by by_cases h1 : off a ≤ (y a).val; · exact .inr (ha h1)
                                                                       · exact .inl (by omega))]
    rfl

/-- Loads through the whole-block boxes read the blocks. -/
theorem stripPay_ld (x0 : Vec F S1x16x258x8 .f32) (x1 : Vec F S1x16x258x8 .f32) (x2 : Vec F S1x16x258x8 .f32) (w1 : Vec F S72x64 .f32) (b1 : Vec F S1x64 .f32) (wk1 : Vec F S2x2x64x64 .f32) (bb1 : Vec F S1x64 .f32) (wk2 : Vec F S2x2x64x64 .f32) (bb2 : Vec F S1x64 .f32) (wk3 : Vec F S2x2x64x64 .f32) (bb3 : Vec F S1x64 .f32) :
    stripPay
      (View.ld x0 (Rect.unit (s := S1x16x258x8) ![0, 0, 0, 0] S1x16x258x8.size inb_S1x16x258x8_S1x16x258x8_0_0_0_0))
      (View.ld x1 (Rect.unit (s := S1x16x258x8) ![0, 0, 0, 0] S1x16x258x8.size inb_S1x16x258x8_S1x16x258x8_0_0_0_0))
      (View.ld x2 (Rect.unit (s := S1x16x258x8) ![0, 0, 0, 0] S1x16x258x8.size inb_S1x16x258x8_S1x16x258x8_0_0_0_0))
      (View.ld w1 (Rect.unit (s := S72x64) ![0, 0] S72x64.size inb_S72x64_S72x64_0_0))
      (View.ld b1 (Rect.unit (s := S1x64) ![0, 0] S1x64.size inb_S1x64_S1x64_0_0))
      (View.ld wk1 (Rect.unit (s := S2x2x64x64) ![0, 0, 0, 0] S2x2x64x64.size inb_S2x2x64x64_S2x2x64x64_0_0_0_0))
      (View.ld bb1 (Rect.unit (s := S1x64) ![0, 0] S1x64.size inb_S1x64_S1x64_0_0))
      (View.ld wk2 (Rect.unit (s := S2x2x64x64) ![0, 0, 0, 0] S2x2x64x64.size inb_S2x2x64x64_S2x2x64x64_0_0_0_0))
      (View.ld bb2 (Rect.unit (s := S1x64) ![0, 0] S1x64.size inb_S1x64_S1x64_0_0))
      (View.ld wk3 (Rect.unit (s := S2x2x64x64) ![0, 0, 0, 0] S2x2x64x64.size inb_S2x2x64x64_S2x2x64x64_0_0_0_0))
      (View.ld bb3 (Rect.unit (s := S1x64) ![0, 0] S1x64.size inb_S1x64_S1x64_0_0))
      = stripPay x0 x1 x2 w1 b1 wk1 bb1 wk2 bb2 wk3 bb3 := by
  simp only [View.ld_unit_zero (S := S1x16x258x8) z4, View.ld_unit_zero (S := S72x64) z2, View.ld_unit_zero (S := S1x64) z2,
    View.ld_unit_zero (S := S2x2x64x64) z4]

set_option maxHeartbeats 4000000 in
/-- The body at a point that is not the last strip of its image: the inputs' and the output's memrefs come back as
    they were, the scratch with the strip's block stored at the strip's rows. -/
theorem sound_kernel_mid (c : Dev nD) (E : Set ℕ) (i : grid0.Coords) (arg2 : Memref sig .tc .vmem S1x16x258x8 .f32) (harg2 : arg2.IsWhole) (arg3 : Memref sig .tc .vmem S1x16x258x8 .f32) (harg3 : arg3.IsWhole) (arg4 : Memref sig .tc .vmem S1x16x258x8 .f32) (harg4 : arg4.IsWhole) (arg5 : Memref sig .tc .vmem S72x64 .f32) (harg5 : arg5.IsWhole) (arg6 : Memref sig .tc .vmem S1x64 .f32) (harg6 : arg6.IsWhole) (arg7 : Memref sig .tc .vmem S2x2x64x64 .f32) (harg7 : arg7.IsWhole) (arg8 : Memref sig .tc .vmem S1x64 .f32) (harg8 : arg8.IsWhole) (arg9 : Memref sig .tc .vmem S2x2x64x64 .f32) (harg9 : arg9.IsWhole) (arg10 : Memref sig .tc .vmem S1x64 .f32) (harg10 : arg10.IsWhole) (arg11 : Memref sig .tc .vmem S2x2x64x64 .f32) (harg11 : arg11.IsWhole) (arg12 : Memref sig .tc .vmem S1x64 .f32) (harg12 : arg12.IsWhole) (arg13 : Memref sig .tc .vmem S576x8 .f32) (harg13 : arg13.IsWhole) (arg14 : Memref sig .tc .vmem S1x8 .f32) (harg14 : arg14.IsWhole) (arg15 : Memref sig .tc .vmem S1x32x32x8 .f32) (harg15 : arg15.IsWhole) (arg16 : Memref sig .tc .vmem S32x32x64 .f32) (harg16 : arg16.IsWhole)
    (x0 : Vec F S1x16x258x8 .f32) (x1 : Vec F S1x16x258x8 .f32) (x2 : Vec F S1x16x258x8 .f32) (w1 : Vec F S72x64 .f32) (b1 : Vec F S1x64 .f32) (wk1 : Vec F S2x2x64x64 .f32) (bb1 : Vec F S1x64 .f32) (wk2 : Vec F S2x2x64x64 .f32) (bb2 : Vec F S1x64 .f32) (wk3 : Vec F S2x2x64x64 .f32) (bb3 : Vec F S1x64 .f32) (w2 : Vec F S576x8 .f32) (b2 : Vec F S1x8 .f32) (g : Vec F S32x32x64 .f32) (d : Vec F S1x32x32x8 .f32) (K : PUnit → sProp 𝕄)
    (hc : ¬ k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2 ∗ owns (c : Thread nD τ) arg15 fullShare d ∗ owns (c : Thread nD τ) arg16 fullShare g
        ∗ (iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2 ∗ owns (c : Thread nD τ) arg15 fullShare d
            ∗ owns (c : Thread nD τ) arg16 fullShare (stored (k0_off1 i) g (stripPay x0 x1 x2 w1 b1 wk1 bb1 wk2 bb2 wk3 bb3))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_body_eq_skeleton]; unfold cc0__fused_body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2 hf3 hf4 hf5 hf6 hf7 hf8 hf9 hf10 hf11 hf12 hf13 hf14 hf15 hf16
  sl_exec (disch := exact hc)
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  isplitl [H15]
  · iexists f15; isplitr
    · ipureintro; rfl
    · iexact H15
  iexists _; isplitr
  swap; · iexact H16
  ipureintro
  refine (read_store _ _ _ _ _).trans ?_
  refine congrArg (stored (k0_off1 i) (View.read (Elt F) arg16.view f16)) ?_
  exact (show _ = stripPay
      (View.ld (View.read (Elt F) arg2.view f2) (Rect.unit (s := S1x16x258x8) ![0, 0, 0, 0] S1x16x258x8.size inb_S1x16x258x8_S1x16x258x8_0_0_0_0))
      (View.ld (View.read (Elt F) arg3.view f3) (Rect.unit (s := S1x16x258x8) ![0, 0, 0, 0] S1x16x258x8.size inb_S1x16x258x8_S1x16x258x8_0_0_0_0))
      (View.ld (View.read (Elt F) arg4.view f4) (Rect.unit (s := S1x16x258x8) ![0, 0, 0, 0] S1x16x258x8.size inb_S1x16x258x8_S1x16x258x8_0_0_0_0))
      (View.ld (View.read (Elt F) arg5.view f5) (Rect.unit (s := S72x64) ![0, 0] S72x64.size inb_S72x64_S72x64_0_0))
      (View.ld (View.read (Elt F) arg6.view f6) (Rect.unit (s := S1x64) ![0, 0] S1x64.size inb_S1x64_S1x64_0_0))
      (View.ld (View.read (Elt F) arg7.view f7) (Rect.unit (s := S2x2x64x64) ![0, 0, 0, 0] S2x2x64x64.size inb_S2x2x64x64_S2x2x64x64_0_0_0_0))
      (View.ld (View.read (Elt F) arg8.view f8) (Rect.unit (s := S1x64) ![0, 0] S1x64.size inb_S1x64_S1x64_0_0))
      (View.ld (View.read (Elt F) arg9.view f9) (Rect.unit (s := S2x2x64x64) ![0, 0, 0, 0] S2x2x64x64.size inb_S2x2x64x64_S2x2x64x64_0_0_0_0))
      (View.ld (View.read (Elt F) arg10.view f10) (Rect.unit (s := S1x64) ![0, 0] S1x64.size inb_S1x64_S1x64_0_0))
      (View.ld (View.read (Elt F) arg11.view f11) (Rect.unit (s := S2x2x64x64) ![0, 0, 0, 0] S2x2x64x64.size inb_S2x2x64x64_S2x2x64x64_0_0_0_0))
      (View.ld (View.read (Elt F) arg12.view f12) (Rect.unit (s := S1x64) ![0, 0] S1x64.size inb_S1x64_S1x64_0_0)) from rfl).trans (stripPay_ld _ _ _ _ _ _ _ _ _ _ _)

set_option maxHeartbeats 4000000 in
/-- The body at the last strip of an image: the scratch with the strip's block stored at the strip's rows, and the
    output's memref at the final convolution of that scratch image. -/
theorem sound_kernel_tail (c : Dev nD) (E : Set ℕ) (i : grid0.Coords) (arg2 : Memref sig .tc .vmem S1x16x258x8 .f32) (harg2 : arg2.IsWhole) (arg3 : Memref sig .tc .vmem S1x16x258x8 .f32) (harg3 : arg3.IsWhole) (arg4 : Memref sig .tc .vmem S1x16x258x8 .f32) (harg4 : arg4.IsWhole) (arg5 : Memref sig .tc .vmem S72x64 .f32) (harg5 : arg5.IsWhole) (arg6 : Memref sig .tc .vmem S1x64 .f32) (harg6 : arg6.IsWhole) (arg7 : Memref sig .tc .vmem S2x2x64x64 .f32) (harg7 : arg7.IsWhole) (arg8 : Memref sig .tc .vmem S1x64 .f32) (harg8 : arg8.IsWhole) (arg9 : Memref sig .tc .vmem S2x2x64x64 .f32) (harg9 : arg9.IsWhole) (arg10 : Memref sig .tc .vmem S1x64 .f32) (harg10 : arg10.IsWhole) (arg11 : Memref sig .tc .vmem S2x2x64x64 .f32) (harg11 : arg11.IsWhole) (arg12 : Memref sig .tc .vmem S1x64 .f32) (harg12 : arg12.IsWhole) (arg13 : Memref sig .tc .vmem S576x8 .f32) (harg13 : arg13.IsWhole) (arg14 : Memref sig .tc .vmem S1x8 .f32) (harg14 : arg14.IsWhole) (arg15 : Memref sig .tc .vmem S1x32x32x8 .f32) (harg15 : arg15.IsWhole) (arg16 : Memref sig .tc .vmem S32x32x64 .f32) (harg16 : arg16.IsWhole)
    (x0 : Vec F S1x16x258x8 .f32) (x1 : Vec F S1x16x258x8 .f32) (x2 : Vec F S1x16x258x8 .f32) (w1 : Vec F S72x64 .f32) (b1 : Vec F S1x64 .f32) (wk1 : Vec F S2x2x64x64 .f32) (bb1 : Vec F S1x64 .f32) (wk2 : Vec F S2x2x64x64 .f32) (bb2 : Vec F S1x64 .f32) (wk3 : Vec F S2x2x64x64 .f32) (bb3 : Vec F S1x64 .f32) (w2 : Vec F S576x8 .f32) (b2 : Vec F S1x8 .f32) (g : Vec F S32x32x64 .f32) (d : Vec F S1x32x32x8 .f32) (K : PUnit → sProp 𝕄)
    (hc : k0_cond1 i = 1#1) :
    iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2 ∗ owns (c : Thread nD τ) arg15 fullShare d ∗ owns (c : Thread nD τ) arg16 fullShare g
        ∗ (iprop(owns (c : Thread nD τ) arg2 fullShare x0 ∗ owns (c : Thread nD τ) arg3 fullShare x1 ∗ owns (c : Thread nD τ) arg4 fullShare x2 ∗ owns (c : Thread nD τ) arg5 fullShare w1 ∗ owns (c : Thread nD τ) arg6 fullShare b1 ∗ owns (c : Thread nD τ) arg7 fullShare wk1 ∗ owns (c : Thread nD τ) arg8 fullShare bb1 ∗ owns (c : Thread nD τ) arg9 fullShare wk2 ∗ owns (c : Thread nD τ) arg10 fullShare bb2 ∗ owns (c : Thread nD τ) arg11 fullShare wk3 ∗ owns (c : Thread nD τ) arg12 fullShare bb3 ∗ owns (c : Thread nD τ) arg13 fullShare w2 ∗ owns (c : Thread nD τ) arg14 fullShare b2
            ∗ owns (c : Thread nD τ) arg15 fullShare (k0_pay2 (stored (k0_off1 i) g (stripPay x0 x1 x2 w1 b1 wk1 bb1 wk2 bb2 wk3 bb3)) w2 b2)
            ∗ owns (c : Thread nD τ) arg16 fullShare (stored (k0_off1 i) g (stripPay x0 x1 x2 w1 b1 wk1 bb1 wk2 bb2 wk3 bb3))) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_body_eq_skeleton]; unfold cc0__fused_body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf2 hf3 hf4 hf5 hf6 hf7 hf8 hf9 hf10 hf11 hf12 hf13 hf14 hf15 hf16
  sl_exec (disch := exact hc)
  sl_step
  have hst : View.read (Elt F) arg16.view (arg16.view.writes (Elt F) f16
      [(⟨Rect.unit (k0_off1 i) S4x32x64.size (k0_off1_inb i), stripPay
      (View.ld (View.read (Elt F) arg2.view f2) (Rect.unit (s := S1x16x258x8) ![0, 0, 0, 0] S1x16x258x8.size inb_S1x16x258x8_S1x16x258x8_0_0_0_0))
      (View.ld (View.read (Elt F) arg3.view f3) (Rect.unit (s := S1x16x258x8) ![0, 0, 0, 0] S1x16x258x8.size inb_S1x16x258x8_S1x16x258x8_0_0_0_0))
      (View.ld (View.read (Elt F) arg4.view f4) (Rect.unit (s := S1x16x258x8) ![0, 0, 0, 0] S1x16x258x8.size inb_S1x16x258x8_S1x16x258x8_0_0_0_0))
      (View.ld (View.read (Elt F) arg5.view f5) (Rect.unit (s := S72x64) ![0, 0] S72x64.size inb_S72x64_S72x64_0_0))
      (View.ld (View.read (Elt F) arg6.view f6) (Rect.unit (s := S1x64) ![0, 0] S1x64.size inb_S1x64_S1x64_0_0))
      (View.ld (View.read (Elt F) arg7.view f7) (Rect.unit (s := S2x2x64x64) ![0, 0, 0, 0] S2x2x64x64.size inb_S2x2x64x64_S2x2x64x64_0_0_0_0))
      (View.ld (View.read (Elt F) arg8.view f8) (Rect.unit (s := S1x64) ![0, 0] S1x64.size inb_S1x64_S1x64_0_0))
      (View.ld (View.read (Elt F) arg9.view f9) (Rect.unit (s := S2x2x64x64) ![0, 0, 0, 0] S2x2x64x64.size inb_S2x2x64x64_S2x2x64x64_0_0_0_0))
      (View.ld (View.read (Elt F) arg10.view f10) (Rect.unit (s := S1x64) ![0, 0] S1x64.size inb_S1x64_S1x64_0_0))
      (View.ld (View.read (Elt F) arg11.view f11) (Rect.unit (s := S2x2x64x64) ![0, 0, 0, 0] S2x2x64x64.size inb_S2x2x64x64_S2x2x64x64_0_0_0_0))
      (View.ld (View.read (Elt F) arg12.view f12) (Rect.unit (s := S1x64) ![0, 0] S1x64.size inb_S1x64_S1x64_0_0))⟩ : View.Piece (Elt F) S32x32x64 .f32)])
        = stored (k0_off1 i) (View.read (Elt F) arg16.view f16) (stripPay (View.read (Elt F) arg2.view f2) (View.read (Elt F) arg3.view f3) (View.read (Elt F) arg4.view f4) (View.read (Elt F) arg5.view f5) (View.read (Elt F) arg6.view f6) (View.read (Elt F) arg7.view f7) (View.read (Elt F) arg8.view f8) (View.read (Elt F) arg9.view f9) (View.read (Elt F) arg10.view f10) (View.read (Elt F) arg11.view f11) (View.read (Elt F) arg12.view f12)) :=
    (read_store _ _ _ _ _).trans (congrArg (stored (k0_off1 i) (View.read (Elt F) arg16.view f16)) (stripPay_ld _ _ _ _ _ _ _ _ _ _ _))
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists f8; isplitr
    · ipureintro; rfl
    · iexact H8
  isplitl [H9]
  · iexists f9; isplitr
    · ipureintro; rfl
    · iexact H9
  isplitl [H10]
  · iexists f10; isplitr
    · ipureintro; rfl
    · iexact H10
  isplitl [H11]
  · iexists f11; isplitr
    · ipureintro; rfl
    · iexact H11
  isplitl [H12]
  · iexists f12; isplitr
    · ipureintro; rfl
    · iexact H12
  isplitl [H13]
  · iexists f13; isplitr
    · ipureintro; rfl
    · iexact H13
  isplitl [H14]
  · iexists f14; isplitr
    · ipureintro; rfl
    · iexact H14
  isplitl [H15]
  · iexists _; isplitr
    swap; · iexact H15
    ipureintro
    refine (View.read_writes_eq_canon _ _ _ (fun y => ⟨_, List.mem_singleton_self _, View.mem_set_unit_zero (S := S1x32x32x8) z4 inb_S1x32x32x8_S1x32x32x8_0_0_0_0 y⟩)).trans ?_
    refine (View.canon_unit_zero (S := S1x32x32x8) z4 inb_S1x32x32x8_S1x32x32x8_0_0_0_0 _).trans ?_
    refine (show _ = k0_pay2
      (View.ld (View.read (Elt F) arg16.view (arg16.view.writes (Elt F) f16
        [(⟨Rect.unit (k0_off1 i) S4x32x64.size (k0_off1_inb i), stripPay
      (View.ld (View.read (Elt F) arg2.view f2) (Rect.unit (s := S1x16x258x8) ![0, 0, 0, 0] S1x16x258x8.size inb_S1x16x258x8_S1x16x258x8_0_0_0_0))
      (View.ld (View.read (Elt F) arg3.view f3) (Rect.unit (s := S1x16x258x8) ![0, 0, 0, 0] S1x16x258x8.size inb_S1x16x258x8_S1x16x258x8_0_0_0_0))
      (View.ld (View.read (Elt F) arg4.view f4) (Rect.unit (s := S1x16x258x8) ![0, 0, 0, 0] S1x16x258x8.size inb_S1x16x258x8_S1x16x258x8_0_0_0_0))
      (View.ld (View.read (Elt F) arg5.view f5) (Rect.unit (s := S72x64) ![0, 0] S72x64.size inb_S72x64_S72x64_0_0))
      (View.ld (View.read (Elt F) arg6.view f6) (Rect.unit (s := S1x64) ![0, 0] S1x64.size inb_S1x64_S1x64_0_0))
      (View.ld (View.read (Elt F) arg7.view f7) (Rect.unit (s := S2x2x64x64) ![0, 0, 0, 0] S2x2x64x64.size inb_S2x2x64x64_S2x2x64x64_0_0_0_0))
      (View.ld (View.read (Elt F) arg8.view f8) (Rect.unit (s := S1x64) ![0, 0] S1x64.size inb_S1x64_S1x64_0_0))
      (View.ld (View.read (Elt F) arg9.view f9) (Rect.unit (s := S2x2x64x64) ![0, 0, 0, 0] S2x2x64x64.size inb_S2x2x64x64_S2x2x64x64_0_0_0_0))
      (View.ld (View.read (Elt F) arg10.view f10) (Rect.unit (s := S1x64) ![0, 0] S1x64.size inb_S1x64_S1x64_0_0))
      (View.ld (View.read (Elt F) arg11.view f11) (Rect.unit (s := S2x2x64x64) ![0, 0, 0, 0] S2x2x64x64.size inb_S2x2x64x64_S2x2x64x64_0_0_0_0))
      (View.ld (View.read (Elt F) arg12.view f12) (Rect.unit (s := S1x64) ![0, 0] S1x64.size inb_S1x64_S1x64_0_0))⟩ : View.Piece (Elt F) S32x32x64 .f32)])) (Rect.unit (s := S32x32x64) ![0, 0, 0] S32x32x64.size inb_S32x32x64_S32x32x64_0_0_0))
      (View.ld (View.read (Elt F) arg13.view f13) (Rect.unit (s := S576x8) ![0, 0] S576x8.size inb_S576x8_S576x8_0_0))
      (View.ld (View.read (Elt F) arg14.view f14) (Rect.unit (s := S1x8) ![0, 0] S1x8.size inb_S1x8_S1x8_0_0)) from rfl).trans ?_
    rw [View.ld_unit_zero (S := S32x32x64) z3, View.ld_unit_zero (S := S576x8) z2, View.ld_unit_zero (S := S1x8) z2, hst]
  iexists _; isplitr
  swap; · iexact H16
  ipureintro
  exact hst

end Cert.KernelIdeal.Hand
end
-- ==== Proof.KBody.lean ====
/- The fused kernel's proof data and its body obligation.

   One region on a grid of 32 images x 8 row strips. At a point (i, s) the body stores one [4, 32, 64] block,
   the strip's contribution, into rows 4 s .. 4 s + 3 of a [32, 32, 64] scratch image carried from point to point;
   at the last strip of an image (s = 7) it reads the whole scratch image, which then holds the eight strips of
   image i, and stores the final convolution of it into the output block of image i.

   The region invariant says what the scratch holds: before point t = 8 i + s, rows 4 s' .. 4 s' + 3 are the
   block of strip s' of image i for every s' < s. -/
import proofs.«178811_g2000006188366390_pallasbulk_758_10_alg».proof.Proof.Gen.KernelIdeal.Launch
import proofs.«178811_g2000006188366390_pallasbulk_758_10_alg».proof.Proof.Gen.KernelIdeal.Skeleton
import proofs.«178811_g2000006188366390_pallasbulk_758_10_alg».proof.Proof.Gen.KernelIdeal.Points
import proofs.«178811_g2000006188366390_pallasbulk_758_10_alg».proof.Proof.KPay
import proofs.«178811_g2000006188366390_pallasbulk_758_10_alg».proof.Proof.KBodyA
import Idealize.ShloMosaic.Lib.Pipeline.FrameBody
import Idealize.ShloMosaic.Lib.WritesUnit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The share of each input window's array: the padded image's full share dealt left / right-left / right-right
    among the three windows on it; every other array whole. -/
def q0 : Fin 14 → PosShare TreeShare
  | ⟨0, _⟩ => fullShare.left
  | ⟨1, _⟩ => fullShare.right.left
  | ⟨2, _⟩ => fullShare.right.right
  | ⟨3, _⟩ => fullShare
  | ⟨4, _⟩ => fullShare
  | ⟨5, _⟩ => fullShare
  | ⟨6, _⟩ => fullShare
  | ⟨7, _⟩ => fullShare
  | ⟨8, _⟩ => fullShare
  | ⟨9, _⟩ => fullShare
  | ⟨10, _⟩ => fullShare
  | ⟨11, _⟩ => fullShare
  | ⟨12, _⟩ => fullShare
  | ⟨13, _⟩ => fullShare
  | ⟨_ + 14, h⟩ => absurd h (Nat.not_lt.2 (Nat.le_add_left _ _))

/-- The grid point of strip `s` of image `i`: the grid is 32 x 8, row-major. -/
def pt (i : Fin 32) (s : Fin 8) : Fin cfg0.N :=
  ⟨8 * i.val + s.val, lt_of_lt_of_eq (by have := i.isLt; have := s.isLt; omega) (show (256 : ℕ) = cfg0.N from N_0.symm)⟩

@[simp] theorem pt_val (i : Fin 32) (s : Fin 8) : (pt i s).val = 8 * i.val + s.val := rfl

/-- The image a position `n` of the grid works on. -/
def imgOf (n : ℕ) : Fin 32 := ⟨n / 8 % 32, Nat.mod_lt _ (by decide)⟩

@[simp] theorem imgOf_val (n : ℕ) : (imgOf n).val = n / 8 % 32 := rfl

/-- The scratch's own memref: the whole scoped buffer. -/
abbrev scM : Memref sig .tc .vmem S32x32x64 .f32 := Memref.whole cc0_scratch0

/-- An index of the scratch image lies in the box of strip `s`'s four rows exactly when its row is one of them. -/
theorem box_iff (y : S32x32x64.Idx) (s : ℕ) :
    (∀ a : Fin 3, (![4 * s, 0, 0] : Fin 3 → ℕ) a ≤ (y a).val
        ∧ (y a).val < (![4 * s, 0, 0] : Fin 3 → ℕ) a + S4x32x64.size a) ↔ (y 0).val / 4 = s := by
  have h1 : (y 1).val < 32 := (y 1).isLt
  have h2 : (y 2).val < 64 := (y 2).isLt
  constructor
  · intro h
    have h0 : 4 * s ≤ (y 0).val ∧ (y 0).val < 4 * s + 4 := h 0
    omega
  · intro h a
    fin_cases a
    · show 4 * s ≤ (y 0).val ∧ (y 0).val < 4 * s + 4
      omega
    · show 0 ≤ (y 1).val ∧ (y 1).val < 0 + 32
      omega
    · show 0 ≤ (y 2).val ∧ (y 2).val < 0 + 64
      omega

/-- An index of the scratch image lies in the box of the four rows of its strip. -/
theorem rowBox (y : S32x32x64.Idx) :
    ∀ a, (![4 * ((y 0).val / 4), 0, 0] : Fin 3 → ℕ) a ≤ (y a).val
      ∧ (y a).val < (![4 * ((y 0).val / 4), 0, 0] : Fin 3 → ℕ) a + S4x32x64.size a :=
  (box_iff y _).mpr rfl

/-- The strip an index of the scratch image belongs to. -/
def stripOf (y : S32x32x64.Idx) : Fin 8 := ⟨(y 0).val / 4, by have h : (y 0).val < 32 := (y 0).isLt; omega⟩

@[simp] theorem stripOf_val (y : S32x32x64.Idx) : (stripOf y).val = (y 0).val / 4 := rfl

/-- Its position within the strip's [4, 32, 64] block: row `y 0 % 4`, the other coordinates as they are. -/
def inStrip (y : S32x32x64.Idx) : S4x32x64.Idx :=
  Rect.unitLocal (s := S32x32x64) (off := ![4 * ((y 0).val / 4), 0, 0]) (size := S4x32x64.size) y (rowBox y)

@[simp] theorem inStrip_val (y : S32x32x64.Idx) (a : Fin 3) :
    (inStrip y a).val = (y a).val - (![4 * ((y 0).val / 4), 0, 0] : Fin 3 → ℕ) a := rfl

/-! ## The grid's closed forms -/

/-- The body's condition holds exactly at the last strip of an image. -/
theorem cond_iff : ∀ t : Fin cfg0.N, k0_cond1 (grid0.coords t) = 1#1 ↔ t.val % 8 = 7 :=
  (by decide +kernel : ∀ t : Fin grid0.N, k0_cond1 (grid0.coords t) = 1#1 ↔ t.val % 8 = 7)

/-- The store's offsets: row 4 s of the scratch image at strip s. -/
theorem off_apply : ∀ t : Fin cfg0.N, ∀ a : Fin 3, k0_off1 (grid0.coords t) a = (![4 * (t.val % 8), 0, 0] : Fin 3 → ℕ) a :=
  (by decide +kernel : ∀ t : Fin grid0.N, ∀ a : Fin 3, k0_off1 (grid0.coords t) a = (![4 * (t.val % 8), 0, 0] : Fin 3 → ℕ) a)

theorem off_eq (t : Fin cfg0.N) : k0_off1 (grid0.coords t) = ![4 * (t.val % 8), 0, 0] := funext (off_apply t)

/-- The output window is idle away from the last strip, live at it, and written back only there. -/
theorem idle13_mid (t : Fin cfg0.N) (h : ¬ t.val % 8 = 7) : cfg0.idle 13 (cfg0.grid.coords t) = true := by
  show (!(k0_cond1 (grid0.coords t) == 1#1)) = true
  rw [Bool.not_eq_true', beq_eq_false_iff_ne]
  exact fun e => h ((cond_iff t).mp e)

theorem live13_tail (t : Fin cfg0.N) (h : t.val % 8 = 7) : cfg0.idle 13 (cfg0.grid.coords t) = false := by
  show (!(k0_cond1 (grid0.coords t) == 1#1)) = false
  rw [Bool.not_eq_false', beq_iff_eq]
  exact (cond_iff t).mpr h

theorem noFlush13_mid (t : Fin cfg0.N) (h : ¬ t.val % 8 = 7) : (cfg0.win 13).flush t = false :=
  Bool.eq_false_iff.mpr fun e => h ((flush0_13 t).mp e)

section Region

variable (V : (c : Dev nD) → (b : Ref sig .tc) → Buf (Elt F) ((c : Thread nD τ).loc b))

/-! ## The windows' blocks and what the body computes from them -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The [4, 32, 64] block the body stores into the scratch at point `t`: the strip's three row blocks of the
    padded image through the first convolution and the three down stages. -/
def strip (c : Dev nD) (t : Fin cfg0.N) : FVec F S4x32x64 .f32 :=
  stripPay (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)

/-- The scratch image when image `i`'s last strip reads it: rows 4 s .. 4 s + 3 are the block of strip `s`. -/
def scrImg (c : Dev nD) (i : Fin 32) : Vec F S32x32x64 .f32 :=
  fun y => strip V c (pt i (stripOf y)) (inStrip y)

theorem scrImg_apply (c : Dev nD) (i : Fin 32) (y : S32x32x64.Idx) :
    scrImg V c i y = strip V c (pt i (stripOf y)) (inStrip y) := rfl

/-- The output block of the image point `t` works on: the final convolution of the scratch image. -/
def outblk (c : Dev nD) (t : Fin cfg0.N) : FVec F S1x32x32x8 .f32 :=
  k0_pay2 (scrImg V c (imgOf t.val)) (iblk0 V c 11 t) (iblk0 V c 12 t)

/-! ## The region invariant -/

/-- What is known of the scratch `g` before position `n` of the grid: the strips of the current image already
    stored (those below `n % 8`) are in place. Nothing at the first strip of an image. -/
def ScrOK (c : Dev nD) (n : ℕ) (g : Vec F S32x32x64 .f32) : Prop :=
  ∀ y : S32x32x64.Idx, (y 0).val / 4 < n % 8 → g y = scrImg V c (imgOf n) y

/-- The invariant before position `n`: the scratch at contents with the stored strips in place, and the generator
    register at some state. -/
def Phi0 (c : Dev nD) (n : ℕ) : sProp 𝕄 :=
  iprop((∃ g : Vec F S32x32x64 .f32, ⌜ScrOK V c n g⌝ ∗ owns (c : Thread nD τ) scM fullShare g) ∗ (∃ r, prngReg c r))

/-! ## The pipeline's proof data -/

/-- The proof data of the pipeline on core `c`: the arrays as the region finds them; after the body each input's
    buffer at its block and the output's at the final convolution of the image's scratch; the invariant `Phi0`;
    nothing owed; the padded image's share dealt among its three windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => outblk V c t
  Φ t := Phi0 V c t.val
  q := q0
  owed _ := 0

theorem A_eq0 (c : Dev nD) (w : Fin cfg0.W) : (dat0 V c).A w = V c (Pipeline.arrRef spec0 w) := by
  dsimp only [dat0]

theorem q_eq0 (c : Dev nD) : (dat0 V c).q = q0 := rfl
theorem owed_eq0 (c : Dev nD) (t : Fin (cfg0.N + 1)) : (dat0 V c).owed t = 0 := rfl
theorem Phi_eq0 (c : Dev nD) (t : Fin (cfg0.N + 1)) : (dat0 V c).Φ t = Phi0 V c t.val := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
/-- The output's buffer after the body is named at EVERY point as the final convolution of the image's scratch; only
    the last strip of an image stores it (and only there is the block written back). -/
theorem after0_13 (c : Dev nD) (t : Fin cfg0.N) : (dat0 V c).after 13 t = outblk V c t := by dsimp only [dat0]
theorem after0_13_tail (c : Dev nD) (t : Fin cfg0.N) (ht : t.val % 8 = 7) : (dat0 V c).after 13 t = outblk V c t :=
  after0_13 V c t

/-! ## The invariant at the region's ends -/

/-- What the launch hands the region is the invariant before the first point: nothing is claimed of the scratch. -/
theorem Phi_in (c : Dev nD) : Pipeline.ΦA spec0 c ⊢ (dat0 V c).Φ 0 := by
  rw [Phi_eq0]; unfold Pipeline.ΦA Phi0; rw [scopedRest0_eq]
  iintro ⟨⟨%f, H⟩, Hg⟩
  isplitl [H]
  · iexists f; isplitr
    · ipureintro
      intro y hy
      have h0 : ((0 : Fin (cfg0.N + 1)).val) = 0 := rfl
      rw [h0] at hy
      omega
    · rw [owns_whole]; iexact H
  · iexact Hg

/-- The invariant gives the class's back at any position: the scratch's named rows are forgotten. -/
theorem Phi_out (c : Dev nD) (t : Fin (cfg0.N + 1)) : (dat0 V c).Φ t ⊢ Pipeline.ΦA spec0 c := by
  rw [Phi_eq0]; unfold Pipeline.ΦA Phi0; rw [scopedRest0_eq]
  simp only [owns_whole]
  iintro ⟨⟨%g, %hg, H⟩, Hg⟩
  isplitl [H]
  · iexists g; iexact H
  · iexact Hg

/-! ## The scratch after the store -/

/-- The scratch with the strip's block stored agrees with the image's scratch on the rows of the strips up to this one. -/
theorem stored_eq (c : Dev nD) (t : Fin cfg0.N) (g : Vec F S32x32x64 .f32) (hg : ScrOK V c t.val g)
    (y : S32x32x64.Idx) (hy : (y 0).val / 4 ≤ t.val % 8) :
    stored (k0_off1 (grid0.coords t)) g (strip V c t) y = scrImg V c (imgOf t.val) y := by
  rw [off_eq]
  unfold stored
  by_cases h : (y 0).val / 4 = t.val % 8
  · rw [dif_pos ((box_iff y _).mpr h), scrImg_apply]
    have hpt : pt (imgOf t.val) (stripOf y) = t := Fin.ext (by
      have hN : t.val < 256 := lt_of_lt_of_eq t.isLt (show cfg0.N = 256 from N_0)
      simp only [pt_val, imgOf_val, stripOf_val]; omega)
    rw [hpt]
    congr 1
    funext a; apply Fin.ext
    simp only [Rect.unitLocal_val, inStrip_val]
    rw [h]
  · rw [dif_neg (fun hb => h ((box_iff y _).mp hb))]
    exact hg y (by omega)

/-- After the store the invariant's fact holds at the next position. -/
theorem ScrOK_step (c : Dev nD) (t : Fin cfg0.N) (g : Vec F S32x32x64 .f32) (hg : ScrOK V c t.val g) :
    ScrOK V c (t.val + 1) (stored (k0_off1 (grid0.coords t)) g (strip V c t)) := by
  intro y hy
  have hN : t.val < 256 := lt_of_lt_of_eq t.isLt (show cfg0.N = 256 from N_0)
  have himg : imgOf (t.val + 1) = imgOf t.val := Fin.ext (by simp only [imgOf_val]; omega)
  rw [himg]
  exact stored_eq V c t g hg y (by omega)

/-- At the last strip of an image the scratch after the store is the image's scratch. -/
theorem stored_tail (c : Dev nD) (t : Fin cfg0.N) (g : Vec F S32x32x64 .f32) (hg : ScrOK V c t.val g) (h7 : t.val % 8 = 7) :
    stored (k0_off1 (grid0.coords t)) g (strip V c t) = scrImg V c (imgOf t.val) :=
  funext fun y => stored_eq V c t g hg y (by have : (y 0).val < 32 := (y 0).isLt; omega)

/-! ## The inputs' buffers before the body -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
      (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
      (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
      (fun t => by rw [after0_10]; unfold Dat.blockOf iblk0; rw [A_eq0]; try rfl) t d).trans
    (by unfold Dat.fetched Dat.blockOf iblk0; rw [A_eq0]; try rfl)
theorem before0_11 (c : Dev nD) (t : Fin cfg0.N) (d) : (dat0 V c).before 11 t d = iblk0 V c 11 t :=
  ((dat0 V c).before_in_eq_fetched 11 rfl (fun _ => rfl) (fun _ _ _ => rfl)
      (fun t => by rw [after0_11]; unfold Dat.blockOf iblk0; rw [A_eq0]; try rfl) t d).trans
    (by unfold Dat.fetched Dat.blockOf iblk0; rw [A_eq0]; try rfl)
theorem before0_12 (c : Dev nD) (t : Fin cfg0.N) (d) : (dat0 V c).before 12 t d = iblk0 V c 12 t :=
  ((dat0 V c).before_in_eq_fetched 12 rfl (fun _ => rfl) (fun _ _ _ => rfl)
      (fun t => by rw [after0_12]; unfold Dat.blockOf iblk0; rw [A_eq0]; try rfl) t d).trans
    (by unfold Dat.fetched Dat.blockOf iblk0; rw [A_eq0]; try rfl)

end Region

end Cert.KernelIdeal.Hand

end
-- ==== Proof.KBodyB.lean ====
/- The fused kernel's body obligation: at every grid point the body, called on the windows' staging memrefs and the
   scratch as the region invariant describes them, returns them as the proof data says. -/
import proofs.«178811_g2000006188366390_pallasbulk_758_10_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ (dat0 V c).leavesExact 13 t)

set_option maxHeartbeats 4000000 in
/-- The body at any point: the inputs' memrefs hold their blocks; the invariant hands the scratch with the image's
    earlier strips in place and takes it back with this strip's stored; the output's memref comes back as found
    away from the last strip, and at it holds the final convolution of the image's scratch. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12]
  rw [show (dat0 V c).Φ t.succ = Phi0 V c (t.val + 1) from rfl, show (dat0 V c).Φ t.castSucc = Phi0 V c t.val from rfl,
    show (dat0 V c).owesAt () t.succ = (dat0 V c).owesAt () t.castSucc from rfl,
    after0_0, after0_1, after0_2, after0_3, after0_4, after0_5, after0_6, after0_7, after0_8, after0_9, after0_10, after0_11, after0_12]
  unfold Phi0
  by_cases h7 : t.val % 8 = 7
  · rw [show (dat0 V c).leavesExact 13 t = owns (c : Thread nD τ) (st0_13 t) fullShare ((dat0 V c).after 13 t) from by
      unfold Dat.leavesExact; rw [live13_tail t h7], after0_13]
    iintro ⟨⟨⟨%g, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_tail (F := F) c Set.univ (grid0.coords t) _ _ _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) g ((dat0 V c).before 13 t d13) _ ((cond_iff t).mpr h7))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iintro ⟨H0, H1, H2, H3, H4, H5, H6, H7, H8, H9, H10, H11, H12, H13, HS⟩
    isplitl [HS Hg]
    · isplitl [HS]
      · iexists _; isplitr
        swap; · iexact HS
        ipureintro; exact ScrOK_step V c t g hg
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold outblk
    rw [← stored_tail V c t g hg h7]
    iexact H13
  · rw [Dat.leavesExact_idle (dat0 V c) 13 t (idle13_mid t h7) (noFlush13_mid t h7)]
    iintro ⟨⟨⟨%g, %hg, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_kernel_mid (F := F) c Set.univ (grid0.coords t) _ _ _ _ _ _ _ _ _ _ _ _ _ _ _ _ _ _ _ _ _ _ _ _ _ _ _ _ _ _
      (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) g ((dat0 V c).before 13 t d13) _ (fun e => h7 ((cond_iff t).mp e)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS]; · iexact HS
    iintro ⟨H0, H1, H2, H3, H4, H5, H6, H7, H8, H9, H10, H11, H12, H13, HS⟩
    isplitl [HS Hg]
    · isplitl [HS]
      · iexists _; isplitr
        swap; · iexact HS
        ipureintro; exact ScrOK_step V c t g hg
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KRunArr.lean ====
import proofs.«178811_g2000006188366390_pallasbulk_758_10_alg».proof.Proof.Gen.KernelIdeal.Launch
import proofs.«178811_g2000006188366390_pallasbulk_758_10_alg».proof.Proof.Gen.KernelIdeal.Skeleton
import proofs.«178811_g2000006188366390_pallasbulk_758_10_alg».proof.Proof.Gen.KernelIdeal.Points
import proofs.«178811_g2000006188366390_pallasbulk_758_10_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused kernel's run: the buffer contents at the segment boundaries, and the shared padded image

@main is a stretch of twenty host operations (the layout changes and zero paddings that build the padded image and
the weight matrices), the one kernel region, and a stretch of two (the slice of the first three channels and the
transpose back). The region's three image windows read ONE padded array: its full share is dealt among them at the
region's entry and joined again at its exit, where only the output array has changed. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the twenty host operations (the region's entry). -/
abbrev W1 : Dev nD → Valuation τ sig (Elt F) := fun c => StableHlo.after hostOps0 (W0 m ρ c)
/-- The same read at the TensorCore's references (what the region's proof data take). -/
abbrev V1 : (c : Dev nD) → (b : Ref sig .tc) → Buf (Elt F) ((c : Thread nD τ).loc b) := fun c b => W1 m ρ c b
/-- At the region's exit: the output array at what the write-backs leave, every other buffer as entered. -/
def W2 (c : Dev nD) : Valuation τ sig (Elt F) :=
  Function.update (W1 m ρ c) (Proc.devRef .tc main_call0_v12) ((dat0 (V1 m ρ) c).arrAt 13 cfg0.N)
/-- The same read at the TensorCore's references. -/
abbrev V2 : (c : Dev nD) → (b : Ref sig .tc) → Buf (Elt F) ((c : Thread nD τ).loc b) := fun c b => W2 m ρ c b
/-- After the two closing host operations (the return). -/
abbrev W3 : Dev nD → Valuation τ sig (Elt F) := fun c => StableHlo.after hostOps1 (W2 m ρ c)

theorem W2_out (c : Dev nD) :
    W2 m ρ c (Proc.devRef .tc main_call0_v12) = (dat0 (V1 m ρ) c).arrAt 13 cfg0.N := by
  unfold W2; exact Function.update_self ..
theorem W2_of_ne (c : Dev nD) (b : Ref sig .tc) (hb : b ≠ main_call0_v12) :
    W2 m ρ c (Proc.devRef .tc b) = W1 m ρ c (Proc.devRef .tc b) := by
  unfold W2; exact Function.update_of_ne (StableHlo.devRef_ne_of_ne hb) ..

/-! ## What the host stretches write -/

/-- No operation of the opening stretch allocates a buffer. -/
theorem hostOps0_fresh : (hostOps0 : List (HloOp τ sig (Elt F))).Forall fun op => op.fresh = ∅ := by
  simp only [List.Forall]; repeat' constructor
/-- No operation of the closing stretch allocates a buffer. -/
theorem hostOps1_fresh : (hostOps1 : List (HloOp τ sig (Elt F))).Forall fun op => op.fresh = ∅ := by
  simp only [List.Forall]; repeat' constructor
/-- The references the opening stretch writes. -/
abbrev hostOps0_W : List (Ref sig .tc) := [main_call0_v0, main_call0_c, main_call0_call0_v0, main_call0_v1, main_call0_c_0, main_call0_call1_v0, main_call0_v2, main_call0_v3, main_call0_v4, main_call0_v5, main_call0_v6, main_call0_v7, main_call0_v8, main_call0_c_1, main_call0_call2_v0, main_call0_v9, main_call0_c_2, main_call0_call3_v0, main_call0_v10, main_call0_v11]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- The references the closing stretch writes. -/
abbrev hostOps1_W : List (Ref sig .tc) := [main_call0_v13, main_v0]
theorem hostOps1_writes : (hostOps1 : List (HloOp τ sig (Elt F))).Forall fun op => op.writes ⊆ (hostOps1_W.map (Proc.devRef (τ := τ) .tc)).toFinset := by
  simp only [List.Forall]
  refine ⟨?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- A buffer the opening stretch does not write holds at the region's entry what it held at launch. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the closing stretch does not write holds at the return what it held at the region's exit. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- An argument array ends as launched: neither stretch writes it and it is not the region's output. -/
theorem W3_arg (c : Dev nD) (r : Ref sig .tc) (h1 : r ∉ hostOps1_W) (h2 : r ≠ main_call0_v12) (h0 : r ∉ hostOps0_W) :
    W3 m ρ c (Proc.devRef .tc r) = m ((c : Thread nD τ).loc r) :=
  (W3_of m ρ c r h1).trans <| (W2_of_ne m ρ c r h2).trans <| (W1_of m ρ c r h0).trans rfl

/-! ## The shared padded image: the windows' arrays out of the unscoped buffers and back -/

section Arrays
variable (V : (c : Dev nD) → (b : Ref sig .tc) → Buf (Elt F) ((c : Thread nD τ).loc b))

/-- The twelve distinct buffers behind the fourteen windows' arrays, listed. -/
theorem arrBufs0_eq (c : Dev nD) (A : (b : Ref sig .tc) → Buf (Elt F) ((c : Thread nD τ).loc b)) :
    (Pipeline.arrBufs (Ix := Unit) (Name := ℕ) (U := UR sig nD τ) (Lvl := ℕ) spec0 c A : sProp 𝕄)
      = iprop((((c : Thread nD τ).loc main_call0_v1) ↦{fullShare} A main_call0_v1) ∗ (((c : Thread nD τ).loc main_call0_v3) ↦{fullShare} A main_call0_v3) ∗ (((c : Thread nD τ).loc main_call0_v4) ↦{fullShare} A main_call0_v4) ∗ (((c : Thread nD τ).loc main_arg3) ↦{fullShare} A main_arg3) ∗ (((c : Thread nD τ).loc main_call0_v5) ↦{fullShare} A main_call0_v5) ∗ (((c : Thread nD τ).loc main_arg5) ↦{fullShare} A main_arg5) ∗ (((c : Thread nD τ).loc main_call0_v6) ↦{fullShare} A main_call0_v6) ∗ (((c : Thread nD τ).loc main_arg7) ↦{fullShare} A main_arg7) ∗ (((c : Thread nD τ).loc main_call0_v7) ↦{fullShare} A main_call0_v7) ∗ (((c : Thread nD τ).loc main_call0_v9) ↦{fullShare} A main_call0_v9) ∗ (((c : Thread nD τ).loc main_call0_v11) ↦{fullShare} A main_call0_v11) ∗ (((c : Thread nD τ).loc main_call0_v12) ↦{fullShare} A main_call0_v12)) := by
  unfold Pipeline.arrBufs
  exact bigSep_eq_bigSepL_of_eq [main_call0_v1, main_call0_v3, main_call0_v4, main_arg3, main_call0_v5, main_arg5, main_call0_v6, main_arg7, main_call0_v7, main_call0_v9, main_call0_v11, main_call0_v12] (by decide) (by decide) _

/-- The share each window's array is held at: the padded image's dealt among its three windows, every other whole. -/
theorem share0 (c : Dev nD) (w : Fin 14) : (dat0 V c).share w = (if w = 13 then fullShare else q0 w) := by
  unfold Dat.share; rw [q_eq0]
  revert w; decide

/-- The windows' arrays, window by window, each a whole buffer at its share. -/
theorem arrays0_eq (c : Dev nD) (Fn : (w : Fin cfg0.W) → Buf (Elt F) ((cfg0.win w).arr.view.loc (c.tc : Thread nD τ))) :
    ((dat0 V c).arrays Fn : sProp 𝕄)
      = iprop((((c : Thread nD τ).loc main_call0_v1) ↦{fullShare.left} Fn 0) ∗ (((c : Thread nD τ).loc main_call0_v1) ↦{fullShare.right.left} Fn 1) ∗ (((c : Thread nD τ).loc main_call0_v1) ↦{fullShare.right.right} Fn 2) ∗ (((c : Thread nD τ).loc main_call0_v3) ↦{fullShare} Fn 3) ∗ (((c : Thread nD τ).loc main_call0_v4) ↦{fullShare} Fn 4) ∗ (((c : Thread nD τ).loc main_arg3) ↦{fullShare} Fn 5) ∗ (((c : Thread nD τ).loc main_call0_v5) ↦{fullShare} Fn 6) ∗ (((c : Thread nD τ).loc main_arg5) ↦{fullShare} Fn 7) ∗ (((c : Thread nD τ).loc main_call0_v6) ↦{fullShare} Fn 8) ∗ (((c : Thread nD τ).loc main_arg7) ↦{fullShare} Fn 9) ∗ (((c : Thread nD τ).loc main_call0_v7) ↦{fullShare} Fn 10) ∗ (((c : Thread nD τ).loc main_call0_v9) ↦{fullShare} Fn 11) ∗ (((c : Thread nD τ).loc main_call0_v11) ↦{fullShare} Fn 12) ∗ (((c : Thread nD τ).loc main_call0_v12) ↦{fullShare} Fn 13)) := by
  have h : ((dat0 V c).arrays Fn : sProp 𝕄)
      = bigSep Finset.univ fun w : Fin 14 => (((c.tc : Thread nD τ).loc (Pipeline.arrRef spec0 w)) ↦{(dat0 V c).share w} Fn w : sProp 𝕄) := by
    unfold Dat.arrays
    exact bigSep_congr fun w _ => by rw [(arr_whole0 w).set_eq_univ]
  rw [h, bigSep_W0]
  simp only [share0]
  rfl
end Arrays

section Arrays
variable (V : (c : Dev nD) → (b : Ref sig .tc) → Buf (Elt F) ((c : Thread nD τ).loc b))

/-- ENTRY: the buffers behind the arrays, each whole, are the windows' arrays at the entry contents — the padded
    image's full share dealt left / right-left / right-right among the three windows that read it. -/
theorem arrays_split0 (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [arrBufs0_eq, arrays0_eq]
  iintro ⟨H1, H3, H4, H5, H6, H7, H8, H9, H10, H11, H12, H13⟩
  ihave H1' := (pointsTo_share (PosShare.mem_left_op_right fullShare)).1 $$ H1
  icases H1' with ⟨Ha, Hb⟩
  ihave Hb' := (pointsTo_share (PosShare.mem_left_op_right fullShare.right)).1 $$ Hb
  icases Hb' with ⟨Hb, Hc⟩
  isplitl [Ha]; · iexact Ha
  isplitl [Hb]; · iexact Hb
  isplitl [Hc]; · iexact Hc
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

omit [FloatOps F] in
/-- A points-to at equal contents. -/
theorem pointsTo_of_eq {ℓ : Loc nD τ sig} {q : PosShare TreeShare} {f g : Buf (Elt F) ℓ} (h : f = g) :
    (ℓ ↦{q} f : sProp 𝕄) ⊢ ℓ ↦{q} g := Entails.of_eq (by rw [h])

/-- Every window but the last reads its array and never writes it. -/
theorem isOut0 : ∀ w : Fin 14, w ≠ 13 → (cfg0.win w).isOut = false := by decide

/-- EXIT: the windows' arrays after the write-backs of the points below `n` are the buffers behind them, each whole, at any contents that
    have the output array at what the write-backs leave and every other buffer as entered: the three shares of the
    padded image, which no window writes, join again. -/
theorem arrays_join0 (c : Dev nD) (n : ℕ) (A' : (b : Ref sig .tc) → Buf (Elt F) ((c : Thread nD τ).loc b))
    (hne : ∀ b, b ≠ main_call0_v12 → A' b = V c b) (hout : A' main_call0_v12 = (dat0 V c).arrAt 13 n) :
    ((dat0 V c).arrays ((dat0 V c).arrAt · n) : sProp 𝕄)
      ⊢ Pipeline.arrBufs (Ix := Unit) (Name := ℕ) (U := UR sig nD τ) (Lvl := ℕ) spec0 c A' := by
  have e : ∀ (w : Fin 14) (hw : w ≠ 13), (dat0 V c).arrAt w n = V c (Pipeline.arrRef spec0 w) := fun w hw =>
    (Dat.arrAt_in (dat0 V c) w (isOut0 w hw) n).trans (A_eq0 V c w)
  rw [arrBufs0_eq, arrays0_eq]
  iintro ⟨Ha, Hb, Hc, H3, H4, H5, H6, H7, H8, H9, H10, H11, H12, H13⟩
  ihave Ha := pointsTo_of_eq ((e 0 (by decide)).trans (hne main_call0_v1 (by decide)).symm) $$ Ha
  ihave Hb := pointsTo_of_eq ((e 1 (by decide)).trans (hne main_call0_v1 (by decide)).symm) $$ Hb
  ihave Hc := pointsTo_of_eq ((e 2 (by decide)).trans (hne main_call0_v1 (by decide)).symm) $$ Hc
  ihave H3 := pointsTo_of_eq ((e 3 (by decide)).trans (hne main_call0_v3 (by decide)).symm) $$ H3
  ihave H4 := pointsTo_of_eq ((e 4 (by decide)).trans (hne main_call0_v4 (by decide)).symm) $$ H4
  ihave H5 := pointsTo_of_eq ((e 5 (by decide)).trans (hne main_arg3 (by decide)).symm) $$ H5
  ihave H6 := pointsTo_of_eq ((e 6 (by decide)).trans (hne main_call0_v5 (by decide)).symm) $$ H6
  ihave H7 := pointsTo_of_eq ((e 7 (by decide)).trans (hne main_arg5 (by decide)).symm) $$ H7
  ihave H8 := pointsTo_of_eq ((e 8 (by decide)).trans (hne main_call0_v6 (by decide)).symm) $$ H8
  ihave H9 := pointsTo_of_eq ((e 9 (by decide)).trans (hne main_arg7 (by decide)).symm) $$ H9
  ihave H10 := pointsTo_of_eq ((e 10 (by decide)).trans (hne main_call0_v7 (by decide)).symm) $$ H10
  ihave H11 := pointsTo_of_eq ((e 11 (by decide)).trans (hne main_call0_v9 (by decide)).symm) $$ H11
  ihave H12 := pointsTo_of_eq ((e 12 (by decide)).trans (hne main_call0_v11 (by decide)).symm) $$ H12
  ihave H13 := pointsTo_of_eq hout.symm $$ H13
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- ENTRY, out of all the unscoped buffers: the windows' arrays at the entry contents and the unscoped rest. -/
theorem unscopedBufs_arrays0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_split0 V c) .rfl

/-- EXIT, back among all the unscoped buffers, at contents that differ from the entry's at the output array only. -/
theorem arrays_unscopedBufs0 (c : Dev nD) (n : ℕ) (A' : (b : Ref sig .tc) → Buf (Elt F) ((c : Thread nD τ).loc b))
    (hne : ∀ b, b ≠ main_call0_v12 → A' b = V c b) (hout : A' main_call0_v12 = (dat0 V c).arrAt 13 n) :
    iprop((dat0 V c).arrays ((dat0 V c).arrAt · n)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c A' : sProp 𝕄) := by
  rw [Pipeline.unscopedBufs_split₀ cfgs 0 winFacts₀0.arr_unscoped c A']
  refine sep_mono (arrays_join0 V c n A' hne hout) (Entails.of_eq ?_)
  unfold Pipeline.unscopedRest
  exact bigSep_congr fun b hb => by
    rw [hne b fun e => (Finset.mem_sdiff.mp hb).2 (Finset.mem_image.mpr ⟨13, Finset.mem_univ _, e.symm⟩)]
end Arrays

end Cert.KernelIdeal.Hand

end
-- ==== Proof.KRun.lean ====
import proofs.«178811_g2000006188366390_pallasbulk_758_10_alg».proof.Proof.Gen.KernelIdeal.Launch
import proofs.«178811_g2000006188366390_pallasbulk_758_10_alg».proof.Proof.Gen.KernelIdeal.Skeleton
import proofs.«178811_g2000006188366390_pallasbulk_758_10_alg».proof.Proof.Gen.KernelIdeal.Points
import proofs.«178811_g2000006188366390_pallasbulk_758_10_alg».proof.Proof.KBodyB
import proofs.«178811_g2000006188366390_pallasbulk_758_10_alg».proof.Proof.KRunArr
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The fused kernel's run

@main is a stretch of twenty host operations (the layout changes and zero paddings that build the padded image and
the weight matrices), the one kernel region, and a stretch of two (the slice of the first three channels and the
transpose back). The region's three image windows read ONE padded array: its full share is dealt among them at the
region's entry and joined again at its exit, where only the output array has changed. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: the pipeline has no table. -/
abbrev adm : (p : Fin 1) → (pcfgs (F := F) p).Adm := fun p => (cfgs p).toPCfg_adm
/-- The pipeline's proof data at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register
    at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (StableHlo.held (c : Thread nD τ) (Pipeline.ucRefs τ sig) (W1 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V1 m ρ c)) := by
      rw [← Pipeline.unscopedBufs_held]; exact unscopedBufs_arrays0 (V1 m ρ) c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (Phi_in (V1 m ρ) c)
    unfold Pipeline.ΦA
    iintro ⟨Hp, -, Hr⟩
    isplitl [Hr]; · iexact Hr
    iexact Hp
  hout c := by
    rw [Pipeline.ownSems0_none]
    refine (Phi_out (V1 m ρ) c _).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (StableHlo.held (c : Thread nD τ) (Pipeline.ucRefs τ sig) (W2 m ρ c) : sProp 𝕄) := by
      rw [← Pipeline.unscopedBufs_held]
      exact arrays_unscopedBufs0 (V1 m ρ) c cfg0.N (V2 m ρ c) (fun b hb => W2_of_ne m ρ c b hb) (W2_out m ρ c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds the result at what the valuations compute and the argument arrays as launched. -/
theorem run : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c =>
      (show iprop(StableHlo.held (c : Thread nD τ) (Pipeline.ucRefs τ sig) (W3 m ρ c) ∗ R c)
          ⊢ iprop(Tₙ m ρ c ∗ ∃ W, owes (c : Thread nD τ) (0 : CellTallies nD τ sig Unit) W) from by
        iintro ⟨Hh, Hr, HO⟩
        isplitr [HO]
        · isplitl [Hh]; · iexact Hh
          iexact Hr
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_arg m ρ c main_arg0 (by decide) (by decide) (by decide)),
       (h c _ (mem_uc main_arg1 (by decide))).trans (W3_arg m ρ c main_arg1 (by decide) (by decide) (by decide)),
       (h c _ (mem_uc main_arg2 (by decide))).trans (W3_arg m ρ c main_arg2 (by decide) (by decide) (by decide)),
       (h c _ (mem_uc main_arg3 (by decide))).trans (W3_arg m ρ c main_arg3 (by decide) (by decide) (by decide)),
       (h c _ (mem_uc main_arg4 (by decide))).trans (W3_arg m ρ c main_arg4 (by decide) (by decide) (by decide)),
       (h c _ (mem_uc main_arg5 (by decide))).trans (W3_arg m ρ c main_arg5 (by decide) (by decide) (by decide)),
       (h c _ (mem_uc main_arg6 (by decide))).trans (W3_arg m ρ c main_arg6 (by decide) (by decide) (by decide)),
       (h c _ (mem_uc main_arg7 (by decide))).trans (W3_arg m ρ c main_arg7 (by decide) (by decide) (by decide)),
       (h c _ (mem_uc main_arg8 (by decide))).trans (W3_arg m ρ c main_arg8 (by decide) (by decide) (by decide)),
       (h c _ (mem_uc main_arg9 (by decide))).trans (W3_arg m ρ c main_arg9 (by decide) (by decide) (by decide)),
       (h c _ (mem_uc main_arg10 (by decide))).trans (W3_arg m ρ c main_arg10 (by decide) (by decide) (by decide))⟩)

/-- info: 'Cert.KernelIdeal.Hand.run' depends on axioms: [propext, Classical.choice, Quot.sound] -/
#guard_msgs in #print axioms run

end Cert.KernelIdeal.Hand

end
-- ==== Proof.KBlocks.lean ====
/-
  From blocks to arrays, for the fused kernel's one region.

  The output array: image n's [1, 32, 32, 8] block is written back once, at the last strip's point 8 n + 7, so after
  the region the array at (n, h, x, o) is that point's output block at (0, h, x, o).

  The input blocks: the three image windows share the padded array; at point (n, s) window k's block is rows
  16 (2 s + k) .. 16 (2 s + k) + 15 of image n (a block's coordinate is always index * size + the coordinate inside the
  block); every other window's one block is its whole array.
-/
import proofs.«178811_g2000006188366390_pallasbulk_758_10_alg».proof.Proof.KBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window BodyObligation cellOf)

variable (V : (c : Dev nD) → (b : Ref sig .tc) → Buf (Elt Ideal) ((c : Thread nD τ).loc b))

/-! ## The index maps, decided once over the grid -/

theorem idx13 : ∀ t : Fin cfg0.N, win0_13.index t 0 = t.val / 8 ∧ win0_13.index t 1 = 0 ∧ win0_13.index t 2 = 0 ∧ win0_13.index t 3 = 0 :=
  (by decide +kernel : ∀ t : Fin grid0.N, win0_13.index t 0 = t.val / 8 ∧ win0_13.index t 1 = 0 ∧ win0_13.index t 2 = 0 ∧ win0_13.index t 3 = 0)

theorem idx0 : ∀ t : Fin cfg0.N, win0_0.index t 0 = t.val / 8 ∧ win0_0.index t 1 = 2 * (t.val % 8) ∧ win0_0.index t 2 = 0 ∧ win0_0.index t 3 = 0 :=
  (by decide +kernel : ∀ t : Fin grid0.N, win0_0.index t 0 = t.val / 8 ∧ win0_0.index t 1 = 2 * (t.val % 8) ∧ win0_0.index t 2 = 0 ∧ win0_0.index t 3 = 0)

theorem idx1 : ∀ t : Fin cfg0.N, win0_1.index t 0 = t.val / 8 ∧ win0_1.index t 1 = 2 * (t.val % 8) + 1 ∧ win0_1.index t 2 = 0 ∧ win0_1.index t 3 = 0 :=
  (by decide +kernel : ∀ t : Fin grid0.N, win0_1.index t 0 = t.val / 8 ∧ win0_1.index t 1 = 2 * (t.val % 8) + 1 ∧ win0_1.index t 2 = 0 ∧ win0_1.index t 3 = 0)

theorem idx2 : ∀ t : Fin cfg0.N, win0_2.index t 0 = t.val / 8 ∧ win0_2.index t 1 = 2 * (t.val % 8) + 2 ∧ win0_2.index t 2 = 0 ∧ win0_2.index t 3 = 0 :=
  (by decide +kernel : ∀ t : Fin grid0.N, win0_2.index t 0 = t.val / 8 ∧ win0_2.index t 1 = 2 * (t.val % 8) + 2 ∧ win0_2.index t 2 = 0 ∧ win0_2.index t 3 = 0)

/-! ## The output array -/

/-- The output array as one function: at (n, h, x, o) the output block of image n's last point at (0, h, x, o). -/
def outArr (c : Dev nD) : S32x32x32x8.Idx → EReal := fun i =>
  outblk V c (pt (i 0) 7) (ix4 0 (i 1) (i 2) (i 3))

/-- What a write-back writes is that function's block. -/
theorem flushed13_eq (c : Dev nD) (t : Fin cfg0.N) (hf : (cfg0.win 13).flush t = true) :
    (dat0 V c).flushed 13 t = ((cfg0.win 13).blk t).view.read (Elt Ideal) (outArr V c) := by
  have h7 : t.val % 8 = 7 := (flush0_13 t).mp hf
  have hN : cfg0.N = 256 := N_0
  have ht := t.isLt
  obtain ⟨i0, i1, i2, i3⟩ := idx13 t
  show (cfg0.win 13).cut (grid0.coords t) ((dat0 V c).after 13 t) = _
  rw [after0_13]
  funext y
  rw [View.read_apply]
  show outblk V c t y = outArr V c _
  unfold outArr
  have hpt : pt (((cfg0.win 13).blk t).view.emb y 0) 7 = t := by
    apply Fin.ext
    show 8 * (win0_13.index t 0 * 1 + 1 * (y 0).val) + 7 = t.val
    have hy0 : (y 0).val < 1 := (y 0).isLt
    rw [i0]; omega
  rw [hpt]
  refine congrArg (outblk V c t) (funext fun a => Fin.ext ?_)
  match a with
  | ⟨0, _⟩ => show (y 0).val = 0; have hy0 : (y 0).val < 1 := (y 0).isLt; omega
  | ⟨1, _⟩ => show (y 1).val = win0_13.index t 1 * 32 + 1 * (y 1).val; rw [i1]; omega
  | ⟨2, _⟩ => show (y 2).val = win0_13.index t 2 * 32 + 1 * (y 2).val; rw [i2]; omega
  | ⟨3, _⟩ => show (y 3).val = win0_13.index t 3 * 8 + 1 * (y 3).val; rw [i3]; omega

/-- Image n's block is covered by the write-back of point 8 n + 7. -/
theorem cover13 (i : S32x32x32x8.Idx) :
    ∃ t : Fin cfg0.N, (cfg0.win 13).flush t = true ∧ i ∈ ((cfg0.win 13).blk t).view.set := by
  refine ⟨pt (i 0) 7, (flush0_13 _).mpr (by show (8 * (i 0).val + 7) % 8 = 7; omega), ?_⟩
  obtain ⟨i0, i1, i2, i3⟩ := idx13 (pt (i 0) 7)
  show i ∈ ((View.whole main_call0_v12).slice (win0_13.rect (pt (i 0) 7))).set
  rw [View.set_slice_whole, Rect.mem_set_unit]
  intro a
  have h0 : (i 0 : Nat) < 32 := (i 0).isLt
  have h1 : (i 1 : Nat) < 32 := (i 1).isLt
  have h2 : (i 2 : Nat) < 32 := (i 2).isLt
  have h3 : (i 3 : Nat) < 8 := (i 3).isLt
  match a with
  | ⟨0, _⟩ => show win0_13.index (pt (i 0) 7) 0 * 1 ≤ (i 0 : Nat) ∧ (i 0 : Nat) < win0_13.index (pt (i 0) 7) 0 * 1 + 1
              rw [i0]
              show (8 * (i 0 : Nat) + 7) / 8 * 1 ≤ (i 0 : Nat) ∧ (i 0 : Nat) < (8 * (i 0 : Nat) + 7) / 8 * 1 + 1
              omega
  | ⟨1, _⟩ => show win0_13.index (pt (i 0) 7) 1 * 32 ≤ (i 1 : Nat) ∧ (i 1 : Nat) < win0_13.index (pt (i 0) 7) 1 * 32 + 32
              rw [i1]; omega
  | ⟨2, _⟩ => show win0_13.index (pt (i 0) 7) 2 * 32 ≤ (i 2 : Nat) ∧ (i 2 : Nat) < win0_13.index (pt (i 0) 7) 2 * 32 + 32
              rw [i2]; omega
  | ⟨3, _⟩ => show win0_13.index (pt (i 0) 7) 3 * 8 ≤ (i 3 : Nat) ∧ (i 3 : Nat) < win0_13.index (pt (i 0) 7) 3 * 8 + 8
              rw [i3]; omega

/-- The output array after the region. -/
theorem arr13_eq (c : Dev nD) : (dat0 V c).arrAt 13 cfg0.N = outArr V c :=
  (dat0 V c).arrAt_eq_of_cover 13 (outArr V c) (flushed13_eq V c) cover13

theorem arr13_apply (c : Dev nD) (n h x : Fin 32) (o : Fin 8) :
    (dat0 V c).arrAt 13 cfg0.N (ix4 n h x o) = outblk V c (pt n 7) (ix4 0 h x o) :=
  congrFun (arr13_eq V c) (ix4 n h x o)

/-! ## The input blocks -/

/-- Image window 0 at point (n, s): rows 32 s .. of image n of the padded array. -/
theorem iblk_img0 (c : Dev nD) (n : Fin 32) (s : Fin 8) (r : Fin 16) (j : Fin 258) (ch : Fin 8) :
    (iblk0 V c 0 (pt n s) : S1x16x258x8.Idx → EReal) (ix4 0 r j ch)
      = (V c main_call0_v1 : S32x288x258x8.Idx → EReal)
          (ix4 n ⟨32 * s.val + r.val, by have := s.isLt; have := r.isLt; omega⟩ j ch) := by
  obtain ⟨i0, i1, i2, i3⟩ := idx0 (pt n s)
  have hn := n.isLt; have hs := s.isLt; have hr := r.isLt
  unfold iblk0
  rw [View.read_apply]
  show (V c main_call0_v1 : S32x288x258x8.Idx → EReal) _ = _
  refine congrArg (V c main_call0_v1 : S32x288x258x8.Idx → EReal) (funext fun a => Fin.ext ?_)
  match a with
  | ⟨0, _⟩ => show win0_0.index (pt n s) 0 * 1 + 1 * 0 = n.val
              rw [i0]; show (8 * n.val + s.val) / 8 * 1 + 1 * 0 = n.val; omega
  | ⟨1, _⟩ => show win0_0.index (pt n s) 1 * 16 + 1 * r.val = 32 * s.val + r.val
              rw [i1]; show 2 * ((8 * n.val + s.val) % 8) * 16 + 1 * r.val = 32 * s.val + r.val; omega
  | ⟨2, _⟩ => show win0_0.index (pt n s) 2 * 258 + 1 * j.val = j.val
              rw [i2]; omega
  | ⟨3, _⟩ => show win0_0.index (pt n s) 3 * 8 + 1 * ch.val = ch.val
              rw [i3]; omega

/-- Image window 1 at point (n, s): rows 32 s + 16 .. of image n of the padded array. -/
theorem iblk_img1 (c : Dev nD) (n : Fin 32) (s : Fin 8) (r : Fin 16) (j : Fin 258) (ch : Fin 8) :
    (iblk0 V c 1 (pt n s) : S1x16x258x8.Idx → EReal) (ix4 0 r j ch)
      = (V c main_call0_v1 : S32x288x258x8.Idx → EReal)
          (ix4 n ⟨32 * s.val + 16 + r.val, by have := s.isLt; have := r.isLt; omega⟩ j ch) := by
  obtain ⟨i0, i1, i2, i3⟩ := idx1 (pt n s)
  have hn := n.isLt; have hs := s.isLt; have hr := r.isLt
  unfold iblk0
  rw [View.read_apply]
  show (V c main_call0_v1 : S32x288x258x8.Idx → EReal) _ = _
  refine congrArg (V c main_call0_v1 : S32x288x258x8.Idx → EReal) (funext fun a => Fin.ext ?_)
  match a with
  | ⟨0, _⟩ => show win0_1.index (pt n s) 0 * 1 + 1 * 0 = n.val
              rw [i0]; show (8 * n.val + s.val) / 8 * 1 + 1 * 0 = n.val; omega
  | ⟨1, _⟩ => show win0_1.index (pt n s) 1 * 16 + 1 * r.val = 32 * s.val + 16 + r.val
              rw [i1]; show (2 * ((8 * n.val + s.val) % 8) + 1) * 16 + 1 * r.val = 32 * s.val + 16 + r.val; omega
  | ⟨2, _⟩ => show win0_1.index (pt n s) 2 * 258 + 1 * j.val = j.val
              rw [i2]; omega
  | ⟨3, _⟩ => show win0_1.index (pt n s) 3 * 8 + 1 * ch.val = ch.val
              rw [i3]; omega

/-- Image window 2 at point (n, s): rows 32 s + 32 .. of image n of the padded array. -/
theorem iblk_img2 (c : Dev nD) (n : Fin 32) (s : Fin 8) (r : Fin 16) (j : Fin 258) (ch : Fin 8) :
    (iblk0 V c 2 (pt n s) : S1x16x258x8.Idx → EReal) (ix4 0 r j ch)
      = (V c main_call0_v1 : S32x288x258x8.Idx → EReal)
          (ix4 n ⟨32 * s.val + 32 + r.val, by have := s.isLt; have := r.isLt; omega⟩ j ch) := by
  obtain ⟨i0, i1, i2, i3⟩ := idx2 (pt n s)
  have hn := n.isLt; have hs := s.isLt; have hr := r.isLt
  unfold iblk0
  rw [View.read_apply]
  show (V c main_call0_v1 : S32x288x258x8.Idx → EReal) _ = _
  refine congrArg (V c main_call0_v1 : S32x288x258x8.Idx → EReal) (funext fun a => Fin.ext ?_)
  match a with
  | ⟨0, _⟩ => show win0_2.index (pt n s) 0 * 1 + 1 * 0 = n.val
              rw [i0]; show (8 * n.val + s.val) / 8 * 1 + 1 * 0 = n.val; omega
  | ⟨1, _⟩ => show win0_2.index (pt n s) 1 * 16 + 1 * r.val = 32 * s.val + 32 + r.val
              rw [i1]; show (2 * ((8 * n.val + s.val) % 8) + 2) * 16 + 1 * r.val = 32 * s.val + 32 + r.val; omega
  | ⟨2, _⟩ => show win0_2.index (pt n s) 2 * 258 + 1 * j.val = j.val
              rw [i2]; omega
  | ⟨3, _⟩ => show win0_2.index (pt n s) 3 * 8 + 1 * ch.val = ch.val
              rw [i3]; omega

theorem idxZ3 : ∀ t : Fin cfg0.N, ∀ a, win0_3.index t a = 0 :=
  (by decide +kernel : ∀ t : Fin grid0.N, ∀ a, win0_3.index t a = 0)

/-- Window 3's one block is its whole array. -/
theorem iblk_whole3 (c : Dev nD) (t : Fin cfg0.N) :
    (iblk0 V c 3 t : S72x64.Idx → EReal) = (V c main_call0_v3 : S72x64.Idx → EReal) := by
  funext y
  unfold iblk0
  rw [View.read_apply]
  show (V c main_call0_v3 : S72x64.Idx → EReal) _ = _
  refine congrArg (V c main_call0_v3 : S72x64.Idx → EReal) (funext fun a => Fin.ext ?_)
  show win0_3.index t a * S72x64.size a + 1 * (y a).val = (y a).val
  rw [idxZ3 t a]; omega

theorem idxZ4 : ∀ t : Fin cfg0.N, ∀ a, win0_4.index t a = 0 :=
  (by decide +kernel : ∀ t : Fin grid0.N, ∀ a, win0_4.index t a = 0)

/-- Window 4's one block is its whole array. -/
theorem iblk_whole4 (c : Dev nD) (t : Fin cfg0.N) :
    (iblk0 V c 4 t : S1x64.Idx → EReal) = (V c main_call0_v4 : S1x64.Idx → EReal) := by
  funext y
  unfold iblk0
  rw [View.read_apply]
  show (V c main_call0_v4 : S1x64.Idx → EReal) _ = _
  refine congrArg (V c main_call0_v4 : S1x64.Idx → EReal) (funext fun a => Fin.ext ?_)
  show win0_4.index t a * S1x64.size a + 1 * (y a).val = (y a).val
  rw [idxZ4 t a]; omega

theorem idxZ5 : ∀ t : Fin cfg0.N, ∀ a, win0_5.index t a = 0 :=
  (by decide +kernel : ∀ t : Fin grid0.N, ∀ a, win0_5.index t a = 0)

/-- Window 5's one block is its whole array. -/
theorem iblk_whole5 (c : Dev nD) (t : Fin cfg0.N) :
    (iblk0 V c 5 t : S2x2x64x64.Idx → EReal) = (V c main_arg3 : S2x2x64x64.Idx → EReal) := by
  funext y
  unfold iblk0
  rw [View.read_apply]
  show (V c main_arg3 : S2x2x64x64.Idx → EReal) _ = _
  refine congrArg (V c main_arg3 : S2x2x64x64.Idx → EReal) (funext fun a => Fin.ext ?_)
  show win0_5.index t a * S2x2x64x64.size a + 1 * (y a).val = (y a).val
  rw [idxZ5 t a]; omega

theorem idxZ6 : ∀ t : Fin cfg0.N, ∀ a, win0_6.index t a = 0 :=
  (by decide +kernel : ∀ t : Fin grid0.N, ∀ a, win0_6.index t a = 0)

/-- Window 6's one block is its whole array. -/
theorem iblk_whole6 (c : Dev nD) (t : Fin cfg0.N) :
    (iblk0 V c 6 t : S1x64.Idx → EReal) = (V c main_call0_v5 : S1x64.Idx → EReal) := by
  funext y
  unfold iblk0
  rw [View.read_apply]
  show (V c main_call0_v5 : S1x64.Idx → EReal) _ = _
  refine congrArg (V c main_call0_v5 : S1x64.Idx → EReal) (funext fun a => Fin.ext ?_)
  show win0_6.index t a * S1x64.size a + 1 * (y a).val = (y a).val
  rw [idxZ6 t a]; omega

theorem idxZ7 : ∀ t : Fin cfg0.N, ∀ a, win0_7.index t a = 0 :=
  (by decide +kernel : ∀ t : Fin grid0.N, ∀ a, win0_7.index t a = 0)

/-- Window 7's one block is its whole array. -/
theorem iblk_whole7 (c : Dev nD) (t : Fin cfg0.N) :
    (iblk0 V c 7 t : S2x2x64x64.Idx → EReal) = (V c main_arg5 : S2x2x64x64.Idx → EReal) := by
  funext y
  unfold iblk0
  rw [View.read_apply]
  show (V c main_arg5 : S2x2x64x64.Idx → EReal) _ = _
  refine congrArg (V c main_arg5 : S2x2x64x64.Idx → EReal) (funext fun a => Fin.ext ?_)
  show win0_7.index t a * S2x2x64x64.size a + 1 * (y a).val = (y a).val
  rw [idxZ7 t a]; omega

theorem idxZ8 : ∀ t : Fin cfg0.N, ∀ a, win0_8.index t a = 0 :=
  (by decide +kernel : ∀ t : Fin grid0.N, ∀ a, win0_8.index t a = 0)

/-- Window 8's one block is its whole array. -/
theorem iblk_whole8 (c : Dev nD) (t : Fin cfg0.N) :
    (iblk0 V c 8 t : S1x64.Idx → EReal) = (V c main_call0_v6 : S1x64.Idx → EReal) := by
  funext y
  unfold iblk0
  rw [View.read_apply]
  show (V c main_call0_v6 : S1x64.Idx → EReal) _ = _
  refine congrArg (V c main_call0_v6 : S1x64.Idx → EReal) (funext fun a => Fin.ext ?_)
  show win0_8.index t a * S1x64.size a + 1 * (y a).val = (y a).val
  rw [idxZ8 t a]; omega

theorem idxZ9 : ∀ t : Fin cfg0.N, ∀ a, win0_9.index t a = 0 :=
  (by decide +kernel : ∀ t : Fin grid0.N, ∀ a, win0_9.index t a = 0)

/-- Window 9's one block is its whole array. -/
theorem iblk_whole9 (c : Dev nD) (t : Fin cfg0.N) :
    (iblk0 V c 9 t : S2x2x64x64.Idx → EReal) = (V c main_arg7 : S2x2x64x64.Idx → EReal) := by
  funext y
  unfold iblk0
  rw [View.read_apply]
  show (V c main_arg7 : S2x2x64x64.Idx → EReal) _ = _
  refine congrArg (V c main_arg7 : S2x2x64x64.Idx → EReal) (funext fun a => Fin.ext ?_)
  show win0_9.index t a * S2x2x64x64.size a + 1 * (y a).val = (y a).val
  rw [idxZ9 t a]; omega

theorem idxZ10 : ∀ t : Fin cfg0.N, ∀ a, win0_10.index t a = 0 :=
  (by decide +kernel : ∀ t : Fin grid0.N, ∀ a, win0_10.index t a = 0)

/-- Window 10's one block is its whole array. -/
theorem iblk_whole10 (c : Dev nD) (t : Fin cfg0.N) :
    (iblk0 V c 10 t : S1x64.Idx → EReal) = (V c main_call0_v7 : S1x64.Idx → EReal) := by
  funext y
  unfold iblk0
  rw [View.read_apply]
  show (V c main_call0_v7 : S1x64.Idx → EReal) _ = _
  refine congrArg (V c main_call0_v7 : S1x64.Idx → EReal) (funext fun a => Fin.ext ?_)
  show win0_10.index t a * S1x64.size a + 1 * (y a).val = (y a).val
  rw [idxZ10 t a]; omega

theorem idxZ11 : ∀ t : Fin cfg0.N, ∀ a, win0_11.index t a = 0 :=
  (by decide +kernel : ∀ t : Fin grid0.N, ∀ a, win0_11.index t a = 0)

/-- Window 11's one block is its whole array. -/
theorem iblk_whole11 (c : Dev nD) (t : Fin cfg0.N) :
    (iblk0 V c 11 t : S576x8.Idx → EReal) = (V c main_call0_v9 : S576x8.Idx → EReal) := by
  funext y
  unfold iblk0
  rw [View.read_apply]
  show (V c main_call0_v9 : S576x8.Idx → EReal) _ = _
  refine congrArg (V c main_call0_v9 : S576x8.Idx → EReal) (funext fun a => Fin.ext ?_)
  show win0_11.index t a * S576x8.size a + 1 * (y a).val = (y a).val
  rw [idxZ11 t a]; omega

theorem idxZ12 : ∀ t : Fin cfg0.N, ∀ a, win0_12.index t a = 0 :=
  (by decide +kernel : ∀ t : Fin grid0.N, ∀ a, win0_12.index t a = 0)

/-- Window 12's one block is its whole array. -/
theorem iblk_whole12 (c : Dev nD) (t : Fin cfg0.N) :
    (iblk0 V c 12 t : S1x8.Idx → EReal) = (V c main_call0_v11 : S1x8.Idx → EReal) := by
  funext y
  unfold iblk0
  rw [View.read_apply]
  show (V c main_call0_v11 : S1x8.Idx → EReal) _ = _
  refine congrArg (V c main_call0_v11 : S1x8.Idx → EReal) (funext fun a => Fin.ext ?_)
  show win0_12.index t a * S1x8.size a + 1 * (y a).val = (y a).val
  rw [idxZ12 t a]; omega

end Cert.KernelIdeal.Hand

end
-- ==== Proof.LibHostReads.lean ====
/-
  General facts for reading, at one index, the arrays that a program's host-side preparation builds:

  * a padded array at an index inside the operand is the operand there, and at an index past the operand's extent on
    some axis is the padding value (`pad_apply_in`, `pad_apply_out`);
  * two matrices of R rows each, joined along axis 0, read at a row below R in the first and at row R + r in the second
    (`join_rows_left`, `join_rows_right`);
  * the one-bit answer of a comparison with a constant word, converted unsigned to a number;
  * the signed conversion of the zero word is the number zero.
-/
import Idealize.ShloMosaic.Lib.Pipeline.Value
import Idealize.ShloMosaic.Lib.ValueIdx
import Idealize.ShloMosaic.Lib.ValueLayout

noncomputable section

namespace Idealize.ShloMosaic.HostReads

open Idealize.ShloMosaic Idealize.ShloMosaic.ValueIdx

variable {α : Type}

/-- A padded array read at an index that is the image of operand index `k` (on every axis the low padding plus `k`'s
    coordinate times the interior step) is the operand at `k`. -/
theorem pad_apply_in {s t : Shape} (lo hi interior : Fin s.rank → Nat) (x : s.Idx → α) {u : Shape} (v : u.Idx → α)
    (h : s.Pads lo hi interior t) (hu : 0 < u.numel) (j : t.Idx) (k : s.Idx)
    (hk : ∀ a : Fin s.rank, (j (a.cast h.1)).val = lo a + (k a).val * (interior a + 1)) :
    pad t lo hi interior x v h hu j = x k := by
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hk a, Nat.add_sub_cancel_left]
    exact ⟨Nat.le_add_right _ _, Nat.mul_mod_left _ _, by rw [Nat.mul_div_cancel _ (Nat.succ_pos _)]; exact (k a).isLt⟩
  unfold pad
  rw [dif_pos hin]
  refine congrArg x (funext fun a => Fin.ext ?_)
  show ((j (a.cast h.1)).val - lo a) / (interior a + 1) = (k a).val
  rw [hk a, Nat.add_sub_cancel_left, Nat.mul_div_cancel _ (Nat.succ_pos _)]

/-- A padded array read at an index whose coordinate on some axis lies past the operand's last element is the padding
    value. -/
theorem pad_apply_out {s t : Shape} (lo hi interior : Fin s.rank → Nat) (x : s.Idx → α) {u : Shape} (v : u.Idx → α)
    (h : s.Pads lo hi interior t) (hu : 0 < u.numel) (j : t.Idx) (a : Fin s.rank)
    (ha : s.size a ≤ ((j (a.cast h.1)).val - lo a) / (interior a + 1)) :
    pad t lo hi interior x v h hu j = v (Shape.Idx.first hu) := by
  unfold pad
  rw [dif_neg (fun hin => absurd (hin a).2.2 (Nat.not_lt.2 ha))]

/-- A matrix padded by `p` rows at the high end, at a row inside the operand. -/
theorem pad_rows_in {R C R' p : Nat} (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (i : Fin R') (j : Fin C) (hi : i.val < R) :
    pad (⟨2, ![R', C]⟩ : Shape) (![0, 0] : Fin 2 → Nat) ![p, 0] ![0, 0] x v h hu (ix2 i j) = x (ix2 ⟨i.val, hi⟩ j) :=
  pad_apply_in _ _ _ x v h hu (ix2 i j) (ix2 ⟨i.val, hi⟩ j) (fun a => match a with
    | ⟨0, _⟩ => by show i.val = 0 + i.val * (0 + 1); omega
    | ⟨1, _⟩ => by show j.val = 0 + j.val * (0 + 1); omega)

/-- A matrix padded by `p` rows at the high end, at a row past the operand's. -/
theorem pad_rows_out {R C R' p : Nat} (x : (⟨2, ![R, C]⟩ : Shape).Idx → α) {u : Shape} (v : u.Idx → α)
    (h : (⟨2, ![R, C]⟩ : Shape).Pads (![0, 0] : Fin 2 → Nat) ![p, 0] ![0, 0] ⟨2, ![R', C]⟩) (hu : 0 < u.numel)
    (i : Fin R') (j : Fin C) (hi : R ≤ i.val) :
    pad (⟨2, ![R', C]⟩ : Shape) (![0, 0] : Fin 2 → Nat) ![p, 0] ![0, 0] x v h hu (ix2 i j) = v (Shape.Idx.first hu) :=
  pad_apply_out _ _ _ x v h hu (ix2 i j) (0 : Fin 2) (by show R ≤ (i.val - 0) / (0 + 1); rw [Nat.sub_zero, Nat.div_one]; exact hi)

/-- A matrix padded by `p` columns at the high end, at a column inside the operand. -/
theorem pad_cols_in {R C C' p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, C']⟩) (hu : 0 < u.numel)
    (i : Fin R) (j : Fin C') (hj : j.val < C) :
    pad (⟨2, ![R, C']⟩ : Shape) (![0, 0] : Fin 2 → Nat) ![0, p] ![0, 0] x v h hu (ix2 i j) = x (ix2 i ⟨j.val, hj⟩) :=
  pad_apply_in _ _ _ x v h hu (ix2 i j) (ix2 i ⟨j.val, hj⟩) (fun a => match a with
    | ⟨0, _⟩ => by show i.val = 0 + i.val * (0 + 1); omega
    | ⟨1, _⟩ => by show j.val = 0 + j.val * (0 + 1); omega)

/-- A matrix padded by `p` columns at the high end, at a column past the operand's. -/
theorem pad_cols_out {R C C' p : Nat} (x : (⟨2, ![R, C]⟩ : Shape).Idx → α) {u : Shape} (v : u.Idx → α)
    (h : (⟨2, ![R, C]⟩ : Shape).Pads (![0, 0] : Fin 2 → Nat) ![0, p] ![0, 0] ⟨2, ![R, C']⟩) (hu : 0 < u.numel)
    (i : Fin R) (j : Fin C') (hj : C ≤ j.val) :
    pad (⟨2, ![R, C']⟩ : Shape) (![0, 0] : Fin 2 → Nat) ![0, p] ![0, 0] x v h hu (ix2 i j) = v (Shape.Idx.first hu) :=
  pad_apply_out _ _ _ x v h hu (ix2 i j) (1 : Fin 2) (by show C ≤ (j.val - 0) / (0 + 1); rw [Nat.sub_zero, Nat.div_one]; exact hj)

/-- A vector padded by `p` entries at the high end, at an entry inside the operand. -/
theorem pad_vec_in {N N' p : Nat} (x : (⟨1, ![N]⟩ : Shape).Idx → α) {u : Shape} (v : u.Idx → α)
    (h : (⟨1, ![N]⟩ : Shape).Pads (![0] : Fin 1 → Nat) ![p] ![0] ⟨1, ![N']⟩) (hu : 0 < u.numel)
    (i : Fin N') (hi : i.val < N) :
    pad (⟨1, ![N']⟩ : Shape) (![0] : Fin 1 → Nat) ![p] ![0] x v h hu (ix1 i) = x (ix1 ⟨i.val, hi⟩) :=
  pad_apply_in _ _ _ x v h hu (ix1 i) (ix1 ⟨i.val, hi⟩) (fun a => match a with
    | ⟨0, _⟩ => by show i.val = 0 + i.val * (0 + 1); omega)

/-- A vector padded by `p` entries at the high end, at an entry past the operand's. -/
theorem pad_vec_out {N N' p : Nat} (x : (⟨1, ![N]⟩ : Shape).Idx → α) {u : Shape} (v : u.Idx → α)
    (h : (⟨1, ![N]⟩ : Shape).Pads (![0] : Fin 1 → Nat) ![p] ![0] ⟨1, ![N']⟩) (hu : 0 < u.numel)
    (i : Fin N') (hi : N ≤ i.val) :
    pad (⟨1, ![N']⟩ : Shape) (![0] : Fin 1 → Nat) ![p] ![0] x v h hu (ix1 i) = v (Shape.Idx.first hu) :=
  pad_apply_out _ _ _ x v h hu (ix1 i) (0 : Fin 1) (by show N ≤ (i.val - 0) / (0 + 1); rw [Nat.sub_zero, Nat.div_one]; exact hi)

/-- Entry (r, c) of u stacked on v, for a row r that falls in u: it is u (r, c). -/
theorem join_rows_left {A B N C : Nat} (u : (⟨2, ![A, C]⟩ : Shape).Idx → α) (v : (⟨2, ![B, C]⟩ : Shape).Idx → α)
    (h : Shape.Concatenates [(⟨2, ![A, C]⟩ : Shape), ⟨2, ![B, C]⟩] ⟨2, ![N, C]⟩ 0)
    (r : Fin N) (c : Fin C) (d : Fin A) (hr : r.val = d.val) :
    concatenate (⟨2, ![N, C]⟩ : Shape) 0 [⟨⟨2, ![A, C]⟩, u⟩, ⟨⟨2, ![B, C]⟩, v⟩] h (ix2 r c) = u (ix2 d c) :=
  concatenate_pair_apply_left 0 u v h (ix2 r c) rfl (ix2 d c) (fun b => match b with
    | ⟨0, _⟩ => hr.symm
    | ⟨1, _⟩ => rfl)

/-- Entry (r, c) of u stacked on v, for a row r past u's A rows: it is v (r − A, c). -/
theorem join_rows_right {A B N C : Nat} (u : (⟨2, ![A, C]⟩ : Shape).Idx → α) (v : (⟨2, ![B, C]⟩ : Shape).Idx → α)
    (h : Shape.Concatenates [(⟨2, ![A, C]⟩ : Shape), ⟨2, ![B, C]⟩] ⟨2, ![N, C]⟩ 0)
    (r : Fin N) (c : Fin C) (d : Fin B) (hr : r.val = A + d.val) :
    concatenate (⟨2, ![N, C]⟩ : Shape) 0 [⟨⟨2, ![A, C]⟩, u⟩, ⟨⟨2, ![B, C]⟩, v⟩] h (ix2 r c) = v (ix2 d c) :=
  concatenate_pair_apply_right 0 u v h (ix2 r c) rfl rfl (ix2 d c) (fun b hb => match b, hb with
    | ⟨0, _⟩, hb => absurd rfl hb
    | ⟨1, _⟩, _ => rfl)
    (by show d.val + A = r.val; omega)

/-- The signed conversion of the zero word is the number zero. -/
theorem sitofp_zero_word (φ : FTy) : (FloatOps.sitofp (F := Ideal) φ (0#32 : BitVec 32) : EReal) = 0 := by
  show (((0#32 : BitVec 32).toInt : ℝ) : EReal) = 0
  rw [show (0#32 : BitVec 32).toInt = 0 from by decide, Int.cast_zero, EReal.coe_zero]

end Idealize.ShloMosaic.HostReads

end
-- ==== Proof.KHost.lean ====
/-
  The fused program's host-side preparation and finish, read at one index.

  Before the kernel the host transposes the image to channel-last and pads it (one pixel of zeros around each image, the
  rows up to 288, the three channels up to 8), pads the first convolution's weights to 8 input channels and flattens
  them to [72, 64] (row 24 * di + 8 * dj + ci), makes each bias a one-row matrix, flattens the last convolution's
  weights to [576, 3] (row 192 * di + 64 * dj + c) and pads the three output channels up to 8, and pads its bias to 8.
  After the kernel it keeps the first three channels and transposes back to channel-first.  Every array that the
  kernel is launched on is therefore the specification's reading of an argument array at natural-number coordinates:
  zero outside the argument.
-/
import proofs.«178811_g2000006188366390_pallasbulk_758_10_alg».proof.Proof.Gen.KernelIdeal.Launch
import proofs.«178811_g2000006188366390_pallasbulk_758_10_alg».proof.Proof.Spec
import proofs.«178811_g2000006188366390_pallasbulk_758_10_alg».proof.Proof.LibHostReads
import Idealize.ShloMosaic.Lib.StableHlo.Run
import Idealize.ShloMosaic.Lib.KernelVsHost
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx Idealize.ShloMosaic.StableHlo
open Idealize.SL.Sem

variable (W : Valuation τ sig (Elt Ideal))

/-! ## Before the kernel -/

/-- The padding value every host pad uses: the integer zero converted to a float. -/
def zpad : FVec Ideal S_ .f32 := sitofp .f32 (constantI S_ 32 0#32)

theorem zpad_apply (i : S_.Idx) : (zpad i : EReal) = 0 := Idealize.ShloMosaic.HostReads.sitofp_zero_word .f32

theorem img_eq : (after hostOps0 W (Proc.devRef .tc main_call0_v1) : S32x288x258x8.Idx → EReal)
    = pad S32x288x258x8 ![0, 1, 1, 0] ![0, 31, 1, 5] ![0, 0, 0, 0]
        (transpose S32x256x256x3 [0, 2, 3, 1] (W (Proc.devRef .tc main_arg0) : S32x3x256x256.Idx → EReal)
          transposes_S32x3x256x256_S32x256x256x3_0_2_3_1) zpad pads_S32x256x256x3_S32x288x258x8_000_1310_110_050 h_S_ := by
  after_results
  rfl

theorem w1_eq : (after hostOps0 W (Proc.devRef .tc main_call0_v3) : S72x64.Idx → EReal)
    = shapeCast S72x64 (pad S3x3x8x64 ![0, 0, 0, 0] ![0, 0, 5, 0] ![0, 0, 0, 0]
        (W (Proc.devRef .tc main_arg1) : S3x3x3x64.Idx → EReal) zpad pads_S3x3x3x64_S3x3x8x64_000_000_050_000 h_S_)
        shapeCasts_S3x3x8x64_S72x64 := by
  after_results
  rfl

theorem w2_eq : (after hostOps0 W (Proc.devRef .tc main_call0_v9) : S576x8.Idx → EReal)
    = pad S576x8 ![0, 0] ![0, 5] ![0, 0]
        (shapeCast S576x3 (W (Proc.devRef .tc main_arg9) : S3x3x64x3.Idx → EReal) shapeCasts_S3x3x64x3_S576x3)
        zpad pads_S576x3_S576x8_000_050 h_S_ := by
  after_results
  rfl

theorem b2_eq : (after hostOps0 W (Proc.devRef .tc main_call0_v11) : S1x8.Idx → EReal)
    = shapeCast S1x8 (pad S8 ![0] ![5] ![0] (W (Proc.devRef .tc main_arg10) : S3.Idx → EReal) zpad pads_S3_S8_050 h_S_)
        shapeCasts_S8_S1x8 := by
  after_results
  rfl

/-- The padded channel-last image array at (n, r, j, ch): the specification's padded image of the argument. -/
theorem host_img_apply (n : Fin 32) (r : Fin 288) (j : Fin 258) (ch : Fin 8) :
    (after hostOps0 W (Proc.devRef .tc main_call0_v1) : S32x288x258x8.Idx → EReal) (ix4 n r j ch)
      = Cert.Spec.pad1 256 256 (Cert.Spec.nhwc (Cert.Spec.rd4 (W (Proc.devRef .tc main_arg0) : S32x3x256x256.Idx → EReal)))
          n.val r.val j.val ch.val := by
  rw [img_eq]
  unfold Cert.Spec.pad1
  by_cases hin : 1 ≤ r.val ∧ r.val ≤ 256 ∧ 1 ≤ j.val ∧ j.val ≤ 256
  · rw [if_pos hin]
    by_cases hch : ch.val < 3
    · refine (pad_apply_of_inside _ _ _ _ zpad pads_S32x256x256x3_S32x288x258x8_000_1310_110_050 h_S_ (ix4 n r j ch)
        (ix4 n ⟨r.val - 1, by omega⟩ ⟨j.val - 1, by omega⟩ ⟨ch.val, hch⟩) (fun a => match a with
          | ⟨0, _⟩ => by show n.val = 0 + n.val * (0 + 1); omega
          | ⟨1, _⟩ => by show r.val = 1 + (r.val - 1) * (0 + 1); omega
          | ⟨2, _⟩ => by show j.val = 1 + (j.val - 1) * (0 + 1); omega
          | ⟨3, _⟩ => by show ch.val = 0 + ch.val * (0 + 1); omega)).trans ?_
      refine (transpose_apply [0, 2, 3, 1] _ transposes_S32x3x256x256_S32x256x256x3_0_2_3_1 _
        (ix4 n ⟨ch.val, hch⟩ ⟨r.val - 1, by omega⟩ ⟨j.val - 1, by omega⟩) (fun b => match b with
          | ⟨0, _⟩ => rfl
          | ⟨1, _⟩ => rfl
          | ⟨2, _⟩ => rfl
          | ⟨3, _⟩ => rfl)).trans ?_
      exact (Cert.Spec.rd4_of_lt _ n ⟨ch.val, hch⟩ ⟨r.val - 1, by omega⟩ ⟨j.val - 1, by omega⟩).symm
    · refine (pad_apply_of_not_inside _ _ _ _ zpad pads_S32x256x256x3_S32x288x258x8_000_1310_110_050 h_S_ (ix4 n r j ch) 3
        (by show ¬(0 ≤ ch.val ∧ (ch.val - 0) % (0 + 1) = 0 ∧ (ch.val - 0) / (0 + 1) < 3); omega)).trans ?_
      rw [zpad_apply]
      exact (Cert.Spec.rd4_of_not _ _ _ _ _ (fun h => hch h.2.1)).symm
  · rw [if_neg hin]
    by_cases hr : 1 ≤ r.val ∧ r.val ≤ 256
    · refine (pad_apply_of_not_inside _ _ _ _ zpad pads_S32x256x256x3_S32x288x258x8_000_1310_110_050 h_S_ (ix4 n r j ch) 2
        (by show ¬(1 ≤ j.val ∧ (j.val - 1) % (0 + 1) = 0 ∧ (j.val - 1) / (0 + 1) < 256); omega)).trans (zpad_apply _)
    · refine (pad_apply_of_not_inside _ _ _ _ zpad pads_S32x256x256x3_S32x288x258x8_000_1310_110_050 h_S_ (ix4 n r j ch) 1
        (by show ¬(1 ≤ r.val ∧ (r.val - 1) % (0 + 1) = 0 ∧ (r.val - 1) / (0 + 1) < 256); omega)).trans (zpad_apply _)

/-- The first convolution's weights as the kernel gets them: row 24 * di + 8 * dj + ci is (di, dj, ci), zero for
    ci ≥ 3. -/
theorem host_w1_apply (di dj : Fin 3) (ci : Fin 8) (o : Fin 64) (k : Fin 72) (hk : k.val = 24 * di.val + 8 * dj.val + ci.val) :
    (after hostOps0 W (Proc.devRef .tc main_call0_v3) : S72x64.Idx → EReal) (ix2 k o)
      = Cert.Spec.rd4 (W (Proc.devRef .tc main_arg1) : S3x3x3x64.Idx → EReal) di.val dj.val ci.val o.val := by
  rw [w1_eq]
  refine (shapeCast_apply _ shapeCasts_S3x3x8x64_S72x64 (ix2 k o) (ix4 di dj ci o) ?_).trans ?_
  · rw [Shape.rowMajor_val_four, Shape.rowMajor_val_two]
    show ((di.val * 3 + dj.val) * 8 + ci.val) * 64 + o.val = k.val * 64 + o.val
    omega
  by_cases hci : ci.val < 3
  · refine (pad_apply_of_inside _ _ _ _ zpad pads_S3x3x3x64_S3x3x8x64_000_000_050_000 h_S_ (ix4 di dj ci o)
      (ix4 di dj ⟨ci.val, hci⟩ o) (fun a => match a with
        | ⟨0, _⟩ => by show di.val = 0 + di.val * (0 + 1); omega
        | ⟨1, _⟩ => by show dj.val = 0 + dj.val * (0 + 1); omega
        | ⟨2, _⟩ => by show ci.val = 0 + ci.val * (0 + 1); omega
        | ⟨3, _⟩ => by show o.val = 0 + o.val * (0 + 1); omega)).trans ?_
    exact (Cert.Spec.rd4_of_lt _ di dj ⟨ci.val, hci⟩ o).symm
  · refine (pad_apply_of_not_inside _ _ _ _ zpad pads_S3x3x3x64_S3x3x8x64_000_000_050_000 h_S_ (ix4 di dj ci o) 2
      (by show ¬(0 ≤ ci.val ∧ (ci.val - 0) % (0 + 1) = 0 ∧ (ci.val - 0) / (0 + 1) < 3); omega)).trans ?_
    rw [zpad_apply]
    exact (Cert.Spec.rd4_of_not _ _ _ _ _ (fun h => hci h.2.2.1)).symm

/-- Each bias as a one-row matrix. -/
theorem host_b1_apply (u : Fin 1) (o : Fin 64) :
    (after hostOps0 W (Proc.devRef .tc main_call0_v4) : S1x64.Idx → EReal) (ix2 u o)
      = Cert.Spec.rd1 (W (Proc.devRef .tc main_arg2) : S64.Idx → EReal) o.val := by
  have e : (after hostOps0 W (Proc.devRef .tc main_call0_v4) : S1x64.Idx → EReal)
      = shapeCast S1x64 (W (Proc.devRef .tc main_arg2) : S64.Idx → EReal) shapeCasts_S64_S1x64 := by
    after_results
    rfl
  rw [e]
  exact (shapeCast_a_1a_apply _ shapeCasts_S64_S1x64 u o).trans (Cert.Spec.rd1_of_lt _ o).symm

theorem host_bd1_apply (u : Fin 1) (o : Fin 64) :
    (after hostOps0 W (Proc.devRef .tc main_call0_v5) : S1x64.Idx → EReal) (ix2 u o)
      = Cert.Spec.rd1 (W (Proc.devRef .tc main_arg4) : S64.Idx → EReal) o.val := by
  have e : (after hostOps0 W (Proc.devRef .tc main_call0_v5) : S1x64.Idx → EReal)
      = shapeCast S1x64 (W (Proc.devRef .tc main_arg4) : S64.Idx → EReal) shapeCasts_S64_S1x64 := by
    after_results
    rfl
  rw [e]
  exact (shapeCast_a_1a_apply _ shapeCasts_S64_S1x64 u o).trans (Cert.Spec.rd1_of_lt _ o).symm

theorem host_bd2_apply (u : Fin 1) (o : Fin 64) :
    (after hostOps0 W (Proc.devRef .tc main_call0_v6) : S1x64.Idx → EReal) (ix2 u o)
      = Cert.Spec.rd1 (W (Proc.devRef .tc main_arg6) : S64.Idx → EReal) o.val := by
  have e : (after hostOps0 W (Proc.devRef .tc main_call0_v6) : S1x64.Idx → EReal)
      = shapeCast S1x64 (W (Proc.devRef .tc main_arg6) : S64.Idx → EReal) shapeCasts_S64_S1x64 := by
    after_results
    rfl
  rw [e]
  exact (shapeCast_a_1a_apply _ shapeCasts_S64_S1x64 u o).trans (Cert.Spec.rd1_of_lt _ o).symm

theorem host_bd3_apply (u : Fin 1) (o : Fin 64) :
    (after hostOps0 W (Proc.devRef .tc main_call0_v7) : S1x64.Idx → EReal) (ix2 u o)
      = Cert.Spec.rd1 (W (Proc.devRef .tc main_arg8) : S64.Idx → EReal) o.val := by
  have e : (after hostOps0 W (Proc.devRef .tc main_call0_v7) : S1x64.Idx → EReal)
      = shapeCast S1x64 (W (Proc.devRef .tc main_arg8) : S64.Idx → EReal) shapeCasts_S64_S1x64 := by
    after_results
    rfl
  rw [e]
  exact (shapeCast_a_1a_apply _ shapeCasts_S64_S1x64 u o).trans (Cert.Spec.rd1_of_lt _ o).symm

/-- The last convolution's weights as the kernel gets them: row 192 * di + 64 * dj + c is (di, dj, c), zero for
    output channels o ≥ 3. -/
theorem host_w2_apply (di dj : Fin 3) (c : Fin 64) (o : Fin 8) (k : Fin 576) (hk : k.val = 192 * di.val + 64 * dj.val + c.val) :
    (after hostOps0 W (Proc.devRef .tc main_call0_v9) : S576x8.Idx → EReal) (ix2 k o)
      = Cert.Spec.rd4 (W (Proc.devRef .tc main_arg9) : S3x3x64x3.Idx → EReal) di.val dj.val c.val o.val := by
  rw [w2_eq]
  by_cases ho : o.val < 3
  · refine (pad_apply_of_inside _ _ _ _ zpad pads_S576x3_S576x8_000_050 h_S_ (ix2 k o) (ix2 k ⟨o.val, ho⟩) (fun a => match a with
        | ⟨0, _⟩ => by show k.val = 0 + k.val * (0 + 1); omega
        | ⟨1, _⟩ => by show o.val = 0 + o.val * (0 + 1); omega)).trans ?_
    refine (shapeCast_apply _ shapeCasts_S3x3x64x3_S576x3 (ix2 k ⟨o.val, ho⟩) (ix4 di dj c ⟨o.val, ho⟩) ?_).trans ?_
    · rw [Shape.rowMajor_val_four, Shape.rowMajor_val_two]
      show ((di.val * 3 + dj.val) * 64 + c.val) * 3 + o.val = k.val * 3 + o.val
      omega
    exact (Cert.Spec.rd4_of_lt _ di dj c ⟨o.val, ho⟩).symm
  · refine (pad_apply_of_not_inside _ _ _ _ zpad pads_S576x3_S576x8_000_050 h_S_ (ix2 k o) 1
      (by show ¬(0 ≤ o.val ∧ (o.val - 0) % (0 + 1) = 0 ∧ (o.val - 0) / (0 + 1) < 3); omega)).trans ?_
    rw [zpad_apply]
    exact (Cert.Spec.rd4_of_not _ _ _ _ _ (fun h => ho h.2.2.2)).symm

/-- The last bias as a one-row matrix of 8: zero for o ≥ 3. -/
theorem host_b2_apply (u : Fin 1) (o : Fin 8) :
    (after hostOps0 W (Proc.devRef .tc main_call0_v11) : S1x8.Idx → EReal) (ix2 u o)
      = Cert.Spec.rd1 (W (Proc.devRef .tc main_arg10) : S3.Idx → EReal) o.val := by
  rw [b2_eq]
  refine (shapeCast_a_1a_apply _ shapeCasts_S8_S1x8 u o).trans ?_
  by_cases ho : o.val < 3
  · refine (pad_apply_of_inside _ _ _ _ zpad pads_S3_S8_050 h_S_ (ix1 o) (ix1 ⟨o.val, ho⟩) (fun a => match a with
        | ⟨0, _⟩ => by show o.val = 0 + o.val * (0 + 1); omega)).trans ?_
    exact (Cert.Spec.rd1_of_lt _ ⟨o.val, ho⟩).symm
  · refine (pad_apply_of_not_inside _ _ _ _ zpad pads_S3_S8_050 h_S_ (ix1 o) 0
      (by show ¬(0 ≤ o.val ∧ (o.val - 0) % (0 + 1) = 0 ∧ (o.val - 0) / (0 + 1) < 3); omega)).trans ?_
    rw [zpad_apply]
    exact (Cert.Spec.rd1_of_not _ _ ho).symm

/-- The down stages' weights are passed as they are. -/
theorem host_wd1_eq : after hostOps0 W (Proc.devRef .tc main_arg3) = W (Proc.devRef .tc main_arg3) := by
  after_results
theorem host_wd2_eq : after hostOps0 W (Proc.devRef .tc main_arg5) = W (Proc.devRef .tc main_arg5) := by
  after_results
theorem host_wd3_eq : after hostOps0 W (Proc.devRef .tc main_arg7) = W (Proc.devRef .tc main_arg7) := by
  after_results

/-! ## After the kernel -/

/-- The program's result at (n, o, h, x) is the kernel's output array at (n, h, x, o). -/
theorem host_out_apply (n : Fin 32) (o : Fin 3) (h x : Fin 32) :
    (after hostOps1 W (Proc.devRef .tc main_v0) : S32x3x32x32.Idx → EReal) (ix4 n o h x)
      = (W (Proc.devRef .tc main_call0_v12) : S32x32x32x8.Idx → EReal) (ix4 n h x ⟨o.val, by have := o.isLt; omega⟩) := by
  have e : (after hostOps1 W (Proc.devRef .tc main_v0) : S32x3x32x32.Idx → EReal)
      = transpose S32x3x32x32 [0, 3, 1, 2]
          (extractStridedSlice S32x32x32x3 ![0, 0, 0, 0] (W (Proc.devRef .tc main_call0_v12) : S32x32x32x8.Idx → EReal)
            slices_S32x32x32x8_S32x32x32x3_0_0_0_0) transposes_S32x32x32x3_S32x3x32x32_0_3_1_2 := by
    after_results
    rfl
  rw [e]
  refine (transpose_apply [0, 3, 1, 2] _ transposes_S32x32x32x3_S32x3x32x32_0_3_1_2 _ (ix4 n h x o) (fun b => match b with
      | ⟨0, _⟩ => rfl
      | ⟨1, _⟩ => rfl
      | ⟨2, _⟩ => rfl
      | ⟨3, _⟩ => rfl)).trans ?_
  exact extractStridedSlice_apply _ _ slices_S32x32x32x8_S32x32x32x3_0_0_0_0 (ix4 n h x o) _ (fun a => match a with
      | ⟨0, _⟩ => by show n.val = 0 + n.val; omega
      | ⟨1, _⟩ => by show h.val = 0 + h.val; omega
      | ⟨2, _⟩ => by show x.val = 0 + x.val; omega
      | ⟨3, _⟩ => by show o.val = 0 + o.val; omega)

end Cert.KernelIdeal.Hand

end
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.LibDense.lean ====
/-
  Dense layers read at an index, at the ideal values: a matrix product whose dimension numbers contract the left
  operand's columns with the right operand's rows (the kernel's product accumulated into a zero splat, and the
  host's product with no accumulator), and a vector laid along every row of a matrix.
-/
import Idealize.ShloMosaic.Lib.Pipeline.Value
import Idealize.ShloMosaic.Lib.ValueIdx
import Idealize.ShloMosaic.PureOps.Ideal.Laws

open scoped BigOperators

namespace Cert.Dense

open Idealize.ShloMosaic Idealize.ShloMosaic.ValueIdx

variable {m k n : Nat} {φ₁ φ₂ : FTy}

/-- The operand indices of a rows-by-columns contraction at output (a, b) and contraction coordinate c are
    (a, c) on the left … -/
theorem lhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c)
      = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- … and (c, b) on the right. -/
theorem rhsIdx_rowcol (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c)
      = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A kernel's matrix product into the zero splat, read at (a, b): the sum over c of A (a, c) · B (c, b). -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- The host's matrix product, read at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_rowcol, rhsIdx_rowcol]

/-- A vector of n entries cast to one row and broadcast down m rows, read at (a, b), is the vector at b. -/
theorem rowBroadcast_apply {α : Type} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (b : Fin n) :
    broadcastTo ⟨2, ![m, n]⟩ (shapeCast ⟨2, ![1, n]⟩ x h1) hb (ix2 a b) = x (ix1 b) := by
  have e1 := broadcastTo_apply (shapeCast ⟨2, ![1, n]⟩ x h1) hb (ix2 a b) (ix2 (0 : Fin 1) b) (by
    intro ax
    match ax with
    | ⟨0, _⟩ => rfl
    | ⟨1, _⟩ =>
      show b.val = if n = 1 then 0 else b.val
      split
      · have := b.isLt; omega
      · rfl)
  have e2 := shapeCast_apply x h1 (ix2 (0 : Fin 1) b) (ix1 b) (by
    rw [Shape.rowMajor_val_two, Shape.rowMajor_val_one]; show b.val = 0 * n + b.val; omega)
  exact e1.trans e2

/-- The host's spelling: the vector broadcast to one row (along axis 1) and that row broadcast down m rows, read at
    (a, b), is the vector at b. -/
theorem hostRowBroadcast_apply {α : Type} (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 x) (ix2 a b) = x (ix1 b) := by
  have e1 := broadcastInDim_apply ![0, 1] h2 (broadcastInDim ⟨2, ![1, n]⟩ ![1] h1 x) (ix2 a b) (ix2 (0 : Fin 1) b) (by
    intro ax
    match ax with
    | ⟨0, _⟩ => rfl
    | ⟨1, _⟩ =>
      show b.val = if n = 1 then 0 else b.val
      split
      · have := b.isLt; omega
      · rfl)
  have e2 := broadcastInDim_apply ![1] h1 x (ix2 (0 : Fin 1) b) (ix1 b) (by
    intro ax
    match ax with
    | ⟨0, _⟩ =>
      show b.val = if n = 1 then 0 else b.val
      split
      · have := b.isLt; omega
      · rfl)
  exact e1.trans e2

/-! ## A dense layer and a two-layer perceptron, one output entry from one input row -/

/-- Entry q of x · W + b, for one row x. -/
noncomputable def lin {k n : Nat} (x : Fin k → EReal) (W : FVec Ideal ⟨2, ![k, n]⟩ .f32) (b : FVec Ideal ⟨1, ![n]⟩ .f32)
    (q : Fin n) : EReal :=
  (∑ c : Fin k, x c * W (ix2 c q)) + b (ix1 q)

/-- Entry q of max(x · W₁ + b₁, 0) · W₂ + b₂, for one row x. -/
noncomputable def mlp {k h n : Nat} (x : Fin k → EReal) (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32) (q : Fin n) : EReal :=
  lin (fun j => max (lin x W₁ b₁ j) 0) W₂ b₂ q

/-- A kernel's dense layer on a block of rows, read at (p, q). -/
theorem dense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (p : Fin m) (q : Fin n) :
    addf (matmul (⟨[1], [0], [0], [1], [], [], w⟩ : DotDims ⟨2, ![m, k]⟩ ⟨2, ![k, n]⟩ ⟨2, ![m, n]⟩) prec A W
        (constant (F := Ideal) ⟨2, ![m, n]⟩ .f32 0x00000000#32))
      (broadcastTo ⟨2, ![m, n]⟩ (shapeCast ⟨2, ![1, n]⟩ b h1) hb) (ix2 p q)
      = lin (fun c => A (ix2 p c)) W b q := by
  rw [addf_apply, matmul_zero_apply, rowBroadcast_apply]
  rfl

/-- The host's dense layer on a whole array, read at (p, q). -/
theorem hostDense_apply (w : DotDims.WF ⟨2, ![m, k]⟩ ⟨2, ![k, n]⟩ ⟨2, ![m, n]⟩ [1] [0] [0] [1] [] [])
    (prec : Option ContractPrecision) (A : FVec Ideal ⟨2, ![m, k]⟩ .f32) (W : FVec Ideal ⟨2, ![k, n]⟩ .f32)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    addf (Host.dotGeneral (⟨[1], [0], [0], [1], [], [], w⟩ : DotDims ⟨2, ![m, k]⟩ ⟨2, ![k, n]⟩ ⟨2, ![m, n]⟩) prec A W)
      (broadcastInDim ⟨2, ![m, n]⟩ ![0, 1] h2 (broadcastInDim ⟨2, ![1, n]⟩ ![1] h1 b)) (ix2 p q)
      = lin (fun c => A (ix2 p c)) W b q := by
  rw [addf_apply, dotGeneral_apply, hostRowBroadcast_apply]
  rfl

/-- A kernel's rectifier: the maximum with a splat of the zero word, at an index. -/
theorem relu_apply {s : Shape} (X : FVec Ideal s .f32) (i : s.Idx) :
    maximumf X (broadcast s (Scalar.ofBits (F := Ideal) .f32 0x00000000#32)) i = max (X i) 0 := by
  rw [maximumf_apply, broadcast_apply]
  show max (X i) (Ideal.ofBits .f32 0x00000000#32) = _
  rw [Ideal.ofBits_zero_f32]

/-- The host's rectifier: the maximum with the broadcast of the zero constant, at an index. -/
theorem hostRelu_apply {s : Shape} (X : FVec Ideal s .f32)
    (h : (⟨0, ![]⟩ : Shape).BroadcastsInDim s (![] : Fin 0 → Fin s.rank)) (i : s.Idx) :
    maximumf X (broadcastInDim s ![] h (constant (F := Ideal) ⟨0, ![]⟩ .f32 0x00000000#32)) i = max (X i) 0 := by
  rw [maximumf_apply]
  show max (X i) (Ideal.ofBits .f32 0x00000000#32) = _
  rw [Ideal.ofBits_zero_f32]

/-- A kernel's two-layer perceptron on a block of rows, read at (p, q). -/
theorem mlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).ShapeCasts ⟨2, ![1, h]⟩) (hb₁ : (⟨2, ![1, h]⟩ : Shape).Broadcasts ⟨2, ![m, h]⟩)
    (hs₂ : (⟨1, ![n]⟩ : Shape).ShapeCasts ⟨2, ![1, n]⟩) (hb₂ : (⟨2, ![1, n]⟩ : Shape).Broadcasts ⟨2, ![m, n]⟩)
    (p : Fin m) (q : Fin n) :
    addf (matmul (⟨[1], [0], [0], [1], [], [], w₂⟩ : DotDims ⟨2, ![m, h]⟩ ⟨2, ![h, n]⟩ ⟨2, ![m, n]⟩) prec₂
        (maximumf
          (addf (matmul (⟨[1], [0], [0], [1], [], [], w₁⟩ : DotDims ⟨2, ![m, k]⟩ ⟨2, ![k, h]⟩ ⟨2, ![m, h]⟩) prec₁ A W₁
              (constant (F := Ideal) ⟨2, ![m, h]⟩ .f32 0x00000000#32))
            (broadcastTo ⟨2, ![m, h]⟩ (shapeCast ⟨2, ![1, h]⟩ b₁ hs₁) hb₁))
          (broadcast ⟨2, ![m, h]⟩ (Scalar.ofBits (F := Ideal) .f32 0x00000000#32)))
        W₂ (constant (F := Ideal) ⟨2, ![m, n]⟩ .f32 0x00000000#32))
      (broadcastTo ⟨2, ![m, n]⟩ (shapeCast ⟨2, ![1, n]⟩ b₂ hs₂) hb₂) (ix2 p q)
      = mlp (fun c => A (ix2 p c)) W₁ b₁ W₂ b₂ q := by
  rw [dense_apply]
  unfold mlp
  congr 1
  funext j
  rw [relu_apply, dense_apply]

/-- The host's two-layer perceptron on a whole array, read at (p, q). -/
theorem hostMlp_apply {h : Nat} (w₁ : DotDims.WF ⟨2, ![m, k]⟩ ⟨2, ![k, h]⟩ ⟨2, ![m, h]⟩ [1] [0] [0] [1] [] [])
    (w₂ : DotDims.WF ⟨2, ![m, h]⟩ ⟨2, ![h, n]⟩ ⟨2, ![m, n]⟩ [1] [0] [0] [1] [] [])
    (prec₁ prec₂ : Option ContractPrecision) (A : FVec Ideal ⟨2, ![m, k]⟩ .f32)
    (W₁ : FVec Ideal ⟨2, ![k, h]⟩ .f32) (b₁ : FVec Ideal ⟨1, ![h]⟩ .f32)
    (W₂ : FVec Ideal ⟨2, ![h, n]⟩ .f32) (b₂ : FVec Ideal ⟨1, ![n]⟩ .f32)
    (hs₁ : (⟨1, ![h]⟩ : Shape).BroadcastsInDim ⟨2, ![1, h]⟩ ![1])
    (hb₁ : (⟨2, ![1, h]⟩ : Shape).BroadcastsInDim ⟨2, ![m, h]⟩ ![0, 1])
    (hs₂ : (⟨1, ![n]⟩ : Shape).BroadcastsInDim ⟨2, ![1, n]⟩ ![1])
    (hb₂ : (⟨2, ![1, n]⟩ : Shape).BroadcastsInDim ⟨2, ![m, n]⟩ ![0, 1])
    (hz : (⟨0, ![]⟩ : Shape).BroadcastsInDim ⟨2, ![m, h]⟩ (![] : Fin 0 → Fin 2))
    (p : Fin m) (q : Fin n) :
    addf (Host.dotGeneral (⟨[1], [0], [0], [1], [], [], w₂⟩ : DotDims ⟨2, ![m, h]⟩ ⟨2, ![h, n]⟩ ⟨2, ![m, n]⟩) prec₂
        (maximumf
          (addf (Host.dotGeneral (⟨[1], [0], [0], [1], [], [], w₁⟩ : DotDims ⟨2, ![m, k]⟩ ⟨2, ![k, h]⟩ ⟨2, ![m, h]⟩) prec₁ A W₁)
            (broadcastInDim ⟨2, ![m, h]⟩ ![0, 1] hb₁ (broadcastInDim ⟨2, ![1, h]⟩ ![1] hs₁ b₁)))
          (broadcastInDim ⟨2, ![m, h]⟩ ![] hz (constant (F := Ideal) ⟨0, ![]⟩ .f32 0x00000000#32)))
        W₂)
      (broadcastInDim ⟨2, ![m, n]⟩ ![0, 1] hb₂ (broadcastInDim ⟨2, ![1, n]⟩ ![1] hs₂ b₂)) (ix2 p q)
      = mlp (fun c => A (ix2 p c)) W₁ b₁ W₂ b₂ q := by
  rw [hostDense_apply]
  unfold mlp
  congr 1
  funext j
  rw [hostRelu_apply, hostDense_apply]

end Cert.Dense
-- ==== Proof.KTail.lean ====
/-
  The last stage of the fused kernel, read at one output index.

  The body takes the 32 x 32 image of 64 channels held in the scratch, puts one pixel of zeros around it (a zero row
  above and below, a zero column left and right), lays the nine shifted 32 x 32 windows of the padded image side by
  side as a [1024, 576] matrix (column 64 * (3 * di + dj) + c is channel c of the window shifted by (di, dj)), and
  multiplies by the [576, 8] weights and adds the bias row.  At output pixel (h, x) and channel o that is

      (sum over di, dj < 3 and c < 64 of  pad(scr)(h + di, x + dj, c) * w (192 * di + 64 * dj + c, o)) + b (0, o)

  with pad(scr) the scratch image with its border of zeros: the specification's 3 x 3 convolution.
-/
import proofs.«178811_g2000006188366390_pallasbulk_758_10_alg».proof.Proof.Gen.KernelIdeal.Skeleton
import proofs.«178811_g2000006188366390_pallasbulk_758_10_alg».proof.Proof.Spec
import proofs.«178811_g2000006188366390_pallasbulk_758_10_alg».proof.Proof.LibIndexSums
import proofs.«178811_g2000006188366390_pallasbulk_758_10_alg».proof.Proof.LibHostReads
import proofs.«178811_g2000006188366390_pallasbulk_758_10_alg».proof.Proof.LibDense
import Idealize.ShloMosaic.Lib.ValueLayout

set_option maxRecDepth 16384

open scoped BigOperators

noncomputable section

namespace Cert.KernelIdeal.Hand

open Cert.KernelIdeal Cert.KernelIdeal.Gen
open Idealize.ShloMosaic Idealize.ShloMosaic.ValueIdx

/-! ## Reading a rank-3 array at natural-number coordinates -/

/-- A rank-3 array read at natural-number coordinates: its entry where all three are in range, zero elsewhere. -/
def rd3 {n0 n1 n2 : Nat} (x : (⟨3, ![n0, n1, n2]⟩ : Shape).Idx → EReal) : Nat → Nat → Nat → EReal := fun a b c =>
  if h : a < n0 ∧ b < n1 ∧ c < n2 then x (ix3 ⟨a, h.1⟩ ⟨b, h.2.1⟩ ⟨c, h.2.2⟩) else 0

theorem rd3_of_lt {n0 n1 n2 : Nat} (x : (⟨3, ![n0, n1, n2]⟩ : Shape).Idx → EReal) (a : Fin n0) (b : Fin n1) (c : Fin n2) :
    rd3 x a.val b.val c.val = x (ix3 a b c) := by
  unfold rd3; rw [dif_pos ⟨a.isLt, b.isLt, c.isLt⟩]

/-- One image (height, width, channel) as a rank-4 array over the natural numbers whose image coordinate is ignored. -/
def img3 {n0 n1 n2 : Nat} (x : (⟨3, ![n0, n1, n2]⟩ : Shape).Idx → EReal) : Cert.Spec.A4 := fun _ i j c => rd3 x i j c

/-! ## Two rank-3 pieces joined along axis 0 or axis 1, read at an index -/

section Join
variable {α : Type}

theorem join3_ax0_left {A B N Y Z : Nat} (u : (⟨3, ![A, Y, Z]⟩ : Shape).Idx → α) (v : (⟨3, ![B, Y, Z]⟩ : Shape).Idx → α)
    (h : Shape.Concatenates [(⟨3, ![A, Y, Z]⟩ : Shape), ⟨3, ![B, Y, Z]⟩] ⟨3, ![N, Y, Z]⟩ 0)
    (r : Fin N) (y : Fin Y) (z : Fin Z) (d : Fin A) (hr : r.val = d.val) :
    concatenate (⟨3, ![N, Y, Z]⟩ : Shape) 0 [⟨⟨3, ![A, Y, Z]⟩, u⟩, ⟨⟨3, ![B, Y, Z]⟩, v⟩] h (ix3 r y z) = u (ix3 d y z) :=
  concatenate_pair_apply_left 0 u v h (ix3 r y z) rfl (ix3 d y z) (fun b => match b with
    | ⟨0, _⟩ => hr.symm
    | ⟨1, _⟩ => rfl
    | ⟨2, _⟩ => rfl)

theorem join3_ax0_right {A B N Y Z : Nat} (u : (⟨3, ![A, Y, Z]⟩ : Shape).Idx → α) (v : (⟨3, ![B, Y, Z]⟩ : Shape).Idx → α)
    (h : Shape.Concatenates [(⟨3, ![A, Y, Z]⟩ : Shape), ⟨3, ![B, Y, Z]⟩] ⟨3, ![N, Y, Z]⟩ 0)
    (r : Fin N) (y : Fin Y) (z : Fin Z) (d : Fin B) (hr : r.val = A + d.val) :
    concatenate (⟨3, ![N, Y, Z]⟩ : Shape) 0 [⟨⟨3, ![A, Y, Z]⟩, u⟩, ⟨⟨3, ![B, Y, Z]⟩, v⟩] h (ix3 r y z) = v (ix3 d y z) :=
  concatenate_pair_apply_right 0 u v h (ix3 r y z) rfl rfl (ix3 d y z) (fun b hb => match b, hb with
    | ⟨0, _⟩, hb => absurd rfl hb
    | ⟨1, _⟩, _ => rfl
    | ⟨2, _⟩, _ => rfl)
    (by show d.val + A = r.val; omega)

theorem join3_ax1_left {X A B N Z : Nat} (u : (⟨3, ![X, A, Z]⟩ : Shape).Idx → α) (v : (⟨3, ![X, B, Z]⟩ : Shape).Idx → α)
    (h : Shape.Concatenates [(⟨3, ![X, A, Z]⟩ : Shape), ⟨3, ![X, B, Z]⟩] ⟨3, ![X, N, Z]⟩ 1)
    (x : Fin X) (r : Fin N) (z : Fin Z) (d : Fin A) (hr : r.val = d.val) :
    concatenate (⟨3, ![X, N, Z]⟩ : Shape) 1 [⟨⟨3, ![X, A, Z]⟩, u⟩, ⟨⟨3, ![X, B, Z]⟩, v⟩] h (ix3 x r z) = u (ix3 x d z) :=
  concatenate_pair_apply_left 1 u v h (ix3 x r z) rfl (ix3 x d z) (fun b => match b with
    | ⟨0, _⟩ => rfl
    | ⟨1, _⟩ => hr.symm
    | ⟨2, _⟩ => rfl)

theorem join3_ax1_right {X A B N Z : Nat} (u : (⟨3, ![X, A, Z]⟩ : Shape).Idx → α) (v : (⟨3, ![X, B, Z]⟩ : Shape).Idx → α)
    (h : Shape.Concatenates [(⟨3, ![X, A, Z]⟩ : Shape), ⟨3, ![X, B, Z]⟩] ⟨3, ![X, N, Z]⟩ 1)
    (x : Fin X) (r : Fin N) (z : Fin Z) (d : Fin B) (hr : r.val = A + d.val) :
    concatenate (⟨3, ![X, N, Z]⟩ : Shape) 1 [⟨⟨3, ![X, A, Z]⟩, u⟩, ⟨⟨3, ![X, B, Z]⟩, v⟩] h (ix3 x r z) = v (ix3 x d z) :=
  concatenate_pair_apply_right 1 u v h (ix3 x r z) rfl rfl (ix3 x d z) (fun b hb => match b, hb with
    | ⟨0, _⟩, _ => rfl
    | ⟨1, _⟩, hb => absurd rfl hb
    | ⟨2, _⟩, _ => rfl)
    (by show d.val + A = r.val; omega)

end Join

/-! ## A sum over the 576 columns as a sum over the window shift and the channel -/

/-- Column k < 576 is 192 * di + 64 * dj + c for a unique (di, dj, c) with di, dj < 3 and c < 64. -/
theorem sum_fin_576 {M : Type*} [AddCommMonoid M] (f : Fin 576 → M) :
    ∑ k, f k = ∑ di : Fin 3, ∑ dj : Fin 3, ∑ c : Fin 64,
      f ⟨192 * di.val + 64 * dj.val + c.val, by have := di.isLt; have := dj.isLt; have := c.isLt; omega⟩ := by
  have h1 := Cert.IndexSums.sum_fin_mul (m := 9) (n := 64) f
  have h2 := fun g : Fin 9 → M => Cert.IndexSums.sum_fin_mul (m := 3) (n := 3) g
  rw [h1, h2]
  refine Finset.sum_congr rfl fun di _ => Finset.sum_congr rfl fun dj _ => Finset.sum_congr rfl fun c _ => ?_
  refine congrArg f (Fin.ext ?_)
  simp only [finProdFinEquiv_apply_val]
  omega

/-! ## The scratch image with its border of zeros -/

/-- The [34, 34, 64] image the body builds: a zero row above and below the scratch, then a zero column left and
    right. -/
def padded (scr : Vec Ideal S32x32x64 .f32) : FVec Ideal S34x34x64 .f32 :=
  concatenate S34x34x64 1
    [⟨S34x33x64, concatenate S34x33x64 1
        [⟨S34x1x64, broadcast S34x1x64 (Scalar.sitofp (F := Ideal) .f32 0#32)⟩,
         ⟨S34x32x64, concatenate S34x32x64 0
            [⟨S33x32x64, concatenate S33x32x64 0
                [⟨S1x32x64, broadcast S1x32x64 (Scalar.sitofp (F := Ideal) .f32 0#32)⟩, ⟨S32x32x64, scr⟩]
                concatenates_S1x32x64_S32x32x64_S33x32x64_d0⟩,
             ⟨S1x32x64, broadcast S1x32x64 (Scalar.sitofp (F := Ideal) .f32 0#32)⟩]
            concatenates_S33x32x64_S1x32x64_S34x32x64_d0⟩]
        concatenates_S34x1x64_S34x32x64_S34x33x64_d1⟩,
     ⟨S34x1x64, broadcast S34x1x64 (Scalar.sitofp (F := Ideal) .f32 0#32)⟩]
    concatenates_S34x33x64_S34x1x64_S34x34x64_d1

theorem zero_word : (Scalar.sitofp (F := Ideal) .f32 (0#32 : BitVec 32) : EReal) = 0 :=
  Idealize.ShloMosaic.HostReads.sitofp_zero_word .f32

/-- The padded image at (i, j, c) is the specification's padded image of the scratch. -/
theorem padded_apply (scr : Vec Ideal S32x32x64 .f32) (i j : Fin 34) (c : Fin 64) :
    padded scr (ix3 i j c) = Cert.Spec.pad1 32 32 (img3 scr) 0 i.val j.val c.val := by
  unfold Cert.Spec.pad1 padded
  by_cases hj33 : j.val < 33
  · refine (join3_ax1_left _ _ concatenates_S34x33x64_S34x1x64_S34x34x64_d1 i j c ⟨j.val, hj33⟩ rfl).trans ?_
    by_cases hj0 : j.val < 1
    · refine (join3_ax1_left _ _ concatenates_S34x1x64_S34x32x64_S34x33x64_d1 i ⟨j.val, hj33⟩ c ⟨j.val, hj0⟩ rfl).trans ?_
      rw [broadcast_apply, zero_word, if_neg (by omega)]
    · refine (join3_ax1_right _ _ concatenates_S34x1x64_S34x32x64_S34x33x64_d1 i ⟨j.val, hj33⟩ c
        ⟨j.val - 1, by omega⟩ (by show j.val = 1 + (j.val - 1); omega)).trans ?_
      by_cases hi33 : i.val < 33
      · refine (join3_ax0_left _ _ concatenates_S33x32x64_S1x32x64_S34x32x64_d0 i ⟨j.val - 1, by omega⟩ c ⟨i.val, hi33⟩ rfl).trans ?_
        by_cases hi0 : i.val < 1
        · refine (join3_ax0_left _ _ concatenates_S1x32x64_S32x32x64_S33x32x64_d0 ⟨i.val, hi33⟩ ⟨j.val - 1, by omega⟩ c
            ⟨i.val, hi0⟩ rfl).trans ?_
          rw [broadcast_apply, zero_word, if_neg (by omega)]
        · refine (join3_ax0_right _ _ concatenates_S1x32x64_S32x32x64_S33x32x64_d0 ⟨i.val, hi33⟩ ⟨j.val - 1, by omega⟩ c
            ⟨i.val - 1, by omega⟩ (by show i.val = 1 + (i.val - 1); omega)).trans ?_
          rw [if_pos (by omega)]
          exact (rd3_of_lt scr ⟨i.val - 1, by omega⟩ ⟨j.val - 1, by omega⟩ c).symm
      · refine (join3_ax0_right _ _ concatenates_S33x32x64_S1x32x64_S34x32x64_d0 i ⟨j.val - 1, by omega⟩ c
          ⟨i.val - 33, by have := i.isLt; omega⟩ (by show i.val = 33 + (i.val - 33); omega)).trans ?_
        rw [broadcast_apply, zero_word, if_neg (by omega)]
  · refine (join3_ax1_right _ _ concatenates_S34x33x64_S34x1x64_S34x34x64_d1 i j c
      ⟨j.val - 33, by have := j.isLt; omega⟩ (by show j.val = 33 + (j.val - 33); omega)).trans ?_
    rw [broadcast_apply, zero_word, if_neg (by omega)]

/-- Window (di, dj) of the padded image as a [1024, 64] matrix: row 32 * h + x is pixel (h + di, x + dj). -/
def tap (scr : Vec Ideal S32x32x64 .f32) : Fin 9 → FVec Ideal S1024x64 .f32
  | 0 => shapeCast S1024x64 (extractStridedSlice S32x32x64 ![0, 0, 0] (padded scr) slices_S34x34x64_o0_0_0_S32x32x64) shapeCasts_S32x32x64_S1024x64
  | 1 => shapeCast S1024x64 (extractStridedSlice S32x32x64 ![0, 1, 0] (padded scr) slices_S34x34x64_o0_1_0_S32x32x64) shapeCasts_S32x32x64_S1024x64
  | 2 => shapeCast S1024x64 (extractStridedSlice S32x32x64 ![0, 2, 0] (padded scr) slices_S34x34x64_o0_2_0_S32x32x64) shapeCasts_S32x32x64_S1024x64
  | 3 => shapeCast S1024x64 (extractStridedSlice S32x32x64 ![1, 0, 0] (padded scr) slices_S34x34x64_o1_0_0_S32x32x64) shapeCasts_S32x32x64_S1024x64
  | 4 => shapeCast S1024x64 (extractStridedSlice S32x32x64 ![1, 1, 0] (padded scr) slices_S34x34x64_o1_1_0_S32x32x64) shapeCasts_S32x32x64_S1024x64
  | 5 => shapeCast S1024x64 (extractStridedSlice S32x32x64 ![1, 2, 0] (padded scr) slices_S34x34x64_o1_2_0_S32x32x64) shapeCasts_S32x32x64_S1024x64
  | 6 => shapeCast S1024x64 (extractStridedSlice S32x32x64 ![2, 0, 0] (padded scr) slices_S34x34x64_o2_0_0_S32x32x64) shapeCasts_S32x32x64_S1024x64
  | 7 => shapeCast S1024x64 (extractStridedSlice S32x32x64 ![2, 1, 0] (padded scr) slices_S34x34x64_o2_1_0_S32x32x64) shapeCasts_S32x32x64_S1024x64
  | 8 => shapeCast S1024x64 (extractStridedSlice S32x32x64 ![2, 2, 0] (padded scr) slices_S34x34x64_o2_2_0_S32x32x64) shapeCasts_S32x32x64_S1024x64

/-- A 32 x 32 window of the padded image cut at offset (di, dj) and flattened to [1024, 64], at row 32 * h + x and
    channel c, is the padded image at (h + di, x + dj, c). -/
theorem window_apply (scr : Vec Ideal S32x32x64 .f32) (off : Fin 3 → Nat) (hs : S34x34x64.Slices off S32x32x64)
    (di dj : Nat) (h0 : off 0 = di) (h1 : off 1 = dj) (h2 : off 2 = 0) (hdi : di < 3) (hdj : dj < 3)
    (h x : Fin 32) (r : Fin 1024) (hr : r.val = 32 * h.val + x.val) (c : Fin 64) :
    shapeCast S1024x64 (extractStridedSlice S32x32x64 off (padded scr) hs) shapeCasts_S32x32x64_S1024x64 (ix2 r c)
      = padded scr (ix3 ⟨h.val + di, by have := h.isLt; omega⟩ ⟨x.val + dj, by have := x.isLt; omega⟩ c) := by
  refine (shapeCast_apply _ shapeCasts_S32x32x64_S1024x64 (ix2 r c) (ix3 h x c) ?_).trans ?_
  · rw [Shape.rowMajor_val_three, Shape.rowMajor_val_two]
    show (h.val * 32 + x.val) * 64 + c.val = r.val * 64 + c.val
    omega
  · exact extractStridedSlice_apply off (padded scr) hs (ix3 h x c) _ (fun a => match a with
      | ⟨0, _⟩ => by show h.val + di = off 0 + h.val; omega
      | ⟨1, _⟩ => by show x.val + dj = off 1 + x.val; omega
      | ⟨2, _⟩ => by show c.val = off 2 + c.val; omega)

/-- Window 3 * di + dj at row 32 * h + x and channel c is the padded image at (h + di, x + dj, c). -/
theorem tailTap_apply (scr : Vec Ideal S32x32x64 .f32) (di dj : Fin 3) (n : Fin 9) (hn : n.val = 3 * di.val + dj.val)
    (h x : Fin 32) (r : Fin 1024) (hr : r.val = 32 * h.val + x.val) (c : Fin 64) :
    tap scr n (ix2 r c) = padded scr (ix3 ⟨h.val + di.val, by have := h.isLt; have := di.isLt; omega⟩
      ⟨x.val + dj.val, by have := x.isLt; have := dj.isLt; omega⟩ c) := by
  obtain ⟨nv, hnlt⟩ := n
  change nv = 3 * di.val + dj.val at hn
  subst hn
  fin_cases di <;> fin_cases dj <;>
    exact window_apply scr _ _ _ _ rfl rfl rfl (by decide) (by decide) h x r hr c

/-- The nine windows side by side. -/
def im2col (scr : Vec Ideal S32x32x64 .f32) : FVec Ideal S1024x576 .f32 :=
  concatenate S1024x576 1 (List.ofFn fun n : Fin 9 => (⟨S1024x64, tap scr n⟩ : (s : Shape) × (s.Idx → Ideal .f32)))
    concatenates_S1024x64_S1024x64_S1024x64_S1024x64_S1024x64_S1024x64_S1024x64_S1024x64_S1024x64_S1024x576_d1

/-- The payload the body stores into the output window is the product of the nine windows with the weights, plus the
    bias row, reshaped to [1, 32, 32, 8]. -/
theorem k0_pay2_eq (scr : Vec Ideal S32x32x64 .f32) (w2 : Vec Ideal S576x8 .f32) (b2 : Vec Ideal S1x8 .f32) :
    k0_pay2 scr w2 b2
      = shapeCast S1x32x32x8 (shapeCast S32x32x8
          (addf (matmul dot_S1024x576_S576x8_S1024x8_1_0_0_1_n_n none (im2col scr) (shapeCast S576x8 w2 shapeCasts_S576x8_S576x8 : FVec Ideal S576x8 .f32)
              (constant S1024x8 .f32 0x00000000#32))
            (broadcastTo S1024x8 (shapeCast S1x8 b2 shapeCasts_S1x8_S1x8 : FVec Ideal S1x8 .f32) broadcasts_S1x8_S1024x8))
          shapeCasts_S1024x8_S32x32x8) shapeCasts_S32x32x8_S1x32x32x8 := rfl

/-- The tail payload at output pixel (h, x) and channel o: the 3 x 3 convolution of the scratch image (zero outside)
    with the [576, 8] weights (row 192 * di + 64 * dj + c), plus the bias. -/
theorem k0_pay2_apply (scr : Vec Ideal S32x32x64 .f32) (w2 : Vec Ideal S576x8 .f32) (b2 : Vec Ideal S1x8 .f32)
    (u : Fin 1) (h x : Fin 32) (o : Fin 8) :
    k0_pay2 scr w2 b2 (ix4 u h x o)
      = (∑ di : Fin 3, ∑ dj : Fin 3, ∑ c : Fin 64,
          Cert.Spec.pad1 32 32 (img3 scr) 0 (h.val + di.val) (x.val + dj.val) c.val
            * w2 (ix2 ⟨192 * di.val + 64 * dj.val + c.val, by have := di.isLt; have := dj.isLt; have := c.isLt; omega⟩ o))
        + b2 (ix2 0 o) := by
  rw [k0_pay2_eq]
  have hr : 32 * h.val + x.val < 1024 := by have := h.isLt; have := x.isLt; omega
  refine (shapeCast_abc_1abc_apply _ shapeCasts_S32x32x8_S1x32x32x8 u h x o).trans ?_
  refine (shapeCast_apply _ shapeCasts_S1024x8_S32x32x8 (ix3 h x o) (ix2 ⟨32 * h.val + x.val, hr⟩ o) ?_).trans ?_
  · rw [Shape.rowMajor_val_two, Shape.rowMajor_val_three]
    show (32 * h.val + x.val) * 8 + o.val = (h.val * 32 + x.val) * 8 + o.val
    omega
  rw [addf_apply]
  congr 1
  · refine (Cert.Dense.matmul_zero_apply dot_S1024x576_S576x8_S1024x8_1_0_0_1_n_n_wf none (im2col scr) _
      ⟨32 * h.val + x.val, hr⟩ o).trans ?_
    rw [sum_fin_576]
    refine Finset.sum_congr rfl fun di _ => Finset.sum_congr rfl fun dj _ => Finset.sum_congr rfl fun c _ => ?_
    have hdi := di.isLt; have hdj := dj.isLt; have hc := c.isLt
    congr 1
    · unfold im2col
      refine (concatenate_ofFn_apply (t := S1024x576) (s₁ := S1024x64) 1 (tap scr) _ rfl 64 rfl _ ⟨3 * di.val + dj.val, by omega⟩ ?_ (ix2 ⟨32 * h.val + x.val, hr⟩ c) ?_ ?_).trans ?_
      · show (192 * di.val + 64 * dj.val + c.val) / 64 = 3 * di.val + dj.val
        omega
      · show c.val = (192 * di.val + 64 * dj.val + c.val) % 64
        omega
      · intro b hb
        match b, hb with
        | ⟨0, _⟩, _ => rfl
        | ⟨1, _⟩, hb => exact absurd rfl hb
      · refine (tailTap_apply scr di dj _ rfl h x _ rfl c).trans ?_
        exact padded_apply scr _ _ c
    · rw [shapeCast_self]
  · refine (broadcastTo_apply _ broadcasts_S1x8_S1024x8 _ (ix2 0 o) (fun a => match a with
      | ⟨0, _⟩ => rfl
      | ⟨1, _⟩ => rfl)).trans ?_
    rw [shapeCast_self]

end Cert.KernelIdeal.Hand

end
-- ==== Proof.KStripSpec.lean ====
/- The fused kernel's strip, over natural-number coordinates: the 48 rows of the padded image a grid point loads as
   three 16-row blocks, the first convolution on them as ONE triple sum over (row offset, column offset, channel)
   against the [72, 64] weight matrix whose row 24 di + 8 dj + ci holds tap (di, dj) of channel ci, and matrices
   read at natural-number coordinates (zero outside). -/
import proofs.«178811_g2000006188366390_pallasbulk_758_10_alg».proof.Proof.Spec

noncomputable section

namespace Cert.KernelIdeal.Hand

open Idealize.ShloMosaic Idealize.ShloMosaic.ValueIdx
open Cert.Spec

/-- A matrix read at natural-number coordinates: its entry where both are in range, zero elsewhere. -/
def rdMat {n0 n1 : Nat} (x : (⟨2, ![n0, n1]⟩ : Shape).Idx → EReal) : Nat → Nat → EReal := fun a b =>
  if h : a < n0 ∧ b < n1 then x (ix2 ⟨a, h.1⟩ ⟨b, h.2⟩) else 0

theorem rdMat_of_lt {n0 n1 : Nat} (x : (⟨2, ![n0, n1]⟩ : Shape).Idx → EReal) (a : Fin n0) (b : Fin n1) :
    rdMat x a.val b.val = x (ix2 a b) := by
  unfold rdMat; rw [dif_pos ⟨a.isLt, b.isLt⟩]

theorem rdMat_of_not {n0 n1 : Nat} (x : (⟨2, ![n0, n1]⟩ : Shape).Idx → EReal) (a b : Nat) (h : ¬(a < n0 ∧ b < n1)) :
    rdMat x a b = 0 := by
  unfold rdMat; rw [dif_neg h]

/-- The 48 rows of a strip: rows 0-15 from the first block, 16-31 from the second, 32-47 from the third (any image
   coordinate; zero past row 47, column 257 or channel 7). -/
def stripRows (x0 x1 x2 : (⟨4, ![1, 16, 258, 8]⟩ : Shape).Idx → EReal) : A4 := fun _ r j c =>
  if r < 16 then rd4 x0 0 r j c else if r < 32 then rd4 x1 0 (r - 16) j c else rd4 x2 0 (r - 32) j c

/-- The first convolution on a strip's rows: output row h reads strip rows h, h+1, h+2 and columns x, x+1, x+2, all
   eight channels, against row 24 di + 8 dj + ci of the weight matrix, plus the bias. -/
def convStrip (X : A4) (w : Nat → Nat → EReal) (b : A1) : A4 := fun n h x o =>
  (∑ di : Fin 3, ∑ dj : Fin 3, ∑ ci : Fin 8, X n (h + di.val) (x + dj.val) ci.val * w (24 * di.val + 8 * dj.val + ci.val) o) + b o

/-- The strip's convolution is the padded 3 x 3 convolution wherever the strip's rows are the padded image's rows and
   the matrix's rows are the weight's taps. -/
theorem convStrip_eq_conv3 (H W : Nat) (X V Wt : A4) (w : Nat → Nat → EReal) (b B : A1) (n n' h h' x o : Nat)
    (hX : ∀ di dj ci, di < 3 → dj < 3 → ci < 8 → X n (h + di) (x + dj) ci = pad1 H W V n' (h' + di) (x + dj) ci)
    (hw : ∀ di dj ci, di < 3 → dj < 3 → ci < 8 → w (24 * di + 8 * dj + ci) o = Wt di dj ci o) (hb : b o = B o) :
    convStrip X w b n h x o = conv3 8 H W V Wt B n' h' x o := by
  unfold convStrip conv3
  rw [hb]
  refine congrArg (· + B o) ?_
  refine Finset.sum_congr rfl fun di _ => Finset.sum_congr rfl fun dj _ => Finset.sum_congr rfl fun ci _ => ?_
  rw [hX di.val dj.val ci.val di.isLt dj.isLt ci.isLt, hw di.val dj.val ci.val di.isLt dj.isLt ci.isLt]

/-- A down stage with its four taps' sums written out one after the other, as the kernel adds them. -/
theorem down_taps (v w : A4) (b : A1) (n p q o : Nat) :
    down v w b n p q o
      = max (max (v n (2 * p) (2 * q) o) (v n (2 * p) (2 * q + 1) o))
            (max (v n (2 * p + 1) (2 * q) o) (v n (2 * p + 1) (2 * q + 1) o))
        + ((((b o + ∑ c : Fin 64, v n (2 * p) (2 * q) c.val * w 0 0 c.val o)
              + ∑ c : Fin 64, v n (2 * p) (2 * q + 1) c.val * w 0 1 c.val o)
            + ∑ c : Fin 64, v n (2 * p + 1) (2 * q) c.val * w 1 0 c.val o)
          + ∑ c : Fin 64, v n (2 * p + 1) (2 * q + 1) c.val * w 1 1 c.val o) := by
  unfold down
  simp only [Fin.sum_univ_two, Fin.val_zero, Fin.val_one, Nat.add_zero, add_assoc]

end Cert.KernelIdeal.Hand

end
-- ==== Proof.KNet.lean ====
/-
  From one strip to the whole image, over natural-number coordinates.

  A grid point (image n, strip s) of the fused kernel sees rows 32 s .. 32 s + 47 of image n of the padded array and
  computes, from them alone, rows 4 s .. 4 s + 3 of the third down stage.  This is so because a down stage at output row
  p reads input rows 2 p and 2 p + 1 only: output rows 16 s .. 16 s + 15 of the first stage need rows 32 s .. 32 s + 31
  of the first convolution, which need rows 32 s .. 32 s + 33 of the padded image; and so on down the stages.  The
  lemmas here say that a stage computed on an array that agrees with another one up to a shift of the image and of the
  rows gives the shifted result.
-/
import proofs.«178811_g2000006188366390_pallasbulk_758_10_alg».proof.Proof.Spec
import proofs.«178811_g2000006188366390_pallasbulk_758_10_alg».proof.Proof.KStripSpec

noncomputable section

namespace Cert.KernelIdeal.Hand

open Idealize.ShloMosaic Idealize.ShloMosaic.ValueIdx
open Cert.Spec

/-- A down stage at (n, p, q) of one array is the down stage at (n', p', q) of another that has the same four pixels
    there. -/
theorem down_shift (v v' w : A4) (b : A1) (n n' p p' q : Nat)
    (hv : ∀ i j c, i < 2 → j < 2 → v n (2 * p + i) (2 * q + j) c = v' n' (2 * p' + i) (2 * q + j) c) (o : Nat) :
    down v w b n p q o = down v' w b n' p' q o := by
  unfold down
  have h00 := hv 0 0 o (by omega) (by omega)
  have h01 := hv 0 1 o (by omega) (by omega)
  have h10 := hv 1 0 o (by omega) (by omega)
  have h11 := hv 1 1 o (by omega) (by omega)
  simp only [Nat.add_zero] at h00 h01 h10 h11
  rw [h00, h01, h10, h11]
  refine congrArg (_ + ·) (congrArg (b o + ·) ?_)
  refine Finset.sum_congr rfl fun ki _ => Finset.sum_congr rfl fun kj _ => Finset.sum_congr rfl fun c _ => ?_
  rw [hv ki.val kj.val c.val ki.isLt kj.isLt]

/-- The 3 x 3 convolution of image n of one array is that of image n' of another that has the same H x W x C entries. -/
theorem conv3_shift (C H W : Nat) (v v' w : A4) (b : A1) (n n' : Nat)
    (hv : ∀ i j c, i < H → j < W → c < C → v n i j c = v' n' i j c) (h x o : Nat) :
    conv3 C H W v w b n h x o = conv3 C H W v' w b n' h x o := by
  unfold conv3
  refine congrArg (· + b o) ?_
  refine Finset.sum_congr rfl fun di _ => Finset.sum_congr rfl fun dj _ => Finset.sum_congr rfl fun c _ => ?_
  refine congrArg (· * w di.val dj.val c.val o) ?_
  unfold pad1
  by_cases hh : 1 ≤ h + di.val ∧ h + di.val ≤ H ∧ 1 ≤ x + dj.val ∧ x + dj.val ≤ W
  · rw [if_pos hh, if_pos hh]; exact hv _ _ _ (by omega) (by omega) c.isLt
  · rw [if_neg hh, if_neg hh]

/-- Three 16-row blocks that hold rows r0 .. r0 + 47 of image n of an array P (which is zero past column 257 and
    channel 7) read, as a strip, like P shifted by r0 rows. -/
theorem stripRows_eq (x0 x1 x2 : (⟨4, ![1, 16, 258, 8]⟩ : Shape).Idx → EReal) (P : A4) (n r0 : Nat)
    (hx0 : ∀ (r : Fin 16) (j : Fin 258) (c : Fin 8), x0 (ix4 0 r j c) = P n (r0 + r.val) j.val c.val)
    (hx1 : ∀ (r : Fin 16) (j : Fin 258) (c : Fin 8), x1 (ix4 0 r j c) = P n (r0 + 16 + r.val) j.val c.val)
    (hx2 : ∀ (r : Fin 16) (j : Fin 258) (c : Fin 8), x2 (ix4 0 r j c) = P n (r0 + 32 + r.val) j.val c.val)
    (hP : ∀ r j c, ¬(j < 258 ∧ c < 8) → P n r j c = 0)
    (r j c : Nat) (hr : r < 48) : stripRows x0 x1 x2 0 r j c = P n (r0 + r) j c := by
  unfold stripRows
  by_cases hjc : j < 258 ∧ c < 8
  · by_cases h16 : r < 16
    · rw [if_pos h16]
      exact (rd4_of_lt x0 (0 : Fin 1) ⟨r, h16⟩ ⟨j, hjc.1⟩ ⟨c, hjc.2⟩).trans (hx0 ⟨r, h16⟩ ⟨j, hjc.1⟩ ⟨c, hjc.2⟩)
    · rw [if_neg h16]
      by_cases h32 : r < 32
      · rw [if_pos h32]
        refine ((rd4_of_lt x1 (0 : Fin 1) ⟨r - 16, by omega⟩ ⟨j, hjc.1⟩ ⟨c, hjc.2⟩).trans
          (hx1 ⟨r - 16, by omega⟩ ⟨j, hjc.1⟩ ⟨c, hjc.2⟩)).trans ?_
        show P n (r0 + 16 + (r - 16)) j c = _
        rw [show r0 + 16 + (r - 16) = r0 + r from by omega]
      · rw [if_neg h32]
        refine ((rd4_of_lt x2 (0 : Fin 1) ⟨r - 32, by omega⟩ ⟨j, hjc.1⟩ ⟨c, hjc.2⟩).trans
          (hx2 ⟨r - 32, by omega⟩ ⟨j, hjc.1⟩ ⟨c, hjc.2⟩)).trans ?_
        show P n (r0 + 32 + (r - 32)) j c = _
        rw [show r0 + 32 + (r - 32) = r0 + r from by omega]
  · rw [hP _ _ _ hjc]
    have hz : ∀ (x : (⟨4, ![1, 16, 258, 8]⟩ : Shape).Idx → EReal) (r' : Nat), rd4 x 0 r' j c = 0 := fun x r' =>
      rd4_of_not x 0 r' j c (fun h => hjc ⟨h.2.2.1, h.2.2.2⟩)
    split
    · exact hz _ _
    · split
      · exact hz _ _
      · exact hz _ _

/-- What a grid point computes from its strip is rows 4 s .. 4 s + 3 of the third down stage of the first convolution
    of the whole padded image n. -/
theorem strip_chain (x0 x1 x2 : (⟨4, ![1, 16, 258, 8]⟩ : Shape).Idx → EReal) (V Wt : A4) (B : A1)
    (w : Nat → Nat → EReal) (b : A1) (wd1 wd2 wd3 : A4) (bd1 bd2 bd3 : A1) (n s : Nat)
    (hx0 : ∀ (r : Fin 16) (j : Fin 258) (c : Fin 8), x0 (ix4 0 r j c) = pad1 256 256 V n (32 * s + r.val) j.val c.val)
    (hx1 : ∀ (r : Fin 16) (j : Fin 258) (c : Fin 8), x1 (ix4 0 r j c) = pad1 256 256 V n (32 * s + 16 + r.val) j.val c.val)
    (hx2 : ∀ (r : Fin 16) (j : Fin 258) (c : Fin 8), x2 (ix4 0 r j c) = pad1 256 256 V n (32 * s + 32 + r.val) j.val c.val)
    (hP : ∀ r j c, ¬(j < 258 ∧ c < 8) → pad1 256 256 V n r j c = 0)
    (hw : ∀ di dj ci o, di < 3 → dj < 3 → ci < 8 → w (24 * di + 8 * dj + ci) o = Wt di dj ci o) (hb : ∀ o, b o = B o)
    (a q o : Nat) (ha : a < 4) :
    down (down (down (convStrip (stripRows x0 x1 x2) w b) wd1 bd1) wd2 bd2) wd3 bd3 0 a q o
      = down (down (down (conv3 8 256 256 V Wt B) wd1 bd1) wd2 bd2) wd3 bd3 n (4 * s + a) q o := by
  have L1 : ∀ h x o, h < 32 →
      convStrip (stripRows x0 x1 x2) w b 0 h x o = conv3 8 256 256 V Wt B n (32 * s + h) x o := fun h x o hh =>
    convStrip_eq_conv3 256 256 _ V Wt w b B 0 n h (32 * s + h) x o (fun di dj ci hdi hdj hci => by
      rw [stripRows_eq x0 x1 x2 (pad1 256 256 V) n (32 * s) hx0 hx1 hx2 hP (h + di) (x + dj) ci (by omega), Nat.add_assoc])
      (fun di dj ci => hw di dj ci o) (hb o)
  have L2 : ∀ p q o, p < 16 → down (convStrip (stripRows x0 x1 x2) w b) wd1 bd1 0 p q o
      = down (conv3 8 256 256 V Wt B) wd1 bd1 n (16 * s + p) q o := fun p q o hp =>
    down_shift _ _ wd1 bd1 0 n p (16 * s + p) q (fun i j c hi hj => by
      rw [L1 (2 * p + i) (2 * q + j) c (by omega), show 32 * s + (2 * p + i) = 2 * (16 * s + p) + i from by omega]) o
  have L3 : ∀ p q o, p < 8 → down (down (convStrip (stripRows x0 x1 x2) w b) wd1 bd1) wd2 bd2 0 p q o
      = down (down (conv3 8 256 256 V Wt B) wd1 bd1) wd2 bd2 n (8 * s + p) q o := fun p q o hp =>
    down_shift _ _ wd2 bd2 0 n p (8 * s + p) q (fun i j c hi hj => by
      rw [L2 (2 * p + i) (2 * q + j) c (by omega), show 16 * s + (2 * p + i) = 2 * (8 * s + p) + i from by omega]) o
  exact down_shift _ _ wd3 bd3 0 n a (4 * s + a) q (fun i j c hi hj => by
    rw [L3 (2 * a + i) (2 * q + j) c (by omega), show 8 * s + (2 * a + i) = 2 * (4 * s + a) + i from by omega]) o

end Cert.KernelIdeal.Hand

end
-- ==== Proof.KStripLayout.lean ====
/- Layout operations of the fused kernel read at an index given by its coordinates: a [M, c] matrix recast as
   [a, b, c] with row p * b + q, a [2a, 2b, c] image recast as [a, 2, b, 2, c] and cut to one of its four taps
   (entry (p, q) of tap (K, L) is pixel (2p + K, 2q + L)), a window of a rank-3 array, one [64, 64] matrix of a
   [2, 2, 64, 64] weight, and a product of a recast tap with such a matrix as a sum over the channel. -/
import Idealize.ShloMosaic.Lib.Pipeline.Value
import Idealize.ShloMosaic.Lib.ValueIdx
import Idealize.ShloMosaic.Lib.ValueLayout
import proofs.«178811_g2000006188366390_pallasbulk_758_10_alg».proof.Proof.LibDense

noncomputable section

namespace Cert.KernelIdeal.Hand

open Idealize.ShloMosaic Idealize.ShloMosaic.ValueIdx

variable {α : Type}

/-- An [a, b, c] array recast as [m, c]: row r = p * b + q is pixel (p, q). -/
theorem cast32_apply {m a b c : Nat} (x : (⟨3, ![a, b, c]⟩ : Shape).Idx → α)
    (h : (⟨3, ![a, b, c]⟩ : Shape).ShapeCasts ⟨2, ![m, c]⟩) (r : Fin m) (p : Fin a) (q : Fin b) (o : Fin c)
    (hr : r.val = p.val * b + q.val) : shapeCast ⟨2, ![m, c]⟩ x h (ix2 r o) = x (ix3 p q o) :=
  shapeCast_apply x h _ _ (by
    rw [Shape.rowMajor_val_three, Shape.rowMajor_val_two]
    show (p.val * b + q.val) * c + o.val = r.val * c + o.val
    rw [hr])

/-- An [m, c] matrix recast as [a, b, c]: pixel (p, q) is row r = p * b + q. -/
theorem cast23_apply {m a b c : Nat} (x : (⟨2, ![m, c]⟩ : Shape).Idx → α)
    (h : (⟨2, ![m, c]⟩ : Shape).ShapeCasts ⟨3, ![a, b, c]⟩) (r : Fin m) (p : Fin a) (q : Fin b) (o : Fin c)
    (hr : r.val = p.val * b + q.val) : shapeCast ⟨3, ![a, b, c]⟩ x h (ix3 p q o) = x (ix2 r o) :=
  shapeCast_apply x h _ _ (by
    rw [Shape.rowMajor_val_three, Shape.rowMajor_val_two]
    show r.val * c + o.val = (p.val * b + q.val) * c + o.val
    rw [hr])

/-- A window of a rank-3 array at offsets (di, dj, 0): entry (h, x, ci) is the array's entry (di + h, dj + x, ci). -/
theorem window3_apply {a b a' b' c : Nat} (di dj : Nat) (x : (⟨3, ![a, b, c]⟩ : Shape).Idx → α)
    (hs : (⟨3, ![a, b, c]⟩ : Shape).Slices ![di, dj, 0] ⟨3, ![a', b', c]⟩) (h : Fin a') (y : Fin b') (ci : Fin c)
    (H : Fin a) (Y : Fin b) (hH : H.val = di + h.val) (hY : Y.val = dj + y.val) :
    extractStridedSlice ⟨3, ![a', b', c]⟩ ![di, dj, 0] x hs (ix3 h y ci) = x (ix3 H Y ci) :=
  extractStridedSlice_apply _ x hs _ _ (fun ax => by
    match ax with
    | ⟨0, _⟩ => exact hH
    | ⟨1, _⟩ => exact hY
    | ⟨2, _⟩ => exact (Nat.zero_add _).symm)

/-- A [2a, 2b, c] image recast as [a, 2, b, 2, c], cut to tap (K, L) and recast as [a, b, c]: entry (p, q, o) is the
   image's pixel (2p + K, 2q + L), channel o. -/
theorem tap_apply {a b c a2 b2 : Nat} (K L : Nat) (x : (⟨3, ![a2, b2, c]⟩ : Shape).Idx → α)
    (h1 : (⟨3, ![a2, b2, c]⟩ : Shape).ShapeCasts ⟨5, ![a, 2, b, 2, c]⟩)
    (h2 : (⟨5, ![a, 2, b, 2, c]⟩ : Shape).Slices ![0, K, 0, L, 0] ⟨5, ![a, 1, b, 1, c]⟩)
    (h3 : (⟨5, ![a, 1, b, 1, c]⟩ : Shape).ShapeCasts ⟨3, ![a, b, c]⟩)
    (hb : b2 = 2 * b) (hK : K < 2) (hL : L < 2)
    (p : Fin a) (q : Fin b) (o : Fin c) (P : Fin a2) (Q : Fin b2) (hP : P.val = 2 * p.val + K) (hQ : Q.val = 2 * q.val + L) :
    shapeCast ⟨3, ![a, b, c]⟩ (extractStridedSlice ⟨5, ![a, 1, b, 1, c]⟩ ![0, K, 0, L, 0]
        (shapeCast ⟨5, ![a, 2, b, 2, c]⟩ x h1) h2) h3 (ix3 p q o) = x (ix3 P Q o) := by
  have e3 := shapeCast_apply (extractStridedSlice ⟨5, ![a, 1, b, 1, c]⟩ ![0, K, 0, L, 0]
      (shapeCast ⟨5, ![a, 2, b, 2, c]⟩ x h1) h2) h3 (ix3 p q o) (ix5 p (0 : Fin 1) q (0 : Fin 1) o) (by
    rw [Shape.rowMajor_val_five, Shape.rowMajor_val_three]
    show (((p.val * 1 + 0) * b + q.val) * 1 + 0) * c + o.val = (p.val * b + q.val) * c + o.val
    simp only [Nat.mul_one, Nat.add_zero])
  have e2 := extractStridedSlice_apply ![0, K, 0, L, 0] (shapeCast ⟨5, ![a, 2, b, 2, c]⟩ x h1) h2
    (ix5 p (0 : Fin 1) q (0 : Fin 1) o) (ix5 p (⟨K, hK⟩ : Fin 2) q (⟨L, hL⟩ : Fin 2) o) (fun ax => by
    match ax with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm)
  have e1 := shapeCast_apply x h1 (ix5 p (⟨K, hK⟩ : Fin 2) q (⟨L, hL⟩ : Fin 2) o) (ix3 P Q o) (by
    rw [Shape.rowMajor_val_five, Shape.rowMajor_val_three]
    show (P.val * b2 + Q.val) * c + o.val = (((p.val * 2 + K) * b + q.val) * 2 + L) * c + o.val
    rw [hP, hQ, hb]; ring)
  exact e3.trans (e2.trans e1)

/-- One [64, 64] matrix of a [2, 2, n, n] weight: entry (c, o) of the matrix at (K, L). -/
theorem wmat_apply {n : Nat} (K L : Nat) (W : (⟨4, ![2, 2, n, n]⟩ : Shape).Idx → α)
    (hs : (⟨4, ![2, 2, n, n]⟩ : Shape).Slices ![K, L, 0, 0] ⟨4, ![1, 1, n, n]⟩)
    (hc : (⟨4, ![1, 1, n, n]⟩ : Shape).ShapeCasts ⟨2, ![n, n]⟩) (hK : K < 2) (hL : L < 2) (c o : Fin n) :
    shapeCast ⟨2, ![n, n]⟩ (extractStridedSlice ⟨4, ![1, 1, n, n]⟩ ![K, L, 0, 0] W hs) hc (ix2 c o)
      = W (ix4 (⟨K, hK⟩ : Fin 2) (⟨L, hL⟩ : Fin 2) c o) := by
  have e2 := shapeCast_apply (extractStridedSlice ⟨4, ![1, 1, n, n]⟩ ![K, L, 0, 0] W hs) hc (ix2 c o)
    (ix4 (0 : Fin 1) (0 : Fin 1) c o) (by
    rw [Shape.rowMajor_val_four, Shape.rowMajor_val_two]
    show ((0 * 1 + 0) * n + c.val) * n + o.val = c.val * n + o.val
    simp only [Nat.zero_mul, Nat.zero_add])
  have e1 := extractStridedSlice_apply ![K, L, 0, 0] W hs (ix4 (0 : Fin 1) (0 : Fin 1) c o)
    (ix4 (⟨K, hK⟩ : Fin 2) (⟨L, hL⟩ : Fin 2) c o) (fun ax => by
    match ax with
    | ⟨0, _⟩ => rfl
    | ⟨1, _⟩ => rfl
    | ⟨2, _⟩ => exact (Nat.zero_add _).symm
    | ⟨3, _⟩ => exact (Nat.zero_add _).symm)
  exact e2.trans e1

/-- A tap recast as a matrix of rows, times one matrix of the weight, into the zero splat: at row r = p * b + q and
   column o, the sum over the channel of the tap's pixel (p, q) against the matrix's column o. -/
theorem tapdot_apply {m a b n : Nat} (w : DotDims.WF ⟨2, ![m, n]⟩ ⟨2, ![n, n]⟩ ⟨2, ![m, n]⟩ [1] [0] [0] [1] [] [])
    (prec : Option ContractPrecision) (t : FVec Ideal ⟨3, ![a, b, n]⟩ .f32)
    (h : (⟨3, ![a, b, n]⟩ : Shape).ShapeCasts ⟨2, ![m, n]⟩) (B : FVec Ideal ⟨2, ![n, n]⟩ .f32)
    (r : Fin m) (p : Fin a) (q : Fin b) (o : Fin n) (hr : r.val = p.val * b + q.val) :
    matmul (⟨[1], [0], [0], [1], [], [], w⟩ : DotDims ⟨2, ![m, n]⟩ ⟨2, ![n, n]⟩ ⟨2, ![m, n]⟩) prec
        (shapeCast ⟨2, ![m, n]⟩ t h) B (constant (F := Ideal) ⟨2, ![m, n]⟩ .f32 0x00000000#32) (ix2 r o)
      = ∑ c : Fin n, t (ix3 p q c) * B (ix2 c o) := by
  rw [Cert.Dense.matmul_zero_apply]
  refine Finset.sum_congr rfl fun c _ => ?_
  rw [cast32_apply t h r p q c hr]

end Cert.KernelIdeal.Hand

end
-- ==== Proof.KStripConv.lean ====
/- The fused kernel's first convolution at an index: the [8192, 72] matrix of 3 x 3 x 8 neighbourhoods (column
   24 di + 8 dj + ci of row 256 h + x is entry (h + di, x + dj, ci) of the 48-row strip) times the [72, 64] weight
   matrix plus the bias row is the triple sum over (di, dj, ci) the strip's convolution states. -/
import proofs.«178811_g2000006188366390_pallasbulk_758_10_alg».proof.Proof.Gen.KernelIdeal.Skeleton
import proofs.«178811_g2000006188366390_pallasbulk_758_10_alg».proof.Proof.KStripSpec
import proofs.«178811_g2000006188366390_pallasbulk_758_10_alg».proof.Proof.KStripLayout
import proofs.«178811_g2000006188366390_pallasbulk_758_10_alg».proof.Proof.LibIndexSums

noncomputable section

namespace Cert.KernelIdeal.Hand

open Cert.KernelIdeal Cert.KernelIdeal.Gen
open Idealize.ShloMosaic Idealize.ShloMosaic.ValueIdx Idealize.SL.Sem
open Cert.Spec

/-- The three 16-row blocks laid one under the other: entry (R, Y, ci) of the 48-row strip. -/
theorem rows48_apply (x0 x1 x2 : Vec Ideal S1x16x258x8 .f32) (R : Fin 48) (Y : Fin 258) (ci : Fin 8) (n : Nat) :
    concatenate S48x258x8 0 [⟨S16x258x8, shapeCast S16x258x8 x0 shapeCasts_S1x16x258x8_S16x258x8⟩,
        ⟨S16x258x8, shapeCast S16x258x8 x1 shapeCasts_S1x16x258x8_S16x258x8⟩,
        ⟨S16x258x8, shapeCast S16x258x8 x2 shapeCasts_S1x16x258x8_S16x258x8⟩]
        concatenates_S16x258x8_S16x258x8_S16x258x8_S48x258x8_d0 (ix3 R Y ci)
      = stripRows x0 x1 x2 n R.val Y.val ci.val := by
  unfold stripRows
  by_cases h1 : R.val < 16
  · rw [if_pos h1]
    refine (concatenate_apply_piece _ _ _ (ix3 R Y ci) 0 (by show 0 < 3; omega) S16x258x8 _ (by rfl) (by rfl) 0 (by rfl)
      (ix3 (⟨R.val, h1⟩ : Fin 16) Y ci)
      (fun b hb => by match b with | ⟨0, _⟩ => exact absurd rfl hb | ⟨1, _⟩ => rfl | ⟨2, _⟩ => rfl)
      (by show 0 + R.val = R.val; omega)).trans ?_
    refine (shapeCast_1abc_abc_apply x0 _ (⟨R.val, h1⟩ : Fin 16) Y ci).trans ?_
    exact (rd4_of_lt x0 (0 : Fin 1) (⟨R.val, h1⟩ : Fin 16) Y ci).symm
  · rw [if_neg h1]
    by_cases h2 : R.val < 32
    · rw [if_pos h2]
      refine (concatenate_apply_piece _ _ _ (ix3 R Y ci) 1 (by show 1 < 3; omega) S16x258x8 _ (by rfl) (by rfl) 16 (by rfl)
        (ix3 (⟨R.val - 16, by omega⟩ : Fin 16) Y ci)
        (fun b hb => by match b with | ⟨0, _⟩ => exact absurd rfl hb | ⟨1, _⟩ => rfl | ⟨2, _⟩ => rfl)
        (by show 16 + (R.val - 16) = R.val; omega)).trans ?_
      refine (shapeCast_1abc_abc_apply x1 _ (⟨R.val - 16, by omega⟩ : Fin 16) Y ci).trans ?_
      exact (rd4_of_lt x1 (0 : Fin 1) (⟨R.val - 16, by omega⟩ : Fin 16) Y ci).symm
    · rw [if_neg h2]
      have h3 : R.val < 48 := R.isLt
      refine (concatenate_apply_piece _ _ _ (ix3 R Y ci) 2 (by show 2 < 3; omega) S16x258x8 _ (by rfl) (by rfl) 32 (by rfl)
        (ix3 (⟨R.val - 32, by omega⟩ : Fin 16) Y ci)
        (fun b hb => by match b with | ⟨0, _⟩ => exact absurd rfl hb | ⟨1, _⟩ => rfl | ⟨2, _⟩ => rfl)
        (by show 32 + (R.val - 32) = R.val; omega)).trans ?_
      refine (shapeCast_1abc_abc_apply x2 _ (⟨R.val - 32, by omega⟩ : Fin 16) Y ci).trans ?_
      exact (rd4_of_lt x2 (0 : Fin 1) (⟨R.val - 32, by omega⟩ : Fin 16) Y ci).symm

/-- The matrix of neighbourhoods: column 24 di + 8 dj + ci of row 256 h + x is entry (h + di, x + dj, ci) of the
   strip. -/
theorem neighbourhoods_apply (V : FVec Ideal S48x258x8 .f32) (r : Fin 8192) (k : Fin 72) (h : Fin 32) (x : Fin 256)
    (di dj : Nat) (ci : Fin 8) (hr : r.val = h.val * 256 + x.val) (hk : k.val = 24 * di + 8 * dj + ci.val)
    (hdi : di < 3) (hdj : dj < 3) (R : Fin 48) (Y : Fin 258) (hR : R.val = h.val + di) (hY : Y.val = x.val + dj) :
    concatenate S8192x72 1 [⟨S8192x8, shapeCast S8192x8 (extractStridedSlice S32x256x8 ![0, 0, 0] V slices_S48x258x8_o0_0_0_S32x256x8) shapeCasts_S32x256x8_S8192x8⟩,
        ⟨S8192x8, shapeCast S8192x8 (extractStridedSlice S32x256x8 ![0, 1, 0] V slices_S48x258x8_o0_1_0_S32x256x8) shapeCasts_S32x256x8_S8192x8⟩,
        ⟨S8192x8, shapeCast S8192x8 (extractStridedSlice S32x256x8 ![0, 2, 0] V slices_S48x258x8_o0_2_0_S32x256x8) shapeCasts_S32x256x8_S8192x8⟩,
        ⟨S8192x8, shapeCast S8192x8 (extractStridedSlice S32x256x8 ![1, 0, 0] V slices_S48x258x8_o1_0_0_S32x256x8) shapeCasts_S32x256x8_S8192x8⟩,
        ⟨S8192x8, shapeCast S8192x8 (extractStridedSlice S32x256x8 ![1, 1, 0] V slices_S48x258x8_o1_1_0_S32x256x8) shapeCasts_S32x256x8_S8192x8⟩,
        ⟨S8192x8, shapeCast S8192x8 (extractStridedSlice S32x256x8 ![1, 2, 0] V slices_S48x258x8_o1_2_0_S32x256x8) shapeCasts_S32x256x8_S8192x8⟩,
        ⟨S8192x8, shapeCast S8192x8 (extractStridedSlice S32x256x8 ![2, 0, 0] V slices_S48x258x8_o2_0_0_S32x256x8) shapeCasts_S32x256x8_S8192x8⟩,
        ⟨S8192x8, shapeCast S8192x8 (extractStridedSlice S32x256x8 ![2, 1, 0] V slices_S48x258x8_o2_1_0_S32x256x8) shapeCasts_S32x256x8_S8192x8⟩,
        ⟨S8192x8, shapeCast S8192x8 (extractStridedSlice S32x256x8 ![2, 2, 0] V slices_S48x258x8_o2_2_0_S32x256x8) shapeCasts_S32x256x8_S8192x8⟩]
        concatenates_S8192x8_S8192x8_S8192x8_S8192x8_S8192x8_S8192x8_S8192x8_S8192x8_S8192x8_S8192x72_d1 (ix2 r k)
      = V (ix3 R Y ci) := by
  have hdi' : di = 0 ∨ di = 1 ∨ di = 2 := by omega
  have hdj' : dj = 0 ∨ dj = 1 ∨ dj = 2 := by omega
  rcases hdi' with rfl | rfl | rfl <;> rcases hdj' with rfl | rfl | rfl
  · refine (concatenate_apply_piece _ _ _ (ix2 r k) 0 (by show 0 < 9; omega) S8192x8 _ (by rfl) (by rfl) 0 (by rfl) (ix2 r ci)
      (fun b hb => by match b with | ⟨0, _⟩ => rfl | ⟨1, _⟩ => exact absurd rfl hb) (by show 0 + ci.val = k.val; omega)).trans ?_
    refine (cast32_apply _ _ r h x ci hr).trans ?_
    exact window3_apply 0 0 V _ h x ci R Y (by omega) (by omega)
  · refine (concatenate_apply_piece _ _ _ (ix2 r k) 1 (by show 1 < 9; omega) S8192x8 _ (by rfl) (by rfl) 8 (by rfl) (ix2 r ci)
      (fun b hb => by match b with | ⟨0, _⟩ => rfl | ⟨1, _⟩ => exact absurd rfl hb) (by show 8 + ci.val = k.val; omega)).trans ?_
    refine (cast32_apply _ _ r h x ci hr).trans ?_
    exact window3_apply 0 1 V _ h x ci R Y (by omega) (by omega)
  · refine (concatenate_apply_piece _ _ _ (ix2 r k) 2 (by show 2 < 9; omega) S8192x8 _ (by rfl) (by rfl) 16 (by rfl) (ix2 r ci)
      (fun b hb => by match b with | ⟨0, _⟩ => rfl | ⟨1, _⟩ => exact absurd rfl hb) (by show 16 + ci.val = k.val; omega)).trans ?_
    refine (cast32_apply _ _ r h x ci hr).trans ?_
    exact window3_apply 0 2 V _ h x ci R Y (by omega) (by omega)
  · refine (concatenate_apply_piece _ _ _ (ix2 r k) 3 (by show 3 < 9; omega) S8192x8 _ (by rfl) (by rfl) 24 (by rfl) (ix2 r ci)
      (fun b hb => by match b with | ⟨0, _⟩ => rfl | ⟨1, _⟩ => exact absurd rfl hb) (by show 24 + ci.val = k.val; omega)).trans ?_
    refine (cast32_apply _ _ r h x ci hr).trans ?_
    exact window3_apply 1 0 V _ h x ci R Y (by omega) (by omega)
  · refine (concatenate_apply_piece _ _ _ (ix2 r k) 4 (by show 4 < 9; omega) S8192x8 _ (by rfl) (by rfl) 32 (by rfl) (ix2 r ci)
      (fun b hb => by match b with | ⟨0, _⟩ => rfl | ⟨1, _⟩ => exact absurd rfl hb) (by show 32 + ci.val = k.val; omega)).trans ?_
    refine (cast32_apply _ _ r h x ci hr).trans ?_
    exact window3_apply 1 1 V _ h x ci R Y (by omega) (by omega)
  · refine (concatenate_apply_piece _ _ _ (ix2 r k) 5 (by show 5 < 9; omega) S8192x8 _ (by rfl) (by rfl) 40 (by rfl) (ix2 r ci)
      (fun b hb => by match b with | ⟨0, _⟩ => rfl | ⟨1, _⟩ => exact absurd rfl hb) (by show 40 + ci.val = k.val; omega)).trans ?_
    refine (cast32_apply _ _ r h x ci hr).trans ?_
    exact window3_apply 1 2 V _ h x ci R Y (by omega) (by omega)
  · refine (concatenate_apply_piece _ _ _ (ix2 r k) 6 (by show 6 < 9; omega) S8192x8 _ (by rfl) (by rfl) 48 (by rfl) (ix2 r ci)
      (fun b hb => by match b with | ⟨0, _⟩ => rfl | ⟨1, _⟩ => exact absurd rfl hb) (by show 48 + ci.val = k.val; omega)).trans ?_
    refine (cast32_apply _ _ r h x ci hr).trans ?_
    exact window3_apply 2 0 V _ h x ci R Y (by omega) (by omega)
  · refine (concatenate_apply_piece _ _ _ (ix2 r k) 7 (by show 7 < 9; omega) S8192x8 _ (by rfl) (by rfl) 56 (by rfl) (ix2 r ci)
      (fun b hb => by match b with | ⟨0, _⟩ => rfl | ⟨1, _⟩ => exact absurd rfl hb) (by show 56 + ci.val = k.val; omega)).trans ?_
    refine (cast32_apply _ _ r h x ci hr).trans ?_
    exact window3_apply 2 1 V _ h x ci R Y (by omega) (by omega)
  · refine (concatenate_apply_piece _ _ _ (ix2 r k) 8 (by show 8 < 9; omega) S8192x8 _ (by rfl) (by rfl) 64 (by rfl) (ix2 r ci)
      (fun b hb => by match b with | ⟨0, _⟩ => rfl | ⟨1, _⟩ => exact absurd rfl hb) (by show 64 + ci.val = k.val; omega)).trans ?_
    refine (cast32_apply _ _ r h x ci hr).trans ?_
    exact window3_apply 2 2 V _ h x ci R Y (by omega) (by omega)

/-- The first convolution's output at row h, column x, channel o of a strip. -/
theorem conv1_apply (x0 x1 x2 : Vec Ideal S1x16x258x8 .f32) (w1 : Vec Ideal S72x64 .f32) (b1 : Vec Ideal S1x64 .f32)
    (h : Fin 32) (x : Fin 256) (o : Fin 64) :
    k0_pay3 (F := Ideal) x0 x1 x2 w1 b1 (ix3 h x o)
      = convStrip (stripRows x0 x1 x2) (rdMat w1) (rdMat b1 0) 0 h.val x.val o.val := by
  have hx := x.isLt
  have hh := h.isLt
  unfold k0_pay3
  refine (cast23_apply _ _ (⟨h.val * 256 + x.val, by omega⟩ : Fin 8192) h x o rfl).trans ?_
  refine (addf_apply _ _ _).trans ?_
  unfold convStrip
  refine congrArg₂ (· + ·) ?_ ?_
  · refine (Cert.Dense.matmul_zero_apply _ _ _ _ _ o).trans ?_
    refine (Cert.IndexSums.sum_fin_mul (m := 9) (n := 8) _).trans ?_
    refine (Cert.IndexSums.sum_fin_mul (m := 3) (n := 3) _).trans ?_
    refine Finset.sum_congr rfl fun di _ => Finset.sum_congr rfl fun dj _ => Finset.sum_congr rfl fun ci _ => ?_
    have hdi := di.isLt
    have hdj := dj.isLt
    have hci := ci.isLt
    have hk : (finProdFinEquiv (finProdFinEquiv (di, dj), ci) : Fin (9 * 8)).val = 24 * di.val + 8 * dj.val + ci.val := by
      show ci.val + 8 * (dj.val + 3 * di.val) = _
      omega
    refine congrArg₂ (· * ·) ?_ ?_
    · refine (neighbourhoods_apply _ _ _ h x di.val dj.val ci rfl hk hdi hdj
        (⟨h.val + di.val, by omega⟩ : Fin 48) (⟨x.val + dj.val, by omega⟩ : Fin 258) rfl rfl).trans ?_
      exact rows48_apply x0 x1 x2 _ _ ci 0
    · rw [shapeCast_self, ← hk]
      exact (rdMat_of_lt w1 _ o).symm
  · refine (broadcastTo_1b_ab_apply _ _ _ o).trans ?_
    rw [shapeCast_self]
    exact (rdMat_of_lt b1 (0 : Fin 1) o).symm

end Cert.KernelIdeal.Hand

end
-- ==== Proof.KStripDownReads.lean ====
/- Reads shared by the fused kernel's three down stages: a [2a, 2b, c] image recast as [a, 2, b, 2, c], its tap
   (K, L) recast as [a, b, c] (entry (p, q) is pixel (2p + K, 2q + L)), and a tap, laid out as rows, times matrix
   (K, L) of the stage's weight as the stage's channel sum. -/
import proofs.«178811_g2000006188366390_pallasbulk_758_10_alg».proof.Proof.KStripSpec
import proofs.«178811_g2000006188366390_pallasbulk_758_10_alg».proof.Proof.KStripLayout

noncomputable section

namespace Cert.KernelIdeal.Hand

open Idealize.ShloMosaic Idealize.ShloMosaic.ValueIdx Idealize.SL.Sem
open Cert.Spec

/-- A [2a, 2b, c] image recast as [a, 2, b, 2, c]: entry (p, K, q, L) is pixel (2p + K, 2q + L). -/
theorem split5_apply {α : Type} {a b c a2 b2 : Nat} (x : (⟨3, ![a2, b2, c]⟩ : Shape).Idx → α)
    (h1 : (⟨3, ![a2, b2, c]⟩ : Shape).ShapeCasts ⟨5, ![a, 2, b, 2, c]⟩) (hb : b2 = 2 * b)
    (p : Fin a) (K : Fin 2) (q : Fin b) (L : Fin 2) (o : Fin c) (P : Fin a2) (Q : Fin b2)
    (hP : P.val = 2 * p.val + K.val) (hQ : Q.val = 2 * q.val + L.val) :
    shapeCast ⟨5, ![a, 2, b, 2, c]⟩ x h1 (ix5 p K q L o) = x (ix3 P Q o) :=
  shapeCast_apply x h1 _ _ (by
    rw [Shape.rowMajor_val_five, Shape.rowMajor_val_three]
    show (P.val * b2 + Q.val) * c + o.val = (((p.val * 2 + K.val) * b + q.val) * 2 + L.val) * c + o.val
    rw [hP, hQ, hb]; ring)

/-- Tap (K, L) of an [a, 2, b, 2, c] array, recast as [a, b, c]: entry (p, q) is the array's entry (p, K, q, L). -/
theorem tapOf5_apply {α : Type} {a b c : Nat} (K L : Nat) (y : (⟨5, ![a, 2, b, 2, c]⟩ : Shape).Idx → α)
    (h2 : (⟨5, ![a, 2, b, 2, c]⟩ : Shape).Slices ![0, K, 0, L, 0] ⟨5, ![a, 1, b, 1, c]⟩)
    (h3 : (⟨5, ![a, 1, b, 1, c]⟩ : Shape).ShapeCasts ⟨3, ![a, b, c]⟩) (hK : K < 2) (hL : L < 2)
    (p : Fin a) (q : Fin b) (o : Fin c) :
    shapeCast ⟨3, ![a, b, c]⟩ (extractStridedSlice ⟨5, ![a, 1, b, 1, c]⟩ ![0, K, 0, L, 0] y h2) h3 (ix3 p q o)
      = y (ix5 p (⟨K, hK⟩ : Fin 2) q (⟨L, hL⟩ : Fin 2) o) := by
  have e3 := shapeCast_apply (extractStridedSlice ⟨5, ![a, 1, b, 1, c]⟩ ![0, K, 0, L, 0] y h2) h3 (ix3 p q o)
      (ix5 p (0 : Fin 1) q (0 : Fin 1) o) (by
    rw [Shape.rowMajor_val_five, Shape.rowMajor_val_three]
    show (((p.val * 1 + 0) * b + q.val) * 1 + 0) * c + o.val = (p.val * b + q.val) * c + o.val
    simp only [Nat.mul_one, Nat.add_zero])
  have e2 := extractStridedSlice_apply ![0, K, 0, L, 0] y h2
    (ix5 p (0 : Fin 1) q (0 : Fin 1) o) (ix5 p (⟨K, hK⟩ : Fin 2) q (⟨L, hL⟩ : Fin 2) o) (fun ax => by
    match ax with
    | ⟨0, _⟩ => exact (Nat.zero_add _).symm
    | ⟨1, _⟩ => rfl
    | ⟨2, _⟩ => exact (Nat.zero_add _).symm
    | ⟨3, _⟩ => rfl
    | ⟨4, _⟩ => exact (Nat.zero_add _).symm)
  exact e3.trans e2

/-- Tap (K, L) of an image whose pixels are a function V of natural coordinates: entry (p, q, o) is
   V (2p + K, 2q + L, o). -/
theorem tap_read {a b a2 b2 : Nat} (K L : Nat) (x : FVec Ideal ⟨3, ![a2, b2, 64]⟩ .f32)
    (h1 : (⟨3, ![a2, b2, 64]⟩ : Shape).ShapeCasts ⟨5, ![a, 2, b, 2, 64]⟩)
    (h2 : (⟨5, ![a, 2, b, 2, 64]⟩ : Shape).Slices ![0, K, 0, L, 0] ⟨5, ![a, 1, b, 1, 64]⟩)
    (h3 : (⟨5, ![a, 1, b, 1, 64]⟩ : Shape).ShapeCasts ⟨3, ![a, b, 64]⟩)
    (ha : a2 = 2 * a) (hb : b2 = 2 * b) (hK : K < 2) (hL : L < 2) (V : A4)
    (hV : ∀ (i : Fin a2) (j : Fin b2) (c : Fin 64), x (ix3 i j c) = V 0 i.val j.val c.val)
    (p : Fin a) (q : Fin b) (o : Fin 64) (A B : Nat) (hA : A = 2 * p.val + K) (hB : B = 2 * q.val + L) :
    shapeCast ⟨3, ![a, b, 64]⟩ (extractStridedSlice ⟨5, ![a, 1, b, 1, 64]⟩ ![0, K, 0, L, 0]
        (shapeCast ⟨5, ![a, 2, b, 2, 64]⟩ x h1) h2) h3 (ix3 p q o) = V 0 A B o.val := by
  subst hA hB
  have hp := p.isLt
  have hq := q.isLt
  exact (tap_apply K L x h1 h2 h3 hb hK hL p q o (⟨2 * p.val + K, by omega⟩ : Fin a2)
    (⟨2 * q.val + L, by omega⟩ : Fin b2) rfl rfl).trans (hV _ _ _)

/-- A tap (as rows) times matrix (K, L) of the weight, into the zero splat: the channel sum of the stage. -/
theorem dot_read {m a b : Nat} (K L : Nat)
    (w : DotDims.WF ⟨2, ![m, 64]⟩ ⟨2, ![64, 64]⟩ ⟨2, ![m, 64]⟩ [1] [0] [0] [1] [] [])
    (prec : Option ContractPrecision) (t : FVec Ideal ⟨3, ![a, b, 64]⟩ .f32)
    (h : (⟨3, ![a, b, 64]⟩ : Shape).ShapeCasts ⟨2, ![m, 64]⟩) (W : FVec Ideal ⟨4, ![2, 2, 64, 64]⟩ .f32)
    (hs : (⟨4, ![2, 2, 64, 64]⟩ : Shape).Slices ![K, L, 0, 0] ⟨4, ![1, 1, 64, 64]⟩)
    (hc : (⟨4, ![1, 1, 64, 64]⟩ : Shape).ShapeCasts ⟨2, ![64, 64]⟩) (hK : K < 2) (hL : L < 2)
    (r : Fin m) (p : Fin a) (q : Fin b) (o : Fin 64) (hr : r.val = p.val * b + q.val)
    (T : Fin 64 → EReal) (hT : ∀ c : Fin 64, t (ix3 p q c) = T c) :
    matmul (⟨[1], [0], [0], [1], [], [], w⟩ : DotDims ⟨2, ![m, 64]⟩ ⟨2, ![64, 64]⟩ ⟨2, ![m, 64]⟩) prec
        (shapeCast ⟨2, ![m, 64]⟩ t h)
        (shapeCast ⟨2, ![64, 64]⟩ (extractStridedSlice ⟨4, ![1, 1, 64, 64]⟩ ![K, L, 0, 0] W hs) hc)
        (constant (F := Ideal) ⟨2, ![m, 64]⟩ .f32 0x00000000#32) (ix2 r o)
      = ∑ c : Fin 64, T c * rd4 W K L c.val o.val := by
  refine (tapdot_apply w prec t h _ r p q o hr).trans ?_
  refine Finset.sum_congr rfl fun c _ => congrArg₂ (· * ·) (hT c) ?_
  exact (wmat_apply K L W hs hc hK hL c o).trans (rd4_of_lt W (⟨K, hK⟩ : Fin 2) (⟨L, hL⟩ : Fin 2) c o).symm

end Cert.KernelIdeal.Hand

end
-- ==== Proof.KStripDown1.lean ====
/- The fused kernel's first down stage (32 x 256 -> 16 x 128) at an index: the maximum of the four taps of the first
   convolution plus (bias + the four taps' channel sums), recast as [8, 2, 64, 2, 64], and its four taps as the second
   stage receives them. -/
import proofs.«178811_g2000006188366390_pallasbulk_758_10_alg».proof.Proof.Gen.KernelIdeal.Skeleton
import proofs.«178811_g2000006188366390_pallasbulk_758_10_alg».proof.Proof.KStripDownReads

noncomputable section

namespace Cert.KernelIdeal.Hand

open Cert.KernelIdeal Cert.KernelIdeal.Gen
open Idealize.ShloMosaic Idealize.ShloMosaic.ValueIdx Idealize.SL.Sem
open Cert.Spec

/-- The first stage's output, recast as [8, 2, 64, 2, 64], at (p, K, q, L, o): the down stage of an image V at pixel
   (2p + K, 2q + L). -/
theorem pay5_apply (v33 : FVec Ideal S32x256x64 .f32) (v34 : Vec Ideal S2x2x64x64 .f32) (v35 : Vec Ideal S1x64 .f32)
    (V : A4) (hV : ∀ (i : Fin 32) (j : Fin 256) (c : Fin 64), v33 (ix3 i j c) = V 0 i.val j.val c.val)
    (p : Fin 8) (K L : Nat) (hK : K < 2) (hL : L < 2) (q : Fin 64) (o : Fin 64) (A B : Nat)
    (hA : A = 2 * p.val + K) (hB : B = 2 * q.val + L) :
    k0_pay5 v33 v34 v35 (ix5 p (⟨K, hK⟩ : Fin 2) q (⟨L, hL⟩ : Fin 2) o)
      = down V (rd4 v34) (rdMat v35 0) 0 A B o.val := by
  have hp := p.isLt
  have hq := q.isLt
  obtain ⟨P, hP⟩ : ∃ P : Fin 16, P.val = A := ⟨⟨A, by omega⟩, rfl⟩
  obtain ⟨Q, hQ⟩ : ∃ Q : Fin 128, Q.val = B := ⟨⟨B, by omega⟩, rfl⟩
  obtain ⟨R, hR⟩ : ∃ R : Fin 2048, R.val = P.val * 128 + Q.val := ⟨⟨P.val * 128 + Q.val, by omega⟩, rfl⟩
  rw [← hP, ← hQ]
  unfold k0_pay5
  refine (split5_apply _ _ rfl p _ q _ o P Q (by show P.val = 2 * p.val + K; omega) (by show Q.val = 2 * q.val + L; omega)).trans ?_
  refine (addf_apply _ _ _).trans ?_
  rw [down_taps]
  refine congrArg₂ (· + ·) ?_ ?_
  · refine (maximumf_apply _ _ _).trans (congrArg₂ max ?_ ?_)
    · refine (maximumf_apply _ _ _).trans (congrArg₂ max ?_ ?_)
      · exact tap_read 0 0 v33 _ _ _ rfl rfl (by omega) (by omega) V hV P Q o _ _ (by omega) (by omega)
      · exact tap_read 0 1 v33 _ _ _ rfl rfl (by omega) (by omega) V hV P Q o _ _ (by omega) (by omega)
    · refine (maximumf_apply _ _ _).trans (congrArg₂ max ?_ ?_)
      · exact tap_read 1 0 v33 _ _ _ rfl rfl (by omega) (by omega) V hV P Q o _ _ (by omega) (by omega)
      · exact tap_read 1 1 v33 _ _ _ rfl rfl (by omega) (by omega) V hV P Q o _ _ (by omega) (by omega)
  · refine (cast23_apply _ _ R P Q o hR).trans ?_
    refine (addf_apply _ _ _).trans (congrArg₂ (· + ·) ?_ ?_)
    · refine (addf_apply _ _ _).trans (congrArg₂ (· + ·) ?_ ?_)
      · refine (addf_apply _ _ _).trans (congrArg₂ (· + ·) ?_ ?_)
        · refine (addf_apply _ _ _).trans (congrArg₂ (· + ·) ?_ ?_)
          · refine (broadcastTo_1b_ab_apply _ _ R o).trans ?_
            rw [shapeCast_self]
            exact (rdMat_of_lt v35 (0 : Fin 1) o).symm
          · exact dot_read 0 0 _ _ _ _ v34 _ _ (by omega) (by omega) R P Q o hR _
              (fun c => tap_read 0 0 v33 _ _ _ rfl rfl (by omega) (by omega) V hV P Q c _ _ (by omega) (by omega))
        · exact dot_read 0 1 _ _ _ _ v34 _ _ (by omega) (by omega) R P Q o hR _
            (fun c => tap_read 0 1 v33 _ _ _ rfl rfl (by omega) (by omega) V hV P Q c _ _ (by omega) (by omega))
      · exact dot_read 1 0 _ _ _ _ v34 _ _ (by omega) (by omega) R P Q o hR _
          (fun c => tap_read 1 0 v33 _ _ _ rfl rfl (by omega) (by omega) V hV P Q c _ _ (by omega) (by omega))
    · exact dot_read 1 1 _ _ _ _ v34 _ _ (by omega) (by omega) R P Q o hR _
        (fun c => tap_read 1 1 v33 _ _ _ rfl rfl (by omega) (by omega) V hV P Q c _ _ (by omega) (by omega))

/-- The four taps of the first stage's output, as the second stage receives them: tap (K, L) at (p, q, o) is the first
   stage at pixel (2p + K, 2q + L). -/
theorem pay6_apply (v33 : FVec Ideal S32x256x64 .f32) (v34 : Vec Ideal S2x2x64x64 .f32) (v35 : Vec Ideal S1x64 .f32)
    (V : A4) (hV : ∀ (i : Fin 32) (j : Fin 256) (c : Fin 64), v33 (ix3 i j c) = V 0 i.val j.val c.val)
    (p : Fin 8) (q : Fin 64) (o : Fin 64) :
    k0_pay6 v33 v34 v35 (ix3 p q o) = down V (rd4 v34) (rdMat v35 0) 0 (2 * p.val) (2 * q.val) o.val := by
  unfold k0_pay6
  exact (tapOf5_apply 0 0 _ _ _ (by omega) (by omega) p q o).trans
    (pay5_apply v33 v34 v35 V hV p 0 0 _ _ q o _ _ (by omega) (by omega))

theorem pay7_apply (v33 : FVec Ideal S32x256x64 .f32) (v34 : Vec Ideal S2x2x64x64 .f32) (v35 : Vec Ideal S1x64 .f32)
    (V : A4) (hV : ∀ (i : Fin 32) (j : Fin 256) (c : Fin 64), v33 (ix3 i j c) = V 0 i.val j.val c.val)
    (p : Fin 8) (q : Fin 64) (o : Fin 64) :
    k0_pay7 v33 v34 v35 (ix3 p q o) = down V (rd4 v34) (rdMat v35 0) 0 (2 * p.val) (2 * q.val + 1) o.val := by
  unfold k0_pay7
  exact (tapOf5_apply 0 1 _ _ _ (by omega) (by omega) p q o).trans
    (pay5_apply v33 v34 v35 V hV p 0 1 _ _ q o _ _ (by omega) (by omega))

theorem pay8_apply (v33 : FVec Ideal S32x256x64 .f32) (v34 : Vec Ideal S2x2x64x64 .f32) (v35 : Vec Ideal S1x64 .f32)
    (V : A4) (hV : ∀ (i : Fin 32) (j : Fin 256) (c : Fin 64), v33 (ix3 i j c) = V 0 i.val j.val c.val)
    (p : Fin 8) (q : Fin 64) (o : Fin 64) :
    k0_pay8 v33 v34 v35 (ix3 p q o) = down V (rd4 v34) (rdMat v35 0) 0 (2 * p.val + 1) (2 * q.val) o.val := by
  unfold k0_pay8
  exact (tapOf5_apply 1 0 _ _ _ (by omega) (by omega) p q o).trans
    (pay5_apply v33 v34 v35 V hV p 1 0 _ _ q o _ _ (by omega) (by omega))

theorem pay9_apply (v33 : FVec Ideal S32x256x64 .f32) (v34 : Vec Ideal S2x2x64x64 .f32) (v35 : Vec Ideal S1x64 .f32)
    (V : A4) (hV : ∀ (i : Fin 32) (j : Fin 256) (c : Fin 64), v33 (ix3 i j c) = V 0 i.val j.val c.val)
    (p : Fin 8) (q : Fin 64) (o : Fin 64) :
    k0_pay9 v33 v34 v35 (ix3 p q o) = down V (rd4 v34) (rdMat v35 0) 0 (2 * p.val + 1) (2 * q.val + 1) o.val := by
  unfold k0_pay9
  exact (tapOf5_apply 1 1 _ _ _ (by omega) (by omega) p q o).trans
    (pay5_apply v33 v34 v35 V hV p 1 1 _ _ q o _ _ (by omega) (by omega))

/-- The maximum of the first two taps. -/
theorem pay10_apply (v33 : FVec Ideal S32x256x64 .f32) (v34 : Vec Ideal S2x2x64x64 .f32) (v35 : Vec Ideal S1x64 .f32)
    (i : S8x64x64.Idx) :
    k0_pay10 v33 v34 v35 i = max (k0_pay6 v33 v34 v35 i) (k0_pay7 v33 v34 v35 i) := rfl

end Cert.KernelIdeal.Hand

end
-- ==== Proof.KStripDown2.lean ====
/- The fused kernel's second down stage (16 x 128 -> 8 x 64) at an index, over the first stage's four taps and the
   maximum of the first two: the maximum of the taps plus (bias + the four taps' channel sums), recast as
   [4, 2, 32, 2, 64]; its four taps, their maximum, and the third stage's bias and first channel sum. -/
import proofs.«178811_g2000006188366390_pallasbulk_758_10_alg».proof.Proof.Gen.KernelIdeal.Skeleton
import proofs.«178811_g2000006188366390_pallasbulk_758_10_alg».proof.Proof.KStripDownReads

noncomputable section

namespace Cert.KernelIdeal.Hand

open Cert.KernelIdeal Cert.KernelIdeal.Gen
open Idealize.ShloMosaic Idealize.ShloMosaic.ValueIdx Idealize.SL.Sem
open Cert.Spec

/-- The second stage's output, recast as [4, 2, 32, 2, 64], at (p, K, q, L, o): the down stage of an image V whose
   taps the arguments are, at pixel (2p + K, 2q + L). -/
theorem pay11_apply (v72 : Vec Ideal S2x2x64x64 .f32) (v74 : FVec Ideal S1x64 .f32)
    (v77 v79 v81 v83 v84 : FVec Ideal S8x64x64 .f32) (V : A4) (Bs : A1)
    (h77 : ∀ (i : Fin 8) (j : Fin 64) (c : Fin 64), v77 (ix3 i j c) = V 0 (2 * i.val) (2 * j.val) c.val)
    (h79 : ∀ (i : Fin 8) (j : Fin 64) (c : Fin 64), v79 (ix3 i j c) = V 0 (2 * i.val) (2 * j.val + 1) c.val)
    (h81 : ∀ (i : Fin 8) (j : Fin 64) (c : Fin 64), v81 (ix3 i j c) = V 0 (2 * i.val + 1) (2 * j.val) c.val)
    (h83 : ∀ (i : Fin 8) (j : Fin 64) (c : Fin 64), v83 (ix3 i j c) = V 0 (2 * i.val + 1) (2 * j.val + 1) c.val)
    (h84 : ∀ i : S8x64x64.Idx, v84 i = max (v77 i) (v79 i))
    (hBs : ∀ o : Fin 64, v74 (ix2 (0 : Fin 1) o) = Bs o.val)
    (p : Fin 4) (K L : Nat) (hK : K < 2) (hL : L < 2) (q : Fin 32) (o : Fin 64) (A B : Nat)
    (hA : A = 2 * p.val + K) (hB : B = 2 * q.val + L) :
    k0_pay11 v72 v74 v77 v79 v81 v83 v84 (ix5 p (⟨K, hK⟩ : Fin 2) q (⟨L, hL⟩ : Fin 2) o)
      = down V (rd4 v72) Bs 0 A B o.val := by
  have hp := p.isLt
  have hq := q.isLt
  obtain ⟨P, hP⟩ : ∃ P : Fin 8, P.val = A := ⟨⟨A, by omega⟩, rfl⟩
  obtain ⟨Q, hQ⟩ : ∃ Q : Fin 64, Q.val = B := ⟨⟨B, by omega⟩, rfl⟩
  obtain ⟨R, hR⟩ : ∃ R : Fin 512, R.val = P.val * 64 + Q.val := ⟨⟨P.val * 64 + Q.val, by omega⟩, rfl⟩
  rw [← hP, ← hQ]
  unfold k0_pay11
  refine (split5_apply _ _ rfl p _ q _ o P Q (by show P.val = 2 * p.val + K; omega) (by show Q.val = 2 * q.val + L; omega)).trans ?_
  refine (addf_apply _ _ _).trans ?_
  rw [down_taps]
  refine congrArg₂ (· + ·) ?_ ?_
  · refine (maximumf_apply _ _ _).trans (congrArg₂ max ?_ ?_)
    · exact (h84 _).trans (congrArg₂ max (h77 P Q o) (h79 P Q o))
    · exact (maximumf_apply _ _ _).trans (congrArg₂ max (h81 P Q o) (h83 P Q o))
  · refine (cast23_apply _ _ R P Q o hR).trans ?_
    refine (addf_apply _ _ _).trans (congrArg₂ (· + ·) ?_ ?_)
    · refine (addf_apply _ _ _).trans (congrArg₂ (· + ·) ?_ ?_)
      · refine (addf_apply _ _ _).trans (congrArg₂ (· + ·) ?_ ?_)
        · refine (addf_apply _ _ _).trans (congrArg₂ (· + ·) ?_ ?_)
          · exact (broadcastTo_1b_ab_apply _ _ R o).trans (hBs o)
          · exact dot_read 0 0 _ _ v77 _ v72 _ _ (by omega) (by omega) R P Q o hR _ (fun c => h77 P Q c)
        · exact dot_read 0 1 _ _ v79 _ v72 _ _ (by omega) (by omega) R P Q o hR _ (fun c => h79 P Q c)
      · exact dot_read 1 0 _ _ v81 _ v72 _ _ (by omega) (by omega) R P Q o hR _ (fun c => h81 P Q c)
    · exact dot_read 1 1 _ _ v83 _ v72 _ _ (by omega) (by omega) R P Q o hR _ (fun c => h83 P Q c)

/-- The four taps of the second stage's output, as the third stage receives them. -/
theorem pay12_apply (v72 : Vec Ideal S2x2x64x64 .f32) (v74 : FVec Ideal S1x64 .f32)
    (v77 v79 v81 v83 v84 : FVec Ideal S8x64x64 .f32) (V : A4) (Bs : A1)
    (h77 : ∀ (i : Fin 8) (j : Fin 64) (c : Fin 64), v77 (ix3 i j c) = V 0 (2 * i.val) (2 * j.val) c.val)
    (h79 : ∀ (i : Fin 8) (j : Fin 64) (c : Fin 64), v79 (ix3 i j c) = V 0 (2 * i.val) (2 * j.val + 1) c.val)
    (h81 : ∀ (i : Fin 8) (j : Fin 64) (c : Fin 64), v81 (ix3 i j c) = V 0 (2 * i.val + 1) (2 * j.val) c.val)
    (h83 : ∀ (i : Fin 8) (j : Fin 64) (c : Fin 64), v83 (ix3 i j c) = V 0 (2 * i.val + 1) (2 * j.val + 1) c.val)
    (h84 : ∀ i : S8x64x64.Idx, v84 i = max (v77 i) (v79 i))
    (hBs : ∀ o : Fin 64, v74 (ix2 (0 : Fin 1) o) = Bs o.val)
    (p : Fin 4) (q : Fin 32) (o : Fin 64) :
    k0_pay12 v72 v74 v77 v79 v81 v83 v84 (ix3 p q o)
      = down V (rd4 v72) Bs 0 (2 * p.val) (2 * q.val) o.val := by
  unfold k0_pay12
  exact (tapOf5_apply 0 0 _ _ _ (by omega) (by omega) p q o).trans
    (pay11_apply v72 v74 v77 v79 v81 v83 v84 V Bs h77 h79 h81 h83 h84 hBs p 0 0 _ _ q o _ _ (by omega) (by omega))

theorem pay13_apply (v72 : Vec Ideal S2x2x64x64 .f32) (v74 : FVec Ideal S1x64 .f32)
    (v77 v79 v81 v83 v84 : FVec Ideal S8x64x64 .f32) (V : A4) (Bs : A1)
    (h77 : ∀ (i : Fin 8) (j : Fin 64) (c : Fin 64), v77 (ix3 i j c) = V 0 (2 * i.val) (2 * j.val) c.val)
    (h79 : ∀ (i : Fin 8) (j : Fin 64) (c : Fin 64), v79 (ix3 i j c) = V 0 (2 * i.val) (2 * j.val + 1) c.val)
    (h81 : ∀ (i : Fin 8) (j : Fin 64) (c : Fin 64), v81 (ix3 i j c) = V 0 (2 * i.val + 1) (2 * j.val) c.val)
    (h83 : ∀ (i : Fin 8) (j : Fin 64) (c : Fin 64), v83 (ix3 i j c) = V 0 (2 * i.val + 1) (2 * j.val + 1) c.val)
    (h84 : ∀ i : S8x64x64.Idx, v84 i = max (v77 i) (v79 i))
    (hBs : ∀ o : Fin 64, v74 (ix2 (0 : Fin 1) o) = Bs o.val)
    (p : Fin 4) (q : Fin 32) (o : Fin 64) :
    k0_pay13 v72 v74 v77 v79 v81 v83 v84 (ix3 p q o)
      = down V (rd4 v72) Bs 0 (2 * p.val) (2 * q.val + 1) o.val := by
  unfold k0_pay13
  exact (tapOf5_apply 0 1 _ _ _ (by omega) (by omega) p q o).trans
    (pay11_apply v72 v74 v77 v79 v81 v83 v84 V Bs h77 h79 h81 h83 h84 hBs p 0 1 _ _ q o _ _ (by omega) (by omega))

theorem pay14_apply (v72 : Vec Ideal S2x2x64x64 .f32) (v74 : FVec Ideal S1x64 .f32)
    (v77 v79 v81 v83 v84 : FVec Ideal S8x64x64 .f32) (V : A4) (Bs : A1)
    (h77 : ∀ (i : Fin 8) (j : Fin 64) (c : Fin 64), v77 (ix3 i j c) = V 0 (2 * i.val) (2 * j.val) c.val)
    (h79 : ∀ (i : Fin 8) (j : Fin 64) (c : Fin 64), v79 (ix3 i j c) = V 0 (2 * i.val) (2 * j.val + 1) c.val)
    (h81 : ∀ (i : Fin 8) (j : Fin 64) (c : Fin 64), v81 (ix3 i j c) = V 0 (2 * i.val + 1) (2 * j.val) c.val)
    (h83 : ∀ (i : Fin 8) (j : Fin 64) (c : Fin 64), v83 (ix3 i j c) = V 0 (2 * i.val + 1) (2 * j.val + 1) c.val)
    (h84 : ∀ i : S8x64x64.Idx, v84 i = max (v77 i) (v79 i))
    (hBs : ∀ o : Fin 64, v74 (ix2 (0 : Fin 1) o) = Bs o.val)
    (p : Fin 4) (q : Fin 32) (o : Fin 64) :
    k0_pay14 v72 v74 v77 v79 v81 v83 v84 (ix3 p q o)
      = down V (rd4 v72) Bs 0 (2 * p.val + 1) (2 * q.val) o.val := by
  unfold k0_pay14
  exact (tapOf5_apply 1 0 _ _ _ (by omega) (by omega) p q o).trans
    (pay11_apply v72 v74 v77 v79 v81 v83 v84 V Bs h77 h79 h81 h83 h84 hBs p 1 0 _ _ q o _ _ (by omega) (by omega))

theorem pay15_apply (v72 : Vec Ideal S2x2x64x64 .f32) (v74 : FVec Ideal S1x64 .f32)
    (v77 v79 v81 v83 v84 : FVec Ideal S8x64x64 .f32) (V : A4) (Bs : A1)
    (h77 : ∀ (i : Fin 8) (j : Fin 64) (c : Fin 64), v77 (ix3 i j c) = V 0 (2 * i.val) (2 * j.val) c.val)
    (h79 : ∀ (i : Fin 8) (j : Fin 64) (c : Fin 64), v79 (ix3 i j c) = V 0 (2 * i.val) (2 * j.val + 1) c.val)
    (h81 : ∀ (i : Fin 8) (j : Fin 64) (c : Fin 64), v81 (ix3 i j c) = V 0 (2 * i.val + 1) (2 * j.val) c.val)
    (h83 : ∀ (i : Fin 8) (j : Fin 64) (c : Fin 64), v83 (ix3 i j c) = V 0 (2 * i.val + 1) (2 * j.val + 1) c.val)
    (h84 : ∀ i : S8x64x64.Idx, v84 i = max (v77 i) (v79 i))
    (hBs : ∀ o : Fin 64, v74 (ix2 (0 : Fin 1) o) = Bs o.val)
    (p : Fin 4) (q : Fin 32) (o : Fin 64) :
    k0_pay15 v72 v74 v77 v79 v81 v83 v84 (ix3 p q o)
      = down V (rd4 v72) Bs 0 (2 * p.val + 1) (2 * q.val + 1) o.val := by
  unfold k0_pay15
  exact (tapOf5_apply 1 1 _ _ _ (by omega) (by omega) p q o).trans
    (pay11_apply v72 v74 v77 v79 v81 v83 v84 V Bs h77 h79 h81 h83 h84 hBs p 1 1 _ _ q o _ _ (by omega) (by omega))

/-- The maximum of the second stage's four taps. -/
theorem pay16_apply (v72 : Vec Ideal S2x2x64x64 .f32) (v74 : FVec Ideal S1x64 .f32)
    (v77 v79 v81 v83 v84 : FVec Ideal S8x64x64 .f32) (i : S4x32x64.Idx) :
    k0_pay16 v72 v74 v77 v79 v81 v83 v84 i
      = max (max (k0_pay12 v72 v74 v77 v79 v81 v83 v84 i) (k0_pay13 v72 v74 v77 v79 v81 v83 v84 i)) (max (k0_pay14 v72 v74 v77 v79 v81 v83 v84 i) (k0_pay15 v72 v74 v77 v79 v81 v83 v84 i)) := rfl

/-- The third stage's bias plus its first channel sum, at row r = 32 a + q. -/
theorem pay17_apply (v72 : Vec Ideal S2x2x64x64 .f32) (v74 : FVec Ideal S1x64 .f32)
    (v77 v79 v81 v83 v84 : FVec Ideal S8x64x64 .f32) (v110 : Vec Ideal S2x2x64x64 .f32) (v111 : Vec Ideal S1x64 .f32)
    (r : Fin 128) (a : Fin 4) (q : Fin 32) (o : Fin 64) (hr : r.val = a.val * 32 + q.val) :
    k0_pay17 v72 v74 v77 v79 v81 v83 v84 v110 v111 (ix2 r o)
      = rdMat v111 0 o.val + ∑ c : Fin 64, k0_pay12 v72 v74 v77 v79 v81 v83 v84 (ix3 a q c) * rd4 v110 0 0 c.val o.val := by
  unfold k0_pay17
  refine (addf_apply _ _ _).trans (congrArg₂ (· + ·) ?_ ?_)
  · refine (broadcastTo_1b_ab_apply _ _ r o).trans ?_
    rw [shapeCast_self]
    exact (rdMat_of_lt v111 (0 : Fin 1) o).symm
  · exact dot_read 0 0 _ _ (k0_pay12 v72 v74 v77 v79 v81 v83 v84) _ v110 _ _ (by omega) (by omega) r a q o hr _ (fun c => rfl)

/-- The second tap as rows. -/
theorem pay18_apply (v72 : Vec Ideal S2x2x64x64 .f32) (v74 : FVec Ideal S1x64 .f32)
    (v77 v79 v81 v83 v84 : FVec Ideal S8x64x64 .f32)
    (r : Fin 128) (a : Fin 4) (q : Fin 32) (c : Fin 64) (hr : r.val = a.val * 32 + q.val) :
    k0_pay18 v72 v74 v77 v79 v81 v83 v84 (ix2 r c) = k0_pay13 v72 v74 v77 v79 v81 v83 v84 (ix3 a q c) := by
  unfold k0_pay18
  exact cast32_apply _ _ r a q c hr

/-- Matrix (0, 1) of the third stage's weight. -/
theorem pay19_apply (v110 : Vec Ideal S2x2x64x64 .f32) (c o : Fin 64) :
    k0_pay19 v110 (ix2 c o) = rd4 v110 0 1 c.val o.val := by
  unfold k0_pay19
  exact (wmat_apply 0 1 v110 _ _ (by omega) (by omega) c o).trans
    (rd4_of_lt v110 (⟨0, by omega⟩ : Fin 2) (⟨1, by omega⟩ : Fin 2) c o).symm

end Cert.KernelIdeal.Hand

end
-- ==== Proof.KStripDown3.lean ====
/- The fused kernel's third down stage (8 x 64 -> 4 x 32) at an index: the stored [4, 32, 64] block is the maximum of
   the second stage's four taps plus (bias + tap (0,0)'s channel sum, already added) + the three other taps' channel
   sums. -/
import proofs.«178811_g2000006188366390_pallasbulk_758_10_alg».proof.Proof.Gen.KernelIdeal.Skeleton
import proofs.«178811_g2000006188366390_pallasbulk_758_10_alg».proof.Proof.KStripDownReads
import proofs.«178811_g2000006188366390_pallasbulk_758_10_alg».proof.Proof.LibDense

noncomputable section

namespace Cert.KernelIdeal.Hand

open Cert.KernelIdeal Cert.KernelIdeal.Gen
open Idealize.ShloMosaic Idealize.ShloMosaic.ValueIdx Idealize.SL.Sem
open Cert.Spec

/-- The stored block at (a, q, o): the down stage of an image V whose taps, maximum and first partial sums the
   arguments are. -/
theorem pay1_apply (v110 : Vec Ideal S2x2x64x64 .f32) (v119 v121 v124 : FVec Ideal S4x32x64 .f32)
    (v130 v131 : FVec Ideal S128x64 .f32) (v133 : FVec Ideal S64x64 .f32) (V : A4) (Bs : A1)
    (h119 : ∀ (i : Fin 4) (j : Fin 32) (c : Fin 64), v119 (ix3 i j c) = V 0 (2 * i.val + 1) (2 * j.val) c.val)
    (h121 : ∀ (i : Fin 4) (j : Fin 32) (c : Fin 64), v121 (ix3 i j c) = V 0 (2 * i.val + 1) (2 * j.val + 1) c.val)
    (h124 : ∀ (i : Fin 4) (j : Fin 32) (c : Fin 64), v124 (ix3 i j c)
      = max (max (V 0 (2 * i.val) (2 * j.val) c.val) (V 0 (2 * i.val) (2 * j.val + 1) c.val))
          (max (V 0 (2 * i.val + 1) (2 * j.val) c.val) (V 0 (2 * i.val + 1) (2 * j.val + 1) c.val)))
    (h130 : ∀ (r : Fin 128) (i : Fin 4) (j : Fin 32) (c : Fin 64), r.val = i.val * 32 + j.val →
      v130 (ix2 r c) = Bs c.val + ∑ k : Fin 64, V 0 (2 * i.val) (2 * j.val) k.val * rd4 v110 0 0 k.val c.val)
    (h131 : ∀ (r : Fin 128) (i : Fin 4) (j : Fin 32) (c : Fin 64), r.val = i.val * 32 + j.val →
      v131 (ix2 r c) = V 0 (2 * i.val) (2 * j.val + 1) c.val)
    (h133 : ∀ c o : Fin 64, v133 (ix2 c o) = rd4 v110 0 1 c.val o.val)
    (a : Fin 4) (q : Fin 32) (o : Fin 64) :
    k0_pay1 v110 v119 v121 v124 v130 v131 v133 (ix3 a q o) = down V (rd4 v110) Bs 0 a.val q.val o.val := by
  have ha := a.isLt
  have hq := q.isLt
  obtain ⟨R, hR⟩ : ∃ R : Fin 128, R.val = a.val * 32 + q.val := ⟨⟨a.val * 32 + q.val, by omega⟩, rfl⟩
  unfold k0_pay1
  rw [shapeCast_self]
  refine (addf_apply _ _ _).trans ?_
  rw [down_taps]
  refine congrArg₂ (· + ·) (h124 a q o) ?_
  refine (cast23_apply _ _ R a q o hR).trans ?_
  refine (addf_apply _ _ _).trans (congrArg₂ (· + ·) ?_ ?_)
  · refine (addf_apply _ _ _).trans (congrArg₂ (· + ·) ?_ ?_)
    · refine (addf_apply _ _ _).trans (congrArg₂ (· + ·) (h130 R a q o hR) ?_)
      refine (Cert.Dense.matmul_zero_apply _ _ _ _ R o).trans ?_
      exact Finset.sum_congr rfl fun c _ => congrArg₂ (· * ·) (h131 R a q c hR) (h133 c o)
    · exact dot_read 1 0 _ _ v119 _ v110 _ _ (by omega) (by omega) R a q o hR _ (fun c => h119 a q c)
  · exact dot_read 1 1 _ _ v121 _ v110 _ _ (by omega) (by omega) R a q o hR _ (fun c => h121 a q c)

end Cert.KernelIdeal.Hand

end
-- ==== Proof.KStripValue.lean ====
/- The fused kernel's stored block at an index, in normal form: entry (a, q, o) of the [4, 32, 64] block a grid
   point stores is three down stages of the first convolution on the strip's 48 rows, read at (a, q, o). Each stage's
   taps are the previous stage's output at the four pixels of a 2 x 2 window, so the stages chain: the first
   convolution feeds the first stage, whose taps feed the second, whose taps feed the stored sum. -/
import proofs.«178811_g2000006188366390_pallasbulk_758_10_alg».proof.Proof.KPay
import proofs.«178811_g2000006188366390_pallasbulk_758_10_alg».proof.Proof.KStripSpec
import proofs.«178811_g2000006188366390_pallasbulk_758_10_alg».proof.Proof.KStripConv
import proofs.«178811_g2000006188366390_pallasbulk_758_10_alg».proof.Proof.KStripDown1
import proofs.«178811_g2000006188366390_pallasbulk_758_10_alg».proof.Proof.KStripDown2
import proofs.«178811_g2000006188366390_pallasbulk_758_10_alg».proof.Proof.KStripDown3

noncomputable section

namespace Cert.KernelIdeal.Hand

open Cert.KernelIdeal Cert.KernelIdeal.Gen
open Idealize.ShloMosaic Idealize.ShloMosaic.ValueIdx Idealize.SL.Sem
open Cert.Spec

/-- The second stage's bias row, as loaded. -/
theorem pay4_apply (v73 : Vec Ideal S1x64 .f32) (o : Fin 64) :
    k0_pay4 (F := Ideal) v73 (ix2 (0 : Fin 1) o) = rdMat v73 0 o.val := by
  unfold k0_pay4
  rw [shapeCast_self]
  exact (rdMat_of_lt v73 (0 : Fin 1) o).symm

/-- Entry (a, q, o) of the block a grid point stores. -/
theorem stripPay_apply (x0 x1 x2 : Vec Ideal S1x16x258x8 .f32) (w1 : Vec Ideal S72x64 .f32) (b1 : Vec Ideal S1x64 .f32)
    (wk1 : Vec Ideal S2x2x64x64 .f32) (bb1 : Vec Ideal S1x64 .f32) (wk2 : Vec Ideal S2x2x64x64 .f32)
    (bb2 : Vec Ideal S1x64 .f32) (wk3 : Vec Ideal S2x2x64x64 .f32) (bb3 : Vec Ideal S1x64 .f32)
    (a : Fin 4) (q : Fin 32) (o : Fin 64) :
    stripPay (F := Ideal) x0 x1 x2 w1 b1 wk1 bb1 wk2 bb2 wk3 bb3 (ix3 a q o)
      = down (down (down (convStrip (stripRows x0 x1 x2) (rdMat w1) (rdMat b1 0)) (rd4 wk1) (rdMat bb1 0))
            (rd4 wk2) (rdMat bb2 0)) (rd4 wk3) (rdMat bb3 0) 0 a.val q.val o.val := by
  -- the first convolution, then the first stage's taps
  have hC := conv1_apply x0 x1 x2 w1 b1
  generalize convStrip (stripRows x0 x1 x2) (rdMat w1) (rdMat b1 0) = C1 at hC ⊢
  unfold stripPay
  generalize k0_pay3 (F := Ideal) x0 x1 x2 w1 b1 = v33 at hC ⊢
  have h77 := pay6_apply v33 wk1 bb1 C1 hC
  have h79 := pay7_apply v33 wk1 bb1 C1 hC
  have h81 := pay8_apply v33 wk1 bb1 C1 hC
  have h83 := pay9_apply v33 wk1 bb1 C1 hC
  have h84 := pay10_apply v33 wk1 bb1
  have hB2 := pay4_apply bb2
  generalize down C1 (rd4 wk1) (rdMat bb1 0) = D1 at h77 h79 h81 h83 ⊢
  generalize k0_pay6 v33 wk1 bb1 = t77 at h77 h84 ⊢
  generalize k0_pay7 v33 wk1 bb1 = t79 at h79 h84 ⊢
  generalize k0_pay8 v33 wk1 bb1 = t81 at h81 ⊢
  generalize k0_pay9 v33 wk1 bb1 = t83 at h83 ⊢
  generalize k0_pay10 v33 wk1 bb1 = t84 at h84 ⊢
  generalize k0_pay4 (F := Ideal) bb2 = v74 at hB2 ⊢
  -- the second stage's taps
  have h115 := pay12_apply wk2 v74 t77 t79 t81 t83 t84 D1 (rdMat bb2 0) h77 h79 h81 h83 h84 hB2
  have h117 := pay13_apply wk2 v74 t77 t79 t81 t83 t84 D1 (rdMat bb2 0) h77 h79 h81 h83 h84 hB2
  have h119 := pay14_apply wk2 v74 t77 t79 t81 t83 t84 D1 (rdMat bb2 0) h77 h79 h81 h83 h84 hB2
  have h121 := pay15_apply wk2 v74 t77 t79 t81 t83 t84 D1 (rdMat bb2 0) h77 h79 h81 h83 h84 hB2
  generalize down D1 (rd4 wk2) (rdMat bb2 0) = D2 at h115 h117 h119 h121 ⊢
  -- the stored sum
  refine pay1_apply wk3 _ _ _ _ _ _ D2 (rdMat bb3 0) h119 h121 (fun i j c => ?_) (fun r i j c hr => ?_)
    (fun r i j c hr => ?_) (pay19_apply wk3) a q o
  · exact (pay16_apply wk2 v74 t77 t79 t81 t83 t84 (ix3 i j c)).trans
      (congrArg₂ max (congrArg₂ max (h115 i j c) (h117 i j c)) (congrArg₂ max (h119 i j c) (h121 i j c)))
  · refine (pay17_apply wk2 v74 t77 t79 t81 t83 t84 wk3 bb3 r i j c hr).trans ?_
    refine congrArg (rdMat bb3 0 c.val + ·) ?_
    exact Finset.sum_congr rfl fun k _ => congrArg (· * rd4 wk3 0 0 k.val c.val) (h115 i j k)
  · exact (pay18_apply wk2 v74 t77 t79 t81 t83 t84 r i j c hr).trans (h117 i j c)

end Cert.KernelIdeal.Hand

end
-- ==== Proof.KValueMath.lean ====
/-
  The two computations of a grid point of the fused kernel, against the specification, over variables.

  A strip: from three 16-row blocks of the padded image n, the [72, 64] weights and the one-row biases, the body's
  strip value is rows 4 s .. 4 s + 3 of the third down stage of the first convolution of the whole padded image n
  (the 48 rows are all that those four rows depend on).

  The tail: from a scratch image that is image n of an array D and the [576, 8] weights and [1, 8] bias, the body's
  output block is the last 3 x 3 convolution of D at image n.
-/
import proofs.«178811_g2000006188366390_pallasbulk_758_10_alg».proof.Proof.KTail
import proofs.«178811_g2000006188366390_pallasbulk_758_10_alg».proof.Proof.KNet
import proofs.«178811_g2000006188366390_pallasbulk_758_10_alg».proof.Proof.KStripValue

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

/-- A one-row matrix that holds a vector reads, at natural-number coordinates, like the vector. -/
theorem rdMat_row {n : Nat} (b : (⟨2, ![1, n]⟩ : Shape).Idx → EReal) (v : (⟨1, ![n]⟩ : Shape).Idx → EReal)
    (h : ∀ (u : Fin 1) (o : Fin n), b (ix2 u o) = rd1 v o.val) : rdMat b 0 = rd1 v := by
  funext o
  by_cases ho : o < n
  · exact (rdMat_of_lt b (0 : Fin 1) ⟨o, ho⟩).trans (h 0 ⟨o, ho⟩)
  · rw [rdMat_of_not b 0 o (fun hh => ho hh.2), rd1_of_not v o ho]

/-- The padded image of an argument image is zero past column 257 and past channel 7 (indeed past channel 2). -/
theorem padImg_zero (xa : (⟨4, ![32, 3, 256, 256]⟩ : Shape).Idx → EReal) (n r j c : Nat) (h : ¬(j < 258 ∧ c < 8)) :
    pad1 256 256 (nhwc (rd4 xa)) n r j c = 0 := by
  unfold pad1
  by_cases hc : 1 ≤ r ∧ r ≤ 256 ∧ 1 ≤ j ∧ j ≤ 256
  · rw [if_pos hc]
    exact rd4_of_not xa _ _ _ _ (fun hh => h ⟨by omega, by omega⟩)
  · rw [if_neg hc]

/-- What strip s of image n stores into the scratch is rows 4 s .. 4 s + 3 of the third down stage of image n. -/
theorem strip_eq_down3 (x0 x1 x2 : Vec Ideal S1x16x258x8 .f32) (w1 : Vec Ideal S72x64 .f32) (b1 : Vec Ideal S1x64 .f32)
    (wk1 : Vec Ideal S2x2x64x64 .f32) (bb1 : Vec Ideal S1x64 .f32) (wk2 : Vec Ideal S2x2x64x64 .f32)
    (bb2 : Vec Ideal S1x64 .f32) (wk3 : Vec Ideal S2x2x64x64 .f32) (bb3 : Vec Ideal S1x64 .f32)
    (xa : (⟨4, ![32, 3, 256, 256]⟩ : Shape).Idx → EReal) (w1a : (⟨4, ![3, 3, 3, 64]⟩ : Shape).Idx → EReal)
    (b1a bd1a bd2a bd3a : (⟨1, ![64]⟩ : Shape).Idx → EReal) (n s : Nat)
    (hx0 : ∀ (r : Fin 16) (j : Fin 258) (c : Fin 8), x0 (ix4 0 r j c) = pad1 256 256 (nhwc (rd4 xa)) n (32 * s + r.val) j.val c.val)
    (hx1 : ∀ (r : Fin 16) (j : Fin 258) (c : Fin 8), x1 (ix4 0 r j c) = pad1 256 256 (nhwc (rd4 xa)) n (32 * s + 16 + r.val) j.val c.val)
    (hx2 : ∀ (r : Fin 16) (j : Fin 258) (c : Fin 8), x2 (ix4 0 r j c) = pad1 256 256 (nhwc (rd4 xa)) n (32 * s + 32 + r.val) j.val c.val)
    (hw1 : ∀ (di dj : Fin 3) (ci : Fin 8) (o : Fin 64) (k : Fin 72), k.val = 24 * di.val + 8 * dj.val + ci.val →
      w1 (ix2 k o) = rd4 w1a di.val dj.val ci.val o.val)
    (hb1 : ∀ (u : Fin 1) (o : Fin 64), b1 (ix2 u o) = rd1 b1a o.val)
    (hbb1 : ∀ (u : Fin 1) (o : Fin 64), bb1 (ix2 u o) = rd1 bd1a o.val)
    (hbb2 : ∀ (u : Fin 1) (o : Fin 64), bb2 (ix2 u o) = rd1 bd2a o.val)
    (hbb3 : ∀ (u : Fin 1) (o : Fin 64), bb3 (ix2 u o) = rd1 bd3a o.val)
    (a : Fin 4) (q : Fin 32) (o : Fin 64) :
    stripPay (F := Ideal) x0 x1 x2 w1 b1 wk1 bb1 wk2 bb2 wk3 bb3 (ix3 a q o)
      = down (down (down (conv3 8 256 256 (nhwc (rd4 xa)) (rd4 w1a) (rd1 b1a)) (rd4 wk1) (rd1 bd1a)) (rd4 wk2) (rd1 bd2a))
          (rd4 wk3) (rd1 bd3a) n (4 * s + a.val) q.val o.val := by
  rw [stripPay_apply, rdMat_row bb1 bd1a hbb1, rdMat_row bb2 bd2a hbb2, rdMat_row bb3 bd3a hbb3]
  refine strip_chain x0 x1 x2 (nhwc (rd4 xa)) (rd4 w1a) (rd1 b1a) (rdMat w1) (rdMat b1 0) (rd4 wk1) (rd4 wk2) (rd4 wk3)
    (rd1 bd1a) (rd1 bd2a) (rd1 bd3a) n s hx0 hx1 hx2 (padImg_zero xa n) ?_ ?_ a.val q.val o.val a.isLt
  · intro di dj ci o' hdi hdj hci
    by_cases ho : o' < 64
    · exact (rdMat_of_lt w1 ⟨24 * di + 8 * dj + ci, by omega⟩ ⟨o', ho⟩).trans
        (hw1 ⟨di, hdi⟩ ⟨dj, hdj⟩ ⟨ci, hci⟩ ⟨o', ho⟩ _ rfl)
    · rw [rdMat_of_not w1 _ o' (fun hh => ho hh.2), rd4_of_not w1a di dj ci o' (fun hh => ho hh.2.2.2)]
  · intro o'
    exact congrFun (rdMat_row b1 b1a hb1) o'

/-- The tail's output block is the last convolution of the scratch image, once the scratch image is image n of an array
    D and the kernel's weight and bias blocks are the padded argument arrays. -/
theorem tail_eq_conv (scr : Vec Ideal S32x32x64 .f32) (w2 : Vec Ideal S576x8 .f32) (b2 : Vec Ideal S1x8 .f32)
    (D : A4) (w2a : (⟨4, ![3, 3, 64, 3]⟩ : Shape).Idx → EReal) (b2a : (⟨1, ![3]⟩ : Shape).Idx → EReal) (n : Nat)
    (hscr : ∀ (i j : Fin 32) (c : Fin 64), scr (ix3 i j c) = D n i.val j.val c.val)
    (hw2 : ∀ (di dj : Fin 3) (c : Fin 64) (o : Fin 8) (k : Fin 576), k.val = 192 * di.val + 64 * dj.val + c.val →
      w2 (ix2 k o) = rd4 w2a di.val dj.val c.val o.val)
    (hb2 : ∀ (u : Fin 1) (o : Fin 8), b2 (ix2 u o) = rd1 b2a o.val)
    (u : Fin 1) (h x : Fin 32) (o : Fin 8) :
    k0_pay2 scr w2 b2 (ix4 u h x o) = conv3 64 32 32 D (rd4 w2a) (rd1 b2a) n h.val x.val o.val := by
  rw [k0_pay2_apply, ← conv3_shift 64 32 32 (img3 scr) D (rd4 w2a) (rd1 b2a) 0 n (fun i j c hi hj hc =>
    (rd3_of_lt scr ⟨i, hi⟩ ⟨j, hj⟩ ⟨c, hc⟩).trans (hscr ⟨i, hi⟩ ⟨j, hj⟩ ⟨c, hc⟩)) h.val x.val o.val]
  unfold conv3
  rw [hb2 0 o]
  refine congrArg (· + rd1 b2a o.val) ?_
  refine Finset.sum_congr rfl fun di _ => Finset.sum_congr rfl fun dj _ => Finset.sum_congr rfl fun c _ => ?_
  rw [hw2 di dj c o _ rfl]

end Cert.KernelIdeal.Hand

end
-- ==== Proof.KValue.lean ====
/-
  The fused kernel's result is the specification's network.

  Image n's output block is the 3 x 3 convolution of the scratch image, whose rows 4 s .. 4 s + 3 are what strip s of
  image n computed: rows 4 s .. 4 s + 3 of the third down stage of the first convolution of the whole padded image n.
  So the scratch image is the third down stage of image n, the output block is the last convolution of it, and the
  host's final slice and transpose give the network in channel-first order.  Every array the kernel reads is the
  specification's reading of an argument array: the host operations before the kernel only pad with zeros and change
  layouts.
-/
import proofs.«178811_g2000006188366390_pallasbulk_758_10_alg».proof.Proof.KRunArr
import proofs.«178811_g2000006188366390_pallasbulk_758_10_alg».proof.Proof.KBlocks
import proofs.«178811_g2000006188366390_pallasbulk_758_10_alg».proof.Proof.KHost
import proofs.«178811_g2000006188366390_pallasbulk_758_10_alg».proof.Proof.KValueMath

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-- The last strip's point of image n works on image n. -/
theorem imgOf_last (n : Fin 32) : imgOf (pt n 7).val = n :=
  Fin.ext (by show (8 * n.val + 7) / 8 % 32 = n.val; have := n.isLt; omega)

/-- The down stages' weights reach the kernel as the argument arrays. -/
theorem wd1_blk (c : Dev nD) (t : Fin cfg0.N) :
    (iblk0 (V1 (F := Ideal) m ρ) c 5 t : S2x2x64x64.Idx → EReal) = (m ((c.tc : Thread nD τ).loc main_arg3)) :=
  (iblk_whole5 (V1 (F := Ideal) m ρ) c t).trans (host_wd1_eq (W0 (F := Ideal) m ρ c))
theorem wd2_blk (c : Dev nD) (t : Fin cfg0.N) :
    (iblk0 (V1 (F := Ideal) m ρ) c 7 t : S2x2x64x64.Idx → EReal) = (m ((c.tc : Thread nD τ).loc main_arg5)) :=
  (iblk_whole7 (V1 (F := Ideal) m ρ) c t).trans (host_wd2_eq (W0 (F := Ideal) m ρ c))
theorem wd3_blk (c : Dev nD) (t : Fin cfg0.N) :
    (iblk0 (V1 (F := Ideal) m ρ) c 9 t : S2x2x64x64.Idx → EReal) = (m ((c.tc : Thread nD τ).loc main_arg7)) :=
  (iblk_whole9 (V1 (F := Ideal) m ρ) c t).trans (host_wd3_eq (W0 (F := Ideal) m ρ c))

/-! ## The blocks of a grid point, as the specification's readings of the argument arrays -/

section Point
variable (c : Dev nD) (n : Fin 32) (s : Fin 8)

theorem x0_blk (r : Fin 16) (j : Fin 258) (ch : Fin 8) :
    (iblk0 (V1 (F := Ideal) m ρ) c 0 (pt n s) : S1x16x258x8.Idx → EReal) (ix4 0 r j ch)
      = pad1 256 256 (nhwc (rd4 (m ((c.tc : Thread nD τ).loc main_arg0)))) n.val (32 * s.val + r.val) j.val ch.val :=
  (iblk_img0 (V1 (F := Ideal) m ρ) c n s r j ch).trans
    (host_img_apply (W0 (F := Ideal) m ρ c) n ⟨32 * s.val + r.val, by have := s.isLt; have := r.isLt; omega⟩ j ch)

theorem x1_blk (r : Fin 16) (j : Fin 258) (ch : Fin 8) :
    (iblk0 (V1 (F := Ideal) m ρ) c 1 (pt n s) : S1x16x258x8.Idx → EReal) (ix4 0 r j ch)
      = pad1 256 256 (nhwc (rd4 (m ((c.tc : Thread nD τ).loc main_arg0)))) n.val (32 * s.val + 16 + r.val) j.val ch.val :=
  (iblk_img1 (V1 (F := Ideal) m ρ) c n s r j ch).trans
    (host_img_apply (W0 (F := Ideal) m ρ c) n ⟨32 * s.val + 16 + r.val, by have := s.isLt; have := r.isLt; omega⟩ j ch)

theorem x2_blk (r : Fin 16) (j : Fin 258) (ch : Fin 8) :
    (iblk0 (V1 (F := Ideal) m ρ) c 2 (pt n s) : S1x16x258x8.Idx → EReal) (ix4 0 r j ch)
      = pad1 256 256 (nhwc (rd4 (m ((c.tc : Thread nD τ).loc main_arg0)))) n.val (32 * s.val + 32 + r.val) j.val ch.val :=
  (iblk_img2 (V1 (F := Ideal) m ρ) c n s r j ch).trans
    (host_img_apply (W0 (F := Ideal) m ρ c) n ⟨32 * s.val + 32 + r.val, by have := s.isLt; have := r.isLt; omega⟩ j ch)

theorem w1_blk (t : Fin cfg0.N) (di dj : Fin 3) (ci : Fin 8) (o : Fin 64) (k : Fin 72)
    (hk : k.val = 24 * di.val + 8 * dj.val + ci.val) :
    (iblk0 (V1 (F := Ideal) m ρ) c 3 t : S72x64.Idx → EReal) (ix2 k o) = rd4 (m ((c.tc : Thread nD τ).loc main_arg1)) di.val dj.val ci.val o.val := by
  rw [iblk_whole3 (V1 (F := Ideal) m ρ) c t]
  exact host_w1_apply (W0 (F := Ideal) m ρ c) di dj ci o k hk

theorem b1_blk (t : Fin cfg0.N) (u : Fin 1) (o : Fin 64) :
    (iblk0 (V1 (F := Ideal) m ρ) c 4 t : S1x64.Idx → EReal) (ix2 u o) = rd1 (m ((c.tc : Thread nD τ).loc main_arg2)) o.val := by
  rw [iblk_whole4 (V1 (F := Ideal) m ρ) c t]
  exact host_b1_apply (W0 (F := Ideal) m ρ c) u o

theorem bd1_blk (t : Fin cfg0.N) (u : Fin 1) (o : Fin 64) :
    (iblk0 (V1 (F := Ideal) m ρ) c 6 t : S1x64.Idx → EReal) (ix2 u o) = rd1 (m ((c.tc : Thread nD τ).loc main_arg4)) o.val := by
  rw [iblk_whole6 (V1 (F := Ideal) m ρ) c t]
  exact host_bd1_apply (W0 (F := Ideal) m ρ c) u o

theorem bd2_blk (t : Fin cfg0.N) (u : Fin 1) (o : Fin 64) :
    (iblk0 (V1 (F := Ideal) m ρ) c 8 t : S1x64.Idx → EReal) (ix2 u o) = rd1 (m ((c.tc : Thread nD τ).loc main_arg6)) o.val := by
  rw [iblk_whole8 (V1 (F := Ideal) m ρ) c t]
  exact host_bd2_apply (W0 (F := Ideal) m ρ c) u o

theorem bd3_blk (t : Fin cfg0.N) (u : Fin 1) (o : Fin 64) :
    (iblk0 (V1 (F := Ideal) m ρ) c 10 t : S1x64.Idx → EReal) (ix2 u o) = rd1 (m ((c.tc : Thread nD τ).loc main_arg8)) o.val := by
  rw [iblk_whole10 (V1 (F := Ideal) m ρ) c t]
  exact host_bd3_apply (W0 (F := Ideal) m ρ c) u o

theorem w2_blk (t : Fin cfg0.N) (di dj : Fin 3) (c' : Fin 64) (o : Fin 8) (k : Fin 576)
    (hk : k.val = 192 * di.val + 64 * dj.val + c'.val) :
    (iblk0 (V1 (F := Ideal) m ρ) c 11 t : S576x8.Idx → EReal) (ix2 k o) = rd4 (m ((c.tc : Thread nD τ).loc main_arg9)) di.val dj.val c'.val o.val := by
  rw [iblk_whole11 (V1 (F := Ideal) m ρ) c t]
  exact host_w2_apply (W0 (F := Ideal) m ρ c) di dj c' o k hk

theorem b2_blk (t : Fin cfg0.N) (u : Fin 1) (o : Fin 8) :
    (iblk0 (V1 (F := Ideal) m ρ) c 12 t : S1x8.Idx → EReal) (ix2 u o) = rd1 (m ((c.tc : Thread nD τ).loc main_arg10)) o.val := by
  rw [iblk_whole12 (V1 (F := Ideal) m ρ) c t]
  exact host_b2_apply (W0 (F := Ideal) m ρ c) u o

set_option maxHeartbeats 400000 in
/-- What strip s of image n stores into the scratch: rows 4 s .. 4 s + 3 of the third down stage of image n. -/
theorem strip_eq (a : Fin 4) (q : Fin 32) (o : Fin 64) :
    strip (V1 (F := Ideal) m ρ) c (pt n s) (ix3 a q o)
      = (down (down (down (conv3 8 256 256 (nhwc (rd4 (m ((c.tc : Thread nD τ).loc main_arg0)))) (rd4 (m ((c.tc : Thread nD τ).loc main_arg1))) (rd1 (m ((c.tc : Thread nD τ).loc main_arg2))))
            (rd4 (m ((c.tc : Thread nD τ).loc main_arg3))) (rd1 (m ((c.tc : Thread nD τ).loc main_arg4)))) (rd4 (m ((c.tc : Thread nD τ).loc main_arg5))) (rd1 (m ((c.tc : Thread nD τ).loc main_arg6)))) (rd4 (m ((c.tc : Thread nD τ).loc main_arg7))) (rd1 (m ((c.tc : Thread nD τ).loc main_arg8)))) n.val (4 * s.val + a.val) q.val o.val := by
  unfold strip
  rw [wd1_blk m ρ c (pt n s), wd2_blk m ρ c (pt n s), wd3_blk m ρ c (pt n s)]
  exact strip_eq_down3
    (iblk0 (V1 (F := Ideal) m ρ) c 0 (pt n s)) (iblk0 (V1 (F := Ideal) m ρ) c 1 (pt n s)) (iblk0 (V1 (F := Ideal) m ρ) c 2 (pt n s))
    (iblk0 (V1 (F := Ideal) m ρ) c 3 (pt n s)) (iblk0 (V1 (F := Ideal) m ρ) c 4 (pt n s)) (m ((c.tc : Thread nD τ).loc main_arg3))
    (iblk0 (V1 (F := Ideal) m ρ) c 6 (pt n s)) (m ((c.tc : Thread nD τ).loc main_arg5))
    (iblk0 (V1 (F := Ideal) m ρ) c 8 (pt n s)) (m ((c.tc : Thread nD τ).loc main_arg7))
    (iblk0 (V1 (F := Ideal) m ρ) c 10 (pt n s))
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg8)) n.val s.val
    (x0_blk m ρ c n s) (x1_blk m ρ c n s) (x2_blk m ρ c n s)
    (w1_blk m ρ c (pt n s)) (b1_blk m ρ c (pt n s)) (bd1_blk m ρ c (pt n s)) (bd2_blk m ρ c (pt n s)) (bd3_blk m ρ c (pt n s))
    a q o

end Point

/-- The scratch image that image n's tail reads is the third down stage of image n. -/
theorem scrImg_eq (c : Dev nD) (n : Fin 32) (i j : Fin 32) (ch : Fin 64) :
    scrImg (V1 (F := Ideal) m ρ) c n (ix3 i j ch)
      = (down (down (down (conv3 8 256 256 (nhwc (rd4 (m ((c.tc : Thread nD τ).loc main_arg0)))) (rd4 (m ((c.tc : Thread nD τ).loc main_arg1))) (rd1 (m ((c.tc : Thread nD τ).loc main_arg2))))
            (rd4 (m ((c.tc : Thread nD τ).loc main_arg3))) (rd1 (m ((c.tc : Thread nD τ).loc main_arg4)))) (rd4 (m ((c.tc : Thread nD τ).loc main_arg5))) (rd1 (m ((c.tc : Thread nD τ).loc main_arg6)))) (rd4 (m ((c.tc : Thread nD τ).loc main_arg7))) (rd1 (m ((c.tc : Thread nD τ).loc main_arg8)))) n.val i.val j.val ch.val := by
  have hi := i.isLt
  have hin : inStrip (ix3 i j ch) = ix3 ⟨i.val % 4, by omega⟩ j ch := funext fun a => Fin.ext (match a with
    | ⟨0, _⟩ => by show i.val - 4 * (i.val / 4) = i.val % 4; omega
    | ⟨1, _⟩ => by show j.val - 0 = j.val; omega
    | ⟨2, _⟩ => by show ch.val - 0 = ch.val; omega)
  have hst : stripOf (ix3 i j ch) = ⟨i.val / 4, by omega⟩ := Fin.ext rfl
  rw [scrImg_apply, hin, hst]
  refine (strip_eq m ρ c n ⟨i.val / 4, by omega⟩ ⟨i.val % 4, by omega⟩ j ch).trans ?_
  have hrow : 4 * (⟨i.val / 4, by omega⟩ : Fin 8).val + (⟨i.val % 4, by omega⟩ : Fin 4).val = i.val := by
    show 4 * (i.val / 4) + i.val % 4 = i.val
    omega
  rw [hrow]

/-- The program's result array is the specification's network of the argument arrays. -/
theorem result_eq (c : Dev nD) :
    (W3 (F := Ideal) m ρ c (Proc.devRef .tc main_v0) : S32x3x32x32.Idx → EReal)
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  obtain ⟨n, o, h, x, rfl⟩ : ∃ n o h x, i = ix4 n o h x := ⟨i 0, i 1, i 2, i 3, eq_ix4 i⟩
  have ho := o.isLt
  refine (host_out_apply (W2 (F := Ideal) m ρ c) n o h x).trans ?_
  refine (congrFun (W2_out (F := Ideal) m ρ c) (ix4 n h x ⟨o.val, by omega⟩)).trans ?_
  refine (arr13_apply (V1 (F := Ideal) m ρ) c n h x ⟨o.val, by omega⟩).trans ?_
  unfold outblk
  rw [imgOf_last]
  exact tail_eq_conv (scrImg (V1 (F := Ideal) m ρ) c n) (iblk0 (V1 (F := Ideal) m ρ) c 11 (pt n 7))
    (iblk0 (V1 (F := Ideal) m ρ) c 12 (pt n 7))
    (down (down (down (conv3 8 256 256 (nhwc (rd4 (m ((c.tc : Thread nD τ).loc main_arg0)))) (rd4 (m ((c.tc : Thread nD τ).loc main_arg1))) (rd1 (m ((c.tc : Thread nD τ).loc main_arg2))))
            (rd4 (m ((c.tc : Thread nD τ).loc main_arg3))) (rd1 (m ((c.tc : Thread nD τ).loc main_arg4)))) (rd4 (m ((c.tc : Thread nD τ).loc main_arg5))) (rd1 (m ((c.tc : Thread nD τ).loc main_arg6)))) (rd4 (m ((c.tc : Thread nD τ).loc main_arg7))) (rd1 (m ((c.tc : Thread nD τ).loc main_arg8))))
    (m ((c.tc : Thread nD τ).loc main_arg9)) (m ((c.tc : Thread nD τ).loc main_arg10)) n.val (scrImg_eq m ρ c n)
    (w2_blk m ρ c (pt n 7)) (b2_blk m ρ c (pt n 7))
    0 h x ⟨o.val, by omega⟩

end Cert.KernelIdeal.Hand

end
-- ==== Proof.RefR0.lean ====
/- Region 0 of the reference program (the first 3x3 convolution, one image row per grid point), at a
   parameter `V`: the buffers' contents when the region is entered. Each window's block at a point, what the
   body leaves in the output window's buffer as the canon of its one store over the input blocks, the body's
   triple, the proof data and the body obligation. -/
import proofs.«178811_g2000006188366390_pallasbulk_758_10_alg».proof.Proof.Gen.ReferenceIdeal.Launch
import proofs.«178811_g2000006188366390_pallasbulk_758_10_alg».proof.Proof.Gen.ReferenceIdeal.Skeleton
import proofs.«178811_g2000006188366390_pallasbulk_758_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rIn0 : Rect S1x258x8 := Rect.unit (s := S1x258x8) ![0, 0, 0] S1x258x8.size inb_S1x258x8_S1x258x8_0_0_0
abbrev rW0_00 : Rect S3x3x8x64 := Rect.unit (s := S3x3x8x64) ![0, 0, 0, 0] S1x1x8x64.size inb_S3x3x8x64_S1x1x8x64_0_0_0_0
abbrev rW0_01 : Rect S3x3x8x64 := Rect.unit (s := S3x3x8x64) ![0, 1, 0, 0] S1x1x8x64.size inb_S3x3x8x64_S1x1x8x64_0_1_0_0
abbrev rW0_02 : Rect S3x3x8x64 := Rect.unit (s := S3x3x8x64) ![0, 2, 0, 0] S1x1x8x64.size inb_S3x3x8x64_S1x1x8x64_0_2_0_0
abbrev rW0_10 : Rect S3x3x8x64 := Rect.unit (s := S3x3x8x64) ![1, 0, 0, 0] S1x1x8x64.size inb_S3x3x8x64_S1x1x8x64_1_0_0_0
abbrev rW0_11 : Rect S3x3x8x64 := Rect.unit (s := S3x3x8x64) ![1, 1, 0, 0] S1x1x8x64.size inb_S3x3x8x64_S1x1x8x64_1_1_0_0
abbrev rW0_12 : Rect S3x3x8x64 := Rect.unit (s := S3x3x8x64) ![1, 2, 0, 0] S1x1x8x64.size inb_S3x3x8x64_S1x1x8x64_1_2_0_0
abbrev rW0_20 : Rect S3x3x8x64 := Rect.unit (s := S3x3x8x64) ![2, 0, 0, 0] S1x1x8x64.size inb_S3x3x8x64_S1x1x8x64_2_0_0_0
abbrev rW0_21 : Rect S3x3x8x64 := Rect.unit (s := S3x3x8x64) ![2, 1, 0, 0] S1x1x8x64.size inb_S3x3x8x64_S1x1x8x64_2_1_0_0
abbrev rW0_22 : Rect S3x3x8x64 := Rect.unit (s := S3x3x8x64) ![2, 2, 0, 0] S1x1x8x64.size inb_S3x3x8x64_S1x1x8x64_2_2_0_0
abbrev rB0 : Rect S1x64 := Rect.unit (s := S1x64) ![0, 0] S1x64.size inb_S1x64_S1x64_0_0
abbrev rO0 : Rect S1x256x64 := Rect.unit (s := S1x256x64) ![0, 0, 0] S1x256x64.size inb_S1x256x64_S1x256x64_0_0_0

/-! ## What the body leaves in the output window's buffer -/

/-- The value the body stores: the nine tap products accumulated in the program's order, plus the bias row,
    from the five input blocks. -/
def val0 (x0 x1 x2 : Vec F S1x258x8 .f32) (x3 : Vec F S3x3x8x64 .f32) (x4 : Vec F S1x64 .f32) : FVec F S1x256x64 .f32 :=
  k0_pay1
    (k0_pay5 (k0_pay2 (View.ld x1 rIn0))
      (k0_pay3 (View.ld x0 rIn0) (View.ld x3 rW0_00) (View.ld x3 rW0_01) (View.ld x3 rW0_02) (View.ld x1 rIn0) (View.ld x3 rW0_10))
      (k0_pay4 (View.ld x1 rIn0)) (View.ld x3 rW0_11) (View.ld x3 rW0_12) (View.ld x2 rIn0)
      (View.ld x3 rW0_20) (View.ld x3 rW0_21) (View.ld x3 rW0_22))
    (View.ld x4 rB0)

/-- Window 5's staging buffer after the body, from the input windows' blocks: its one store as a piece. -/
def out0_5 (x0 x1 x2 : Vec F S1x258x8 .f32) (x3 : Vec F S3x3x8x64 .f32) (x4 : Vec F S1x64 .f32) : Vec F S1x256x64 .f32 :=
  View.canon [⟨rO0, val0 x0 x1 x2 x3 x4⟩]

/-- The store covers the buffer. -/
theorem cover0_5 (p0 : Vec F S1x256x64 .f32) (y : S1x256x64.Idx) :
    ∃ pc ∈ ([⟨rO0, p0⟩] : List (View.Piece (Elt F) S1x256x64 .f32)), y ∈ pc.1.set :=
  View.cover_of_tiled [⟨rO0, p0⟩] S1x256x64.size (by rfl) y

/-! ## The body's triple -/

set_option maxHeartbeats 4000000 in
/-- The kernel body on whole staging memrefs, the inputs' at read contents `xW` and the output's at anything, runs
    to the continuation holding the inputs' as they were and the output's at `out0_5` of the inputs'. -/
theorem sound_kernel0 (c : Dev nD) (E : Set ℕ) (i : grid0.Coords)
    (arg1 : Memref sig .tc .vmem S1x258x8 .f32) (harg1 : arg1.IsWhole) (arg2 : Memref sig .tc .vmem S1x258x8 .f32) (harg2 : arg2.IsWhole)
    (arg3 : Memref sig .tc .vmem S1x258x8 .f32) (harg3 : arg3.IsWhole) (arg4 : Memref sig .tc .vmem S3x3x8x64 .f32) (harg4 : arg4.IsWhole)
    (arg5 : Memref sig .tc .vmem S1x64 .f32) (harg5 : arg5.IsWhole) (arg6 : Memref sig .tc .vmem S1x256x64 .f32) (harg6 : arg6.IsWhole)
    (x0 x1 x2 : Vec F S1x258x8 .f32) (x3 : Vec F S3x3x8x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__kernel_body i arg1 harg1 arg2 harg2 arg3 harg3 arg4 harg4 arg5 harg5 arg6 harg6) K := by
  simp only [cc0__kernel_body_eq_skeleton]; unfold cc0__kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and the output's at `out0_5` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t =
    out0_5 (iblk0 V c 0 t) (iblk0 V c 1 t) (iblk0 V c 2 t) (iblk0 V c 3 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant is the same at every point, nothing is owed, and every share is full: each by definition. -/
example (c : Dev nD) (t) : (dat0 V c).Φ t = Pipeline.ΦA spec0 c := rfl
example (c : Dev nD) (t) : (dat0 V c).owed t = 0 := rfl
example (c : Dev nD) : ∀ w, (dat0 V c).q w = fullShare := fun _ => rfl

end Regions

end Cert.ReferenceIdeal.Hand

end
-- ==== Proof.RefR1.lean ====
/-
  Region 1 of the reference program: the first down stage, on blocks of five image rows.

  The grid has 820 points over 4096 rows, so the last block overhangs the input and the output arrays by four
  rows: the input window's fetch fills only the block's first row there and the output window's write-back moves
  only the first row. The proof data keep, after the body, each input buffer at its block (the input of five rows
  filled out past the array's end with the zero word, which nothing reads) and the output buffer at the body's
  result on that; both five-row windows are loose, so the obligation speaks of the rows inside the array only.
  That the output rows inside the array do not depend on the input rows past its end is a property of the float
  operations (every output row is computed from the input row of the same number), stated here as the hypothesis
  `RowLocal1` and proved where the operations are the exact ones.
-/
import proofs.«178811_g2000006188366390_pallasbulk_758_10_alg».proof.Proof.Gen.ReferenceIdeal.Launch
import proofs.«178811_g2000006188366390_pallasbulk_758_10_alg».proof.Proof.Gen.ReferenceIdeal.Skeleton
import proofs.«178811_g2000006188366390_pallasbulk_758_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it: its part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The five-row input block at point `t`, filled out past the array's end with the zero word. -/
def xblk1 (c : Dev nD) (t : Fin cfg1.N) : Vec F S5x256x128 .f32 :=
  win1_0.fill (grid1.coords t) (fun _ => Scalar.ofBits .f32 0#32) (iblk1 V c 0 t)

/-! ## The body's accesses -/

abbrev r1_x : Rect S5x256x128 := Rect.unit (s := S5x256x128) ![0, 0, 0] S5x256x128.size inb_S5x256x128_S5x256x128_0_0_0
abbrev r1_w0 : Rect S2x128x64 := Rect.unit (s := S2x128x64) ![0, 0, 0] S1x128x64.size inb_S2x128x64_S1x128x64_0_0_0
abbrev r1_w1 : Rect S2x128x64 := Rect.unit (s := S2x128x64) ![1, 0, 0] S1x128x64.size inb_S2x128x64_S1x128x64_1_0_0
abbrev r1_b : Rect S1x64 := Rect.unit (s := S1x64) ![0, 0] S1x64.size inb_S1x64_S1x64_0_0
abbrev r1_o : Rect S5x128x64 := Rect.unit (s := S5x128x64) ![0, 0, 0] S5x128x64.size inb_S5x128x64_S5x128x64_0_0_0

/-! ## What the body leaves in the output window's buffer -/

/-- The output staging buffer after the body, from the contents of the three input buffers: its one store. -/
def out1_3 (x0 : Vec F S5x256x128 .f32) (x1 : Vec F S2x128x64 .f32) (x2 : Vec F S1x64 .f32) : Vec F S5x128x64 .f32 :=
  View.canon [⟨r1_o, k1_pay1 (View.ld x0 r1_x) (View.ld x1 r1_w0) (View.ld x1 r1_w1) (View.ld x2 r1_b)⟩]

/-- The store covers the buffer. -/
theorem cover1_3 (p0 : Vec F S5x128x64 .f32) (y : S5x128x64.Idx) :
    ∃ pc ∈ ([⟨r1_o, p0⟩] : List (View.Piece (Elt F) S5x128x64 .f32)), y ∈ pc.1.set :=
  View.cover_of_tiled [⟨r1_o, p0⟩] S5x128x64.size (by rfl) y

/-! ## The body's triple -/

set_option maxHeartbeats 1000000 in
/-- The kernel body on whole staging memrefs, the inputs' at read contents `x0 x1 x2` and the output's at anything,
    runs to the continuation holding the inputs' as they were and the output's at `out1_3` of the inputs'. -/
theorem sound_kernel1 (c : Dev nD) (E : Set ℕ) (i : grid1.Coords)
    (arg1 : Memref sig .tc .vmem S5x256x128 .f32) (harg1 : arg1.IsWhole) (arg2 : Memref sig .tc .vmem S2x128x64 .f32) (harg2 : arg2.IsWhole)
    (arg3 : Memref sig .tc .vmem S1x64 .f32) (harg3 : arg3.IsWhole) (arg4 : Memref sig .tc .vmem S5x128x64 .f32) (harg4 : arg4.IsWhole)
    (x0 : Vec F S5x256x128 .f32) (x1 : Vec F S2x128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__kernel_body i arg1 harg1 arg2 harg2 arg3 harg3 arg4 harg4) K := by
  simp only [cc1__kernel_body_eq_skeleton]; unfold cc1__kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core `c`: the arrays as the region finds them; after the body at
    point `t` the five-row input buffer at its block filled out with zero words, the weight's and the bias's
    buffers at their blocks, the output buffer at `out1_3` of those; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => xblk1 V c t
    | ⟨1, _⟩ => iblk1 V c 1 t
    | ⟨2, _⟩ => iblk1 V c 2 t
    | ⟨3, _⟩ => out1_3 (xblk1 V c t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

example (c : Dev nD) (t) : (dat1 V c).Φ t = Pipeline.ΦA spec1 c := rfl
example (c : Dev nD) (t) : (dat1 V c).owed t = 0 := rfl
example (c : Dev nD) := (dat1 V c).share_full fun _ => rfl

theorem after1_0 (c : Dev nD) (t : Fin cfg1.N) : (dat1 V c).after 0 t = xblk1 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (xblk1 V c t) (iblk1 V c 1 t) (iblk1 V c 2 t) := by dsimp only [dat1]

/-! ## The rows inside the array -/

/-- The rows of the output block that the write-back moves are computed from the rows of the input block that the
    fetch fills: two contents of the five-row input buffer that agree on the latter give outputs that agree on
    the former. -/
def RowLocal1 (F : FTy → Type) [FloatOps F] : Prop :=
  ∀ (t : Fin cfg1.N) (X X' : Vec F S5x256x128 .f32) (x1 : Vec F S2x128x64 .f32) (x2 : Vec F S1x64 .f32),
    win1_0.cut (grid1.coords t) X = win1_0.cut (grid1.coords t) X' →
    win1_3.cut (grid1.coords t) (out1_3 X x1 x2) = win1_3.cut (grid1.coords t) (out1_3 X' x1 x2)

/-! ## What the body finds -/

/-- The five-row input buffer was just fetched at every point: the block on the rows inside the array, `d` elsewhere. -/
theorem before1_0 (c : Dev nD) (t : Fin cfg1.N) (d) :
    (dat1 V c).before 0 t d = win1_0.fill (grid1.coords t) d (iblk1 V c 0 t) := by
  unfold Dat.before; rw [if_pos (fetch1_0 t)]; rfl

/-- The weight's and the bias's buffers hold their blocks at every point, fetched there or not, for any proof data
    whose arrays are the entry contents and whose body leaves those blocks in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns: the two five-row buffers stated on the rows inside the arrays. -/
def bodyPost1 (c : Dev nD) (t : Fin cfg1.N) : sProp 𝕄 :=
  iprop((dat1 V c).Φ t.succ ∗ (dat1 V c).owesAt () t.succ
    ∗ (∃ d, owns (c : Thread nD τ) (st1_0 t) fullShare (win1_0.fill (grid1.coords t) d (win1_0.cut (grid1.coords t) ((dat1 V c).after 0 t))))
    ∗ owns (c : Thread nD τ) (st1_1 t) fullShare ((dat1 V c).after 1 t)
    ∗ owns (c : Thread nD τ) (st1_2 t) fullShare ((dat1 V c).after 2 t)
    ∗ (∃ d, owns (c : Thread nD τ) (st1_3 t) fullShare (win1_3.fill (grid1.coords t) d (win1_3.cut (grid1.coords t) ((dat1 V c).after 3 t)))))

/-- The body at any point: the input buffers hold their blocks, the five-row one filled out with any words past the
    array's end, so the kernel's triple applies; the output rows inside the array are those of the proof data's
    contents because they do not read the input rows past the array's end. -/
theorem sound_body1 (hloc : RowLocal1 F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (win1_0.fill (grid1.coords t) d0 (iblk1 V c 0 t)) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hx : win1_0.cut (grid1.coords t) (xblk1 V c t) = iblk1 V c 0 t := win1_0.cut_fill _ _ _
  have hcut : win1_0.cut (grid1.coords t) (win1_0.fill (grid1.coords t) d0 (iblk1 V c 0 t)) = win1_0.cut (grid1.coords t) (xblk1 V c t) :=
    (win1_0.cut_fill _ _ _).trans hx.symm
  have hy := win1_3.fill_congr_cut (grid1.coords t) (hloc t _ _ (iblk1 V c 1 t) (iblk1 V c 2 t) hcut)
  isplitl [H0]
  · iexists d0; rw [hx]; iexact H0
  isplitl [H1]; · iexact H1
  isplitl [H2]; · iexact H2
  iexists _; rw [hy]; iexact H3

/-- The library's body obligation at every point, on the rows inside the arrays, for float operations that compute
    every output row from the input row of its number. -/
theorem body_obligation1_of (hloc : RowLocal1 F) (c : Dev nD) :
    BodyObligationLoose (dat1 (F := F) V c) (defs₀ (F := F)) Variants.none () Set.univ := fun t => by
  rw [bigSep_W1, bigSep_W1]
  exact sound_body1 V hloc c t

end Cert.ReferenceIdeal.Hand
-- ==== Proof.RefR2.lean ====
/- Region 2 of the reference program (the second down-sampling stage, on blocks of eight rows) at a
   parameter `V`, the TensorCore's buffer contents when the region is entered: each window's block at a
   point, what the body leaves in the output window's staging buffer as a function of the input blocks,
   the body's triple, the pipeline's proof data and the body obligation. Generic in the float model. -/
import proofs.«178811_g2000006188366390_pallasbulk_758_10_alg».proof.Proof.Gen.ReferenceIdeal.Launch
import proofs.«178811_g2000006188366390_pallasbulk_758_10_alg».proof.Proof.Gen.ReferenceIdeal.Skeleton
import proofs.«178811_g2000006188366390_pallasbulk_758_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched
    window's block index has not moved), for any proof data whose array is `V`'s and whose body leaves the block
    in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole block of rows. -/
abbrev rIn2 : Rect S8x128x128 := Rect.unit (s := S8x128x128) ![0, 0, 0] S8x128x128.size inb_S8x128x128_S8x128x128_0_0_0
/-- The weight's first and second matrices. -/
abbrev rW2_0 : Rect S2x128x64 := Rect.unit (s := S2x128x64) ![0, 0, 0] S1x128x64.size inb_S2x128x64_S1x128x64_0_0_0
abbrev rW2_1 : Rect S2x128x64 := Rect.unit (s := S2x128x64) ![1, 0, 0] S1x128x64.size inb_S2x128x64_S1x128x64_1_0_0
/-- The bias row. -/
abbrev rB2 : Rect S1x64 := Rect.unit (s := S1x64) ![0, 0] S1x64.size inb_S1x64_S1x64_0_0
/-- The whole output block. -/
abbrev rOut2 : Rect S8x64x64 := Rect.unit (s := S8x64x64) ![0, 0, 0] S8x64x64.size inb_S8x64x64_S8x64x64_0_0_0

/-! ## What the body leaves in the output window's buffer -/

/-- The output window's staging buffer after the body, from the input windows' blocks: its one store. -/
def out2_3 (x0 : Vec F S8x128x128 .f32) (x1 : Vec F S2x128x64 .f32) (x2 : Vec F S1x64 .f32) : Vec F S8x64x64 .f32 :=
  View.canon [⟨rOut2, k2_pay1 (View.ld x0 rIn2) (View.ld x1 rW2_0) (View.ld x1 rW2_1) (View.ld x2 rB2)⟩]

/-- The store covers the buffer. -/
theorem cover2_3 (p0 : Vec F S8x64x64 .f32) (y : S8x64x64.Idx) :
    ∃ pc ∈ ([⟨rOut2, p0⟩] : List (View.Piece (Elt F) S8x64x64 .f32)), y ∈ pc.1.set :=
  View.cover_of_tiled [⟨rOut2, p0⟩] S8x64x64.size (by rfl) y

/-! ## The body's triple -/

set_option maxHeartbeats 1000000 in
/-- The kernel body on whole staging memrefs, the inputs' at read contents `x0`, `x1`, `x2` and the output's at
    anything, runs to the continuation holding the inputs' as they were and the output's at `out2_3` of them. -/
theorem sound_kernel2 (c : Dev nD) (E : Set ℕ) (i : grid2.Coords) (arg1 : Memref sig .tc .vmem S8x128x128 .f32) (harg1 : arg1.IsWhole)
    (arg2 : Memref sig .tc .vmem S2x128x64 .f32) (harg2 : arg2.IsWhole) (arg3 : Memref sig .tc .vmem S1x64 .f32) (harg3 : arg3.IsWhole)
    (arg4 : Memref sig .tc .vmem S8x64x64 .f32) (harg4 : arg4.IsWhole)
    (x0 : Vec F S8x128x128 .f32) (x1 : Vec F S2x128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__kernel_body i arg1 harg1 arg2 harg2 arg3 harg3 arg4 harg4) K := by
  simp only [cc2__kernel_body_eq_skeleton]; unfold cc2__kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The shapes the run's assembly relies on hold by unfolding. -/
example (c : Dev nD) (t) : (dat2 V c).Φ t = Pipeline.ΦA spec2 c := rfl
example (c : Dev nD) (t) : (dat2 V c).owed t = 0 := rfl
example (c : Dev nD) (w) : (dat2 V c).q w = fullShare := rfl

end Region2

end Cert.ReferenceIdeal.Hand

end
-- ==== Proof.RefR3.lean ====
import proofs.«178811_g2000006188366390_pallasbulk_758_10_alg».proof.Proof.Gen.ReferenceIdeal.Launch
import proofs.«178811_g2000006188366390_pallasbulk_758_10_alg».proof.Proof.Gen.ReferenceIdeal.Skeleton
import proofs.«178811_g2000006188366390_pallasbulk_758_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The third down stage of the reference (pallas_call 3), at the buffer contents the region is entered with

Blocks of sixteen rows of a `[1024, 64, 128]` array are pooled (the maximum over the four quarters of a row pair)
and contracted against a `[2, 128, 64]` weight, a `[1, 64]` bias added; each point of the grid of 64 writes one
`[16, 32, 64]` block of the `[1024, 32, 64]` output. This module states, at a parameter `V` — the buffer contents
when the region is entered —, each window's block at a point, what the body leaves in the output's staging buffer
as a closed function of the input blocks, the body's triple, the proof data of the pipeline and its body obligation. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input rows' staging buffer holds the point's block of rows, fetched there or not, for any proof data whose
    array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The weight's staging buffer holds the whole weight at every point (its block index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- The bias's staging buffer holds the whole bias at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole block of sixteen input rows. -/
abbrev r3_rows : Rect S16x64x128 := Rect.unit (s := S16x64x128) ![0, 0, 0] S16x64x128.size inb_S16x64x128_S16x64x128_0_0_0
/-- The weight's first and second planes. -/
abbrev r3_w0 : Rect S2x128x64 := Rect.unit (s := S2x128x64) ![0, 0, 0] S1x128x64.size inb_S2x128x64_S1x128x64_0_0_0
abbrev r3_w1 : Rect S2x128x64 := Rect.unit (s := S2x128x64) ![1, 0, 0] S1x128x64.size inb_S2x128x64_S1x128x64_1_0_0
/-- The whole bias row. -/
abbrev r3_bias : Rect S1x64 := Rect.unit (s := S1x64) ![0, 0] S1x64.size inb_S1x64_S1x64_0_0
/-- The whole output block. -/
abbrev r3_out : Rect S16x32x64 := Rect.unit (s := S16x32x64) ![0, 0, 0] S16x32x64.size inb_S16x32x64_S16x32x64_0_0_0

/-! ## What the body leaves in the output window's buffer -/

/-- The output's staging buffer after the body, from the input windows' blocks: its one store, the pooled maximum
    plus the contraction plus the bias, over the whole block. -/
def out3_3 (x0 : Vec F S16x64x128 .f32) (x1 : Vec F S2x128x64 .f32) (x2 : Vec F S1x64 .f32) : Vec F S16x32x64 .f32 :=
  View.canon [⟨r3_out, k3_pay1 (View.ld x0 r3_rows) (View.ld x1 r3_w0) (View.ld x1 r3_w1) (View.ld x2 r3_bias)⟩]

/-- The one store covers the buffer. -/
theorem cover3_3 (p0 : Vec F S16x32x64 .f32) (y : S16x32x64.Idx) :
    ∃ pc ∈ ([⟨r3_out, p0⟩] : List (View.Piece (Elt F) S16x32x64 .f32)), y ∈ pc.1.set :=
  View.cover_of_tiled [⟨r3_out, p0⟩] S16x32x64.size (by rfl) y

/-! ## The body's triple -/

set_option maxHeartbeats 1000000 in
/-- The kernel body on whole staging memrefs, the inputs' at read contents `x0 x1 x2` and the output's at anything,
    runs to the continuation holding the inputs' as they were and the output's at `out3_3` of the inputs'. -/
theorem sound_kernel3 (c : Dev nD) (E : Set ℕ) (i : grid3.Coords) (arg1 : Memref sig .tc .vmem S16x64x128 .f32) (harg1 : arg1.IsWhole) (arg2 : Memref sig .tc .vmem S2x128x64 .f32) (harg2 : arg2.IsWhole) (arg3 : Memref sig .tc .vmem S1x64 .f32) (harg3 : arg3.IsWhole) (arg4 : Memref sig .tc .vmem S16x32x64 .f32) (harg4 : arg4.IsWhole)
    (x0 : Vec F S16x64x128 .f32) (x1 : Vec F S2x128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__kernel_body i arg1 harg1 arg2 harg2 arg3 harg3 arg4 harg4) K := by
  simp only [cc3__kernel_body_eq_skeleton]; unfold cc3__kernel_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core `c`: the arrays as the region finds them; after the body at point `t` each
    input's buffer at its block and the output's at `out3_3` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the run's assembly reads off the proof data by unfolding. -/
example (c : Dev nD) (t) : (dat3 V c).Φ t = Pipeline.ΦA spec3 c := rfl
example (c : Dev nD) (t) : (dat3 V c).owed t = 0 := rfl
example (c : Dev nD) := (dat3 V c).share_full fun _ => rfl

end Cert.ReferenceIdeal.Hand

end
-- ==== Proof.RefR4.lean ====
import proofs.«178811_g2000006188366390_pallasbulk_758_10_alg».proof.Proof.Gen.ReferenceIdeal.Launch
import proofs.«178811_g2000006188366390_pallasbulk_758_10_alg».proof.Proof.Gen.ReferenceIdeal.Skeleton
import proofs.«178811_g2000006188366390_pallasbulk_758_10_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The reference's fifth call: the 3x3 convolution from 64 to 128 channels, as proof data

The call works on blocks of eight image rows. At each of the 128 grid points it holds three
row-shifted copies of a block of the padded image (each 8 x 34 x 64), the whole weight
(3 x 3 x 64 x 128) and the bias (1 x 128), and leaves in the output block (8 x 32 x 128) the nine
tap products (a 256 x 64 by 64 x 128 product per tap, the 256 rows being the 8 x 32 positions)
added up from zero, plus the bias row.

This module states, for buffer contents `V` found when the call is entered: what each window's
block is at a grid point, what the body leaves in the output block as a function of the five input
blocks, the body's triple, and the proof data and body obligation the run of the whole program
is assembled from.
-/

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at grid point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## Each input's buffer holds its block at every point -/

/-- An input window's current buffer holds the window's block at every grid point, fetched there
    or not (unfetched, the block index has not moved), for any proof data whose array is the
    entry contents and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's rectangles -/

/-- A whole block of a padded image. -/
abbrev rImg4 : Rect S8x34x64 := Rect.unit (s := S8x34x64) ![0, 0, 0] S8x34x64.size inb_S8x34x64_S8x34x64_0_0_0
/-- The 64 x 128 matrix of tap `(di, dj)` inside the weight. -/
abbrev rTap4_00 : Rect S3x3x64x128 := Rect.unit (s := S3x3x64x128) ![0, 0, 0, 0] S1x1x64x128.size inb_S3x3x64x128_S1x1x64x128_0_0_0_0
abbrev rTap4_01 : Rect S3x3x64x128 := Rect.unit (s := S3x3x64x128) ![0, 1, 0, 0] S1x1x64x128.size inb_S3x3x64x128_S1x1x64x128_0_1_0_0
abbrev rTap4_02 : Rect S3x3x64x128 := Rect.unit (s := S3x3x64x128) ![0, 2, 0, 0] S1x1x64x128.size inb_S3x3x64x128_S1x1x64x128_0_2_0_0
abbrev rTap4_10 : Rect S3x3x64x128 := Rect.unit (s := S3x3x64x128) ![1, 0, 0, 0] S1x1x64x128.size inb_S3x3x64x128_S1x1x64x128_1_0_0_0
abbrev rTap4_11 : Rect S3x3x64x128 := Rect.unit (s := S3x3x64x128) ![1, 1, 0, 0] S1x1x64x128.size inb_S3x3x64x128_S1x1x64x128_1_1_0_0
abbrev rTap4_12 : Rect S3x3x64x128 := Rect.unit (s := S3x3x64x128) ![1, 2, 0, 0] S1x1x64x128.size inb_S3x3x64x128_S1x1x64x128_1_2_0_0
abbrev rTap4_20 : Rect S3x3x64x128 := Rect.unit (s := S3x3x64x128) ![2, 0, 0, 0] S1x1x64x128.size inb_S3x3x64x128_S1x1x64x128_2_0_0_0
abbrev rTap4_21 : Rect S3x3x64x128 := Rect.unit (s := S3x3x64x128) ![2, 1, 0, 0] S1x1x64x128.size inb_S3x3x64x128_S1x1x64x128_2_1_0_0
abbrev rTap4_22 : Rect S3x3x64x128 := Rect.unit (s := S3x3x64x128) ![2, 2, 0, 0] S1x1x64x128.size inb_S3x3x64x128_S1x1x64x128_2_2_0_0
/-- The bias row. -/
abbrev rBias4 : Rect S1x128 := Rect.unit (s := S1x128) ![0, 0] S1x128.size inb_S1x128_S1x128_0_0
/-- The whole output block. -/
abbrev rOut4 : Rect S8x32x128 := Rect.unit (s := S8x32x128) ![0, 0, 0] S8x32x128.size inb_S8x32x128_S8x32x128_0_0_0

/-! ## What the body computes and leaves in the output block -/

/-- The nine tap products added up from zero, in the body's order, as a 256 x 128 matrix: rows
    `0, 1, 2` of the taps read the first, second and third shifted image. -/
def acc4 (x0 x1 x2 : Vec F S8x34x64 .f32) (x3 : Vec F S3x3x64x128 .f32) : FVec F S256x128 .f32 :=
  k4_pay5 (k4_pay2 (View.ld x1 rImg4))
    (k4_pay3 (View.ld x0 rImg4) (View.ld x3 rTap4_00) (View.ld x3 rTap4_01) (View.ld x3 rTap4_02) (View.ld x1 rImg4) (View.ld x3 rTap4_10))
    (k4_pay4 (View.ld x1 rImg4))
    (View.ld x3 rTap4_11) (View.ld x3 rTap4_12) (View.ld x2 rImg4) (View.ld x3 rTap4_20) (View.ld x3 rTap4_21) (View.ld x3 rTap4_22)

/-- The output block after the body: its one store, of the accumulated products plus the bias. -/
def out4_5 (x0 x1 x2 : Vec F S8x34x64 .f32) (x3 : Vec F S3x3x64x128 .f32) (x4 : Vec F S1x128 .f32) : Vec F S8x32x128 .f32 :=
  View.canon [⟨rOut4, k4_pay1 (acc4 x0 x1 x2 x3) (View.ld x4 rBias4)⟩]

/-- The store covers the output block. -/
theorem cover4_5 (p0 : Vec F S8x32x128 .f32) (y : S8x32x128.Idx) :
    ∃ pc ∈ ([⟨rOut4, p0⟩] : List (View.Piece (Elt F) S8x32x128 .f32)), y ∈ pc.1.set :=
  View.cover_of_tiled [⟨rOut4, p0⟩] S8x32x128.size (by rfl) y

/-! ## The body's triple -/

set_option maxHeartbeats 4000000 in
/-- The body on whole staging buffers, the five inputs' at read contents `x0 … x4` and the
    output's at anything, runs to the continuation holding the inputs' as they were and the
    output's at `out4_5` of the inputs'. -/
theorem sound_kernel4 (c : Dev nD) (E : Set ℕ) (i : grid4.Coords)
    (arg1 : Memref sig .tc .vmem S8x34x64 .f32) (harg1 : arg1.IsWhole) (arg2 : Memref sig .tc .vmem S8x34x64 .f32) (harg2 : arg2.IsWhole)
    (arg3 : Memref sig .tc .vmem S8x34x64 .f32) (harg3 : arg3.IsWhole) (arg4 : Memref sig .tc .vmem S3x3x64x128 .f32) (harg4 : arg4.IsWhole)
    (arg5 : Memref sig .tc .vmem S1x128 .f32) (harg5 : arg5.IsWhole) (arg6 : Memref sig .tc .vmem S8x32x128 .f32) (harg6 : arg6.IsWhole)
    (x0 x1 x2 : Vec F S8x34x64 .f32) (x3 : Vec F S3x3x64x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__kernel_body i arg1 harg1 arg2 harg2 arg3 harg3 arg4 harg4 arg5 harg5 arg6 harg6) K := by
  simp only [cc4__kernel_body_eq_skeleton]; unfold cc4__kernel_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The proof data -/

/-- The proof data of the call on core `c`: the arrays as found; after the body at point `t` each
    input's buffer at its block, the output's at `out4_5` of the input blocks; the invariant the
    untouched rest; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the contents found at entry. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

set_option maxHeartbeats 1000000 in
/-- The body at any point: the inputs' buffers hold their blocks, so the body's triple applies;
    the invariant and the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the call, at every grid point. -/
theorem body_obligation4 (c : Dev nD) : BodyObligation (dat4 (F := F) V c) (defs₀ (F := F)) Variants.none () Set.univ := fun t => by
  rw [bigSep_W4, bigSep_W4]
  exact sound_body4 V c t

-- the three facts the run's assembly uses by `rfl`
example (c : Dev nD) (t) : (dat4 V c).Φ t = Pipeline.ΦA spec4 c := rfl
example (c : Dev nD) (t) : (dat4 V c).owed t = 0 := rfl
example (c : Dev nD) := (dat4 V c).share_full fun _ => rfl

end Region

end Cert.ReferenceIdeal.Hand

end
-- ==== Proof.RefRun.lean ====
/- The run of the reference program: @main is six stretches of host operations alternating with five kernel
   regions. The buffers' contents at every boundary are a fold from the launch memory: after a stretch, what
   its operations compute from the contents before it; after a region, the region's arrays at what its
   write-backs leave and every other buffer as the region found it. Each region is a segment entered from
   every unscoped buffer at the boundary's contents; the segments chain from the launch to the return, so
   every weakly fair execution terminates, the result buffer ends at the last boundary's contents and the
   argument arrays end as launched. At the exact float operations, from the hypothesis that they compute every output row of region 1's body
   from the input row of its number (region 1's last block is clipped, so only then do the rows past the
   arrays' end not matter). -/
import proofs.«178811_g2000006188366390_pallasbulk_758_10_alg».proof.Proof.RefR0
import proofs.«178811_g2000006188366390_pallasbulk_758_10_alg».proof.Proof.RefR1
import proofs.«178811_g2000006188366390_pallasbulk_758_10_alg».proof.Proof.RefR2
import proofs.«178811_g2000006188366390_pallasbulk_758_10_alg».proof.Proof.RefR3
import proofs.«178811_g2000006188366390_pallasbulk_758_10_alg».proof.Proof.RefR4
import proofs.«178811_g2000006188366390_pallasbulk_758_10_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.PureOps.Ideal
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (hloc : RowLocal1 Ideal)
variable (m : (ℓ : Loc nD τ sig) → Buf (Elt Ideal) ℓ) (ρ : Dev nD → PrngReg)

/-! ## The buffers' contents at each boundary: a fold through @main -/

/-- Core `c`'s buffers at launch. -/
abbrev W0 : Dev nD → Valuation τ sig (Elt Ideal) := fun c b => m (c, b)

/-- After the host stretch `hostOps0`: region 0's entry contents. -/
abbrev W1 : Dev nD → Valuation τ sig (Elt Ideal) := fun c => StableHlo.after hostOps0 (W0 m c)
/-- The same, read at the TensorCore's references. -/
abbrev V1 : (c : Dev nD) → (b : Ref sig .tc) → Buf (Elt Ideal) ((c : Thread nD τ).loc b) := fun c b => W1 m c b
/-- At region 0's exit: its arrays at what the pipeline leaves (an input as entered, an output its write-backs
    folded over the grid), every other buffer as entered. -/
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references. -/
abbrev V2 : (c : Dev nD) → (b : Ref sig .tc) → Buf (Elt Ideal) ((c : Thread nD τ).loc b) := fun c b => W2 m c b
/-- At region 0's exit each of its arrays holds what the pipeline leaves, and every other buffer what it held
    at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`: region 1's entry contents. -/
abbrev W3 : Dev nD → Valuation τ sig (Elt Ideal) := fun c => StableHlo.after hostOps1 (W2 m c)
/-- The same, read at the TensorCore's references. -/
abbrev V3 : (c : Dev nD) → (b : Ref sig .tc) → Buf (Elt Ideal) ((c : Thread nD τ).loc b) := fun c b => W3 m c b
/-- At region 1's exit: its arrays at what the pipeline leaves (an input as entered, an output its write-backs
    folded over the grid), every other buffer as entered. -/
def W4 (c : Dev nD) : Valuation τ sig (Elt Ideal) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same, read at the TensorCore's references. -/
abbrev V4 : (c : Dev nD) → (b : Ref sig .tc) → Buf (Elt Ideal) ((c : Thread nD τ).loc b) := fun c b => W4 m c b
/-- At region 1's exit each of its arrays holds what the pipeline leaves, and every other buffer what it held
    at entry. -/
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`: region 2's entry contents. -/
abbrev W5 : Dev nD → Valuation τ sig (Elt Ideal) := fun c => StableHlo.after hostOps2 (W4 m c)
/-- The same, read at the TensorCore's references. -/
abbrev V5 : (c : Dev nD) → (b : Ref sig .tc) → Buf (Elt Ideal) ((c : Thread nD τ).loc b) := fun c b => W5 m c b
/-- At region 2's exit: its arrays at what the pipeline leaves (an input as entered, an output its write-backs
    folded over the grid), every other buffer as entered. -/
def W6 (c : Dev nD) : Valuation τ sig (Elt Ideal) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same, read at the TensorCore's references. -/
abbrev V6 : (c : Dev nD) → (b : Ref sig .tc) → Buf (Elt Ideal) ((c : Thread nD τ).loc b) := fun c b => W6 m c b
/-- At region 2's exit each of its arrays holds what the pipeline leaves, and every other buffer what it held
    at entry. -/
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- After the host stretch `hostOps3`: region 3's entry contents. -/
abbrev W7 : Dev nD → Valuation τ sig (Elt Ideal) := fun c => StableHlo.after hostOps3 (W6 m c)
/-- The same, read at the TensorCore's references. -/
abbrev V7 : (c : Dev nD) → (b : Ref sig .tc) → Buf (Elt Ideal) ((c : Thread nD τ).loc b) := fun c b => W7 m c b
/-- At region 3's exit: its arrays at what the pipeline leaves (an input as entered, an output its write-backs
    folded over the grid), every other buffer as entered. -/
def W8 (c : Dev nD) : Valuation τ sig (Elt Ideal) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same, read at the TensorCore's references. -/
abbrev V8 : (c : Dev nD) → (b : Ref sig .tc) → Buf (Elt Ideal) ((c : Thread nD τ).loc b) := fun c b => W8 m c b
/-- At region 3's exit each of its arrays holds what the pipeline leaves, and every other buffer what it held
    at entry. -/
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the host stretch `hostOps4`: region 4's entry contents. -/
abbrev W9 : Dev nD → Valuation τ sig (Elt Ideal) := fun c => StableHlo.after hostOps4 (W8 m c)
/-- The same, read at the TensorCore's references. -/
abbrev V9 : (c : Dev nD) → (b : Ref sig .tc) → Buf (Elt Ideal) ((c : Thread nD τ).loc b) := fun c b => W9 m c b
/-- At region 4's exit: its arrays at what the pipeline leaves (an input as entered, an output its write-backs
    folded over the grid), every other buffer as entered. -/
def W10 (c : Dev nD) : Valuation τ sig (Elt Ideal) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- The same, read at the TensorCore's references. -/
abbrev V10 : (c : Dev nD) → (b : Ref sig .tc) → Buf (Elt Ideal) ((c : Thread nD τ).loc b) := fun c b => W10 m c b
/-- At region 4's exit each of its arrays holds what the pipeline leaves, and every other buffer what it held
    at entry. -/
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)

/-- After the host stretch `hostOps5`: the contents at the return. -/
abbrev W11 : Dev nD → Valuation τ sig (Elt Ideal) := fun c => StableHlo.after hostOps5 (W10 m c)

/-! ### A buffer no stretch writes and no region has for an array ends as launched -/

/-- The fold at such a buffer walks back to the launch memory, boundary by boundary. -/
theorem W11_of_untouched (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W)
    (g0 : ∀ w, Pipeline.arrRef spec0 w ≠ r) (g1 : ∀ w, Pipeline.arrRef spec1 w ≠ r) (g2 : ∀ w, Pipeline.arrRef spec2 w ≠ r)
    (g3 : ∀ w, Pipeline.arrRef spec3 w ≠ r) (g4 : ∀ w, Pipeline.arrRef spec4 w ≠ r) :
    W11 m c (Proc.devRef .tc r) = m ((c : Thread nD τ).loc r) :=
  calc W11 m c (Proc.devRef .tc r)
    _ = W10 m c (Proc.devRef .tc r) := StableHlo.after_of_writes_sub hostOps5 _ hostOps5_writes h5
    _ = W9 m c (Proc.devRef .tc r) := W10_of_ne m c r g4
    _ = W8 m c (Proc.devRef .tc r) := StableHlo.after_of_writes_sub hostOps4 _ hostOps4_writes h4
    _ = W7 m c (Proc.devRef .tc r) := W8_of_ne m c r g3
    _ = W6 m c (Proc.devRef .tc r) := StableHlo.after_of_writes_sub hostOps3 _ hostOps3_writes h3
    _ = W5 m c (Proc.devRef .tc r) := W6_of_ne m c r g2
    _ = W4 m c (Proc.devRef .tc r) := StableHlo.after_of_writes_sub hostOps2 _ hostOps2_writes h2
    _ = W3 m c (Proc.devRef .tc r) := W4_of_ne m c r g1
    _ = W2 m c (Proc.devRef .tc r) := StableHlo.after_of_writes_sub hostOps1 _ hostOps1_writes h1
    _ = W1 m c (Proc.devRef .tc r) := W2_of_ne m c r g0
    _ = W0 m c (Proc.devRef .tc r) := StableHlo.after_of_writes_sub hostOps0 _ hostOps0_writes h0
    _ = m ((c : Thread nD τ).loc r) := rfl

theorem W11_main_arg0 (c : Dev nD) : W11 m c (Proc.devRef .tc main_arg0) = m ((c : Thread nD τ).loc main_arg0) :=
  W11_of_untouched m c main_arg0 (by decide) (by decide) (by decide) (by decide) (by decide) (by decide)
    (by decide) (by decide) (by decide) (by decide) (by decide)
theorem W11_main_arg1 (c : Dev nD) : W11 m c (Proc.devRef .tc main_arg1) = m ((c : Thread nD τ).loc main_arg1) :=
  W11_of_untouched m c main_arg1 (by decide) (by decide) (by decide) (by decide) (by decide) (by decide)
    (by decide) (by decide) (by decide) (by decide) (by decide)
theorem W11_main_arg2 (c : Dev nD) : W11 m c (Proc.devRef .tc main_arg2) = m ((c : Thread nD τ).loc main_arg2) :=
  W11_of_untouched m c main_arg2 (by decide) (by decide) (by decide) (by decide) (by decide) (by decide)
    (by decide) (by decide) (by decide) (by decide) (by decide)
theorem W11_main_arg3 (c : Dev nD) : W11 m c (Proc.devRef .tc main_arg3) = m ((c : Thread nD τ).loc main_arg3) :=
  W11_of_untouched m c main_arg3 (by decide) (by decide) (by decide) (by decide) (by decide) (by decide)
    (by decide) (by decide) (by decide) (by decide) (by decide)
theorem W11_main_arg4 (c : Dev nD) : W11 m c (Proc.devRef .tc main_arg4) = m ((c : Thread nD τ).loc main_arg4) :=
  W11_of_untouched m c main_arg4 (by decide) (by decide) (by decide) (by decide) (by decide) (by decide)
    (by decide) (by decide) (by decide) (by decide) (by decide)
theorem W11_main_arg5 (c : Dev nD) : W11 m c (Proc.devRef .tc main_arg5) = m ((c : Thread nD τ).loc main_arg5) :=
  W11_of_untouched m c main_arg5 (by decide) (by decide) (by decide) (by decide) (by decide) (by decide)
    (by decide) (by decide) (by decide) (by decide) (by decide)
theorem W11_main_arg6 (c : Dev nD) : W11 m c (Proc.devRef .tc main_arg6) = m ((c : Thread nD τ).loc main_arg6) :=
  W11_of_untouched m c main_arg6 (by decide) (by decide) (by decide) (by decide) (by decide) (by decide)
    (by decide) (by decide) (by decide) (by decide) (by decide)
theorem W11_main_arg7 (c : Dev nD) : W11 m c (Proc.devRef .tc main_arg7) = m ((c : Thread nD τ).loc main_arg7) :=
  W11_of_untouched m c main_arg7 (by decide) (by decide) (by decide) (by decide) (by decide) (by decide)
    (by decide) (by decide) (by decide) (by decide) (by decide)
theorem W11_main_arg8 (c : Dev nD) : W11 m c (Proc.devRef .tc main_arg8) = m ((c : Thread nD τ).loc main_arg8) :=
  W11_of_untouched m c main_arg8 (by decide) (by decide) (by decide) (by decide) (by decide) (by decide)
    (by decide) (by decide) (by decide) (by decide) (by decide)
theorem W11_main_arg9 (c : Dev nD) : W11 m c (Proc.devRef .tc main_arg9) = m ((c : Thread nD τ).loc main_arg9) :=
  W11_of_untouched m c main_arg9 (by decide) (by decide) (by decide) (by decide) (by decide) (by decide)
    (by decide) (by decide) (by decide) (by decide) (by decide)
theorem W11_main_arg10 (c : Dev nD) : W11 m c (Proc.devRef .tc main_arg10) = m ((c : Thread nD τ).loc main_arg10) :=
  W11_of_untouched m c main_arg10 (by decide) (by decide) (by decide) (by decide) (by decide) (by decide)
    (by decide) (by decide) (by decide) (by decide) (by decide)

/-! ## The proof data family and the thread state -/

/-- Every pipeline's proof data, each at its region's entry contents. -/
def pdats : (p : Fin 5) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return, the generator
    register at some state. -/
abbrev Tₙ (c : Dev nD) : sProp 𝕄 := iprop(StableHlo.held (c : Thread nD τ) (Pipeline.ucRefs τ sig) (W11 m c) ∗ ∃ r, prngReg c r)

/-! ## The regions as segments -/

set_option backward.isDefEq.respectTransparency.types false in
/-- Region 0 over the thread state: entered from every unscoped buffer at `W1`, left at `W2`. Its arrays are
    split out of the unscoped buffers at entry and put back at the exit contents; the generator register passes
    into the pipeline's invariant and out; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers at entry and put back at the exit contents; the generator register passes
    into the pipeline's invariant and out; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1_of (V3 m) hloc c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers at entry and put back at the exit contents; the generator register passes
    into the pipeline's invariant and out; nothing is owed; the kernel has no semaphore of its own. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are
    split out of the unscoped buffers at entry and put back at the exit contents; the generator register passes
    into the pipeline's invariant and out; nothing is owed; the kernel has no semaphore of its own. -/
def reg3 : Pipeline.RegionSeg (pcfgs (F := Ideal)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := Ideal)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are
    split out of the unscoped buffers at entry and put back at the exit contents; the generator register passes
    into the pipeline's invariant and out; nothing is owed; the kernel has no semaphore of its own. -/
def reg4 : Pipeline.RegionSeg (pcfgs (F := Ideal)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := Ideal)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := Ideal)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eleven segments in order: a host segment per stretch from its boundary's contents, a region per kernel. -/
abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 hloc m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)) ]
/-- @main is the run of the segments. -/
theorem main_run (c : Dev nD) : main (F := Ideal) c = Pipeline.Seg.run (segs hloc m) := (main_chain c).trans (by chain_rfl)

include hloc

set_option backward.isDefEq.respectTransparency.types false in
/-- From any memory with zero counters, every weakly fair execution of @main on the TensorCores terminates, nothing
    faulting, and every final state has the result buffer at the contents at the return, `W11`, and the argument
    arrays as launched. -/
theorem run : θ_run defs (onTc (τ := τ) (main (F := Ideal))) ⟨m, fun _ => 0, ρ⟩ (fun r => ∀ c : Dev nD,
      r.2.mem ((c.tc : Thread nD τ).loc main_v0) = W11 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m) () cellOf_inj emb₁ defs₀ 𝒱₀ L lv m ρ main (segs hloc m)
    (fun c Q => by rw [main_run hloc m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show (iprop(StableHlo.held (c : Thread nD τ) (Pipeline.ucRefs τ sig) (W11 m c)
            ∗ (∃ r, prngReg c r) ∗ ∃ W, owes (c : Thread nD τ) (0 : CellTallies nD τ sig Unit) W) : sProp 𝕄)
          ⊢ iprop((StableHlo.held (c : Thread nD τ) (Pipeline.ucRefs τ sig) (W11 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c =>
      ⟨h c _ (mem_uc main_v0 (by decide)),
        (h c _ (mem_uc main_arg0 (by decide))).trans (W11_main_arg0 m c),
        (h c _ (mem_uc main_arg1 (by decide))).trans (W11_main_arg1 m c),
        (h c _ (mem_uc main_arg2 (by decide))).trans (W11_main_arg2 m c),
        (h c _ (mem_uc main_arg3 (by decide))).trans (W11_main_arg3 m c),
        (h c _ (mem_uc main_arg4 (by decide))).trans (W11_main_arg4 m c),
        (h c _ (mem_uc main_arg5 (by decide))).trans (W11_main_arg5 m c),
        (h c _ (mem_uc main_arg6 (by decide))).trans (W11_main_arg6 m c),
        (h c _ (mem_uc main_arg7 (by decide))).trans (W11_main_arg7 m c),
        (h c _ (mem_uc main_arg8 (by decide))).trans (W11_main_arg8 m c),
        (h c _ (mem_uc main_arg9 (by decide))).trans (W11_main_arg9 m c),
        (h c _ (mem_uc main_arg10 (by decide))).trans (W11_main_arg10 m c)⟩)

end Cert.ReferenceIdeal.Hand

end
-- ==== Proof.RefR1Value.lean ====
/-
  Region 1 of the reference program at the exact float operations: the body's result at an index, that each of
  its rows is computed from the input row of the same number (so the rows past the arrays' end never matter), and
  the output array after the region, index by index, as one function of the three input arrays.
-/
import proofs.«178811_g2000006188366390_pallasbulk_758_10_alg».proof.Proof.RefR1
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«178811_g2000006188366390_pallasbulk_758_10_alg».proof.Proof.LibDense
import proofs.«178811_g2000006188366390_pallasbulk_758_10_alg».proof.Proof.LibIndexSums

set_option maxRecDepth 16384

noncomputable section

namespace Cert.ReferenceIdeal.Hand

open Cert.ReferenceIdeal Cert.ReferenceIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Ideal) ((c : Thread nD τ).loc b))

/-- The region's three input arrays as it finds them, at their shapes: the images' row pairs, the weight, the bias. -/
abbrev in1_0 (c : Dev nD) : S4096x256x128.Idx → EReal := V c (Pipeline.arrRef spec1 0)
abbrev in1_1 (c : Dev nD) : S2x128x64.Idx → EReal := V c (Pipeline.arrRef spec1 1)
abbrev in1_2 (c : Dev nD) : S1x64.Idx → EReal := V c (Pipeline.arrRef spec1 2)

/-- One down stage on arrays whose rows are images' row pairs laid side by side: entry (p, q, o) of the result from
    the input `X0` (row p holds the pixels of image row 2p' in its first 128 positions and those of image row 2p'+1
    in the next 128, a pixel's 64 channels at columns 64 kj + channel), the weight `X1` and the bias `X2`. -/
def down1At (X0 : S4096x256x128.Idx → EReal) (X1 : S2x128x64.Idx → EReal) (X2 : S1x64.Idx → EReal)
    (p : Fin 4096) (q : Fin 128) (o : Fin 64) : EReal :=
  max (max (X0 (ix3 p ⟨q.val, by omega⟩ ⟨o.val, by omega⟩)) (X0 (ix3 p ⟨q.val, by omega⟩ ⟨64 + o.val, by omega⟩)))
      (max (X0 (ix3 p ⟨128 + q.val, by omega⟩ ⟨o.val, by omega⟩)) (X0 (ix3 p ⟨128 + q.val, by omega⟩ ⟨64 + o.val, by omega⟩)))
    + (X2 (ix2 0 o) + ∑ ki : Fin 2, ∑ kj : Fin 2, ∑ ch : Fin 64,
        X0 (ix3 p ⟨128 * ki.val + q.val, by omega⟩ ⟨64 * kj.val + ch.val, by omega⟩) * X1 (ix3 ki ⟨64 * kj.val + ch.val, by omega⟩ o))

/-- The same as an array. -/
def down1 (X0 : S4096x256x128.Idx → EReal) (X1 : S2x128x64.Idx → EReal) (X2 : S1x64.Idx → EReal) : S4096x128x64.Idx → EReal :=
  fun i => down1At X0 X1 X2 (i 0) (i 1) (i 2)

theorem down1_apply (X0 : S4096x256x128.Idx → EReal) (X1 : S2x128x64.Idx → EReal) (X2 : S1x64.Idx → EReal)
    (p : Fin 4096) (q : Fin 128) (o : Fin 64) : down1 X0 X1 X2 (ix3 p q o) = down1At X0 X1 X2 p q o := rfl

/-! ## The body's result at an index -/

section Payload
variable {α : Type}

/-- Row `128 r + q` of the 640-row matrix is row `q` of image-row pair `r`. -/
theorem rows1_lt (r : Fin 5) (q : Fin 128) : 128 * r.val + q.val < 640 := by omega

/-- A five-by-128-row block read as 640 rows, and back. -/
theorem flat1_apply {n : Nat} (x : (⟨3, ![5, 128, n]⟩ : Shape).Idx → α) (h : (⟨3, ![5, 128, n]⟩ : Shape).ShapeCasts ⟨2, ![640, n]⟩)
    (r : Fin 5) (q : Fin 128) (k : Fin n) :
    shapeCast ⟨2, ![640, n]⟩ x h (ix2 ⟨128 * r.val + q.val, rows1_lt r q⟩ k) = x (ix3 r q k) := by
  refine shapeCast_apply x h _ _ ?_
  rw [Shape.rowMajor_val_two, Shape.rowMajor_val_three]
  show (r.val * 128 + q.val) * n + k.val = (128 * r.val + q.val) * n + k.val
  rw [Nat.mul_comm 128 r.val]

theorem unflat1_apply {n : Nat} (x : (⟨2, ![640, n]⟩ : Shape).Idx → α) (h : (⟨2, ![640, n]⟩ : Shape).ShapeCasts ⟨3, ![5, 128, n]⟩)
    (r : Fin 5) (q : Fin 128) (k : Fin n) :
    shapeCast ⟨3, ![5, 128, n]⟩ x h (ix3 r q k) = x (ix2 ⟨128 * r.val + q.val, rows1_lt r q⟩ k) := by
  refine shapeCast_apply x h _ _ ?_
  rw [Shape.rowMajor_val_two, Shape.rowMajor_val_three]
  show (128 * r.val + q.val) * n + k.val = (r.val * 128 + q.val) * n + k.val
  rw [Nat.mul_comm 128 r.val]

/-- The first 128 rows of every image-row pair, -/
theorem top1_apply (x : S5x256x128.Idx → α) (h : S5x256x128.Slices ![0, 0, 0] S5x128x128) (r : Fin 5) (q : Fin 128) (k : Fin 128) :
    extractStridedSlice S5x128x128 ![0, 0, 0] x h (ix3 r q k) = x (ix3 r ⟨q.val, by omega⟩ k) :=
  extractStridedSlice_apply _ x h _ _ fun a => by
    match a with
    | ⟨0, _⟩ => exact (Nat.zero_add _).symm
    | ⟨1, _⟩ => exact (Nat.zero_add _).symm
    | ⟨2, _⟩ => exact (Nat.zero_add _).symm

/-- and the last 128. -/
theorem bot1_apply (x : S5x256x128.Idx → α) (h : S5x256x128.Slices ![0, 128, 0] S5x128x128) (r : Fin 5) (q : Fin 128) (k : Fin 128) :
    extractStridedSlice S5x128x128 ![0, 128, 0] x h (ix3 r q k) = x (ix3 r ⟨128 + q.val, by omega⟩ k) :=
  extractStridedSlice_apply _ x h _ _ fun a => by
    match a with
    | ⟨0, _⟩ => exact (Nat.zero_add _).symm
    | ⟨1, _⟩ => rfl
    | ⟨2, _⟩ => exact (Nat.zero_add _).symm

/-- The first 64 columns of the 640-row matrix, -/
theorem left1_apply (x : S640x128.Idx → α) (h : S640x128.Slices ![0, 0] S640x64) (R : Fin 640) (o : Fin 64) :
    extractStridedSlice S640x64 ![0, 0] x h (ix2 R o) = x (ix2 R ⟨o.val, by omega⟩) :=
  extractStridedSlice_apply _ x h _ _ fun a => by
    match a with
    | ⟨0, _⟩ => exact (Nat.zero_add _).symm
    | ⟨1, _⟩ => exact (Nat.zero_add _).symm

/-- and the last 64. -/
theorem right1_apply (x : S640x128.Idx → α) (h : S640x128.Slices ![0, 64] S640x64) (R : Fin 640) (o : Fin 64) :
    extractStridedSlice S640x64 ![0, 64] x h (ix2 R o) = x (ix2 R ⟨64 + o.val, by omega⟩) :=
  extractStridedSlice_apply _ x h _ _ fun a => by
    match a with
    | ⟨0, _⟩ => exact (Nat.zero_add _).symm
    | ⟨1, _⟩ => rfl

/-- One of the weight's two matrices read as a matrix. -/
theorem wt1_apply (x : S1x128x64.Idx → α) (h : S1x128x64.ShapeCasts S128x64) (k : Fin 128) (o : Fin 64) :
    shapeCast S128x64 x h (ix2 k o) = x (ix3 0 k o) := by
  refine shapeCast_apply x h _ _ ?_
  rw [Shape.rowMajor_val_two, Shape.rowMajor_val_three]
  show ((0 : Fin 1).val * 128 + k.val) * 64 + o.val = k.val * 64 + o.val
  simp

/-- The bias row under every row of the matrix. -/
theorem bias1_apply (x : S1x64.Idx → α) (h : S1x64.Broadcasts S640x64) (R : Fin 640) (o : Fin 64) :
    broadcastTo S640x64 x h (ix2 R o) = x (ix2 0 o) :=
  broadcastTo_apply x h _ _ fun a => by
    match a with
    | ⟨0, _⟩ => rfl
    | ⟨1, _⟩ => rfl

end Payload

/-- The body's stored value at (r, q, o): the maximum of the four pixels of the 2 x 2 window plus the two matrix
    products, over the 128 positions of each image row of the pair, plus the bias. -/
theorem down1_pay_apply (v0 : Vec Ideal S5x256x128 .f32) (v13 v16 : Vec Ideal S1x128x64 .f32) (v20 : Vec Ideal S1x64 .f32)
    (r : Fin 5) (q : Fin 128) (o : Fin 64) :
    k1_pay1 v0 v13 v16 v20 (ix3 r q o)
      = max (max (v0 (ix3 r ⟨q.val, by omega⟩ ⟨o.val, by omega⟩)) (v0 (ix3 r ⟨q.val, by omega⟩ ⟨64 + o.val, by omega⟩)))
            (max (v0 (ix3 r ⟨128 + q.val, by omega⟩ ⟨o.val, by omega⟩)) (v0 (ix3 r ⟨128 + q.val, by omega⟩ ⟨64 + o.val, by omega⟩)))
        + (((∑ k : Fin 128, v0 (ix3 r ⟨q.val, by omega⟩ k) * v13 (ix3 0 k o))
            + ∑ k : Fin 128, v0 (ix3 r ⟨128 + q.val, by omega⟩ k) * v16 (ix3 0 k o)) + v20 (ix2 0 o)) := by
  unfold k1_pay1
  refine (unflat1_apply _ _ r q o).trans ?_
  refine (addf_apply _ _ _).trans (congrArg₂ (· + ·) ?_ ?_)
  · refine (maximumf_apply _ _ _).trans (congrArg₂ max ?_ ?_)
    · refine (maximumf_apply _ _ _).trans (congrArg₂ max ?_ ?_)
      · exact (left1_apply _ _ _ o).trans ((flat1_apply _ _ r q _).trans ((top1_apply _ _ r q _).trans (congrFun (shapeCast_self v0 _) _)))
      · exact (right1_apply _ _ _ o).trans ((flat1_apply _ _ r q _).trans ((top1_apply _ _ r q _).trans (congrFun (shapeCast_self v0 _) _)))
    · refine (maximumf_apply _ _ _).trans (congrArg₂ max ?_ ?_)
      · exact (left1_apply _ _ _ o).trans ((flat1_apply _ _ r q _).trans ((bot1_apply _ _ r q _).trans (congrFun (shapeCast_self v0 _) _)))
      · exact (right1_apply _ _ _ o).trans ((flat1_apply _ _ r q _).trans ((bot1_apply _ _ r q _).trans (congrFun (shapeCast_self v0 _) _)))
  · refine (addf_apply _ _ _).trans (congrArg₂ (· + ·) ?_ ?_)
    · refine (addf_apply _ _ _).trans (congrArg₂ (· + ·) ?_ ?_)
      · refine (Cert.Dense.matmul_zero_apply _ none _ _ ⟨128 * r.val + q.val, rows1_lt r q⟩ o).trans
          (Finset.sum_congr rfl fun k _ => congrArg₂ (· * ·) ?_ ?_)
        · exact (flat1_apply _ _ r q k).trans ((top1_apply _ _ r q k).trans (congrFun (shapeCast_self v0 _) _))
        · exact wt1_apply v13 _ k o
      · refine (Cert.Dense.matmul_zero_apply _ none _ _ ⟨128 * r.val + q.val, rows1_lt r q⟩ o).trans
          (Finset.sum_congr rfl fun k _ => congrArg₂ (· * ·) ?_ ?_)
        · exact (flat1_apply _ _ r q k).trans ((bot1_apply _ _ r q k).trans (congrFun (shapeCast_self v0 _) _))
        · exact wt1_apply v16 _ k o
    · exact (bias1_apply _ _ _ o).trans (congrFun (shapeCast_self v20 _) _)

/-! ## The output buffer after the body at an index -/

theorem hz1_3 : (![0, 0, 0] : Fin 3 → Nat) = fun _ => 0 := funext fun a => by fin_cases a <;> rfl
theorem hz1_2 : (![0, 0] : Fin 2 → Nat) = fun _ => 0 := funext fun a => by fin_cases a <;> rfl

/-- The two loads of the weight's buffer read its two matrices. -/
theorem w1_0_apply (x1 : Vec Ideal S2x128x64 .f32) (k : Fin 128) (o : Fin 64) :
    View.ld x1 r1_w0 (ix3 0 k o) = x1 (ix3 0 k o) :=
  congrArg x1 (funext fun a => Fin.ext (by
    match a with
    | ⟨0, _⟩ => rfl
    | ⟨1, _⟩ => show 0 + 1 * k.val = k.val; omega
    | ⟨2, _⟩ => show 0 + 1 * o.val = o.val; omega))

theorem w1_1_apply (x1 : Vec Ideal S2x128x64 .f32) (k : Fin 128) (o : Fin 64) :
    View.ld x1 r1_w1 (ix3 0 k o) = x1 (ix3 1 k o) :=
  congrArg x1 (funext fun a => Fin.ext (by
    match a with
    | ⟨0, _⟩ => rfl
    | ⟨1, _⟩ => show 0 + 1 * k.val = k.val; omega
    | ⟨2, _⟩ => show 0 + 1 * o.val = o.val; omega))

/-- The output buffer after the body at (r, q, o), from the contents of the three input buffers. -/
theorem out1_3_apply (X : Vec Ideal S5x256x128 .f32) (x1 : Vec Ideal S2x128x64 .f32) (x2 : Vec Ideal S1x64 .f32)
    (r : Fin 5) (q : Fin 128) (o : Fin 64) :
    out1_3 X x1 x2 (ix3 r q o)
      = max (max (X (ix3 r ⟨q.val, by omega⟩ ⟨o.val, by omega⟩)) (X (ix3 r ⟨q.val, by omega⟩ ⟨64 + o.val, by omega⟩)))
            (max (X (ix3 r ⟨128 + q.val, by omega⟩ ⟨o.val, by omega⟩)) (X (ix3 r ⟨128 + q.val, by omega⟩ ⟨64 + o.val, by omega⟩)))
        + (((∑ k : Fin 128, X (ix3 r ⟨q.val, by omega⟩ k) * x1 (ix3 0 k o))
            + ∑ k : Fin 128, X (ix3 r ⟨128 + q.val, by omega⟩ k) * x1 (ix3 1 k o)) + x2 (ix2 0 o)) := by
  unfold out1_3
  rw [View.canon_unit_zero hz1_3, View.ld_unit_zero (S := S5x256x128) hz1_3, View.ld_unit_zero (S := S1x64) hz1_2]
  refine (down1_pay_apply X _ _ x2 r q o).trans ?_
  refine congrArg (_ + ·) (congrArg (· + _) (congrArg₂ (· + ·) ?_ ?_))
  · exact Finset.sum_congr rfl fun k _ => congrArg (_ * ·) (w1_0_apply x1 k o)
  · exact Finset.sum_congr rfl fun k _ => congrArg (_ * ·) (w1_1_apply x1 k o)

/-! ## The rows inside the arrays -/

/-- The two five-row windows are cut alike at every point, and only along the rows. -/
theorem xsize1_facts : ∀ t : Fin cfg1.N,
    win1_0.xsize (grid1.coords t) (0 : Fin 3) = win1_3.xsize (grid1.coords t) (0 : Fin 3)
    ∧ win1_0.xsize (grid1.coords t) (1 : Fin 3) = 256 ∧ win1_0.xsize (grid1.coords t) (2 : Fin 3) = 128
    ∧ win1_3.xsize (grid1.coords t) (1 : Fin 3) = 128 ∧ win1_3.xsize (grid1.coords t) (2 : Fin 3) = 64
    ∧ 5 * t.val + win1_3.xsize (grid1.coords t) (0 : Fin 3) = min (5 * t.val + 5) 4096 :=
  (by decide +kernel : ∀ t : Fin grid1.N, _)

/-- The blocks' places: point `t` holds rows `5 t …` of the two five-row arrays, every point the whole weight and bias. -/
theorem index1_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- Contents of a block that agree on the part a transfer moves agree at every index of that part. -/
theorem eq_of_cut1_eq {G : Pipeline.Grid} (w : Window sig G) {α : Type} (i : G.Coords) {X X' : w.block.Idx → α}
    (h : w.cut i X = w.cut i X') (y : w.block.Idx) (hy : ∀ a, (y a).val < w.xsize i a) : X y = X' y :=
  congrFun h (fun a => ⟨(y a).val, hy a⟩)

/-- A block filled on the part a transfer moves, read there. -/
theorem fill1_apply {G : Pipeline.Grid} (w : Window sig G) {α : Type} (i : G.Coords) (d : w.block.Idx → α)
    (g : (w.xblock i).Idx → α) (y : w.block.Idx) (hy : ∀ a, (y a).val < w.xsize i a) :
    w.fill i d g y = g (fun a => ⟨(y a).val, hy a⟩) :=
  w.fill_xinj i d g (fun a => ⟨(y a).val, hy a⟩)

/-- The float operations that are exact compute every output row from the input row of its number. -/
theorem rowLocal1 : RowLocal1 Ideal := by
  intro t X X' x1 x2 h
  obtain ⟨e0, e1, e2, e3, e4, -⟩ := xsize1_facts t
  funext j
  have h0 : (j 0).val < win1_3.xsize (grid1.coords t) (0 : Fin 3) := (j 0).isLt
  have h1 : (j 1).val < win1_3.xsize (grid1.coords t) (1 : Fin 3) := (j 1).isLt
  have h2 : (j 2).val < win1_3.xsize (grid1.coords t) (2 : Fin 3) := (j 2).isLt
  have h05 : win1_3.xsize (grid1.coords t) (0 : Fin 3) ≤ 5 := win1_3.xsize_le (grid1.coords t) 0
  rw [e3] at h1; rw [e4] at h2
  have hrow : ∀ (a : Fin 256) (b : Fin 128), X (ix3 ⟨(j 0).val, by omega⟩ a b) = X' (ix3 ⟨(j 0).val, by omega⟩ a b) := fun a b =>
    eq_of_cut1_eq win1_0 (grid1.coords t) h (ix3 ⟨(j 0).val, by omega⟩ a b) fun ax => by
      match ax with
      | ⟨0, _⟩ => show (j 0).val < win1_0.xsize (grid1.coords t) (0 : Fin 3); omega
      | ⟨1, _⟩ => show a.val < win1_0.xsize (grid1.coords t) (1 : Fin 3); omega
      | ⟨2, _⟩ => show b.val < win1_0.xsize (grid1.coords t) (2 : Fin 3); omega
  have hj : win1_3.xinj (grid1.coords t) j
      = ix3 (⟨(j 0).val, by omega⟩ : Fin 5) (⟨(j 1).val, h1⟩ : Fin 128) (⟨(j 2).val, h2⟩ : Fin 64) :=
    funext fun a => Fin.ext (by
      match a with
      | ⟨0, _⟩ => rfl
      | ⟨1, _⟩ => rfl
      | ⟨2, _⟩ => rfl)
  show out1_3 X x1 x2 (win1_3.xinj (grid1.coords t) j) = out1_3 X' x1 x2 (win1_3.xinj (grid1.coords t) j)
  rw [hj, out1_3_apply, out1_3_apply]
  simp only [hrow]

/-! ## From blocks to the array -/

/-- The five-row input buffer's contents named by the proof data, on the rows inside the array: the input array's
    rows `5 t + r`. -/
theorem blk1_0_apply (c : Dev nD) (t : Fin cfg1.N) (y : S5x256x128.Idx) (hy : ∀ a, (y a).val < win1_0.xsize (grid1.coords t) a)
    (P : Fin 4096) (hP : P.val = 5 * t.val + (y 0).val) :
    xblk1 V c t y = in1_0 V c (ix3 P (y 1) (y 2)) := by
  unfold xblk1
  rw [fill1_apply win1_0 (grid1.coords t) _ _ y hy]
  obtain ⟨i0, i1, i2, -⟩ := index1_facts t
  show in1_0 V c (((cfg1.win 0).blk t).view.emb _) = _
  refine congrArg (in1_0 V c) (funext fun a => Fin.ext ?_)
  match a with
  | ⟨0, _⟩ => show win1_0.index t (0 : Fin 3) * 5 + 1 * (y 0).val = P.val; rw [i0, hP]; omega
  | ⟨1, _⟩ => show win1_0.index t (1 : Fin 3) * 256 + 1 * (y 1).val = (y 1).val; rw [i1]; omega
  | ⟨2, _⟩ => show win1_0.index t (2 : Fin 3) * 128 + 1 * (y 2).val = (y 2).val; rw [i2]; omega

/-- The weight's and the bias's blocks are the whole arrays. -/
theorem blk1_1_apply (c : Dev nD) (t : Fin cfg1.N) (y : S2x128x64.Idx) : iblk1 V c 1 t y = in1_1 V c y := by
  obtain ⟨-, -, -, i3, i4, i5, -⟩ := index1_facts t
  show in1_1 V c (((cfg1.win 1).blk t).view.emb y) = _
  refine congrArg (in1_1 V c) (funext fun a => Fin.ext ?_)
  match a with
  | ⟨0, _⟩ => show win1_1.index t (0 : Fin 3) * 2 + 1 * (y 0).val = (y 0).val; rw [i3]; omega
  | ⟨1, _⟩ => show win1_1.index t (1 : Fin 3) * 128 + 1 * (y 1).val = (y 1).val; rw [i4]; omega
  | ⟨2, _⟩ => show win1_1.index t (2 : Fin 3) * 64 + 1 * (y 2).val = (y 2).val; rw [i5]; omega

theorem blk1_2_apply (c : Dev nD) (t : Fin cfg1.N) (y : S1x64.Idx) : iblk1 V c 2 t y = in1_2 V c y := by
  obtain ⟨-, -, -, -, -, -, i6, i7, -⟩ := index1_facts t
  show in1_2 V c (((cfg1.win 2).blk t).view.emb y) = _
  refine congrArg (in1_2 V c) (funext fun a => Fin.ext ?_)
  match a with
  | ⟨0, _⟩ => show win1_2.index t (0 : Fin 2) * 1 + 1 * (y 0).val = (y 0).val; rw [i6]; omega
  | ⟨1, _⟩ => show win1_2.index t (1 : Fin 2) * 64 + 1 * (y 1).val = (y 1).val; rw [i7]; omega

/-- A sum over the 128 positions of an image row is the sum over its two pixels and their 64 channels. -/
theorem split1_128 (g : Fin 128 → EReal) :
    ∑ k, g k = ∑ kj : Fin 2, ∑ ch : Fin 64, g ⟨64 * kj.val + ch.val, by omega⟩ := by
  refine (Cert.IndexSums.sum_fin_mul (m := 2) (n := 64) g).trans ?_
  refine Finset.sum_congr rfl fun kj _ => Finset.sum_congr rfl fun ch _ => congrArg g (Fin.ext ?_)
  show (finProdFinEquiv (kj, ch)).val = 64 * kj.val + ch.val
  simp [finProdFinEquiv]; omega

/-- The body's order of additions (the first image row's products, the second's, the bias) regrouped: the bias
    plus the sum over the two image rows, the two pixels and the 64 channels. -/
theorem regroup1 (f : Fin 256 → Fin 128 → EReal) (w : Fin 2 → Fin 128 → EReal) (b : EReal) (q : Fin 128) :
    ((∑ k, f ⟨q.val, by omega⟩ k * w 0 k) + ∑ k, f ⟨128 + q.val, by omega⟩ k * w 1 k) + b
      = b + ∑ ki : Fin 2, ∑ kj : Fin 2, ∑ ch : Fin 64,
          f ⟨128 * ki.val + q.val, by omega⟩ ⟨64 * kj.val + ch.val, by omega⟩ * w ki ⟨64 * kj.val + ch.val, by omega⟩ := by
  rw [add_comm, Fin.sum_univ_two]
  have ha : (⟨q.val, by omega⟩ : Fin 256) = ⟨128 * (0 : Fin 2).val + q.val, by omega⟩ := Fin.ext (by simp)
  have hb : (⟨128 + q.val, by omega⟩ : Fin 256) = ⟨128 * (1 : Fin 2).val + q.val, by omega⟩ := Fin.ext (by simp)
  rw [split1_128 (fun k => f ⟨q.val, by omega⟩ k * w 0 k), split1_128 (fun k => f ⟨128 + q.val, by omega⟩ k * w 1 k), ha, hb]

/-- What point `t` writes back is block `t` of the down stage of the input arrays. -/
theorem flushed1_eq (c : Dev nD) (t : Fin cfg1.N) :
    (dat1 V c).flushed 3 t = ((cfg1.win 3).blk t).view.read (Elt Ideal) (down1 (in1_0 V c) (in1_1 V c) (in1_2 V c)) := by
  show (cfg1.win 3).cut (grid1.coords t) ((dat1 V c).after 3 t) = _
  rw [after1_3]
  obtain ⟨e0, e1, e2, e3, e4, e5⟩ := xsize1_facts t
  obtain ⟨-, -, -, -, -, -, -, -, i8, i9, i10⟩ := index1_facts t
  funext j
  have h0 : (j 0).val < win1_3.xsize (grid1.coords t) (0 : Fin 3) := (j 0).isLt
  have h1 : (j 1).val < win1_3.xsize (grid1.coords t) (1 : Fin 3) := (j 1).isLt
  have h2 : (j 2).val < win1_3.xsize (grid1.coords t) (2 : Fin 3) := (j 2).isLt
  have h05 : win1_3.xsize (grid1.coords t) (0 : Fin 3) ≤ 5 := win1_3.xsize_le (grid1.coords t) 0
  rw [e3] at h1; rw [e4] at h2
  have hP : 5 * t.val + (j 0).val < 4096 := by omega
  have hr : (j 0).val < 5 := by omega
  have hemb : ((cfg1.win 3).blk t).view.emb j
      = ix3 (⟨5 * t.val + (j 0).val, hP⟩ : Fin 4096) (⟨(j 1).val, h1⟩ : Fin 128) (⟨(j 2).val, h2⟩ : Fin 64) := by
    funext a; apply Fin.ext
    match a with
    | ⟨0, _⟩ => show win1_3.index t (0 : Fin 3) * 5 + 1 * (j 0).val = 5 * t.val + (j 0).val; rw [i8]; omega
    | ⟨1, _⟩ => show win1_3.index t (1 : Fin 3) * 128 + 1 * (j 1).val = (j 1).val; rw [i9]; omega
    | ⟨2, _⟩ => show win1_3.index t (2 : Fin 3) * 64 + 1 * (j 2).val = (j 2).val; rw [i10]; omega
  have hj : win1_3.xinj (grid1.coords t) j = ix3 (⟨(j 0).val, hr⟩ : Fin 5) (⟨(j 1).val, h1⟩ : Fin 128) (⟨(j 2).val, h2⟩ : Fin 64) :=
    funext fun a => Fin.ext (by
      match a with
      | ⟨0, _⟩ => rfl
      | ⟨1, _⟩ => rfl
      | ⟨2, _⟩ => rfl)
  have hX : ∀ (a : Fin 256) (b : Fin 128),
      xblk1 V c t (ix3 (⟨(j 0).val, hr⟩ : Fin 5) a b) = in1_0 V c (ix3 (⟨5 * t.val + (j 0).val, hP⟩ : Fin 4096) a b) := fun a b =>
    blk1_0_apply V c t (ix3 (⟨(j 0).val, hr⟩ : Fin 5) a b) (fun ax => by
      match ax with
      | ⟨0, _⟩ => show (j 0).val < win1_0.xsize (grid1.coords t) (0 : Fin 3); omega
      | ⟨1, _⟩ => show a.val < win1_0.xsize (grid1.coords t) (1 : Fin 3); omega
      | ⟨2, _⟩ => show b.val < win1_0.xsize (grid1.coords t) (2 : Fin 3); omega) _ rfl
  show out1_3 (xblk1 V c t) (iblk1 V c 1 t) (iblk1 V c 2 t) (win1_3.xinj (grid1.coords t) j)
      = down1 (in1_0 V c) (in1_1 V c) (in1_2 V c) (((cfg1.win 3).blk t).view.emb j)
  rw [hemb, hj, down1_apply, out1_3_apply]
  unfold down1At
  simp only [hX, blk1_1_apply, blk1_2_apply]
  exact congrArg (_ + ·) (regroup1 (fun a k => in1_0 V c (ix3 (⟨5 * t.val + (j 0).val, hP⟩ : Fin 4096) a k))
    (fun ki k => in1_1 V c (ix3 ki k (⟨(j 2).val, h2⟩ : Fin 64))) (in1_2 V c (ix2 0 (⟨(j 2).val, h2⟩ : Fin 64))) ⟨(j 1).val, h1⟩)

/-- An index of the output array is in point `t`'s block iff each coordinate is in the block's range on its axis. -/
theorem mem_blk1 (t : Fin cfg1.N) (i : S4096x128x64.Idx) :
    i ∈ ((cfg1.win 3).blk t).view.set ↔ ∀ a : Fin 3, win1_3.index t a * S5x128x64.size a ≤ (i a).val
      ∧ (i a).val < win1_3.index t a * S5x128x64.size a + win1_3.xsize (grid1.coords t) a := by
  show i ∈ ((View.whole main_call0_v16).slice (win1_3.rect t)).set ↔ _
  rw [View.set_slice_whole, Rect.mem_set_unit]
  exact Iff.rfl

/-- Every row of the output array is in the block of the point `row / 5`. -/
theorem cover1 (i : S4096x128x64.Idx) : ∃ t : Fin cfg1.N, (cfg1.win 3).flush t = true ∧ i ∈ ((cfg1.win 3).blk t).view.set := by
  have hi0 : (i 0).val < 4096 := (i 0).isLt
  have hi1 : (i 1).val < 128 := (i 1).isLt
  have hi2 : (i 2).val < 64 := (i 2).isLt
  refine ⟨⟨(i 0).val / 5, by show (i 0).val / 5 < 820; omega⟩, flush1_3 _, ?_⟩
  rw [mem_blk1]
  obtain ⟨e0, e1, e2, e3, e4, e5⟩ := xsize1_facts ⟨(i 0).val / 5, by show (i 0).val / 5 < 820; omega⟩
  obtain ⟨-, -, -, -, -, -, -, -, i8, i9, i10⟩ := index1_facts ⟨(i 0).val / 5, by show (i 0).val / 5 < 820; omega⟩
  intro a
  match a with
  | ⟨0, _⟩ =>
    show win1_3.index _ (0 : Fin 3) * 5 ≤ (i 0).val ∧ (i 0).val < win1_3.index _ (0 : Fin 3) * 5 + win1_3.xsize _ (0 : Fin 3)
    rw [i8]; simp only at e5 ⊢; omega
  | ⟨1, _⟩ =>
    show win1_3.index _ (1 : Fin 3) * 128 ≤ (i 1).val ∧ (i 1).val < win1_3.index _ (1 : Fin 3) * 128 + win1_3.xsize _ (1 : Fin 3)
    rw [i9, e3]; omega
  | ⟨2, _⟩ =>
    show win1_3.index _ (2 : Fin 3) * 64 ≤ (i 2).val ∧ (i 2).val < win1_3.index _ (2 : Fin 3) * 64 + win1_3.xsize _ (2 : Fin 3)
    rw [i10, e4]; omega

/-- The library's body obligation for the region, on the rows inside the arrays. -/
theorem body_obligation1 (c : Dev nD) :
    BodyObligationLoose (dat1 (F := Ideal) V c) (defs₀ (F := Ideal)) Variants.none () Set.univ :=
  body_obligation1_of V rowLocal1 c

/-- The input arrays end as the region found them. -/
theorem kept1 (c : Dev nD) (w : Fin cfg1.W) (hw : w ≠ 3) :
    (dat1 (F := Ideal) V c).arrAt w cfg1.N = V c (Pipeline.arrRef spec1 w) :=
  match w, hw with
  | ⟨0, _⟩, _ => (dat1 (F := Ideal) V c).arrAt_in 0 rfl _
  | ⟨1, _⟩, _ => (dat1 (F := Ideal) V c).arrAt_in 1 rfl _
  | ⟨2, _⟩, _ => (dat1 (F := Ideal) V c).arrAt_in 2 rfl _
  | ⟨3, _⟩, h => absurd rfl h

/-- The output array after the region is the down stage of the three input arrays as the region found them. -/
theorem final1_eq (c : Dev nD) :
    (dat1 (F := Ideal) V c).arrAt 3 cfg1.N = down1 (in1_0 V c) (in1_1 V c) (in1_2 V c) :=
  (dat1 (F := Ideal) V c).arrAt_eq_of_cover 3 _ (fun t _ => flushed1_eq V c t) cover1

/-- The same, entry by entry. -/
theorem final1 (c : Dev nD) (p : Fin 4096) (q : Fin 128) (o : Fin 64) :
    (dat1 (F := Ideal) V c).arrAt 3 cfg1.N (ix3 p q o)
      = max (max (in1_0 V c (ix3 p ⟨q.val, by omega⟩ ⟨o.val, by omega⟩)) (in1_0 V c (ix3 p ⟨q.val, by omega⟩ ⟨64 + o.val, by omega⟩)))
            (max (in1_0 V c (ix3 p ⟨128 + q.val, by omega⟩ ⟨o.val, by omega⟩)) (in1_0 V c (ix3 p ⟨128 + q.val, by omega⟩ ⟨64 + o.val, by omega⟩)))
          + (in1_2 V c (ix2 0 o) + ∑ ki : Fin 2, ∑ kj : Fin 2, ∑ ch : Fin 64,
              in1_0 V c (ix3 p ⟨128 * ki.val + q.val, by omega⟩ ⟨64 * kj.val + ch.val, by omega⟩)
                * in1_1 V c (ix3 ki ⟨64 * kj.val + ch.val, by omega⟩ o)) := by
  rw [final1_eq]; rfl

end Cert.ReferenceIdeal.Hand
-- ==== Proof.RefR0Pay.lean ====
/- Region 0 of the reference program at the ideal numbers, the arithmetic: the value the body stores at one point, index
   by index, from its five input blocks — each tap product as a sum over the 8 channels, the nine taps and the bias
   regrouped into the convolution's triple sum — and the convolution of whole arrays it is a row of. -/
import proofs.«178811_g2000006188366390_pallasbulk_758_10_alg».proof.Proof.RefR0
import proofs.«178811_g2000006188366390_pallasbulk_758_10_alg».proof.Proof.LibDense
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window BodyObligation cellOf)

/-- Columns `x + dj` of the one padded row, as a 256 x 8 matrix: entry (x, ci). -/
theorem rowSlice0_apply (X : FVec Ideal S1x258x8 .f32) (dj : Nat) (hdj : dj < 3)
    (h0 : S1x258x8.ShapeCasts S1x258x8) (hs : S1x258x8.Slices ![0, dj, 0] S1x256x8) (hc : S1x256x8.ShapeCasts S256x8)
    (x : Fin 256) (ci : Fin 8) :
    shapeCast S256x8 (extractStridedSlice S1x256x8 ![0, dj, 0] (shapeCast S1x258x8 X h0) hs) hc (ix2 x ci)
      = X (ix3 0 ⟨x.val + dj, by have := x.isLt; omega⟩ ci) := by
  rw [shapeCast_self]
  refine (shapeCast_apply _ hc (ix2 x ci) (ix3 0 x ci) ?_).trans ?_
  · rw [Shape.rowMajor_val_three, Shape.rowMajor_val_two]
    show ((0 : Nat) * 256 + x.val) * 8 + ci.val = x.val * 8 + ci.val
    omega
  · refine extractStridedSlice_apply _ _ hs (ix3 0 x ci) _ fun a => ?_
    match a with
    | ⟨0, _⟩ => rfl
    | ⟨1, _⟩ => show x.val + dj = dj + x.val; omega
    | ⟨2, _⟩ => show ci.val = 0 + ci.val; omega

/-- Tap (di, dj) of the weight as an 8 x 64 matrix: entry (ci, o). -/
theorem tapCast0_apply (W : Vec Ideal S3x3x8x64 .f32) (di dj : Nat) (hdi : di < 3) (hdj : dj < 3)
    (inb : ∀ a, (![di, dj, 0, 0] : Fin 4 → Nat) a + S1x1x8x64.size a ≤ S3x3x8x64.size a)
    (hc : S1x1x8x64.ShapeCasts S8x64) (ci : Fin 8) (o : Fin 64) :
    shapeCast S8x64 (View.ld W (Rect.unit (s := S3x3x8x64) ![di, dj, 0, 0] S1x1x8x64.size inb)) hc (ix2 ci o)
      = W (ix4 ⟨di, hdi⟩ ⟨dj, hdj⟩ ci o) := by
  refine (shapeCast_apply _ hc (ix2 ci o) (ix4 0 0 ci o) ?_).trans ?_
  · rw [Shape.rowMajor_val_four, Shape.rowMajor_val_two]
    show (((0 : Nat) * 1 + 0) * 8 + ci.val) * 64 + o.val = ci.val * 64 + o.val
    omega
  · show W ((Rect.unit (s := S3x3x8x64) ![di, dj, 0, 0] S1x1x8x64.size inb).emb (ix4 0 0 ci o)) = _
    refine congrArg W (funext fun a => Fin.ext ?_)
    match a with
    | ⟨0, _⟩ => show di + 1 * 0 = di; omega
    | ⟨1, _⟩ => show dj + 1 * 0 = dj; omega
    | ⟨2, _⟩ => show 0 + 1 * ci.val = ci.val; omega
    | ⟨3, _⟩ => show 0 + 1 * o.val = o.val; omega

/-- The 256 x 8 by 8 x 64 product into the zero accumulator at (x, o): the sum over the 8 channels. -/
theorem mm0_apply (A : FVec Ideal S256x8 .f32) (B : FVec Ideal S8x64 .f32) (x : Fin 256) (o : Fin 64) :
    matmul dot_S256x8_S8x64_S256x64_1_0_0_1_n_n none A B (constant (F := Ideal) S256x64 .f32 0x00000000#32) (ix2 x o)
      = ∑ ci : Fin 8, A (ix2 x ci) * B (ix2 ci o) :=
  Cert.Dense.matmul_zero_apply dot_S256x8_S8x64_S256x64_1_0_0_1_n_n_wf none A B x o

/-- One tap's contribution at column `x`, channel `o`: columns `x + dj` of one padded row against tap (di, dj) of
    the weight, summed over the 8 input channels. -/
def tap0 (X : Vec Ideal S1x258x8 .f32) (W : Vec Ideal S3x3x8x64 .f32) (di dj : Fin 3) (x : Fin 256) (o : Fin 64) : EReal :=
  ∑ ci : Fin 8, X (ix3 0 ⟨x.val + dj.val, by have := x.isLt; have := dj.isLt; omega⟩ ci) * W (ix4 di dj ci o)

/-- The program's tap product is that sum. -/
theorem tap_mm0 (X : FVec Ideal S1x258x8 .f32) (W : Vec Ideal S3x3x8x64 .f32) (di dj : Nat) (hdi : di < 3) (hdj : dj < 3)
    (h0 : S1x258x8.ShapeCasts S1x258x8) (hs : S1x258x8.Slices ![0, dj, 0] S1x256x8) (hc : S1x256x8.ShapeCasts S256x8)
    (inb : ∀ a, (![di, dj, 0, 0] : Fin 4 → Nat) a + S1x1x8x64.size a ≤ S3x3x8x64.size a)
    (hc' : S1x1x8x64.ShapeCasts S8x64) (x : Fin 256) (o : Fin 64) :
    matmul dot_S256x8_S8x64_S256x64_1_0_0_1_n_n none
        (shapeCast S256x8 (extractStridedSlice S1x256x8 ![0, dj, 0] (shapeCast S1x258x8 X h0) hs) hc)
        (shapeCast S8x64 (View.ld W (Rect.unit (s := S3x3x8x64) ![di, dj, 0, 0] S1x1x8x64.size inb)) hc' : FVec Ideal S8x64 .f32)
        (constant (F := Ideal) S256x64 .f32 0x00000000#32) (ix2 x o)
      = tap0 X W ⟨di, hdi⟩ ⟨dj, hdj⟩ x o := by
  rw [mm0_apply]
  unfold tap0
  refine Finset.sum_congr rfl fun ci _ => ?_
  rw [rowSlice0_apply X dj hdj, tapCast0_apply W di dj hdi hdj]

/-- The stored value at (0, x, o): the accumulated taps at (x, o) plus the bias at o. -/
theorem pay0_1_apply (v60 : FVec Ideal S256x64 .f32) (v61 : Vec Ideal S1x64 .f32) (x : Fin 256) (o : Fin 64) :
    k0_pay1 v60 v61 (ix3 0 x o) = v60 (ix2 x o) + v61 (ix2 0 o) := by
  unfold k0_pay1
  try dsimp only
  refine (shapeCast_apply _ _ (ix3 0 x o) (ix2 x o) ?_).trans ?_
  · rw [Shape.rowMajor_val_three, Shape.rowMajor_val_two]
    show x.val * 64 + o.val = ((0 : Nat) * 256 + x.val) * 64 + o.val
    omega
  · rw [addf_apply]
    refine congrArg (v60 (ix2 x o) + ·) ?_
    refine (broadcastTo_apply _ _ (ix2 x o) (ix2 0 o) fun a => ?_).trans ?_
    · match a with
      | ⟨0, _⟩ => rfl
      | ⟨1, _⟩ => rfl
    · rw [shapeCast_self]

/-- The first four taps accumulated from zero, at (x, o). -/
theorem pay0_3_apply (v1 v21 : Vec Ideal S1x258x8 .f32) (W : Vec Ideal S3x3x8x64 .f32) (x : Fin 256) (o : Fin 64) :
    k0_pay3 v1 (View.ld W rW0_00) (View.ld W rW0_01) (View.ld W rW0_02) v21 (View.ld W rW0_10) (ix2 x o)
      = (((0 + tap0 v1 W ⟨0, by omega⟩ ⟨0, by omega⟩ x o) + tap0 v1 W ⟨0, by omega⟩ ⟨1, by omega⟩ x o)
          + tap0 v1 W ⟨0, by omega⟩ ⟨2, by omega⟩ x o) + tap0 v21 W ⟨1, by omega⟩ ⟨0, by omega⟩ x o := by
  unfold k0_pay3 k0_pay2
  dsimp only
  rw [addf_apply, addf_apply, addf_apply, addf_apply]
  rw [tap_mm0 v1 W 0 0 (by omega) (by omega), tap_mm0 v1 W 0 1 (by omega) (by omega),
    tap_mm0 v1 W 0 2 (by omega) (by omega), tap_mm0 v21 W 1 0 (by omega) (by omega)]
  rw [broadcast_apply]
  show Ideal.ofBits .f32 0x00000000#32 + _ + _ + _ + _ = _
  rw [Ideal.ofBits_zero_f32]

/-- The last five taps accumulated onto the first four, at (x, o). -/
theorem pay0_5_apply (v21 v41 : Vec Ideal S1x258x8 .f32) (v28 : FVec Ideal S256x64 .f32) (W : Vec Ideal S3x3x8x64 .f32)
    (x : Fin 256) (o : Fin 64) :
    k0_pay5 (k0_pay2 v21) v28 (k0_pay4 v21) (View.ld W rW0_11) (View.ld W rW0_12) v41
        (View.ld W rW0_20) (View.ld W rW0_21) (View.ld W rW0_22) (ix2 x o)
      = ((((v28 (ix2 x o) + tap0 v21 W ⟨1, by omega⟩ ⟨1, by omega⟩ x o) + tap0 v21 W ⟨1, by omega⟩ ⟨2, by omega⟩ x o)
          + tap0 v41 W ⟨2, by omega⟩ ⟨0, by omega⟩ x o) + tap0 v41 W ⟨2, by omega⟩ ⟨1, by omega⟩ x o)
          + tap0 v41 W ⟨2, by omega⟩ ⟨2, by omega⟩ x o := by
  unfold k0_pay5 k0_pay4 k0_pay2
  dsimp only
  rw [addf_apply, addf_apply, addf_apply, addf_apply, addf_apply]
  rw [tap_mm0 v21 W 1 1 (by omega) (by omega), tap_mm0 v21 W 1 2 (by omega) (by omega),
    tap_mm0 v41 W 2 0 (by omega) (by omega), tap_mm0 v41 W 2 1 (by omega) (by omega),
    tap_mm0 v41 W 2 2 (by omega) (by omega)]

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- The value the body stores at (0, x, o), from the five input blocks: the nine taps over the three padded rows, plus
    the bias. -/
theorem val0_apply (x0 x1 x2 : Vec Ideal S1x258x8 .f32) (x3 : Vec Ideal S3x3x8x64 .f32) (x4 : Vec Ideal S1x64 .f32)
    (x : Fin 256) (o : Fin 64) :
    val0 x0 x1 x2 x3 x4 (ix3 0 x o) =
      (∑ di : Fin 3, ∑ dj : Fin 3, ∑ ci : Fin 8,
          (![x0, x1, x2] di) (ix3 0 ⟨x.val + dj.val, by have := x.isLt; have := dj.isLt; omega⟩ ci) * x3 (ix4 di dj ci o))
        + x4 (ix2 0 o) := by
  unfold val0
  rw [pay0_1_apply]
  simp only [View.ld_unit_zero (S := S1x258x8) hz3_0]
  rw [View.ld_unit_zero (S := S1x64) hz2_0]
  rw [pay0_5_apply, pay0_3_apply]
  refine congrArg (· + x4 (ix2 0 o)) ?_
  rw [Fin.sum_univ_three, Fin.sum_univ_three, Fin.sum_univ_three, Fin.sum_univ_three]
  simp only [zero_add, add_assoc]
  rfl

/-- Row `r`, column `x`, channel `o` of the convolution: the three padded row images `X0`, `X1`, `X2` (the rows
    `r`, `r+1`, `r+2` of the padded image) against the taps `X3 (di, dj, ·, o)`, plus the bias `X4 (0, o)`. -/
def conv0 (X0 X1 X2 : S8192x258x8.Idx → EReal) (X3 : S3x3x8x64.Idx → EReal) (X4 : S1x64.Idx → EReal) :
    S8192x256x64.Idx → EReal := fun i =>
  (∑ di : Fin 3, ∑ dj : Fin 3, ∑ ci : Fin 8,
      (![X0, X1, X2] di) (ix3 (i 0) ⟨(i 1).val + dj.val, by have h1 : (i 1).val < 256 := (i 1).isLt; have := dj.isLt; omega⟩ ci) * X3 (ix4 di dj ci (i 2)))
    + X4 (ix2 0 (i 2))

/-- The convolution at row `r`, column `x`, channel `o`, spelled out. -/
theorem conv0_apply (X0 X1 X2 : S8192x258x8.Idx → EReal) (X3 : S3x3x8x64.Idx → EReal) (X4 : S1x64.Idx → EReal)
    (r : Fin 8192) (x : Fin 256) (o : Fin 64) :
    conv0 X0 X1 X2 X3 X4 (ix3 r x o) =
      (∑ di : Fin 3, ∑ dj : Fin 3, ∑ ci : Fin 8,
        (![X0, X1, X2] di) (ix3 r ⟨x.val + dj.val, by have := x.isLt; have := dj.isLt; omega⟩ ci) * X3 (ix4 di dj ci o))
        + X4 (ix2 0 o) := rfl

/-- The printed index maps, decided over the grid: the three row windows and the output window sit at block `t` of
    the leading axis, the weight and the bias at block 0. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 4) = 0 ∧ win0_3.index t (1 : Fin 4) = 0 ∧ win0_3.index t (2 : Fin 4) = 0 ∧ win0_3.index t (3 : Fin 4) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The value stored at a point whose five input blocks are row `r` of the three padded row images, the weight and the
    bias, is row `r` of the convolution. -/
theorem conv0_block (X0 X1 X2 : S8192x258x8.Idx → EReal) (X3 : S3x3x8x64.Idx → EReal) (X4 : S1x64.Idx → EReal)
    (b0 b1 b2 : Vec Ideal S1x258x8 .f32) (b3 : Vec Ideal S3x3x8x64 .f32) (b4 : Vec Ideal S1x64 .f32) (r : Fin 8192)
    (h0 : ∀ (y : Fin 258) (ci : Fin 8), b0 (ix3 0 y ci) = X0 (ix3 r y ci))
    (h1 : ∀ (y : Fin 258) (ci : Fin 8), b1 (ix3 0 y ci) = X1 (ix3 r y ci))
    (h2 : ∀ (y : Fin 258) (ci : Fin 8), b2 (ix3 0 y ci) = X2 (ix3 r y ci))
    (h3 : ∀ (di dj : Fin 3) (ci : Fin 8) (o : Fin 64), b3 (ix4 di dj ci o) = X3 (ix4 di dj ci o))
    (h4 : ∀ o : Fin 64, b4 (ix2 0 o) = X4 (ix2 0 o)) (x : Fin 256) (o : Fin 64) :
    val0 b0 b1 b2 b3 b4 (ix3 0 x o) = conv0 X0 X1 X2 X3 X4 (ix3 r x o) := by
  rw [val0_apply, conv0_apply, h4]
  refine congrArg (· + X4 (ix2 0 o)) ?_
  refine Finset.sum_congr rfl fun di _ => Finset.sum_congr rfl fun dj _ => Finset.sum_congr rfl fun ci _ => ?_
  rw [h3]
  refine congrArg (· * X3 (ix4 di dj ci o)) ?_
  match di with
  | ⟨0, _⟩ => exact h0 _ ci
  | ⟨1, _⟩ => exact h1 _ ci
  | ⟨2, _⟩ => exact h2 _ ci

end Cert.ReferenceIdeal.Hand

end
-- ==== Proof.RefR0Value.lean ====
/- Region 0 of the reference program at the ideal numbers: the array the region leaves in its output window, index
   by index, as the 3x3 convolution of the three row-shifted padded images with the padded weight, plus the bias;
   the input arrays end as they were entered. -/
import proofs.«178811_g2000006188366390_pallasbulk_758_10_alg».proof.Proof.RefR0Pay
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window BodyObligation cellOf)

variable (V : (c : Dev nD) → (b : Ref sig .tc) → Buf (Elt Ideal) ((c : Thread nD τ).loc b))

/-- The input arrays end as entered. -/
theorem kept0 (c : Dev nD) (w : Fin cfg0.W) (hw : w ≠ 5) :
    (dat0 (F := Ideal) V c).arrAt w cfg0.N = V c (Pipeline.arrRef spec0 w) := by
  match w, hw with
  | ⟨0, _⟩, _ => exact ((dat0 (F := Ideal) V c).arrAt_in 0 rfl cfg0.N).trans (A_eq0 V c 0)
  | ⟨1, _⟩, _ => exact ((dat0 (F := Ideal) V c).arrAt_in 1 rfl cfg0.N).trans (A_eq0 V c 1)
  | ⟨2, _⟩, _ => exact ((dat0 (F := Ideal) V c).arrAt_in 2 rfl cfg0.N).trans (A_eq0 V c 2)
  | ⟨3, _⟩, _ => exact ((dat0 (F := Ideal) V c).arrAt_in 3 rfl cfg0.N).trans (A_eq0 V c 3)
  | ⟨4, _⟩, _ => exact ((dat0 (F := Ideal) V c).arrAt_in 4 rfl cfg0.N).trans (A_eq0 V c 4)
  | ⟨5, _⟩, hw => exact absurd rfl hw

/-- The block of a row window at point `t` is row `t` of its array. -/
theorem iblk0_0_apply (c : Dev nD) (t : Fin cfg0.N) (r : Fin 8192) (hr : r.val = t.val) (y : Fin 258) (ci : Fin 8) :
    (iblk0 V c 0 t : Vec Ideal S1x258x8 .f32) (ix3 0 y ci) = V c (Pipeline.arrRef spec0 0) (ix3 r y ci) := by
  obtain ⟨e00, e01, e02, e10, e11, e12, e20, e21, e22, -⟩ := idx_facts0 t
  unfold iblk0
  rw [View.read_apply]
  refine congrArg (V c (Pipeline.arrRef spec0 0)) (funext fun a => Fin.ext ?_)
  match a with
  | ⟨0, _⟩ => show win0_0.index t (0 : Fin 3) * 1 + 1 * 0 = r.val; omega
  | ⟨1, _⟩ => show win0_0.index t (1 : Fin 3) * 258 + 1 * y.val = y.val; omega
  | ⟨2, _⟩ => show win0_0.index t (2 : Fin 3) * 8 + 1 * ci.val = ci.val; omega

theorem iblk0_1_apply (c : Dev nD) (t : Fin cfg0.N) (r : Fin 8192) (hr : r.val = t.val) (y : Fin 258) (ci : Fin 8) :
    (iblk0 V c 1 t : Vec Ideal S1x258x8 .f32) (ix3 0 y ci) = V c (Pipeline.arrRef spec0 1) (ix3 r y ci) := by
  obtain ⟨e00, e01, e02, e10, e11, e12, e20, e21, e22, -⟩ := idx_facts0 t
  unfold iblk0
  rw [View.read_apply]
  refine congrArg (V c (Pipeline.arrRef spec0 1)) (funext fun a => Fin.ext ?_)
  match a with
  | ⟨0, _⟩ => show win0_1.index t (0 : Fin 3) * 1 + 1 * 0 = r.val; omega
  | ⟨1, _⟩ => show win0_1.index t (1 : Fin 3) * 258 + 1 * y.val = y.val; omega
  | ⟨2, _⟩ => show win0_1.index t (2 : Fin 3) * 8 + 1 * ci.val = ci.val; omega

theorem iblk0_2_apply (c : Dev nD) (t : Fin cfg0.N) (r : Fin 8192) (hr : r.val = t.val) (y : Fin 258) (ci : Fin 8) :
    (iblk0 V c 2 t : Vec Ideal S1x258x8 .f32) (ix3 0 y ci) = V c (Pipeline.arrRef spec0 2) (ix3 r y ci) := by
  obtain ⟨e00, e01, e02, e10, e11, e12, e20, e21, e22, -⟩ := idx_facts0 t
  unfold iblk0
  rw [View.read_apply]
  refine congrArg (V c (Pipeline.arrRef spec0 2)) (funext fun a => Fin.ext ?_)
  match a with
  | ⟨0, _⟩ => show win0_2.index t (0 : Fin 3) * 1 + 1 * 0 = r.val; omega
  | ⟨1, _⟩ => show win0_2.index t (1 : Fin 3) * 258 + 1 * y.val = y.val; omega
  | ⟨2, _⟩ => show win0_2.index t (2 : Fin 3) * 8 + 1 * ci.val = ci.val; omega

/-- The weight's block at any point is the weight. -/
theorem iblk0_3_apply (c : Dev nD) (t : Fin cfg0.N) (di dj : Fin 3) (ci : Fin 8) (o : Fin 64) :
    (iblk0 V c 3 t : Vec Ideal S3x3x8x64 .f32) (ix4 di dj ci o) = V c (Pipeline.arrRef spec0 3) (ix4 di dj ci o) := by
  obtain ⟨-, -, -, -, -, -, -, -, -, e30, e31, e32, e33, -⟩ := idx_facts0 t
  unfold iblk0
  rw [View.read_apply]
  refine congrArg (V c (Pipeline.arrRef spec0 3)) (funext fun a => Fin.ext ?_)
  match a with
  | ⟨0, _⟩ => show win0_3.index t (0 : Fin 4) * 3 + 1 * di.val = di.val; omega
  | ⟨1, _⟩ => show win0_3.index t (1 : Fin 4) * 3 + 1 * dj.val = dj.val; omega
  | ⟨2, _⟩ => show win0_3.index t (2 : Fin 4) * 8 + 1 * ci.val = ci.val; omega
  | ⟨3, _⟩ => show win0_3.index t (3 : Fin 4) * 64 + 1 * o.val = o.val; omega

/-- The bias's block at any point is the bias. -/
theorem iblk0_4_apply (c : Dev nD) (t : Fin cfg0.N) (o : Fin 64) :
    (iblk0 V c 4 t : Vec Ideal S1x64 .f32) (ix2 0 o) = V c (Pipeline.arrRef spec0 4) (ix2 0 o) := by
  obtain ⟨-, -, -, -, -, -, -, -, -, -, -, -, -, e40, e41, -⟩ := idx_facts0 t
  unfold iblk0
  rw [View.read_apply]
  refine congrArg (V c (Pipeline.arrRef spec0 4)) (funext fun a => Fin.ext ?_)
  match a with
  | ⟨0, _⟩ => show win0_4.index t (0 : Fin 2) * 1 + 1 * 0 = 0; omega
  | ⟨1, _⟩ => show win0_4.index t (1 : Fin 2) * 64 + 1 * o.val = o.val; omega

/-- What the body leaves at point `t`, index by index, is the convolution read through the output's block at `t`. -/
theorem stored0_apply (c : Dev nD) (t : Fin cfg0.N) (j : S1x256x64.Idx) :
    val0 (iblk0 V c 0 t) (iblk0 V c 1 t) (iblk0 V c 2 t) (iblk0 V c 3 t) (iblk0 V c 4 t) j
      = conv0 (V c (Pipeline.arrRef spec0 0)) (V c (Pipeline.arrRef spec0 1)) (V c (Pipeline.arrRef spec0 2))
          (V c (Pipeline.arrRef spec0 3)) (V c (Pipeline.arrRef spec0 4)) (((cfg0.win 5).blk t).view.emb j) := by
  obtain ⟨a, x, o, rfl⟩ : ∃ (a : Fin 1) (x : Fin 256) (o : Fin 64), j = ix3 a x o := ⟨j 0, j 1, j 2, eq_ix3 j⟩
  obtain rfl : a = 0 := Subsingleton.elim _ _
  have ht : t.val < 8192 := lt_of_lt_of_eq t.isLt N_0
  obtain ⟨-, -, -, -, -, -, -, -, -, -, -, -, -, -, -, e50, e51, e52⟩ := idx_facts0 t
  refine (conv0_block (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) ⟨t.val, ht⟩
    (fun y ci => iblk0_0_apply V c t ⟨t.val, ht⟩ rfl y ci) (fun y ci => iblk0_1_apply V c t ⟨t.val, ht⟩ rfl y ci)
    (fun y ci => iblk0_2_apply V c t ⟨t.val, ht⟩ rfl y ci) (fun di dj ci o => iblk0_3_apply V c t di dj ci o)
    (fun o => iblk0_4_apply V c t o) x o).trans ?_
  refine congrArg (conv0 (V c (Pipeline.arrRef spec0 0)) (V c (Pipeline.arrRef spec0 1)) (V c (Pipeline.arrRef spec0 2))
    (V c (Pipeline.arrRef spec0 3)) (V c (Pipeline.arrRef spec0 4))) (funext fun a => Fin.ext ?_)
  match a with
  | ⟨0, _⟩ => show t.val = win0_5.index t (0 : Fin 3) * 1 + 1 * 0; omega
  | ⟨1, _⟩ => show x.val = win0_5.index t (1 : Fin 3) * 256 + 1 * x.val; omega
  | ⟨2, _⟩ => show o.val = win0_5.index t (2 : Fin 3) * 64 + 1 * o.val; omega

/-- What point `t` writes back is block `t` of the convolution of the arrays as the region finds them. -/
theorem flushed0_eq (c : Dev nD) (t : Fin cfg0.N) :
    (dat0 (F := Ideal) V c).flushed 5 t = ((cfg0.win 5).blk t).view.read (Elt Ideal)
      (conv0 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 (F := Ideal) V c).after 5 t) = _
  rw [after0_5]
  unfold out0_5
  rw [View.canon_unit_zero hz3_0]
  funext j
  exact stored0_apply V c t j

/-- Every index of the output array is in the block of the point of its row. -/
theorem cover0 (i : S8192x256x64.Idx) :
    ∃ t : Fin cfg0.N, (cfg0.win 5).flush t = true ∧ i ∈ ((cfg0.win 5).blk t).view.set := by
  have hi0 : (i 0).val < 8192 := (i 0).isLt
  have hi1 : (i 1).val < 256 := (i 1).isLt
  have hi2 : (i 2).val < 64 := (i 2).isLt
  obtain ⟨t, ht⟩ : ∃ t : Fin cfg0.N, t.val = (i 0).val := ⟨Fin.cast N_0.symm ⟨(i 0).val, hi0⟩, rfl⟩
  obtain ⟨-, -, -, -, -, -, -, -, -, -, -, -, -, -, -, e50, e51, e52⟩ := idx_facts0 t
  refine ⟨t, flush0_5 t, ?_⟩
  show i ∈ ((View.whole main_call0_v11).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 64 ≤ (i 2).val ∧ (i 2).val < win0_5.index t (2 : Fin 3) * 64 + 64; omega

/-- The output array after the region, as a function of the region-entry arrays. -/
theorem final0_eq (c : Dev nD) :
    (dat0 (F := Ideal) V c).arrAt 5 cfg0.N =
      conv0 (V c (Pipeline.arrRef spec0 0)) (V c (Pipeline.arrRef spec0 1)) (V c (Pipeline.arrRef spec0 2))
        (V c (Pipeline.arrRef spec0 3)) (V c (Pipeline.arrRef spec0 4)) :=
  (dat0 (F := Ideal) V c).arrAt_eq_of_cover 5 _ (fun t _ => flushed0_eq V c t) (fun i => cover0 i)

/-- The output array after the region at row `r`, column `x`, channel `o`. -/
theorem final0 (c : Dev nD) (r : Fin 8192) (x : Fin 256) (o : Fin 64) :
    (dat0 (F := Ideal) V c).arrAt 5 cfg0.N (ix3 r x o) =
      conv0 (V c (Pipeline.arrRef spec0 0)) (V c (Pipeline.arrRef spec0 1)) (V c (Pipeline.arrRef spec0 2))
        (V c (Pipeline.arrRef spec0 3)) (V c (Pipeline.arrRef spec0 4)) (ix3 r x o) :=
  congrFun (final0_eq V c) (ix3 r x o)

end Cert.ReferenceIdeal.Hand

end
-- ==== Proof.RefHostLemmas.lean ====
/- Reading, at one index, the arrays that the host-side preparation of a convolution network builds: a padding
   below the low edge; one pixel of zeros around an image as the specification's padded image; the three row-shifted
   slices of the padded image folded into rows; the channel paddings of images, weights and biases; the pairing of
   rows and columns that a stride-2 stage reads; and the last slice and transposition. -/
import proofs.«178811_g2000006188366390_pallasbulk_758_10_alg».proof.Proof.Spec
import proofs.«178811_g2000006188366390_pallasbulk_758_10_alg».proof.Proof.LibHostReads
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.HostReads

open Idealize.ShloMosaic Idealize.ShloMosaic.ValueIdx Idealize.ShloMosaic.HostReads Cert.Spec

/-- Equal coordinates, equal entries. -/
theorem A4_congr (v : A4) {a a' b b' c c' d d' : Nat} (ha : a = a') (hb : b = b') (hc : c = c') (hd : d = d') :
    v a b c d = v a' b' c' d' := by subst ha hb hc hd; rfl

/-- A padded array read at an index whose coordinate on some axis lies below the low padding is the padding value. -/
theorem pad_apply_low {α : Type} {s t : Shape} (lo hi interior : Fin s.rank → Nat) (x : s.Idx → α) {u : Shape} (v : u.Idx → α)
    (h : s.Pads lo hi interior t) (hu : 0 < u.numel) (j : t.Idx) (a : Fin s.rank)
    (ha : (j (a.cast h.1)).val < lo a) : pad t lo hi interior x v h hu j = v (Shape.Idx.first hu) := by
  unfold pad
  rw [dif_neg (fun hin => absurd (hin a).1 (Nat.not_le.2 ha))]

/-- The scalar the program pads with: the integer zero, converted. -/
def zs : (⟨0, ![]⟩ : Shape).Idx → EReal := sitofp (F := Ideal) .f32 (constantI (⟨0, ![]⟩ : Shape) 32 0#32)

theorem zs_first (hu : 0 < (⟨0, ![]⟩ : Shape).numel) : zs (Shape.Idx.first hu) = 0 := by
  show FloatOps.sitofp (F := Ideal) .f32 (0#32 : BitVec 32) = (0 : EReal)
  exact sitofp_zero_word .f32

/-! ## One pixel of zeros around 32 images of 256 x 256 x 8, and its three row-shifted slices as 8192 rows -/

/-- The padded image at (n, i, j, c) is the specification's padded image of the array read at natural coordinates. -/
theorem padHW_256 (y : (⟨4, ![32, 256, 256, 8]⟩ : Shape).Idx → EReal) {u : Shape} (z : u.Idx → EReal) (hu : 0 < u.numel)
    (hz : z (Shape.Idx.first hu) = 0)
    (h : (⟨4, ![32, 256, 256, 8]⟩ : Shape).Pads (![0, 1, 1, 0] : Fin 4 → Nat) ![0, 1, 1, 0] ![0, 0, 0, 0] ⟨4, ![32, 258, 258, 8]⟩)
    (n : Fin 32) (i : Fin 258) (j : Fin 258) (c : Fin 8) :
    pad (⟨4, ![32, 258, 258, 8]⟩ : Shape) (![0, 1, 1, 0] : Fin 4 → Nat) ![0, 1, 1, 0] ![0, 0, 0, 0] y z h hu (ix4 n i j c)
      = pad1 256 256 (rd4 y) n.val i.val j.val c.val := by
  have hi := i.isLt; have hj := j.isLt
  unfold pad1
  by_cases hc : 1 ≤ i.val ∧ i.val ≤ 256 ∧ 1 ≤ j.val ∧ j.val ≤ 256
  · rw [if_pos hc]
    refine (pad_apply_in _ _ _ y z h hu (ix4 n i j c) (ix4 n ⟨i.val - 1, by omega⟩ ⟨j.val - 1, by omega⟩ c) (fun a => match a with
      | ⟨0, _⟩ => by show n.val = 0 + n.val * (0 + 1); omega
      | ⟨1, _⟩ => by show i.val = 1 + (i.val - 1) * (0 + 1); omega
      | ⟨2, _⟩ => by show j.val = 1 + (j.val - 1) * (0 + 1); omega
      | ⟨3, _⟩ => by show c.val = 0 + c.val * (0 + 1); omega)).trans ?_
    exact (rd4_of_lt y n ⟨i.val - 1, by omega⟩ ⟨j.val - 1, by omega⟩ c).symm
  · rw [if_neg hc, ← hz]
    by_cases h1 : i.val < 1
    · exact pad_apply_low _ _ _ y z h hu (ix4 n i j c) (1 : Fin 4) (by show i.val < 1; exact h1)
    by_cases h2 : 256 < i.val
    · exact pad_apply_out _ _ _ y z h hu (ix4 n i j c) (1 : Fin 4) (by show 256 ≤ (i.val - 1) / (0 + 1); rw [Nat.div_one]; omega)
    by_cases h3 : j.val < 1
    · exact pad_apply_low _ _ _ y z h hu (ix4 n i j c) (2 : Fin 4) (by show j.val < 1; exact h3)
    · exact pad_apply_out _ _ _ y z h hu (ix4 n i j c) (2 : Fin 4) (by show 256 ≤ (j.val - 1) / (0 + 1); rw [Nat.div_one]; omega)

/-- Row r of the slice shifted by di rows, folded into 8192 rows: image r / 256, padded row r % 256 + di. -/
theorem sliceRows_256 (P : (⟨4, ![32, 258, 258, 8]⟩ : Shape).Idx → EReal) (di : Nat) (hdi : di < 3)
    (hs : (⟨4, ![32, 258, 258, 8]⟩ : Shape).Slices ![0, di, 0, 0] ⟨4, ![32, 256, 258, 8]⟩)
    (hc : (⟨4, ![32, 256, 258, 8]⟩ : Shape).ShapeCasts ⟨3, ![8192, 258, 8]⟩)
    (r : Fin 8192) (x : Fin 258) (c : Fin 8) :
    shapeCast (⟨3, ![8192, 258, 8]⟩ : Shape) (extractStridedSlice (⟨4, ![32, 256, 258, 8]⟩ : Shape) ![0, di, 0, 0] P hs) hc (ix3 r x c)
      = P (ix4 ⟨r.val / 256, by have := r.isLt; omega⟩ ⟨r.val % 256 + di, by omega⟩ x c) := by
  have hr := r.isLt
  refine (shapeCast_apply _ hc (ix3 r x c) (ix4 ⟨r.val / 256, by omega⟩ ⟨r.val % 256, by omega⟩ x c) ?_).trans ?_
  · rw [Shape.rowMajor_val_four, Shape.rowMajor_val_three]
    show ((r.val / 256 * 256 + r.val % 256) * 258 + x.val) * 8 + c.val = (r.val * 258 + x.val) * 8 + c.val
    have e : r.val / 256 * 256 + r.val % 256 = r.val := by omega
    rw [e]
  · exact extractStridedSlice_apply _ P hs _ _ (fun a => match a with
      | ⟨0, _⟩ => by show r.val / 256 = 0 + r.val / 256; omega
      | ⟨1, _⟩ => by show r.val % 256 + di = di + r.val % 256; omega
      | ⟨2, _⟩ => by show x.val = 0 + x.val; omega
      | ⟨3, _⟩ => by show c.val = 0 + c.val; omega)

/-- The two together: row r, column x, channel c of the slice shifted by di is the specification's padded image at
    (r / 256, r % 256 + di, x, c). -/
theorem shifted_256 (y : (⟨4, ![32, 256, 256, 8]⟩ : Shape).Idx → EReal) {u : Shape} (z : u.Idx → EReal) (hu : 0 < u.numel)
    (hz : z (Shape.Idx.first hu) = 0)
    (hp : (⟨4, ![32, 256, 256, 8]⟩ : Shape).Pads (![0, 1, 1, 0] : Fin 4 → Nat) ![0, 1, 1, 0] ![0, 0, 0, 0] ⟨4, ![32, 258, 258, 8]⟩)
    (di : Nat) (hdi : di < 3)
    (hs : (⟨4, ![32, 258, 258, 8]⟩ : Shape).Slices ![0, di, 0, 0] ⟨4, ![32, 256, 258, 8]⟩)
    (hc : (⟨4, ![32, 256, 258, 8]⟩ : Shape).ShapeCasts ⟨3, ![8192, 258, 8]⟩)
    (r : Fin 8192) (x : Fin 258) (c : Fin 8) :
    shapeCast (⟨3, ![8192, 258, 8]⟩ : Shape) (extractStridedSlice (⟨4, ![32, 256, 258, 8]⟩ : Shape) ![0, di, 0, 0]
        (pad (⟨4, ![32, 258, 258, 8]⟩ : Shape) (![0, 1, 1, 0] : Fin 4 → Nat) ![0, 1, 1, 0] ![0, 0, 0, 0] y z hp hu) hs) hc (ix3 r x c)
      = pad1 256 256 (rd4 y) (r.val / 256) (r.val % 256 + di) x.val c.val :=
  (sliceRows_256 _ di hdi hs hc r x c).trans (padHW_256 y z hu hz hp _ _ x c)

/-! ## One pixel of zeros around 32 images of 32 x 32 x 64, and its three row-shifted slices as 1024 rows -/

/-- The padded image at (n, i, j, c) is the specification's padded image of the array read at natural coordinates. -/
theorem padHW_32 (y : (⟨4, ![32, 32, 32, 64]⟩ : Shape).Idx → EReal) {u : Shape} (z : u.Idx → EReal) (hu : 0 < u.numel)
    (hz : z (Shape.Idx.first hu) = 0)
    (h : (⟨4, ![32, 32, 32, 64]⟩ : Shape).Pads (![0, 1, 1, 0] : Fin 4 → Nat) ![0, 1, 1, 0] ![0, 0, 0, 0] ⟨4, ![32, 34, 34, 64]⟩)
    (n : Fin 32) (i : Fin 34) (j : Fin 34) (c : Fin 64) :
    pad (⟨4, ![32, 34, 34, 64]⟩ : Shape) (![0, 1, 1, 0] : Fin 4 → Nat) ![0, 1, 1, 0] ![0, 0, 0, 0] y z h hu (ix4 n i j c)
      = pad1 32 32 (rd4 y) n.val i.val j.val c.val := by
  have hi := i.isLt; have hj := j.isLt
  unfold pad1
  by_cases hc : 1 ≤ i.val ∧ i.val ≤ 32 ∧ 1 ≤ j.val ∧ j.val ≤ 32
  · rw [if_pos hc]
    refine (pad_apply_in _ _ _ y z h hu (ix4 n i j c) (ix4 n ⟨i.val - 1, by omega⟩ ⟨j.val - 1, by omega⟩ c) (fun a => match a with
      | ⟨0, _⟩ => by show n.val = 0 + n.val * (0 + 1); omega
      | ⟨1, _⟩ => by show i.val = 1 + (i.val - 1) * (0 + 1); omega
      | ⟨2, _⟩ => by show j.val = 1 + (j.val - 1) * (0 + 1); omega
      | ⟨3, _⟩ => by show c.val = 0 + c.val * (0 + 1); omega)).trans ?_
    exact (rd4_of_lt y n ⟨i.val - 1, by omega⟩ ⟨j.val - 1, by omega⟩ c).symm
  · rw [if_neg hc, ← hz]
    by_cases h1 : i.val < 1
    · exact pad_apply_low _ _ _ y z h hu (ix4 n i j c) (1 : Fin 4) (by show i.val < 1; exact h1)
    by_cases h2 : 32 < i.val
    · exact pad_apply_out _ _ _ y z h hu (ix4 n i j c) (1 : Fin 4) (by show 32 ≤ (i.val - 1) / (0 + 1); rw [Nat.div_one]; omega)
    by_cases h3 : j.val < 1
    · exact pad_apply_low _ _ _ y z h hu (ix4 n i j c) (2 : Fin 4) (by show j.val < 1; exact h3)
    · exact pad_apply_out _ _ _ y z h hu (ix4 n i j c) (2 : Fin 4) (by show 32 ≤ (j.val - 1) / (0 + 1); rw [Nat.div_one]; omega)

/-- Row r of the slice shifted by di rows, folded into 1024 rows: image r / 32, padded row r % 32 + di. -/
theorem sliceRows_32 (P : (⟨4, ![32, 34, 34, 64]⟩ : Shape).Idx → EReal) (di : Nat) (hdi : di < 3)
    (hs : (⟨4, ![32, 34, 34, 64]⟩ : Shape).Slices ![0, di, 0, 0] ⟨4, ![32, 32, 34, 64]⟩)
    (hc : (⟨4, ![32, 32, 34, 64]⟩ : Shape).ShapeCasts ⟨3, ![1024, 34, 64]⟩)
    (r : Fin 1024) (x : Fin 34) (c : Fin 64) :
    shapeCast (⟨3, ![1024, 34, 64]⟩ : Shape) (extractStridedSlice (⟨4, ![32, 32, 34, 64]⟩ : Shape) ![0, di, 0, 0] P hs) hc (ix3 r x c)
      = P (ix4 ⟨r.val / 32, by have := r.isLt; omega⟩ ⟨r.val % 32 + di, by omega⟩ x c) := by
  have hr := r.isLt
  refine (shapeCast_apply _ hc (ix3 r x c) (ix4 ⟨r.val / 32, by omega⟩ ⟨r.val % 32, by omega⟩ x c) ?_).trans ?_
  · rw [Shape.rowMajor_val_four, Shape.rowMajor_val_three]
    show ((r.val / 32 * 32 + r.val % 32) * 34 + x.val) * 64 + c.val = (r.val * 34 + x.val) * 64 + c.val
    have e : r.val / 32 * 32 + r.val % 32 = r.val := by omega
    rw [e]
  · exact extractStridedSlice_apply _ P hs _ _ (fun a => match a with
      | ⟨0, _⟩ => by show r.val / 32 = 0 + r.val / 32; omega
      | ⟨1, _⟩ => by show r.val % 32 + di = di + r.val % 32; omega
      | ⟨2, _⟩ => by show x.val = 0 + x.val; omega
      | ⟨3, _⟩ => by show c.val = 0 + c.val; omega)

/-- The two together: row r, column x, channel c of the slice shifted by di is the specification's padded image at
    (r / 32, r % 32 + di, x, c). -/
theorem shifted_32 (y : (⟨4, ![32, 32, 32, 64]⟩ : Shape).Idx → EReal) {u : Shape} (z : u.Idx → EReal) (hu : 0 < u.numel)
    (hz : z (Shape.Idx.first hu) = 0)
    (hp : (⟨4, ![32, 32, 32, 64]⟩ : Shape).Pads (![0, 1, 1, 0] : Fin 4 → Nat) ![0, 1, 1, 0] ![0, 0, 0, 0] ⟨4, ![32, 34, 34, 64]⟩)
    (di : Nat) (hdi : di < 3)
    (hs : (⟨4, ![32, 34, 34, 64]⟩ : Shape).Slices ![0, di, 0, 0] ⟨4, ![32, 32, 34, 64]⟩)
    (hc : (⟨4, ![32, 32, 34, 64]⟩ : Shape).ShapeCasts ⟨3, ![1024, 34, 64]⟩)
    (r : Fin 1024) (x : Fin 34) (c : Fin 64) :
    shapeCast (⟨3, ![1024, 34, 64]⟩ : Shape) (extractStridedSlice (⟨4, ![32, 32, 34, 64]⟩ : Shape) ![0, di, 0, 0]
        (pad (⟨4, ![32, 34, 34, 64]⟩ : Shape) (![0, 1, 1, 0] : Fin 4 → Nat) ![0, 1, 1, 0] ![0, 0, 0, 0] y z hp hu) hs) hc (ix3 r x c)
      = pad1 32 32 (rd4 y) (r.val / 32) (r.val % 32 + di) x.val c.val :=
  (sliceRows_32 _ di hdi hs hc r x c).trans (padHW_32 y z hu hz hp _ _ x c)

/-! ## The channel paddings -/

/-- The image given channel-first, transposed to channel-last and padded from 3 to 8 channels, read at natural
    coordinates: the channel-last reading of the image (zero past channel 3 on both sides). -/
theorem rd4_chanPad (a0 : (⟨4, ![32, 3, 256, 256]⟩ : Shape).Idx → EReal) {u : Shape} (z : u.Idx → EReal) (hu : 0 < u.numel)
    (hz : z (Shape.Idx.first hu) = 0)
    (ht : (⟨4, ![32, 3, 256, 256]⟩ : Shape).Transposes [0, 2, 3, 1] ⟨4, ![32, 256, 256, 3]⟩)
    (hp : (⟨4, ![32, 256, 256, 3]⟩ : Shape).Pads (![0, 0, 0, 0] : Fin 4 → Nat) ![0, 0, 0, 5] ![0, 0, 0, 0] ⟨4, ![32, 256, 256, 8]⟩)
    (n i j c : Nat) :
    rd4 (pad (⟨4, ![32, 256, 256, 8]⟩ : Shape) (![0, 0, 0, 0] : Fin 4 → Nat) ![0, 0, 0, 5] ![0, 0, 0, 0]
        (transpose (⟨4, ![32, 256, 256, 3]⟩ : Shape) [0, 2, 3, 1] a0 ht) z hp hu) n i j c = nhwc (rd4 a0) n i j c := by
  unfold nhwc
  by_cases hin : n < 32 ∧ i < 256 ∧ j < 256 ∧ c < 8
  · refine (rd4_of_lt _ ⟨n, hin.1⟩ ⟨i, hin.2.1⟩ ⟨j, hin.2.2.1⟩ ⟨c, hin.2.2.2⟩).trans ?_
    by_cases hc3 : c < 3
    · refine (pad_apply_in _ _ _ _ z hp hu _ (ix4 ⟨n, hin.1⟩ ⟨i, hin.2.1⟩ ⟨j, hin.2.2.1⟩ ⟨c, hc3⟩) (fun a => match a with
        | ⟨0, _⟩ => by show n = 0 + n * (0 + 1); omega
        | ⟨1, _⟩ => by show i = 0 + i * (0 + 1); omega
        | ⟨2, _⟩ => by show j = 0 + j * (0 + 1); omega
        | ⟨3, _⟩ => by show c = 0 + c * (0 + 1); omega)).trans ?_
      refine (transpose_apply _ a0 ht _ (ix4 ⟨n, hin.1⟩ ⟨c, hc3⟩ ⟨i, hin.2.1⟩ ⟨j, hin.2.2.1⟩) (fun b => match b with
        | ⟨0, _⟩ => rfl | ⟨1, _⟩ => rfl | ⟨2, _⟩ => rfl | ⟨3, _⟩ => rfl)).trans ?_
      exact (rd4_of_lt a0 ⟨n, hin.1⟩ ⟨c, hc3⟩ ⟨i, hin.2.1⟩ ⟨j, hin.2.2.1⟩).symm
    · refine (pad_apply_out _ _ _ _ z hp hu _ (3 : Fin 4) (by show 3 ≤ (c - 0) / (0 + 1); rw [Nat.div_one]; omega)).trans ?_
      rw [hz]; exact (rd4_of_not a0 n c i j (by omega)).symm
  · rw [rd4_of_not _ n i j c hin]; exact (rd4_of_not a0 n c i j (by omega)).symm

/-- The first weights padded from 3 to 8 input channels: the weights read at natural coordinates. -/
theorem padW1 (a1 : (⟨4, ![3, 3, 3, 64]⟩ : Shape).Idx → EReal) {u : Shape} (z : u.Idx → EReal) (hu : 0 < u.numel)
    (hz : z (Shape.Idx.first hu) = 0)
    (hp : (⟨4, ![3, 3, 3, 64]⟩ : Shape).Pads (![0, 0, 0, 0] : Fin 4 → Nat) ![0, 0, 5, 0] ![0, 0, 0, 0] ⟨4, ![3, 3, 8, 64]⟩)
    (di dj : Fin 3) (c : Fin 8) (o : Fin 64) :
    pad (⟨4, ![3, 3, 8, 64]⟩ : Shape) (![0, 0, 0, 0] : Fin 4 → Nat) ![0, 0, 5, 0] ![0, 0, 0, 0] a1 z hp hu (ix4 di dj c o)
      = rd4 a1 di.val dj.val c.val o.val := by
  by_cases hc3 : c.val < 3
  · refine (pad_apply_in _ _ _ a1 z hp hu _ (ix4 di dj ⟨c.val, hc3⟩ o) (fun a => match a with
      | ⟨0, _⟩ => by show di.val = 0 + di.val * (0 + 1); omega
      | ⟨1, _⟩ => by show dj.val = 0 + dj.val * (0 + 1); omega
      | ⟨2, _⟩ => by show c.val = 0 + c.val * (0 + 1); omega
      | ⟨3, _⟩ => by show o.val = 0 + o.val * (0 + 1); omega)).trans ?_
    exact (rd4_of_lt a1 di dj ⟨c.val, hc3⟩ o).symm
  · refine (pad_apply_out _ _ _ a1 z hp hu _ (2 : Fin 4) (by show 3 ≤ (c.val - 0) / (0 + 1); rw [Nat.div_one]; omega)).trans ?_
    rw [hz]; exact (rd4_of_not a1 _ _ _ _ (by omega)).symm

/-- The last weights padded from 3 to 128 output channels: the weights read at natural coordinates. -/
theorem padW2 (a9 : (⟨4, ![3, 3, 64, 3]⟩ : Shape).Idx → EReal) {u : Shape} (z : u.Idx → EReal) (hu : 0 < u.numel)
    (hz : z (Shape.Idx.first hu) = 0)
    (hp : (⟨4, ![3, 3, 64, 3]⟩ : Shape).Pads (![0, 0, 0, 0] : Fin 4 → Nat) ![0, 0, 0, 125] ![0, 0, 0, 0] ⟨4, ![3, 3, 64, 128]⟩)
    (di dj : Fin 3) (c : Fin 64) (o : Fin 128) :
    pad (⟨4, ![3, 3, 64, 128]⟩ : Shape) (![0, 0, 0, 0] : Fin 4 → Nat) ![0, 0, 0, 125] ![0, 0, 0, 0] a9 z hp hu (ix4 di dj c o)
      = rd4 a9 di.val dj.val c.val o.val := by
  by_cases ho3 : o.val < 3
  · refine (pad_apply_in _ _ _ a9 z hp hu _ (ix4 di dj c ⟨o.val, ho3⟩) (fun a => match a with
      | ⟨0, _⟩ => by show di.val = 0 + di.val * (0 + 1); omega
      | ⟨1, _⟩ => by show dj.val = 0 + dj.val * (0 + 1); omega
      | ⟨2, _⟩ => by show c.val = 0 + c.val * (0 + 1); omega
      | ⟨3, _⟩ => by show o.val = 0 + o.val * (0 + 1); omega)).trans ?_
    exact (rd4_of_lt a9 di dj c ⟨o.val, ho3⟩).symm
  · refine (pad_apply_out _ _ _ a9 z hp hu _ (3 : Fin 4) (by show 3 ≤ (o.val - 0) / (0 + 1); rw [Nat.div_one]; omega)).trans ?_
    rw [hz]; exact (rd4_of_not a9 _ _ _ _ (by omega)).symm

/-- The last bias padded from 3 to 128 entries and given a unit row axis. -/
theorem biasPad128 (a10 : (⟨1, ![3]⟩ : Shape).Idx → EReal) {u : Shape} (z : u.Idx → EReal) (hu : 0 < u.numel)
    (hz : z (Shape.Idx.first hu) = 0)
    (hp : (⟨1, ![3]⟩ : Shape).Pads (![0] : Fin 1 → Nat) ![125] ![0] ⟨1, ![128]⟩)
    (hc : (⟨1, ![128]⟩ : Shape).ShapeCasts ⟨2, ![1, 128]⟩) (o : Fin 128) :
    shapeCast (⟨2, ![1, 128]⟩ : Shape) (pad (⟨1, ![128]⟩ : Shape) (![0] : Fin 1 → Nat) ![125] ![0] a10 z hp hu) hc (ix2 0 o)
      = rd1 a10 o.val := by
  refine (shapeCast_apply _ hc (ix2 0 o) (ix1 o) ?_).trans ?_
  · rw [Shape.rowMajor_val_one, Shape.rowMajor_val_two]
    show o.val = 0 * 128 + o.val
    omega
  by_cases ho3 : o.val < 3
  · exact (pad_vec_in a10 z hp hu o ho3).trans (rd1_of_lt a10 ⟨o.val, ho3⟩).symm
  · refine (pad_vec_out a10 z hp hu o (by omega)).trans ?_
    rw [hz]; exact (rd1_of_not a10 _ (by omega)).symm

/-- A bias of 64 entries given a unit row axis. -/
theorem bias64 (a : (⟨1, ![64]⟩ : Shape).Idx → EReal) (hc : (⟨1, ![64]⟩ : Shape).ShapeCasts ⟨2, ![1, 64]⟩) (o : Fin 64) :
    shapeCast (⟨2, ![1, 64]⟩ : Shape) a hc (ix2 0 o) = rd1 a o.val := by
  refine (shapeCast_apply _ hc (ix2 0 o) (ix1 o) ?_).trans (rd1_of_lt a o).symm
  rw [Shape.rowMajor_val_one, Shape.rowMajor_val_two]
  show o.val = 0 * 64 + o.val
  omega

/-- The 2 x 2 weights with the column tap and the input channel joined into one axis of 128. -/
theorem wPair (a : (⟨4, ![2, 2, 64, 64]⟩ : Shape).Idx → EReal) (hc : (⟨4, ![2, 2, 64, 64]⟩ : Shape).ShapeCasts ⟨3, ![2, 128, 64]⟩)
    (ki : Fin 2) (mm : Fin 128) (o : Fin 64) :
    shapeCast (⟨3, ![2, 128, 64]⟩ : Shape) a hc (ix3 ki mm o) = rd4 a ki.val (mm.val / 64) (mm.val % 64) o.val := by
  have hm := mm.isLt
  refine (shapeCast_apply _ hc (ix3 ki mm o) (ix4 ki ⟨mm.val / 64, by omega⟩ ⟨mm.val % 64, by omega⟩ o) ?_).trans
    (rd4_of_lt a ki ⟨mm.val / 64, by omega⟩ ⟨mm.val % 64, by omega⟩ o).symm
  rw [Shape.rowMajor_val_four, Shape.rowMajor_val_three]
  show ((ki.val * 2 + mm.val / 64) * 64 + mm.val % 64) * 64 + o.val = (ki.val * 128 + mm.val) * 64 + o.val
  omega

/-- 8192 rows of 256 x 64 regrouped as 4096 row pairs of 256 x 128: entry (p, a, b) is row 2p + a / 128, column
    2 (a % 128) + b / 64, channel b % 64. -/
theorem pairRows_128 (out : (⟨3, ![8192, 256, 64]⟩ : Shape).Idx → EReal)
    (h1 : (⟨3, ![8192, 256, 64]⟩ : Shape).ShapeCasts ⟨4, ![32, 256, 256, 64]⟩)
    (h2 : (⟨4, ![32, 256, 256, 64]⟩ : Shape).ShapeCasts ⟨3, ![4096, 256, 128]⟩)
    (p : Fin 4096) (a : Fin 256) (b : Fin 128) :
    shapeCast (⟨3, ![4096, 256, 128]⟩ : Shape) (shapeCast (⟨4, ![32, 256, 256, 64]⟩ : Shape) out h1) h2 (ix3 p a b)
      = out (ix3 ⟨2 * p.val + a.val / 128, by have := p.isLt; have := a.isLt; omega⟩
          ⟨2 * (a.val % 128) + b.val / 64, by have := b.isLt; omega⟩ ⟨b.val % 64, by omega⟩) := by
  have hp := p.isLt; have ha := a.isLt; have hb := b.isLt
  refine (shapeCast_apply _ h2 (ix3 p a b) (ix4 ⟨p.val / 128, by omega⟩ ⟨2 * (p.val % 128) + a.val / 128, by omega⟩
    ⟨2 * (a.val % 128) + b.val / 64, by omega⟩ ⟨b.val % 64, by omega⟩) ?_).trans ?_
  · rw [Shape.rowMajor_val_four, Shape.rowMajor_val_three]
    show (((p.val / 128) * 256 + (2 * (p.val % 128) + a.val / 128)) * 256 + (2 * (a.val % 128) + b.val / 64)) * 64 + b.val % 64
      = (p.val * 256 + a.val) * 128 + b.val
    omega
  · refine shapeCast_apply _ h1 _ _ ?_
    rw [Shape.rowMajor_val_four, Shape.rowMajor_val_three]
    show ((2 * p.val + a.val / 128) * 256 + (2 * (a.val % 128) + b.val / 64)) * 64 + b.val % 64
      = (((p.val / 128) * 256 + (2 * (p.val % 128) + a.val / 128)) * 256 + (2 * (a.val % 128) + b.val / 64)) * 64 + b.val % 64
    omega

/-- 4096 rows of 128 x 64 regrouped as 2048 row pairs of 128 x 128: entry (p, a, b) is row 2p + a / 64, column
    2 (a % 64) + b / 64, channel b % 64. -/
theorem pairRows_64 (out : (⟨3, ![4096, 128, 64]⟩ : Shape).Idx → EReal)
    (h1 : (⟨3, ![4096, 128, 64]⟩ : Shape).ShapeCasts ⟨4, ![32, 128, 128, 64]⟩)
    (h2 : (⟨4, ![32, 128, 128, 64]⟩ : Shape).ShapeCasts ⟨3, ![2048, 128, 128]⟩)
    (p : Fin 2048) (a : Fin 128) (b : Fin 128) :
    shapeCast (⟨3, ![2048, 128, 128]⟩ : Shape) (shapeCast (⟨4, ![32, 128, 128, 64]⟩ : Shape) out h1) h2 (ix3 p a b)
      = out (ix3 ⟨2 * p.val + a.val / 64, by have := p.isLt; have := a.isLt; omega⟩
          ⟨2 * (a.val % 64) + b.val / 64, by have := b.isLt; omega⟩ ⟨b.val % 64, by omega⟩) := by
  have hp := p.isLt; have ha := a.isLt; have hb := b.isLt
  refine (shapeCast_apply _ h2 (ix3 p a b) (ix4 ⟨p.val / 64, by omega⟩ ⟨2 * (p.val % 64) + a.val / 64, by omega⟩
    ⟨2 * (a.val % 64) + b.val / 64, by omega⟩ ⟨b.val % 64, by omega⟩) ?_).trans ?_
  · rw [Shape.rowMajor_val_four, Shape.rowMajor_val_three]
    show (((p.val / 64) * 128 + (2 * (p.val % 64) + a.val / 64)) * 128 + (2 * (a.val % 64) + b.val / 64)) * 64 + b.val % 64
      = (p.val * 128 + a.val) * 128 + b.val
    omega
  · refine shapeCast_apply _ h1 _ _ ?_
    rw [Shape.rowMajor_val_four, Shape.rowMajor_val_three]
    show ((2 * p.val + a.val / 64) * 128 + (2 * (a.val % 64) + b.val / 64)) * 64 + b.val % 64
      = (((p.val / 64) * 128 + (2 * (p.val % 64) + a.val / 64)) * 128 + (2 * (a.val % 64) + b.val / 64)) * 64 + b.val % 64
    omega

/-- 2048 rows of 64 x 64 regrouped as 1024 row pairs of 64 x 128: entry (p, a, b) is row 2p + a / 32, column
    2 (a % 32) + b / 64, channel b % 64. -/
theorem pairRows_32 (out : (⟨3, ![2048, 64, 64]⟩ : Shape).Idx → EReal)
    (h1 : (⟨3, ![2048, 64, 64]⟩ : Shape).ShapeCasts ⟨4, ![32, 64, 64, 64]⟩)
    (h2 : (⟨4, ![32, 64, 64, 64]⟩ : Shape).ShapeCasts ⟨3, ![1024, 64, 128]⟩)
    (p : Fin 1024) (a : Fin 64) (b : Fin 128) :
    shapeCast (⟨3, ![1024, 64, 128]⟩ : Shape) (shapeCast (⟨4, ![32, 64, 64, 64]⟩ : Shape) out h1) h2 (ix3 p a b)
      = out (ix3 ⟨2 * p.val + a.val / 32, by have := p.isLt; have := a.isLt; omega⟩
          ⟨2 * (a.val % 32) + b.val / 64, by have := b.isLt; omega⟩ ⟨b.val % 64, by omega⟩) := by
  have hp := p.isLt; have ha := a.isLt; have hb := b.isLt
  refine (shapeCast_apply _ h2 (ix3 p a b) (ix4 ⟨p.val / 32, by omega⟩ ⟨2 * (p.val % 32) + a.val / 32, by omega⟩
    ⟨2 * (a.val % 32) + b.val / 64, by omega⟩ ⟨b.val % 64, by omega⟩) ?_).trans ?_
  · rw [Shape.rowMajor_val_four, Shape.rowMajor_val_three]
    show (((p.val / 32) * 64 + (2 * (p.val % 32) + a.val / 32)) * 64 + (2 * (a.val % 32) + b.val / 64)) * 64 + b.val % 64
      = (p.val * 64 + a.val) * 128 + b.val
    omega
  · refine shapeCast_apply _ h1 _ _ ?_
    rw [Shape.rowMajor_val_four, Shape.rowMajor_val_three]
    show ((2 * p.val + a.val / 32) * 64 + (2 * (a.val % 32) + b.val / 64)) * 64 + b.val % 64
      = (((p.val / 32) * 64 + (2 * (p.val % 32) + a.val / 32)) * 64 + (2 * (a.val % 32) + b.val / 64)) * 64 + b.val % 64
    omega

/-- The last 1024 rows of 32 x 128 regrouped as 32 images, cut to 3 channels and given channel-first. -/
theorem outTail (out : (⟨3, ![1024, 32, 128]⟩ : Shape).Idx → EReal)
    (h1 : (⟨3, ![1024, 32, 128]⟩ : Shape).ShapeCasts ⟨4, ![32, 32, 32, 128]⟩)
    (hs : (⟨4, ![32, 32, 32, 128]⟩ : Shape).Slices ![0, 0, 0, 0] ⟨4, ![32, 32, 32, 3]⟩)
    (ht : (⟨4, ![32, 32, 32, 3]⟩ : Shape).Transposes [0, 3, 1, 2] ⟨4, ![32, 3, 32, 32]⟩)
    (n : Fin 32) (o : Fin 3) (h : Fin 32) (x : Fin 32) :
    transpose (⟨4, ![32, 3, 32, 32]⟩ : Shape) [0, 3, 1, 2]
        (extractStridedSlice (⟨4, ![32, 32, 32, 3]⟩ : Shape) ![0, 0, 0, 0] (shapeCast (⟨4, ![32, 32, 32, 128]⟩ : Shape) out h1) hs) ht (ix4 n o h x)
      = out (ix3 ⟨n.val * 32 + h.val, by have := n.isLt; have := h.isLt; omega⟩ x ⟨o.val, by have := o.isLt; omega⟩) := by
  have hn := n.isLt; have hh := h.isLt; have ho := o.isLt
  refine (transpose_apply _ _ ht (ix4 n o h x) (ix4 n h x o) (fun b => match b with
    | ⟨0, _⟩ => rfl | ⟨1, _⟩ => rfl | ⟨2, _⟩ => rfl | ⟨3, _⟩ => rfl)).trans ?_
  refine (extractStridedSlice_apply _ _ hs (ix4 n h x o) (ix4 n h x ⟨o.val, by omega⟩) (fun a => match a with
    | ⟨0, _⟩ => by show n.val = 0 + n.val; omega
    | ⟨1, _⟩ => by show h.val = 0 + h.val; omega
    | ⟨2, _⟩ => by show x.val = 0 + x.val; omega
    | ⟨3, _⟩ => by show o.val = 0 + o.val; omega)).trans ?_
  refine shapeCast_apply _ h1 _ _ ?_
  rw [Shape.rowMajor_val_four, Shape.rowMajor_val_three]
  show ((n.val * 32 + h.val) * 32 + x.val) * 128 + o.val = ((n.val * 32 + h.val) * 32 + x.val) * 128 + o.val
  rfl

/-- 1024 rows of 32 x 64 regrouped as 32 images of 32 x 32 x 64, read at natural coordinates. -/
theorem rd4_rows32 (out : (⟨3, ![1024, 32, 64]⟩ : Shape).Idx → EReal) (h1 : (⟨3, ![1024, 32, 64]⟩ : Shape).ShapeCasts ⟨4, ![32, 32, 32, 64]⟩)
    (n : Fin 32) (i : Fin 32) (j : Fin 32) (c : Fin 64) :
    rd4 (shapeCast (⟨4, ![32, 32, 32, 64]⟩ : Shape) out h1) n.val i.val j.val c.val
      = out (ix3 ⟨n.val * 32 + i.val, by have := n.isLt; have := i.isLt; omega⟩ j c) := by
  refine (rd4_of_lt _ n i j c).trans (shapeCast_apply _ h1 _ _ ?_)
  rw [Shape.rowMajor_val_four, Shape.rowMajor_val_three]
  show ((n.val * 32 + i.val) * 32 + j.val) * 64 + c.val = ((n.val * 32 + i.val) * 32 + j.val) * 64 + c.val
  rfl

end Cert.HostReads

end
-- ==== Proof.RefHost0.lean ====
/- What the first host stretch leaves in the arrays the first convolution reads, at an index, over the buffers'
   contents before it: the three row-shifted padded images, the weights padded to 8 input channels, the bias row. -/
import proofs.«178811_g2000006188366390_pallasbulk_758_10_alg».proof.Proof.Gen.ReferenceIdeal.Launch
import proofs.«178811_g2000006188366390_pallasbulk_758_10_alg».proof.Proof.Spec
import proofs.«178811_g2000006188366390_pallasbulk_758_10_alg».proof.Proof.RefHostLemmas
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads

variable (W : Valuation τ sig (Elt Ideal))

/-- The image given channel-first, as 32 images of 256 x 256 with 8 channels (the last five zero). -/
def img8 : S32x256x256x8.Idx → EReal :=
  pad S32x256x256x8 (![0, 0, 0, 0] : Fin 4 → Nat) ![0, 0, 0, 5] ![0, 0, 0, 0]
    (transpose S32x256x256x3 [0, 2, 3, 1] (W (Proc.devRef .tc main_arg0) : S32x3x256x256.Idx → EReal)
      transposes_S32x3x256x256_S32x256x256x3_0_2_3_1) zs pads_S32x256x256x3_S32x256x256x8_000_000_000_050 h_S_

theorem rd4_img8 : rd4 (img8 W) = nhwc (rd4 (W (Proc.devRef .tc main_arg0) : S32x3x256x256.Idx → EReal)) := by
  funext n i j c
  exact rd4_chanPad _ zs h_S_ (zs_first h_S_) _ _ n i j c

/-- Row r of the image rows shifted by 0: the padded image at (r / 256, r % 256 + 0). -/
theorem host0_x0 (r : Fin 8192) (x : Fin 258) (c : Fin 8) :
    (StableHlo.after (hostOps0 (F := Ideal)) W (Proc.devRef .tc main_call0_v5) : S8192x258x8.Idx → EReal) (ix3 r x c)
      = pad1 256 256 (nhwc (rd4 (W (Proc.devRef .tc main_arg0) : S32x3x256x256.Idx → EReal)))
          (r.val / 256) (r.val % 256 + 0) x.val c.val := by
  have e : (StableHlo.after (hostOps0 (F := Ideal)) W (Proc.devRef .tc main_call0_v5) : S8192x258x8.Idx → EReal)
      = shapeCast S8192x258x8 (extractStridedSlice S32x256x258x8 ![0, 0, 0, 0]
          (pad S32x258x258x8 (![0, 1, 1, 0] : Fin 4 → Nat) ![0, 1, 1, 0] ![0, 0, 0, 0] (img8 W) zs
            pads_S32x256x256x8_S32x258x258x8_000_110_110_000 h_S_)
          slices_S32x258x258x8_S32x256x258x8_0_0_0_0) shapeCasts_S32x256x258x8_S8192x258x8 := by
    after_results; rfl
  refine (congrFun e _).trans ?_
  refine (shifted_256 (img8 W) zs h_S_ (zs_first h_S_) pads_S32x256x256x8_S32x258x258x8_000_110_110_000 0 (by omega)
    slices_S32x258x258x8_S32x256x258x8_0_0_0_0 shapeCasts_S32x256x258x8_S8192x258x8 r x c).trans ?_
  rw [rd4_img8]

/-- Row r of the image rows shifted by 1: the padded image at (r / 256, r % 256 + 1). -/
theorem host0_x1 (r : Fin 8192) (x : Fin 258) (c : Fin 8) :
    (StableHlo.after (hostOps0 (F := Ideal)) W (Proc.devRef .tc main_call0_v7) : S8192x258x8.Idx → EReal) (ix3 r x c)
      = pad1 256 256 (nhwc (rd4 (W (Proc.devRef .tc main_arg0) : S32x3x256x256.Idx → EReal)))
          (r.val / 256) (r.val % 256 + 1) x.val c.val := by
  have e : (StableHlo.after (hostOps0 (F := Ideal)) W (Proc.devRef .tc main_call0_v7) : S8192x258x8.Idx → EReal)
      = shapeCast S8192x258x8 (extractStridedSlice S32x256x258x8 ![0, 1, 0, 0]
          (pad S32x258x258x8 (![0, 1, 1, 0] : Fin 4 → Nat) ![0, 1, 1, 0] ![0, 0, 0, 0] (img8 W) zs
            pads_S32x256x256x8_S32x258x258x8_000_110_110_000 h_S_)
          slices_S32x258x258x8_S32x256x258x8_0_1_0_0) shapeCasts_S32x256x258x8_S8192x258x8 := by
    after_results; rfl
  refine (congrFun e _).trans ?_
  refine (shifted_256 (img8 W) zs h_S_ (zs_first h_S_) pads_S32x256x256x8_S32x258x258x8_000_110_110_000 1 (by omega)
    slices_S32x258x258x8_S32x256x258x8_0_1_0_0 shapeCasts_S32x256x258x8_S8192x258x8 r x c).trans ?_
  rw [rd4_img8]

/-- Row r of the image rows shifted by 2: the padded image at (r / 256, r % 256 + 2). -/
theorem host0_x2 (r : Fin 8192) (x : Fin 258) (c : Fin 8) :
    (StableHlo.after (hostOps0 (F := Ideal)) W (Proc.devRef .tc main_call0_v9) : S8192x258x8.Idx → EReal) (ix3 r x c)
      = pad1 256 256 (nhwc (rd4 (W (Proc.devRef .tc main_arg0) : S32x3x256x256.Idx → EReal)))
          (r.val / 256) (r.val % 256 + 2) x.val c.val := by
  have e : (StableHlo.after (hostOps0 (F := Ideal)) W (Proc.devRef .tc main_call0_v9) : S8192x258x8.Idx → EReal)
      = shapeCast S8192x258x8 (extractStridedSlice S32x256x258x8 ![0, 2, 0, 0]
          (pad S32x258x258x8 (![0, 1, 1, 0] : Fin 4 → Nat) ![0, 1, 1, 0] ![0, 0, 0, 0] (img8 W) zs
            pads_S32x256x256x8_S32x258x258x8_000_110_110_000 h_S_)
          slices_S32x258x258x8_S32x256x258x8_0_2_0_0) shapeCasts_S32x256x258x8_S8192x258x8 := by
    after_results; rfl
  refine (congrFun e _).trans ?_
  refine (shifted_256 (img8 W) zs h_S_ (zs_first h_S_) pads_S32x256x256x8_S32x258x258x8_000_110_110_000 2 (by omega)
    slices_S32x258x258x8_S32x256x258x8_0_2_0_0 shapeCasts_S32x256x258x8_S8192x258x8 r x c).trans ?_
  rw [rd4_img8]

/-- The weights padded to 8 input channels. -/
theorem host0_w (di dj : Fin 3) (c : Fin 8) (o : Fin 64) :
    (StableHlo.after (hostOps0 (F := Ideal)) W (Proc.devRef .tc main_call0_v2) : S3x3x8x64.Idx → EReal) (ix4 di dj c o)
      = rd4 (W (Proc.devRef .tc main_arg1) : S3x3x3x64.Idx → EReal) di.val dj.val c.val o.val := by
  have e : (StableHlo.after (hostOps0 (F := Ideal)) W (Proc.devRef .tc main_call0_v2) : S3x3x8x64.Idx → EReal)
      = pad S3x3x8x64 (![0, 0, 0, 0] : Fin 4 → Nat) ![0, 0, 5, 0] ![0, 0, 0, 0]
          (W (Proc.devRef .tc main_arg1) : S3x3x3x64.Idx → EReal) zs pads_S3x3x3x64_S3x3x8x64_000_000_050_000 h_S_ := by
    after_results; rfl
  exact (congrFun e _).trans (padW1 _ zs h_S_ (zs_first h_S_) _ di dj c o)

/-- The bias as a row. -/
theorem host0_b (o : Fin 64) :
    (StableHlo.after (hostOps0 (F := Ideal)) W (Proc.devRef .tc main_call0_v10) : S1x64.Idx → EReal) (ix2 0 o)
      = rd1 (W (Proc.devRef .tc main_arg2) : S64.Idx → EReal) o.val := by
  have e : (StableHlo.after (hostOps0 (F := Ideal)) W (Proc.devRef .tc main_call0_v10) : S1x64.Idx → EReal)
      = shapeCast S1x64 (W (Proc.devRef .tc main_arg2) : S64.Idx → EReal) shapeCasts_S64_S1x64 := by
    after_results; rfl
  exact (congrFun e _).trans (bias64 _ _ o)

end Cert.ReferenceIdeal.Hand

end
-- ==== Proof.RefStages.lean ====
/- The stages of the network, each as its kernel computes it from the arrays it is handed, against the specification's
   stage: a 3 x 3 convolution reads three row-shifted padded images; a down stage reads row pairs with the column
   tap and the channel joined into one axis. Stated over arbitrary arrays with what they hold as hypotheses. -/
import proofs.«178811_g2000006188366390_pallasbulk_758_10_alg».proof.Proof.Spec
import proofs.«178811_g2000006188366390_pallasbulk_758_10_alg».proof.Proof.RefHostLemmas

set_option maxRecDepth 16384

noncomputable section

namespace Cert.Stages

open Idealize.ShloMosaic Idealize.ShloMosaic.ValueIdx Cert.Spec Cert.HostReads

/-- The padded image depends only on the entries of image n inside H x W, at the channel read. -/
theorem pad1_congr_lt (H W N C : Nat) (u v : A4)
    (huv : ∀ n i j c, n < N → i < H → j < W → c < C → u n i j c = v n i j c)
    (n i j c : Nat) (hn : n < N) (hc : c < C) : pad1 H W u n i j c = pad1 H W v n i j c := by
  unfold pad1
  by_cases h : 1 ≤ i ∧ i ≤ H ∧ 1 ≤ j ∧ j ≤ W
  · rw [if_pos h, if_pos h]; exact huv _ _ _ _ hn (by omega) (by omega) hc
  · rw [if_neg h, if_neg h]

/-- The convolution of 32 images of 256 x 256 x 8 into 64 channels, from the three row-shifted padded images as rows. -/
theorem conv_stage_256 (X : Fin 3 → (⟨3, ![8192, 258, 8]⟩ : Shape).Idx → EReal) (X3 : (⟨4, ![3, 3, 8, 64]⟩ : Shape).Idx → EReal)
    (X4 : (⟨2, ![1, 64]⟩ : Shape).Idx → EReal) (u v w : A4) (b : A1)
    (hX : ∀ (di : Fin 3) (r : Fin 8192) (x : Fin 258) (c : Fin 8),
      X di (ix3 r x c) = pad1 256 256 u (r.val / 256) (r.val % 256 + di.val) x.val c.val)
    (huv : ∀ n i j c, n < 32 → i < 256 → j < 256 → c < 8 → u n i j c = v n i j c)
    (hW : ∀ (di dj : Fin 3) (c : Fin 8) (o : Fin 64), X3 (ix4 di dj c o) = w di.val dj.val c.val o.val)
    (hB : ∀ o : Fin 64, X4 (ix2 0 o) = b o.val)
    (r : Fin 8192) (x : Fin 256) (o : Fin 64) :
    (∑ di : Fin 3, ∑ dj : Fin 3, ∑ ci : Fin 8,
        X di (ix3 r ⟨x.val + dj.val, by have := x.isLt; have := dj.isLt; omega⟩ ci) * X3 (ix4 di dj ci o)) + X4 (ix2 0 o)
      = conv3 8 256 256 v w b (r.val / 256) (r.val % 256) x.val o.val := by
  have hr := r.isLt
  unfold conv3
  rw [hB]
  refine congrArg (· + b o.val) ?_
  refine Finset.sum_congr rfl fun di _ => Finset.sum_congr rfl fun dj _ => Finset.sum_congr rfl fun ci _ => ?_
  rw [hX, hW]
  exact congrArg (· * w di.val dj.val ci.val o.val)
    (pad1_congr_lt 256 256 32 8 u v huv (r.val / 256) (r.val % 256 + di.val) (x.val + dj.val) ci.val (by omega) ci.isLt)

/-- The convolution of 32 images of 32 x 32 x 64 into 128 channels, from the three row-shifted padded images as rows. -/
theorem conv_stage_32 (X : Fin 3 → (⟨3, ![1024, 34, 64]⟩ : Shape).Idx → EReal) (X3 : (⟨4, ![3, 3, 64, 128]⟩ : Shape).Idx → EReal)
    (X4 : (⟨2, ![1, 128]⟩ : Shape).Idx → EReal) (u v w : A4) (b : A1)
    (hX : ∀ (di : Fin 3) (r : Fin 1024) (x : Fin 34) (c : Fin 64),
      X di (ix3 r x c) = pad1 32 32 u (r.val / 32) (r.val % 32 + di.val) x.val c.val)
    (huv : ∀ n i j c, n < 32 → i < 32 → j < 32 → c < 64 → u n i j c = v n i j c)
    (hW : ∀ (di dj : Fin 3) (c : Fin 64) (o : Fin 128), X3 (ix4 di dj c o) = w di.val dj.val c.val o.val)
    (hB : ∀ o : Fin 128, X4 (ix2 0 o) = b o.val)
    (r : Fin 1024) (x : Fin 32) (o : Fin 128) :
    (∑ di : Fin 3, ∑ dj : Fin 3, ∑ ci : Fin 64,
        X di (ix3 r ⟨x.val + dj.val, by have := x.isLt; have := dj.isLt; omega⟩ ci) * X3 (ix4 di dj ci o)) + X4 (ix2 0 o)
      = conv3 64 32 32 v w b (r.val / 32) (r.val % 32) x.val o.val := by
  have hr := r.isLt
  unfold conv3
  rw [hB]
  refine congrArg (· + b o.val) ?_
  refine Finset.sum_congr rfl fun di _ => Finset.sum_congr rfl fun dj _ => Finset.sum_congr rfl fun ci _ => ?_
  rw [hX, hW]
  exact congrArg (· * w di.val dj.val ci.val o.val)
    (pad1_congr_lt 32 32 32 64 u v huv (r.val / 32) (r.val % 32 + di.val) (x.val + dj.val) ci.val (by omega) ci.isLt)

/-- A down stage producing 128 x 128 images, from the row pairs. -/
theorem down_stage_128 (X0 : (⟨3, ![4096, 256, 128]⟩ : Shape).Idx → EReal) (X1 : (⟨3, ![2, 128, 64]⟩ : Shape).Idx → EReal)
    (X2 : (⟨2, ![1, 64]⟩ : Shape).Idx → EReal) (v w : A4) (b : A1)
    (hX0 : ∀ (p : Fin 4096) (a : Fin 256) (bb : Fin 128),
      X0 (ix3 p a bb) = v (p.val / 128) (2 * (p.val % 128) + a.val / 128) (2 * (a.val % 128) + bb.val / 64) (bb.val % 64))
    (hX1 : ∀ (ki : Fin 2) (mm : Fin 128) (o : Fin 64), X1 (ix3 ki mm o) = w ki.val (mm.val / 64) (mm.val % 64) o.val)
    (hX2 : ∀ o : Fin 64, X2 (ix2 0 o) = b o.val)
    (p : Fin 4096) (q : Fin 128) (o : Fin 64) :
    max (max (X0 (ix3 p ⟨q.val, by have := q.isLt; omega⟩ ⟨o.val, by have := o.isLt; omega⟩))
             (X0 (ix3 p ⟨q.val, by have := q.isLt; omega⟩ ⟨64 + o.val, by have := o.isLt; omega⟩)))
        (max (X0 (ix3 p ⟨128 + q.val, by have := q.isLt; omega⟩ ⟨o.val, by have := o.isLt; omega⟩))
             (X0 (ix3 p ⟨128 + q.val, by have := q.isLt; omega⟩ ⟨64 + o.val, by have := o.isLt; omega⟩)))
      + (X2 (ix2 0 o) + ∑ ki : Fin 2, ∑ kj : Fin 2, ∑ ch : Fin 64,
          X0 (ix3 p ⟨128 * ki.val + q.val, by have := q.isLt; have := ki.isLt; omega⟩
                ⟨64 * kj.val + ch.val, by have := kj.isLt; have := ch.isLt; omega⟩)
            * X1 (ix3 ki ⟨64 * kj.val + ch.val, by have := kj.isLt; have := ch.isLt; omega⟩ o))
      = down v w b (p.val / 128) (p.val % 128) q.val o.val := by
  have hq := q.isLt; have ho := o.isLt
  have X0rd : ∀ (a bb : Nat) (ha : a < 256) (hb : bb < 128), X0 (ix3 p ⟨a, ha⟩ ⟨bb, hb⟩)
      = v (p.val / 128) (2 * (p.val % 128) + a / 128) (2 * (a % 128) + bb / 64) (bb % 64) :=
    fun a bb ha hb => hX0 p ⟨a, ha⟩ ⟨bb, hb⟩
  have X1rd : ∀ (ki : Fin 2) (mm : Nat) (hm : mm < 128) (o : Fin 64), X1 (ix3 ki ⟨mm, hm⟩ o)
      = w ki.val (mm / 64) (mm % 64) o.val := fun ki mm hm o => hX1 ki ⟨mm, hm⟩ o
  have r00 : X0 (ix3 p ⟨q.val, by omega⟩ ⟨o.val, by omega⟩) = v (p.val / 128) (2 * (p.val % 128)) (2 * q.val) o.val :=
    (X0rd q.val o.val (by omega) (by omega)).trans (A4_congr v rfl (by omega) (by omega) (by omega))
  have r01 : X0 (ix3 p ⟨q.val, by omega⟩ ⟨64 + o.val, by omega⟩) = v (p.val / 128) (2 * (p.val % 128)) (2 * q.val + 1) o.val :=
    (X0rd q.val (64 + o.val) (by omega) (by omega)).trans (A4_congr v rfl (by omega) (by omega) (by omega))
  have r10 : X0 (ix3 p ⟨128 + q.val, by omega⟩ ⟨o.val, by omega⟩) = v (p.val / 128) (2 * (p.val % 128) + 1) (2 * q.val) o.val :=
    (X0rd (128 + q.val) o.val (by omega) (by omega)).trans (A4_congr v rfl (by omega) (by omega) (by omega))
  have r11 : X0 (ix3 p ⟨128 + q.val, by omega⟩ ⟨64 + o.val, by omega⟩) = v (p.val / 128) (2 * (p.val % 128) + 1) (2 * q.val + 1) o.val :=
    (X0rd (128 + q.val) (64 + o.val) (by omega) (by omega)).trans (A4_congr v rfl (by omega) (by omega) (by omega))
  unfold down
  rw [hX2, r00, r01, r10, r11]
  refine congrArg (_ + ·) (congrArg (b o.val + ·) ?_)
  refine Finset.sum_congr rfl fun ki _ => Finset.sum_congr rfl fun kj _ => Finset.sum_congr rfl fun ch _ => ?_
  have hki := ki.isLt; have hkj := kj.isLt; have hch := ch.isLt
  rw [X0rd (128 * ki.val + q.val) (64 * kj.val + ch.val) (by omega) (by omega), X1rd ki (64 * kj.val + ch.val) (by omega) o]
  exact congrArg₂ (· * ·) (A4_congr v rfl (by omega) (by omega) (by omega)) (A4_congr w rfl (by omega) (by omega) rfl)

/-- A down stage producing 64 x 64 images, from the row pairs. -/
theorem down_stage_64 (X0 : (⟨3, ![2048, 128, 128]⟩ : Shape).Idx → EReal) (X1 : (⟨3, ![2, 128, 64]⟩ : Shape).Idx → EReal)
    (X2 : (⟨2, ![1, 64]⟩ : Shape).Idx → EReal) (v w : A4) (b : A1)
    (hX0 : ∀ (p : Fin 2048) (a : Fin 128) (bb : Fin 128),
      X0 (ix3 p a bb) = v (p.val / 64) (2 * (p.val % 64) + a.val / 64) (2 * (a.val % 64) + bb.val / 64) (bb.val % 64))
    (hX1 : ∀ (ki : Fin 2) (mm : Fin 128) (o : Fin 64), X1 (ix3 ki mm o) = w ki.val (mm.val / 64) (mm.val % 64) o.val)
    (hX2 : ∀ o : Fin 64, X2 (ix2 0 o) = b o.val)
    (p : Fin 2048) (q : Fin 64) (o : Fin 64) :
    max (max (X0 (ix3 p ⟨q.val, by have := q.isLt; omega⟩ ⟨o.val, by have := o.isLt; omega⟩))
             (X0 (ix3 p ⟨q.val, by have := q.isLt; omega⟩ ⟨64 + o.val, by have := o.isLt; omega⟩)))
        (max (X0 (ix3 p ⟨64 + q.val, by have := q.isLt; omega⟩ ⟨o.val, by have := o.isLt; omega⟩))
             (X0 (ix3 p ⟨64 + q.val, by have := q.isLt; omega⟩ ⟨64 + o.val, by have := o.isLt; omega⟩)))
      + (X2 (ix2 0 o) + ∑ ki : Fin 2, ∑ kj : Fin 2, ∑ ch : Fin 64,
          X0 (ix3 p ⟨64 * ki.val + q.val, by have := q.isLt; have := ki.isLt; omega⟩
                ⟨64 * kj.val + ch.val, by have := kj.isLt; have := ch.isLt; omega⟩)
            * X1 (ix3 ki ⟨64 * kj.val + ch.val, by have := kj.isLt; have := ch.isLt; omega⟩ o))
      = down v w b (p.val / 64) (p.val % 64) q.val o.val := by
  have hq := q.isLt; have ho := o.isLt
  have X0rd : ∀ (a bb : Nat) (ha : a < 128) (hb : bb < 128), X0 (ix3 p ⟨a, ha⟩ ⟨bb, hb⟩)
      = v (p.val / 64) (2 * (p.val % 64) + a / 64) (2 * (a % 64) + bb / 64) (bb % 64) :=
    fun a bb ha hb => hX0 p ⟨a, ha⟩ ⟨bb, hb⟩
  have X1rd : ∀ (ki : Fin 2) (mm : Nat) (hm : mm < 128) (o : Fin 64), X1 (ix3 ki ⟨mm, hm⟩ o)
      = w ki.val (mm / 64) (mm % 64) o.val := fun ki mm hm o => hX1 ki ⟨mm, hm⟩ o
  have r00 : X0 (ix3 p ⟨q.val, by omega⟩ ⟨o.val, by omega⟩) = v (p.val / 64) (2 * (p.val % 64)) (2 * q.val) o.val :=
    (X0rd q.val o.val (by omega) (by omega)).trans (A4_congr v rfl (by omega) (by omega) (by omega))
  have r01 : X0 (ix3 p ⟨q.val, by omega⟩ ⟨64 + o.val, by omega⟩) = v (p.val / 64) (2 * (p.val % 64)) (2 * q.val + 1) o.val :=
    (X0rd q.val (64 + o.val) (by omega) (by omega)).trans (A4_congr v rfl (by omega) (by omega) (by omega))
  have r10 : X0 (ix3 p ⟨64 + q.val, by omega⟩ ⟨o.val, by omega⟩) = v (p.val / 64) (2 * (p.val % 64) + 1) (2 * q.val) o.val :=
    (X0rd (64 + q.val) o.val (by omega) (by omega)).trans (A4_congr v rfl (by omega) (by omega) (by omega))
  have r11 : X0 (ix3 p ⟨64 + q.val, by omega⟩ ⟨64 + o.val, by omega⟩) = v (p.val / 64) (2 * (p.val % 64) + 1) (2 * q.val + 1) o.val :=
    (X0rd (64 + q.val) (64 + o.val) (by omega) (by omega)).trans (A4_congr v rfl (by omega) (by omega) (by omega))
  unfold down
  rw [hX2, r00, r01, r10, r11]
  refine congrArg (_ + ·) (congrArg (b o.val + ·) ?_)
  refine Finset.sum_congr rfl fun ki _ => Finset.sum_congr rfl fun kj _ => Finset.sum_congr rfl fun ch _ => ?_
  have hki := ki.isLt; have hkj := kj.isLt; have hch := ch.isLt
  rw [X0rd (64 * ki.val + q.val) (64 * kj.val + ch.val) (by omega) (by omega), X1rd ki (64 * kj.val + ch.val) (by omega) o]
  exact congrArg₂ (· * ·) (A4_congr v rfl (by omega) (by omega) (by omega)) (A4_congr w rfl (by omega) (by omega) rfl)

/-- A down stage producing 32 x 32 images, from the row pairs. -/
theorem down_stage_32 (X0 : (⟨3, ![1024, 64, 128]⟩ : Shape).Idx → EReal) (X1 : (⟨3, ![2, 128, 64]⟩ : Shape).Idx → EReal)
    (X2 : (⟨2, ![1, 64]⟩ : Shape).Idx → EReal) (v w : A4) (b : A1)
    (hX0 : ∀ (p : Fin 1024) (a : Fin 64) (bb : Fin 128),
      X0 (ix3 p a bb) = v (p.val / 32) (2 * (p.val % 32) + a.val / 32) (2 * (a.val % 32) + bb.val / 64) (bb.val % 64))
    (hX1 : ∀ (ki : Fin 2) (mm : Fin 128) (o : Fin 64), X1 (ix3 ki mm o) = w ki.val (mm.val / 64) (mm.val % 64) o.val)
    (hX2 : ∀ o : Fin 64, X2 (ix2 0 o) = b o.val)
    (p : Fin 1024) (q : Fin 32) (o : Fin 64) :
    max (max (X0 (ix3 p ⟨q.val, by have := q.isLt; omega⟩ ⟨o.val, by have := o.isLt; omega⟩))
             (X0 (ix3 p ⟨q.val, by have := q.isLt; omega⟩ ⟨64 + o.val, by have := o.isLt; omega⟩)))
        (max (X0 (ix3 p ⟨32 + q.val, by have := q.isLt; omega⟩ ⟨o.val, by have := o.isLt; omega⟩))
             (X0 (ix3 p ⟨32 + q.val, by have := q.isLt; omega⟩ ⟨64 + o.val, by have := o.isLt; omega⟩)))
      + (X2 (ix2 0 o) + ∑ ki : Fin 2, ∑ kj : Fin 2, ∑ ch : Fin 64,
          X0 (ix3 p ⟨32 * ki.val + q.val, by have := q.isLt; have := ki.isLt; omega⟩
                ⟨64 * kj.val + ch.val, by have := kj.isLt; have := ch.isLt; omega⟩)
            * X1 (ix3 ki ⟨64 * kj.val + ch.val, by have := kj.isLt; have := ch.isLt; omega⟩ o))
      = down v w b (p.val / 32) (p.val % 32) q.val o.val := by
  have hq := q.isLt; have ho := o.isLt
  have X0rd : ∀ (a bb : Nat) (ha : a < 64) (hb : bb < 128), X0 (ix3 p ⟨a, ha⟩ ⟨bb, hb⟩)
      = v (p.val / 32) (2 * (p.val % 32) + a / 32) (2 * (a % 32) + bb / 64) (bb % 64) :=
    fun a bb ha hb => hX0 p ⟨a, ha⟩ ⟨bb, hb⟩
  have X1rd : ∀ (ki : Fin 2) (mm : Nat) (hm : mm < 128) (o : Fin 64), X1 (ix3 ki ⟨mm, hm⟩ o)
      = w ki.val (mm / 64) (mm % 64) o.val := fun ki mm hm o => hX1 ki ⟨mm, hm⟩ o
  have r00 : X0 (ix3 p ⟨q.val, by omega⟩ ⟨o.val, by omega⟩) = v (p.val / 32) (2 * (p.val % 32)) (2 * q.val) o.val :=
    (X0rd q.val o.val (by omega) (by omega)).trans (A4_congr v rfl (by omega) (by omega) (by omega))
  have r01 : X0 (ix3 p ⟨q.val, by omega⟩ ⟨64 + o.val, by omega⟩) = v (p.val / 32) (2 * (p.val % 32)) (2 * q.val + 1) o.val :=
    (X0rd q.val (64 + o.val) (by omega) (by omega)).trans (A4_congr v rfl (by omega) (by omega) (by omega))
  have r10 : X0 (ix3 p ⟨32 + q.val, by omega⟩ ⟨o.val, by omega⟩) = v (p.val / 32) (2 * (p.val % 32) + 1) (2 * q.val) o.val :=
    (X0rd (32 + q.val) o.val (by omega) (by omega)).trans (A4_congr v rfl (by omega) (by omega) (by omega))
  have r11 : X0 (ix3 p ⟨32 + q.val, by omega⟩ ⟨64 + o.val, by omega⟩) = v (p.val / 32) (2 * (p.val % 32) + 1) (2 * q.val + 1) o.val :=
    (X0rd (32 + q.val) (64 + o.val) (by omega) (by omega)).trans (A4_congr v rfl (by omega) (by omega) (by omega))
  unfold down
  rw [hX2, r00, r01, r10, r11]
  refine congrArg (_ + ·) (congrArg (b o.val + ·) ?_)
  refine Finset.sum_congr rfl fun ki _ => Finset.sum_congr rfl fun kj _ => Finset.sum_congr rfl fun ch _ => ?_
  have hki := ki.isLt; have hkj := kj.isLt; have hch := ch.isLt
  rw [X0rd (32 * ki.val + q.val) (64 * kj.val + ch.val) (by omega) (by omega), X1rd ki (64 * kj.val + ch.val) (by omega) o]
  exact congrArg₂ (· * ·) (A4_congr v rfl (by omega) (by omega) (by omega)) (A4_congr w rfl (by omega) (by omega) rfl)

end Cert.Stages

end
-- ==== Proof.RefReg0.lean ====
/- Region 0 of the reference with its host stretch, against the specification: the rows the first convolution leaves
   are the specification's first convolution of the argument image, weights and bias as the buffers hold them before
   the stretch. -/
import proofs.«178811_g2000006188366390_pallasbulk_758_10_alg».proof.Proof.RefR0Value
import proofs.«178811_g2000006188366390_pallasbulk_758_10_alg».proof.Proof.RefHost0
import proofs.«178811_g2000006188366390_pallasbulk_758_10_alg».proof.Proof.RefStages

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads Cert.Stages

variable (Wc : Dev nD → Valuation τ sig (Elt Ideal))

/-- The contents region 0 is entered from: host stretch 0 applied to the contents before it. -/
abbrev entry0 : (c : Dev nD) → (b : Ref sig .tc) → Buf (Elt Ideal) ((c : Thread nD τ).loc b) :=
  fun c b => StableHlo.after (hostOps0 (F := Ideal)) (Wc c) b

theorem region0_spec (c : Dev nD) (r : Fin 8192) (x : Fin 256) (o : Fin 64) :
    (dat0 (F := Ideal) (entry0 Wc) c).arrAt 5 cfg0.N (ix3 r x o)
      = conv3 8 256 256 (nhwc (rd4 (Wc c (Proc.devRef .tc main_arg0) : S32x3x256x256.Idx → EReal)))
          (rd4 (Wc c (Proc.devRef .tc main_arg1) : S3x3x3x64.Idx → EReal))
          (rd1 (Wc c (Proc.devRef .tc main_arg2) : S64.Idx → EReal)) (r.val / 256) (r.val % 256) x.val o.val := by
  refine (final0 (entry0 Wc) c r x o).trans ?_
  refine (conv0_apply _ _ _ _ _ r x o).trans ?_
  refine conv_stage_256 _ _ _ _ _ _ _ ?hX (fun _ _ _ _ _ _ _ _ => rfl) ?hW ?hB r x o
  case hX =>
    intro di
    match di with
    | ⟨0, _⟩ => exact host0_x0 (Wc c)
    | ⟨1, _⟩ => exact host0_x1 (Wc c)
    | ⟨2, _⟩ => exact host0_x2 (Wc c)
  case hW => exact host0_w (Wc c)
  case hB => exact host0_b (Wc c)

end Cert.ReferenceIdeal.Hand

end
-- ==== Proof.RefHost1.lean ====
/- What host stretch 1 leaves in the arrays down stage 1 reads, at an index, over the buffers' contents before it:
   the previous stage's rows regrouped as row pairs, the weights with tap and channel joined, the bias row. -/
import proofs.«178811_g2000006188366390_pallasbulk_758_10_alg».proof.Proof.Gen.ReferenceIdeal.Launch
import proofs.«178811_g2000006188366390_pallasbulk_758_10_alg».proof.Proof.Spec
import proofs.«178811_g2000006188366390_pallasbulk_758_10_alg».proof.Proof.RefHostLemmas
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads

variable (W : Valuation τ sig (Elt Ideal))

/-- Row pair p: entry (a, b) is row 2p + a / 128, column 2 (a % 128) + b / 64, channel b % 64 of the previous rows. -/
theorem host1_rows (p : Fin 4096) (a : Fin 256) (b : Fin 128) :
    (StableHlo.after (hostOps1 (F := Ideal)) W (Proc.devRef .tc main_call0_v13) : S4096x256x128.Idx → EReal) (ix3 p a b)
      = (W (Proc.devRef .tc main_call0_v11) : S8192x256x64.Idx → EReal)
          (ix3 ⟨2 * p.val + a.val / 128, by have := p.isLt; have := a.isLt; omega⟩
            ⟨2 * (a.val % 128) + b.val / 64, by have := b.isLt; omega⟩ ⟨b.val % 64, by omega⟩) := by
  have e : (StableHlo.after (hostOps1 (F := Ideal)) W (Proc.devRef .tc main_call0_v13) : S4096x256x128.Idx → EReal)
      = shapeCast S4096x256x128 (shapeCast S32x256x256x64 (W (Proc.devRef .tc main_call0_v11) : S8192x256x64.Idx → EReal)
          shapeCasts_S8192x256x64_S32x256x256x64) shapeCasts_S32x256x256x64_S4096x256x128 := by
    after_results; rfl
  exact (congrFun e _).trans (pairRows_128 _ _ _ p a b)

/-- The weights with the column tap and the channel joined. -/
theorem host1_w (ki : Fin 2) (mm : Fin 128) (o : Fin 64) :
    (StableHlo.after (hostOps1 (F := Ideal)) W (Proc.devRef .tc main_call0_v14) : S2x128x64.Idx → EReal) (ix3 ki mm o)
      = rd4 (W (Proc.devRef .tc main_arg3) : S2x2x64x64.Idx → EReal) ki.val (mm.val / 64) (mm.val % 64) o.val := by
  have e : (StableHlo.after (hostOps1 (F := Ideal)) W (Proc.devRef .tc main_call0_v14) : S2x128x64.Idx → EReal)
      = shapeCast S2x128x64 (W (Proc.devRef .tc main_arg3) : S2x2x64x64.Idx → EReal) shapeCasts_S2x2x64x64_S2x128x64 := by
    after_results; rfl
  exact (congrFun e _).trans (wPair _ _ ki mm o)

/-- The bias as a row. -/
theorem host1_b (o : Fin 64) :
    (StableHlo.after (hostOps1 (F := Ideal)) W (Proc.devRef .tc main_call0_v15) : S1x64.Idx → EReal) (ix2 0 o)
      = rd1 (W (Proc.devRef .tc main_arg4) : S64.Idx → EReal) o.val := by
  have e : (StableHlo.after (hostOps1 (F := Ideal)) W (Proc.devRef .tc main_call0_v15) : S1x64.Idx → EReal)
      = shapeCast S1x64 (W (Proc.devRef .tc main_arg4) : S64.Idx → EReal) shapeCasts_S64_S1x64 := by
    after_results; rfl
  exact (congrFun e _).trans (bias64 _ _ o)

end Cert.ReferenceIdeal.Hand

end
-- ==== Proof.RefReg1.lean ====
/- Region 1 of the reference with its host stretch, against the specification: if the rows before it are a stage of
   the specification, the rows the down stage leaves are the specification's down stage of it. -/
import proofs.«178811_g2000006188366390_pallasbulk_758_10_alg».proof.Proof.RefR1Value
import proofs.«178811_g2000006188366390_pallasbulk_758_10_alg».proof.Proof.RefHost1
import proofs.«178811_g2000006188366390_pallasbulk_758_10_alg».proof.Proof.RefStages

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads Cert.Stages

variable (Wc : Dev nD → Valuation τ sig (Elt Ideal))

/-- The contents region 1 is entered from: host stretch 1 applied to the contents before it. -/
abbrev entry1 : (c : Dev nD) → (b : Ref sig .tc) → Buf (Elt Ideal) ((c : Thread nD τ).loc b) :=
  fun c b => StableHlo.after (hostOps1 (F := Ideal)) (Wc c) b

theorem region1_spec (c : Dev nD) (v : A4)
    (hprev : ∀ (r : Fin 8192) (x : Fin 256) (o : Fin 64),
      (Wc c (Proc.devRef .tc main_call0_v11) : S8192x256x64.Idx → EReal) (ix3 r x o) = v (r.val / 256) (r.val % 256) x.val o.val)
    (p : Fin 4096) (q : Fin 128) (o : Fin 64) :
    (dat1 (F := Ideal) (entry1 Wc) c).arrAt 3 cfg1.N (ix3 p q o)
      = down v (rd4 (Wc c (Proc.devRef .tc main_arg3) : S2x2x64x64.Idx → EReal))
          (rd1 (Wc c (Proc.devRef .tc main_arg4) : S64.Idx → EReal)) (p.val / 128) (p.val % 128) q.val o.val := by
  have hp' : ∀ (r x o : Nat) (hr : r < 8192) (hx : x < 256) (ho : o < 64),
      (Wc c (Proc.devRef .tc main_call0_v11) : S8192x256x64.Idx → EReal) (ix3 ⟨r, hr⟩ ⟨x, hx⟩ ⟨o, ho⟩) = v (r / 256) (r % 256) x o :=
    fun r x o hr hx ho => hprev ⟨r, hr⟩ ⟨x, hx⟩ ⟨o, ho⟩
  refine (final1 (entry1 Wc) c p q o).trans ?_
  refine down_stage_128 _ _ _ v _ _ ?hX0 (host1_w (Wc c)) (host1_b (Wc c)) p q o
  intro p a bb
  have hpl := p.isLt; have hal := a.isLt; have hbl := bb.isLt
  exact (host1_rows (Wc c) p a bb).trans ((hp' _ _ _ _ _ _).trans (A4_congr v (by omega) (by omega) rfl rfl))

end Cert.ReferenceIdeal.Hand

end
-- ==== Proof.RefR2Value.lean ====
/- Region 2 of the reference program at the ideal model: the arrays the region leaves. The three input arrays end
   as entered; the output array ends, at every index, at the maximum of the four entries of its 2x2 window of the input
   plus the bias plus the sum over the window's positions and the input channels of input times weight. -/
import proofs.«178811_g2000006188366390_pallasbulk_758_10_alg».proof.Proof.RefR2
import Idealize.ShloMosaic.Lib.Pipeline.Value
import Idealize.ShloMosaic.Lib.ValueIdx
import Idealize.ShloMosaic.Lib.ValueLayout
import Idealize.ShloMosaic.Lib.Tactic
import proofs.«178811_g2000006188366390_pallasbulk_758_10_alg».proof.Proof.LibDense
import proofs.«178811_g2000006188366390_pallasbulk_758_10_alg».proof.Proof.LibIndexSums

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)
open Idealize.ShloMosaic.ValueIdx
open scoped BigOperators

section Region2Value
variable (V : (c : Dev nD) → (b : Ref sig .tc) → Buf (Elt Ideal) ((c : Thread nD τ).loc b))

/-- The region's arrays as the region finds them, at their literal shapes: the rows, the weight, the bias. -/
abbrev rows2 (c : Dev nD) : S2048x128x128.Idx → EReal := V c (Pipeline.arrRef spec2 0)
abbrev weight2 (c : Dev nD) : S2x128x64.Idx → EReal := V c (Pipeline.arrRef spec2 1)
abbrev bias2 (c : Dev nD) : S1x64.Idx → EReal := V c (Pipeline.arrRef spec2 2)
/-- The output array as the region leaves it. -/
abbrev result2 (c : Dev nD) : S2048x64x64.Idx → EReal := (dat2 (F := Ideal) V c).arrAt 3 cfg2.N

/-! ## The body's payload at an index -/

/-- The block of rows, cut to the 64 lines from line `d` on and with the eight rows' lines laid one under another,
    read at line 64 r + q and lane k, is row r, line d + q, lane k of the block. -/
theorem half2_apply (v0 : Vec Ideal S8x128x128 .f32) (d : Nat) (hs : S8x128x128.Slices ![0, d, 0] S8x64x128)
    (r : Fin 8) (q : Fin 64) (k : Fin 128) (l : Fin 128) (hl : l.val = d + q.val) :
    shapeCast S512x128 (extractStridedSlice S8x64x128 ![0, d, 0] (shapeCast S8x128x128 v0 shapeCasts_S8x128x128_S8x128x128) hs)
        shapeCasts_S8x64x128_S512x128 (ix2 (⟨64 * r + q, by omega⟩ : Fin 512) k)
      = v0 (ix3 r l k) := by
  rw [shapeCast_self]
  refine (shapeCast_apply _ _ _ (ix3 r q k) ?_).trans ?_
  · rw [Shape.rowMajor_val_three, Shape.rowMajor_val_two]
    show (r.val * 64 + q.val) * 128 + k.val = (64 * r.val + q.val) * 128 + k.val
    omega
  · refine extractStridedSlice_apply _ _ _ _ _ fun a => ?_
    match a with
    | ⟨0, _⟩ => show r.val = 0 + r.val; omega
    | ⟨1, _⟩ => show l.val = d + q.val; exact hl
    | ⟨2, _⟩ => show k.val = 0 + k.val; omega

/-- The 64 lanes from lane `d` on of a 512 x 128 matrix, read at (R, o), are the matrix at (R, d + o). -/
theorem lanes2_apply (x : FVec Ideal S512x128 .f32) (d : Nat) (hs : S512x128.Slices ![0, d] S512x64)
    (R : Fin 512) (o : Fin 64) (l : Fin 128) (hl : l.val = d + o.val) :
    extractStridedSlice S512x64 ![0, d] x hs (ix2 R o) = x (ix2 R l) := by
  refine extractStridedSlice_apply _ _ _ _ _ fun a => ?_
  match a with
  | ⟨0, _⟩ => show R.val = 0 + R.val; omega
  | ⟨1, _⟩ => show l.val = d + o.val; exact hl

/-- One of the weight's two matrices, its unit axis dropped, read at (k, o). -/
theorem wmat2_apply (w : Vec Ideal S1x128x64 .f32) (k : Fin 128) (o : Fin 64) :
    shapeCast S128x64 w shapeCasts_S1x128x64_S128x64 (ix2 k o) = w (ix3 (0 : Fin 1) k o) := by
  refine shapeCast_apply _ _ _ (ix3 (0 : Fin 1) k o) ?_
  rw [Shape.rowMajor_val_three, Shape.rowMajor_val_two]
  show (0 * 128 + k.val) * 64 + o.val = k.val * 64 + o.val
  omega

/-- The bias row laid along every one of the 512 lines, read at (R, o). -/
theorem brow2_apply (b : Vec Ideal S1x64 .f32) (R : Fin 512) (o : Fin 64) :
    broadcastTo S512x64 (shapeCast S1x64 b shapeCasts_S1x64_S1x64) broadcasts_S1x64_S512x64 (ix2 R o) = b (ix2 (0 : Fin 1) o) := by
  rw [shapeCast_self]
  refine broadcastTo_apply _ _ _ _ fun a => ?_
  match a with
  | ⟨0, _⟩ => rfl
  | ⟨1, _⟩ => rfl

/-- The body's result at row r, line q, lane o of the output block: the maximum of the four entries of the 2x2
    window, plus the two matrix products' sum plus the bias. -/
theorem pay2_apply (v0 : Vec Ideal S8x128x128 .f32) (w0 w1 : Vec Ideal S1x128x64 .f32) (b : Vec Ideal S1x64 .f32)
    (r : Fin 8) (q o : Fin 64) :
    k2_pay1 v0 w0 w1 b (ix3 r q o)
      = max (max (v0 (ix3 r (⟨q, by omega⟩ : Fin 128) (⟨o, by omega⟩ : Fin 128))) (v0 (ix3 r (⟨q, by omega⟩ : Fin 128) (⟨64 + o, by omega⟩ : Fin 128))))
            (max (v0 (ix3 r (⟨64 + q, by omega⟩ : Fin 128) (⟨o, by omega⟩ : Fin 128))) (v0 (ix3 r (⟨64 + q, by omega⟩ : Fin 128) (⟨64 + o, by omega⟩ : Fin 128))))
        + (((∑ k : Fin 128, v0 (ix3 r (⟨q, by omega⟩ : Fin 128) k) * w0 (ix3 (0 : Fin 1) k o))
            + (∑ k : Fin 128, v0 (ix3 r (⟨64 + q, by omega⟩ : Fin 128) k) * w1 (ix3 (0 : Fin 1) k o)))
          + b (ix2 (0 : Fin 1) o)) := by
  unfold k2_pay1
  refine (shapeCast_apply _ _ _ (ix2 (⟨64 * r + q, by omega⟩ : Fin 512) o) ?_).trans ?_
  · rw [Shape.rowMajor_val_three, Shape.rowMajor_val_two]
    show (64 * r.val + q.val) * 64 + o.val = (r.val * 64 + q.val) * 64 + o.val
    omega
  simp only [addf_apply, maximumf_apply]
  refine congrArg₂ (· + ·) (congrArg₂ max (congrArg₂ max ?_ ?_) (congrArg₂ max ?_ ?_)) (congrArg₂ (· + ·) (congrArg₂ (· + ·) ?_ ?_) ?_)
  · exact (lanes2_apply _ 0 _ _ o ⟨o, by omega⟩ (by simp)).trans (half2_apply v0 0 _ r q _ ⟨q, by omega⟩ (by simp))
  · exact (lanes2_apply _ 64 _ _ o ⟨64 + o, by omega⟩ rfl).trans (half2_apply v0 0 _ r q _ ⟨q, by omega⟩ (by simp))
  · exact (lanes2_apply _ 0 _ _ o ⟨o, by omega⟩ (by simp)).trans (half2_apply v0 64 _ r q _ ⟨64 + q, by omega⟩ rfl)
  · exact (lanes2_apply _ 64 _ _ o ⟨64 + o, by omega⟩ rfl).trans (half2_apply v0 64 _ r q _ ⟨64 + q, by omega⟩ rfl)
  · refine (Cert.Dense.matmul_zero_apply dot_S512x128_S128x64_S512x64_1_0_0_1_n_n_wf none _ _ _ o).trans ?_
    exact Finset.sum_congr rfl fun k _ => congrArg₂ (· * ·) (half2_apply v0 0 _ r q k ⟨q, by omega⟩ (by simp)) (wmat2_apply w0 k o)
  · refine (Cert.Dense.matmul_zero_apply dot_S512x128_S128x64_S512x64_1_0_0_1_n_n_wf none _ _ _ o).trans ?_
    exact Finset.sum_congr rfl fun k _ => congrArg₂ (· * ·) (half2_apply v0 64 _ r q k ⟨64 + q, by omega⟩ rfl) (wmat2_apply w1 k o)
  · exact brow2_apply b _ o

/-! ## The blocks as parts of the arrays -/

theorem zero3_2 : (![0, 0, 0] : Fin 3 → Nat) = fun _ => 0 := funext fun a => by fin_cases a <;> rfl

/-- The printed index maps over the grid: point t stages rows 8 t … 8 t + 7 of the input and writes the same rows of
    the output back; the weight and the bias are one block each. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = 0 ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-- The rows' block at point t, as the body loads it, is rows 8 t … 8 t + 7 of the array. -/
theorem rows_blk2_apply (c : Dev nD) (t : Fin cfg2.N) (r : Fin 8) (l k : Fin 128) (P : Fin 2048) (hP : P.val = 8 * t.val + r.val)
    (l' : Fin 128) (hl : l'.val = l.val) :
    View.ld (iblk2 V c 0 t : Vec Ideal S8x128x128 .f32) rIn2 (ix3 r l k) = rows2 V c (ix3 P l' k) := by
  obtain ⟨e0, e1, e2, -⟩ := idx_facts2 t
  unfold iblk2
  show (((cfg2.win 0).blk t).view.read (Elt Ideal) (V c (Pipeline.arrRef spec2 0))) (rIn2.idx (ix3 r l k)) = _
  rw [View.read_apply]
  show V c main_call0_v18 _ = V c main_call0_v18 _
  refine congrArg (V c main_call0_v18) (funext fun a => Fin.ext ?_)
  match a with
  | ⟨0, _⟩ => show win2_0.index t (0 : Fin 3) * 8 + 1 * (0 + 1 * r.val) = P.val; rw [e0, hP]; omega
  | ⟨1, _⟩ => show win2_0.index t (1 : Fin 3) * 128 + 1 * (0 + 1 * l.val) = l'.val; rw [e1, hl]; omega
  | ⟨2, _⟩ => show win2_0.index t (2 : Fin 3) * 128 + 1 * (0 + 1 * k.val) = k.val; rw [e2]; omega

/-- The weight's block at any point, loaded from its matrix `d` on, is that matrix of the array. -/
theorem weight_blk2_apply (c : Dev nD) (t : Fin cfg2.N) (d : Nat) (inb : ∀ a, (![d, 0, 0] : Fin 3 → Nat) a + S1x128x64.size a ≤ S2x128x64.size a)
    (ki : Fin 2) (hd : ki.val = d) (k : Fin 128) (o : Fin 64) :
    View.ld (iblk2 V c 1 t : Vec Ideal S2x128x64 .f32) (Rect.unit (s := S2x128x64) ![d, 0, 0] S1x128x64.size inb) (ix3 (0 : Fin 1) k o)
      = weight2 V c (ix3 ki k o) := by
  obtain ⟨-, -, -, e0, e1, e2, -⟩ := idx_facts2 t
  unfold iblk2
  show (((cfg2.win 1).blk t).view.read (Elt Ideal) (V c (Pipeline.arrRef spec2 1))) ((Rect.unit (s := S2x128x64) ![d, 0, 0] S1x128x64.size inb).idx (ix3 (0 : Fin 1) k o)) = _
  rw [View.read_apply]
  show V c main_call0_v19 _ = V c main_call0_v19 _
  refine congrArg (V c main_call0_v19) (funext fun a => Fin.ext ?_)
  match a with
  | ⟨0, _⟩ => show win2_1.index t (0 : Fin 3) * 2 + 1 * (d + 1 * 0) = ki.val; rw [e0, hd]; omega
  | ⟨1, _⟩ => show win2_1.index t (1 : Fin 3) * 128 + 1 * (0 + 1 * k.val) = k.val; rw [e1]; omega
  | ⟨2, _⟩ => show win2_1.index t (2 : Fin 3) * 64 + 1 * (0 + 1 * o.val) = o.val; rw [e2]; omega

/-- The bias's block at any point is the array. -/
theorem bias_blk2_apply (c : Dev nD) (t : Fin cfg2.N) (o : Fin 64) :
    View.ld (iblk2 V c 2 t : Vec Ideal S1x64 .f32) rB2 (ix2 (0 : Fin 1) o) = bias2 V c (ix2 (0 : Fin 1) o) := by
  obtain ⟨-, -, -, -, -, -, e0, e1, -⟩ := idx_facts2 t
  unfold iblk2
  show (((cfg2.win 2).blk t).view.read (Elt Ideal) (V c (Pipeline.arrRef spec2 2))) (rB2.idx (ix2 (0 : Fin 1) o)) = _
  rw [View.read_apply]
  show V c main_call0_v20 _ = V c main_call0_v20 _
  refine congrArg (V c main_call0_v20) (funext fun a => Fin.ext ?_)
  match a with
  | ⟨0, _⟩ => show win2_2.index t (0 : Fin 2) * 1 + 1 * (0 + 1 * 0) = 0; rw [e0]
  | ⟨1, _⟩ => show win2_2.index t (1 : Fin 2) * 64 + 1 * (0 + 1 * o.val) = o.val; rw [e1]; omega

/-! ## The region's result as one function of the arrays -/

/-- A sum over the 128 lanes is the sum over the two halves and the 64 lanes of a half. -/
theorem sum_lanes2_split (g : Fin 128 → EReal) :
    ∑ k : Fin 128, g k = ∑ kj : Fin 2, ∑ cc : Fin 64, g (⟨64 * kj + cc, by omega⟩ : Fin 128) := by
  refine (Cert.IndexSums.sum_fin_mul (m := 2) (n := 64) g).trans ?_
  refine Finset.sum_congr rfl fun kj _ => Finset.sum_congr rfl fun cc _ => congrArg g (Fin.ext ?_)
  show cc.val + 64 * kj.val = 64 * kj.val + cc.val
  omega

/-- The maximum over the 2x2 window at (p, q, o): lines q and 64 + q, lanes o and 64 + o. -/
def pool2At (X0 : S2048x128x128.Idx → EReal) (p : Fin 2048) (q o : Fin 64) : EReal :=
  max (max (X0 (ix3 p (⟨q, by omega⟩ : Fin 128) (⟨o, by omega⟩ : Fin 128)))
           (X0 (ix3 p (⟨q, by omega⟩ : Fin 128) (⟨64 + o, by omega⟩ : Fin 128))))
      (max (X0 (ix3 p (⟨64 + q, by omega⟩ : Fin 128) (⟨o, by omega⟩ : Fin 128)))
           (X0 (ix3 p (⟨64 + q, by omega⟩ : Fin 128) (⟨64 + o, by omega⟩ : Fin 128))))

/-- The product of line 64 ki + q of row p with the weight's matrix ki, at lane o. -/
def dot2At (X0 : S2048x128x128.Idx → EReal) (X1 : S2x128x64.Idx → EReal) (p : Fin 2048) (q o : Fin 64) (ki : Fin 2) : EReal :=
  ∑ k : Fin 128, X0 (ix3 p (⟨64 * ki + q, by omega⟩ : Fin 128) k) * X1 (ix3 ki k o)

/-- The region's result at (p, q, o). -/
def down2At (X0 : S2048x128x128.Idx → EReal) (X1 : S2x128x64.Idx → EReal) (X2 : S1x64.Idx → EReal) (p : Fin 2048) (q o : Fin 64) : EReal :=
  pool2At X0 p q o
    + (X2 (ix2 (0 : Fin 1) o)
        + ∑ ki : Fin 2, ∑ kj : Fin 2, ∑ cc : Fin 64,
            X0 (ix3 p (⟨64 * ki + q, by omega⟩ : Fin 128) (⟨64 * kj + cc, by omega⟩ : Fin 128))
              * X1 (ix3 ki (⟨64 * kj + cc, by omega⟩ : Fin 128) o))

/-- The body's order of additions regrouped: the two products' sum plus the bias is the bias plus the sum over the
    window's positions and the channels. -/
theorem down2At_eq (X0 : S2048x128x128.Idx → EReal) (X1 : S2x128x64.Idx → EReal) (X2 : S1x64.Idx → EReal) (p : Fin 2048) (q o : Fin 64) :
    pool2At X0 p q o + ((dot2At X0 X1 p q o 0 + dot2At X0 X1 p q o 1) + X2 (ix2 (0 : Fin 1) o)) = down2At X0 X1 X2 p q o := by
  have h : ∀ ki : Fin 2, dot2At X0 X1 p q o ki = ∑ kj : Fin 2, ∑ cc : Fin 64,
      X0 (ix3 p (⟨64 * ki + q, by omega⟩ : Fin 128) (⟨64 * kj + cc, by omega⟩ : Fin 128)) * X1 (ix3 ki (⟨64 * kj + cc, by omega⟩ : Fin 128) o) :=
    fun ki => sum_lanes2_split _
  unfold down2At
  refine congrArg (pool2At X0 p q o + ·) ?_
  rw [add_comm]
  refine congrArg (X2 (ix2 (0 : Fin 1) o) + ·) ?_
  rw [Fin.sum_univ_two]
  exact congrArg₂ (· + ·) (h 0) (h 1)

/-- The output array the region leaves, as one function of the arrays it finds. -/
def G2 (X0 : S2048x128x128.Idx → EReal) (X1 : S2x128x64.Idx → EReal) (X2 : S1x64.Idx → EReal) : S2048x64x64.Idx → EReal :=
  fun i => down2At X0 X1 X2 (i 0) (i 1) (i 2)

/-- What point t writes back is block t of `G2` of the arrays as the region finds them. -/
theorem flushed2_eq (c : Dev nD) (t : Fin cfg2.N) :
    (dat2 (F := Ideal) V c).flushed 3 t = ((cfg2.win 3).blk t).view.read (Elt Ideal) (G2 (rows2 V c) (weight2 V c) (bias2 V c)) := by
  show (cfg2.win 3).cut (grid2.coords t) ((dat2 V c).after 3 t) = _
  rw [after2_3]
  unfold out2_3
  rw [View.canon_unit_zero zero3_2]
  funext j
  obtain ⟨r, q, o, rfl⟩ : ∃ (r : Fin 8) (q o : Fin 64), j = ix3 r q o := ⟨j 0, j 1, j 2, eq_ix3 j⟩
  obtain ⟨-, -, -, -, -, -, -, -, e0, e1, e2⟩ := idx_facts2 t
  have ht : t.val < 256 := lt_of_lt_of_eq t.isLt N_2
  have hP : 8 * t.val + r.val < 2048 := by omega
  show k2_pay1 (F := Ideal) _ _ _ _ (ix3 r q o) = G2 _ _ _ (((cfg2.win 3).blk t).view.emb (ix3 r q o))
  have hemb : ((cfg2.win 3).blk t).view.emb (ix3 r q o) = ix3 (⟨8 * t.val + r.val, hP⟩ : Fin 2048) q o := by
    funext a; apply Fin.ext
    match a with
    | ⟨0, _⟩ => show win2_3.index t (0 : Fin 3) * 8 + 1 * r.val = 8 * t.val + r.val; rw [e0]; omega
    | ⟨1, _⟩ => show win2_3.index t (1 : Fin 3) * 64 + 1 * q.val = q.val; rw [e1]; omega
    | ⟨2, _⟩ => show win2_3.index t (2 : Fin 3) * 64 + 1 * o.val = o.val; rw [e2]; omega
  rw [hemb]
  refine (pay2_apply _ _ _ _ r q o).trans ?_
  refine Eq.trans ?_ (down2At_eq (rows2 V c) (weight2 V c) (bias2 V c) (⟨8 * t.val + r.val, hP⟩ : Fin 2048) q o)
  unfold pool2At dot2At
  refine congrArg₂ (· + ·) (congrArg₂ max (congrArg₂ max ?_ ?_) (congrArg₂ max ?_ ?_)) (congrArg₂ (· + ·) (congrArg₂ (· + ·) ?_ ?_) ?_)
  · exact rows_blk2_apply V c t r _ _ ⟨8 * t.val + r.val, hP⟩ rfl _ rfl
  · exact rows_blk2_apply V c t r _ _ ⟨8 * t.val + r.val, hP⟩ rfl _ rfl
  · exact rows_blk2_apply V c t r _ _ ⟨8 * t.val + r.val, hP⟩ rfl _ rfl
  · exact rows_blk2_apply V c t r _ _ ⟨8 * t.val + r.val, hP⟩ rfl _ rfl
  · exact Finset.sum_congr rfl fun k _ => congrArg₂ (· * ·)
      (rows_blk2_apply V c t r _ k ⟨8 * t.val + r.val, hP⟩ rfl _ (by simp))
      (weight_blk2_apply V c t 0 _ 0 rfl k o)
  · exact Finset.sum_congr rfl fun k _ => congrArg₂ (· * ·)
      (rows_blk2_apply V c t r _ k ⟨8 * t.val + r.val, hP⟩ rfl _ (by simp))
      (weight_blk2_apply V c t 1 _ 1 rfl k o)
  · exact bias_blk2_apply V c t o

/-- An index of the output array is in point t's block iff each coordinate is in the block's range on its axis. -/
theorem mem_blk2_3 (t : Fin cfg2.N) (i : S2048x64x64.Idx) :
    i ∈ ((cfg2.win 3).blk t).view.set ↔ ∀ a : Fin 3, win2_3.index t a * S8x64x64.size a ≤ (i a).val ∧ (i a).val < win2_3.index t a * S8x64x64.size a + S8x64x64.size a := by
  show i ∈ ((View.whole main_call0_v21).slice (win2_3.rect t)).set ↔ _
  rw [View.set_slice_whole, Rect.mem_set_unit]
  exact Iff.rfl

/-- Every index of the output array is in the block of the point that holds its row: row p is in block p / 8. -/
theorem cover2 (i : S2048x64x64.Idx) :
    ∃ t : Fin cfg2.N, (cfg2.win 3).flush t = true ∧ i ∈ ((cfg2.win 3).blk t).view.set := by
  have h0 : (i 0).val < 2048 := (i 0).isLt
  have h1 : (i 1).val < 64 := (i 1).isLt
  have h2 : (i 2).val < 64 := (i 2).isLt
  have hN : cfg2.N = 256 := N_2
  obtain ⟨t, ht⟩ : ∃ t : Fin cfg2.N, t.val = (i 0).val / 8 := ⟨⟨(i 0).val / 8, by rw [hN]; omega⟩, rfl⟩
  obtain ⟨-, -, -, -, -, -, -, -, e0, e1, e2⟩ := idx_facts2 t
  refine ⟨t, flush2_3 t, ?_⟩
  rw [mem_blk2_3]
  intro a
  match a with
  | ⟨0, _⟩ => show win2_3.index t (0 : Fin 3) * 8 ≤ (i 0).val ∧ (i 0).val < win2_3.index t (0 : Fin 3) * 8 + 8; rw [e0, ht]; omega
  | ⟨1, _⟩ => show win2_3.index t (1 : Fin 3) * 64 ≤ (i 1).val ∧ (i 1).val < win2_3.index t (1 : Fin 3) * 64 + 64; rw [e1]; omega
  | ⟨2, _⟩ => show win2_3.index t (2 : Fin 3) * 64 ≤ (i 2).val ∧ (i 2).val < win2_3.index t (2 : Fin 3) * 64 + 64; rw [e2]; omega

/-- The output array after the region is `G2` of the arrays the region finds. -/
theorem result2_eq (c : Dev nD) : result2 V c = G2 (rows2 V c) (weight2 V c) (bias2 V c) :=
  (dat2 (F := Ideal) V c).arrAt_eq_of_cover 3 (G2 (rows2 V c) (weight2 V c) (bias2 V c)) (fun t _ => flushed2_eq V c t) cover2

/-- The input arrays end as entered: an input window stages its array and never writes it back. -/
theorem kept2 (c : Dev nD) (w : Fin cfg2.W) (hw : w ≠ 3) :
    (dat2 (F := Ideal) V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, h => exact absurd rfl h
  exact ((dat2 (F := Ideal) V c).arrAt_in w hin _).trans (A_eq2 V c w)

/-- The output array after the region, index by index, of the input arrays at region entry. -/
theorem final2 (c : Dev nD) (p : Fin 2048) (q : Fin 64) (o : Fin 64) :
    result2 V c (ix3 p q o)
      = max (max (rows2 V c (ix3 p (⟨q, by omega⟩ : Fin 128) (⟨o, by omega⟩ : Fin 128)))
                 (rows2 V c (ix3 p (⟨q, by omega⟩ : Fin 128) (⟨64 + o, by omega⟩ : Fin 128))))
            (max (rows2 V c (ix3 p (⟨64 + q, by omega⟩ : Fin 128) (⟨o, by omega⟩ : Fin 128)))
                 (rows2 V c (ix3 p (⟨64 + q, by omega⟩ : Fin 128) (⟨64 + o, by omega⟩ : Fin 128))))
        + (bias2 V c (ix2 (0 : Fin 1) o)
            + ∑ ki : Fin 2, ∑ kj : Fin 2, ∑ cc : Fin 64,
                rows2 V c (ix3 p (⟨64 * ki + q, by omega⟩ : Fin 128) (⟨64 * kj + cc, by omega⟩ : Fin 128))
                  * weight2 V c (ix3 ki (⟨64 * kj + cc, by omega⟩ : Fin 128) o)) := by
  rw [result2_eq]
  rfl

end Region2Value

end Cert.ReferenceIdeal.Hand

end
-- ==== Proof.RefHost2.lean ====
/- What host stretch 2 leaves in the arrays down stage 2 reads, at an index, over the buffers' contents before it:
   the previous stage's rows regrouped as row pairs, the weights with tap and channel joined, the bias row. -/
import proofs.«178811_g2000006188366390_pallasbulk_758_10_alg».proof.Proof.Gen.ReferenceIdeal.Launch
import proofs.«178811_g2000006188366390_pallasbulk_758_10_alg».proof.Proof.Spec
import proofs.«178811_g2000006188366390_pallasbulk_758_10_alg».proof.Proof.RefHostLemmas
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads

variable (W : Valuation τ sig (Elt Ideal))

/-- Row pair p: entry (a, b) is row 2p + a / 64, column 2 (a % 64) + b / 64, channel b % 64 of the previous rows. -/
theorem host2_rows (p : Fin 2048) (a : Fin 128) (b : Fin 128) :
    (StableHlo.after (hostOps2 (F := Ideal)) W (Proc.devRef .tc main_call0_v18) : S2048x128x128.Idx → EReal) (ix3 p a b)
      = (W (Proc.devRef .tc main_call0_v16) : S4096x128x64.Idx → EReal)
          (ix3 ⟨2 * p.val + a.val / 64, by have := p.isLt; have := a.isLt; omega⟩
            ⟨2 * (a.val % 64) + b.val / 64, by have := b.isLt; omega⟩ ⟨b.val % 64, by omega⟩) := by
  have e : (StableHlo.after (hostOps2 (F := Ideal)) W (Proc.devRef .tc main_call0_v18) : S2048x128x128.Idx → EReal)
      = shapeCast S2048x128x128 (shapeCast S32x128x128x64 (W (Proc.devRef .tc main_call0_v16) : S4096x128x64.Idx → EReal)
          shapeCasts_S4096x128x64_S32x128x128x64) shapeCasts_S32x128x128x64_S2048x128x128 := by
    after_results; rfl
  exact (congrFun e _).trans (pairRows_64 _ _ _ p a b)

/-- The weights with the column tap and the channel joined. -/
theorem host2_w (ki : Fin 2) (mm : Fin 128) (o : Fin 64) :
    (StableHlo.after (hostOps2 (F := Ideal)) W (Proc.devRef .tc main_call0_v19) : S2x128x64.Idx → EReal) (ix3 ki mm o)
      = rd4 (W (Proc.devRef .tc main_arg5) : S2x2x64x64.Idx → EReal) ki.val (mm.val / 64) (mm.val % 64) o.val := by
  have e : (StableHlo.after (hostOps2 (F := Ideal)) W (Proc.devRef .tc main_call0_v19) : S2x128x64.Idx → EReal)
      = shapeCast S2x128x64 (W (Proc.devRef .tc main_arg5) : S2x2x64x64.Idx → EReal) shapeCasts_S2x2x64x64_S2x128x64 := by
    after_results; rfl
  exact (congrFun e _).trans (wPair _ _ ki mm o)

/-- The bias as a row. -/
theorem host2_b (o : Fin 64) :
    (StableHlo.after (hostOps2 (F := Ideal)) W (Proc.devRef .tc main_call0_v20) : S1x64.Idx → EReal) (ix2 0 o)
      = rd1 (W (Proc.devRef .tc main_arg6) : S64.Idx → EReal) o.val := by
  have e : (StableHlo.after (hostOps2 (F := Ideal)) W (Proc.devRef .tc main_call0_v20) : S1x64.Idx → EReal)
      = shapeCast S1x64 (W (Proc.devRef .tc main_arg6) : S64.Idx → EReal) shapeCasts_S64_S1x64 := by
    after_results; rfl
  exact (congrFun e _).trans (bias64 _ _ o)

end Cert.ReferenceIdeal.Hand

end
-- ==== Proof.RefReg2.lean ====
/- Region 2 of the reference with its host stretch, against the specification: if the rows before it are a stage of
   the specification, the rows the down stage leaves are the specification's down stage of it. -/
import proofs.«178811_g2000006188366390_pallasbulk_758_10_alg».proof.Proof.RefR2Value
import proofs.«178811_g2000006188366390_pallasbulk_758_10_alg».proof.Proof.RefHost2
import proofs.«178811_g2000006188366390_pallasbulk_758_10_alg».proof.Proof.RefStages

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads Cert.Stages

variable (Wc : Dev nD → Valuation τ sig (Elt Ideal))

/-- The contents region 2 is entered from: host stretch 2 applied to the contents before it. -/
abbrev entry2 : (c : Dev nD) → (b : Ref sig .tc) → Buf (Elt Ideal) ((c : Thread nD τ).loc b) :=
  fun c b => StableHlo.after (hostOps2 (F := Ideal)) (Wc c) b

theorem region2_spec (c : Dev nD) (v : A4)
    (hprev : ∀ (r : Fin 4096) (x : Fin 128) (o : Fin 64),
      (Wc c (Proc.devRef .tc main_call0_v16) : S4096x128x64.Idx → EReal) (ix3 r x o) = v (r.val / 128) (r.val % 128) x.val o.val)
    (p : Fin 2048) (q : Fin 64) (o : Fin 64) :
    (dat2 (F := Ideal) (entry2 Wc) c).arrAt 3 cfg2.N (ix3 p q o)
      = down v (rd4 (Wc c (Proc.devRef .tc main_arg5) : S2x2x64x64.Idx → EReal))
          (rd1 (Wc c (Proc.devRef .tc main_arg6) : S64.Idx → EReal)) (p.val / 64) (p.val % 64) q.val o.val := by
  have hp' : ∀ (r x o : Nat) (hr : r < 4096) (hx : x < 128) (ho : o < 64),
      (Wc c (Proc.devRef .tc main_call0_v16) : S4096x128x64.Idx → EReal) (ix3 ⟨r, hr⟩ ⟨x, hx⟩ ⟨o, ho⟩) = v (r / 128) (r % 128) x o :=
    fun r x o hr hx ho => hprev ⟨r, hr⟩ ⟨x, hx⟩ ⟨o, ho⟩
  refine (final2 (entry2 Wc) c p q o).trans ?_
  refine down_stage_64 _ _ _ v _ _ ?hX0 (host2_w (Wc c)) (host2_b (Wc c)) p q o
  intro p a bb
  have hpl := p.isLt; have hal := a.isLt; have hbl := bb.isLt
  exact (host2_rows (Wc c) p a bb).trans ((hp' _ _ _ _ _ _).trans (A4_congr v (by omega) (by omega) rfl rfl))

end Cert.ReferenceIdeal.Hand

end
-- ==== Proof.RefR3Value.lean ====
import proofs.«178811_g2000006188366390_pallasbulk_758_10_alg».proof.Proof.RefR3
import Idealize.ShloMosaic.Lib.Pipeline.Value
import Idealize.ShloMosaic.Lib.ValueIdx
import Idealize.ShloMosaic.Lib.ValueLayout
import proofs.«178811_g2000006188366390_pallasbulk_758_10_alg».proof.Proof.LibDense

/-! # The third down stage of the reference, read: the output array after the region as a function of the input arrays

Over the extended reals the region leaves, at row `p`, column `q`, channel `o` of the `[1024, 32, 64]` output, the
maximum of the four quarters `(q, o)`, `(q, 64 + o)`, `(32 + q, o)`, `(32 + q, 64 + o)` of input row `p`, plus the
bias at `o`, plus the contraction over the row's four quarters of sixty-four channels against the weight. The
inputs' arrays end as the region found them. -/

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)
open scoped BigOperators

-- the TensorCore's buffer contents when the region is entered
variable (V : (c : Dev nD) → (b : Ref sig .tc) → Buf (Elt Ideal) ((c : Thread nD τ).loc b))

/-! ## The stage as a function of arrays of the region's shapes -/

/-- One down stage on a `[1024, 64, 128]` array whose row `p` holds two image rows of thirty-two pixels of
    sixty-four channels each, pixel pairs side by side (entry `(32 * ki + q, 64 * kj + ch)` is channel `ch` of pixel
    `(ki, kj)` of the 2 x 2 window `q`): the maximum over the window, plus the bias, plus the window's contraction
    against the `[2, 128, 64]` weight. -/
def down3Form (X0 : S1024x64x128.Idx → EReal) (X1 : S2x128x64.Idx → EReal) (X2 : S1x64.Idx → EReal)
    (p : Fin 1024) (q : Fin 32) (o : Fin 64) : EReal :=
  max (max (X0 (ix3 p (⟨q, by omega⟩ : Fin 64) (⟨o, by omega⟩ : Fin 128)))
           (X0 (ix3 p (⟨q, by omega⟩ : Fin 64) (⟨64 + o, by omega⟩ : Fin 128))))
      (max (X0 (ix3 p (⟨32 + q, by omega⟩ : Fin 64) (⟨o, by omega⟩ : Fin 128)))
           (X0 (ix3 p (⟨32 + q, by omega⟩ : Fin 64) (⟨64 + o, by omega⟩ : Fin 128))))
    + (X2 (ix2 (0 : Fin 1) o)
        + ∑ ki : Fin 2, ∑ kj : Fin 2, ∑ ch : Fin 64,
            X0 (ix3 p (⟨32 * ki + q, by omega⟩ : Fin 64) (⟨64 * kj + ch, by omega⟩ : Fin 128))
              * X1 (ix3 ki (⟨64 * kj + ch, by omega⟩ : Fin 128) o))

/-- The stage's whole output array. -/
def down3Arr (X0 : S1024x64x128.Idx → EReal) (X1 : S2x128x64.Idx → EReal) (X2 : S1x64.Idx → EReal) :
    S1024x32x64.Idx → EReal := fun i => down3Form X0 X1 X2 (i 0) (i 1) (i 2)

theorem down3Arr_apply (X0 : S1024x64x128.Idx → EReal) (X1 : S2x128x64.Idx → EReal) (X2 : S1x64.Idx → EReal)
    (p : Fin 1024) (q : Fin 32) (o : Fin 64) : down3Arr X0 X1 X2 (ix3 p q o) = down3Form X0 X1 X2 p q o := rfl

/-! ## The body's value at an index -/

section Payload

/-- Half of a block's sixty-four columns (from `off`), its sixteen rows of thirty-two flattened to 512 rows: row
    `32 r + q` is entry `(r, off + q)`. -/
theorem halfRows3_apply (off : Nat) (X : S16x64x128.Idx → EReal) (h : S16x64x128.Slices ![0, off, 0] S16x32x128)
    (hc : S16x32x128.ShapeCasts S512x128) (r : Fin 16) (q : Fin 32) (k : Fin 128) (m : Fin 512) (hm : m.val = 32 * r.val + q.val)
    (q' : Fin 64) (hq' : q'.val = off + q.val) :
    shapeCast S512x128 (extractStridedSlice S16x32x128 ![0, off, 0] X h) hc (ix2 m k) = X (ix3 r q' k) :=
  (shapeCast_apply (extractStridedSlice S16x32x128 ![0, off, 0] X h) hc (ix2 m k) (ix3 r q k) (by
    rw [Shape.rowMajor_val_three, Shape.rowMajor_val_two]
    show (r.val * 32 + q.val) * 128 + k.val = m.val * 128 + k.val
    rw [hm]; ring)).trans (slice3_axis1_apply off X h r q k q' hq')

/-- A `[512, 128]` matrix's left or right sixty-four columns (from `off`) at `(m, o)`. -/
theorem halfCols3_apply (off : Nat) (X : S512x128.Idx → EReal) (h : S512x128.Slices ![0, off] S512x64)
    (m : Fin 512) (o : Fin 64) (k : Fin 128) (hk : k.val = off + o.val) :
    extractStridedSlice S512x64 ![0, off] X h (ix2 m o) = X (ix2 m k) :=
  slice2_axis1_apply off X h m o k hk

/-- A `[512, 128]` by `[128, 64]` product into the zero splat at `(m, o)`: the sum over the 128 contracted entries. -/
theorem matmul3_apply (A : FVec Ideal S512x128 .f32) (B : FVec Ideal S128x64 .f32) (m : Fin 512) (o : Fin 64) :
    matmul dot_S512x128_S128x64_S512x64_1_0_0_1_n_n none A B (constant (F := Ideal) S512x64 .f32 0x00000000#32) (ix2 m o)
      = ∑ k : Fin 128, A (ix2 m k) * B (ix2 k o) :=
  Cert.Dense.matmul_zero_apply dot_S512x128_S128x64_S512x64_1_0_0_1_n_n_wf none A B m o

/-- The body's stored value at `(r, q, o)` of the block: the maximum of the four quarters of row `r` at `(q, o)`, plus
    the two half-row contractions against the weight's two planes (in the body's order of additions), plus the bias. -/
theorem pay3_apply (x0 : Vec Ideal S16x64x128 .f32) (w0 w1 : Vec Ideal S1x128x64 .f32) (b : Vec Ideal S1x64 .f32)
    (r : Fin 16) (q : Fin 32) (o : Fin 64) :
    k3_pay1 x0 w0 w1 b (ix3 r q o)
      = max (max (x0 (ix3 r (⟨q, by omega⟩ : Fin 64) (⟨o, by omega⟩ : Fin 128)))
                 (x0 (ix3 r (⟨q, by omega⟩ : Fin 64) (⟨64 + o, by omega⟩ : Fin 128))))
            (max (x0 (ix3 r (⟨32 + q, by omega⟩ : Fin 64) (⟨o, by omega⟩ : Fin 128)))
                 (x0 (ix3 r (⟨32 + q, by omega⟩ : Fin 64) (⟨64 + o, by omega⟩ : Fin 128))))
        + (((∑ k : Fin 128, x0 (ix3 r (⟨q, by omega⟩ : Fin 64) k) * w0 (ix3 (0 : Fin 1) k o))
            + ∑ k : Fin 128, x0 (ix3 r (⟨32 + q, by omega⟩ : Fin 64) k) * w1 (ix3 (0 : Fin 1) k o))
          + b (ix2 (0 : Fin 1) o)) := by
  unfold k3_pay1
  refine (shapeCast_apply _ _ (ix3 r q o) (ix2 (⟨32 * r + q, by omega⟩ : Fin 512) o) (by
      rw [Shape.rowMajor_val_two, Shape.rowMajor_val_three]
      show (32 * r.val + q.val) * 64 + o.val = (r.val * 32 + q.val) * 64 + o.val; ring)).trans ?_
  simp only [addf_apply, maximumf_apply]
  simp only [shapeCast_self, matmul3_apply,
    halfCols3_apply 0 _ _ _ o (⟨o, by omega⟩ : Fin 128) (Nat.zero_add _).symm,
    halfCols3_apply 64 _ _ _ o (⟨64 + o, by omega⟩ : Fin 128) rfl,
    halfRows3_apply 0 _ _ _ r q _ (⟨32 * r + q, by omega⟩ : Fin 512) rfl (⟨q, by omega⟩ : Fin 64) (Nat.zero_add _).symm,
    halfRows3_apply 32 _ _ _ r q _ (⟨32 * r + q, by omega⟩ : Fin 512) rfl (⟨32 + q, by omega⟩ : Fin 64) rfl,
    shapeCast_1ab_ab_apply, broadcastTo_1b_ab_apply]

end Payload

/-! ## The output buffer after the body, at an index -/

theorem zeros3_3 : (![0, 0, 0] : Fin 3 → Nat) = fun _ => 0 := funext fun a => by fin_cases a <;> rfl
theorem zeros3_2 : (![0, 0] : Fin 2 → Nat) = fun _ => 0 := funext fun a => by fin_cases a <;> rfl

/-- The load of the weight's first plane reads plane 0 … -/
theorem ld3_w0_apply (x1 : Vec Ideal S2x128x64 .f32) (k : Fin 128) (o : Fin 64) :
    View.ld x1 r3_w0 (ix3 (0 : Fin 1) k o) = x1 (ix3 (0 : Fin 2) k o) := by
  refine congrArg x1 (funext fun a => Fin.ext ?_)
  match a with
  | ⟨0, _⟩ => rfl
  | ⟨1, _⟩ => show 0 + 1 * k.val = k.val; omega
  | ⟨2, _⟩ => show 0 + 1 * o.val = o.val; omega

/-- … and the load of its second plane reads plane 1. -/
theorem ld3_w1_apply (x1 : Vec Ideal S2x128x64 .f32) (k : Fin 128) (o : Fin 64) :
    View.ld x1 r3_w1 (ix3 (0 : Fin 1) k o) = x1 (ix3 (1 : Fin 2) k o) := by
  refine congrArg x1 (funext fun a => Fin.ext ?_)
  match a with
  | ⟨0, _⟩ => rfl
  | ⟨1, _⟩ => show 0 + 1 * k.val = k.val; omega
  | ⟨2, _⟩ => show 0 + 1 * o.val = o.val; omega

/-- What the body leaves at `(r, q, o)` of the output's buffer, from the three input blocks. -/
theorem out3_3_apply (x0 : Vec Ideal S16x64x128 .f32) (x1 : Vec Ideal S2x128x64 .f32) (x2 : Vec Ideal S1x64 .f32)
    (r : Fin 16) (q : Fin 32) (o : Fin 64) :
    out3_3 x0 x1 x2 (ix3 r q o)
      = max (max (x0 (ix3 r (⟨q, by omega⟩ : Fin 64) (⟨o, by omega⟩ : Fin 128)))
                 (x0 (ix3 r (⟨q, by omega⟩ : Fin 64) (⟨64 + o, by omega⟩ : Fin 128))))
            (max (x0 (ix3 r (⟨32 + q, by omega⟩ : Fin 64) (⟨o, by omega⟩ : Fin 128)))
                 (x0 (ix3 r (⟨32 + q, by omega⟩ : Fin 64) (⟨64 + o, by omega⟩ : Fin 128))))
        + (((∑ k : Fin 128, x0 (ix3 r (⟨q, by omega⟩ : Fin 64) k) * x1 (ix3 (0 : Fin 2) k o))
            + ∑ k : Fin 128, x0 (ix3 r (⟨32 + q, by omega⟩ : Fin 64) k) * x1 (ix3 (1 : Fin 2) k o))
          + x2 (ix2 (0 : Fin 1) o)) := by
  unfold out3_3
  rw [View.canon_unit_zero zeros3_3]
  simp only [View.ld_unit_zero (S := S16x64x128) zeros3_3, View.ld_unit_zero (S := S1x64) zeros3_2]
  refine (pay3_apply x0 (View.ld x1 r3_w0) (View.ld x1 r3_w1) x2 r q o).trans ?_
  refine congrArg (_ + ·) (congrArg (· + _) (congrArg₂ (· + ·)
    (Finset.sum_congr rfl fun k _ => congrArg (_ * ·) (ld3_w0_apply x1 k o))
    (Finset.sum_congr rfl fun k _ => congrArg (_ * ·) (ld3_w1_apply x1 k o))))

/-! ## Regrouping the contraction -/

/-- A sum over 128 consecutive entries is the sum over its two halves of sixty-four. -/
theorem sum128_halves3 (f : Fin 128 → EReal) :
    ∑ k, f k = ∑ kj : Fin 2, ∑ ch : Fin 64, f ⟨64 * kj + ch, by omega⟩ := by
  rw [Fin.sum_univ_two]
  refine (Fin.sum_univ_add (M := EReal) (a := 64) (b := 64) f).trans ?_
  refine congrArg₂ (· + ·) (Finset.sum_congr rfl fun ch _ => congrArg f (Fin.ext ?_))
    (Finset.sum_congr rfl fun ch _ => congrArg f (Fin.ext ?_))
  · show ch.val = 64 * 0 + ch.val; omega
  · show 64 + ch.val = 64 * 1 + ch.val; omega

/-- Two sums of 128 terms and a constant, in the body's order of additions, as the constant plus one sum over the
    two sums' index, the halves' index and the position in a half: commutativity of addition only. -/
theorem regroup3 (f0 f1 : Fin 128 → EReal) (g : Fin 2 → Fin 128 → EReal) (h0 : ∀ k, g 0 k = f0 k) (h1 : ∀ k, g 1 k = f1 k)
    (c : EReal) :
    (∑ k, f0 k) + (∑ k, f1 k) + c = c + ∑ ki : Fin 2, ∑ kj : Fin 2, ∑ ch : Fin 64, g ki ⟨64 * kj + ch, by omega⟩ := by
  rw [Fin.sum_univ_two (f := fun ki => ∑ kj : Fin 2, ∑ ch : Fin 64, g ki ⟨64 * kj + ch, by omega⟩),
    ← sum128_halves3 (g 0), ← sum128_halves3 (g 1), add_comm]
  simp only [h0, h1]

/-- The body's value in the coordinates of the whole arrays is the stage's normal form. -/
theorem down3Form_of_body (X0 : S1024x64x128.Idx → EReal) (X1 : S2x128x64.Idx → EReal) (X2 : S1x64.Idx → EReal)
    (p : Fin 1024) (q : Fin 32) (o : Fin 64) :
    max (max (X0 (ix3 p (⟨q, by omega⟩ : Fin 64) (⟨o, by omega⟩ : Fin 128)))
             (X0 (ix3 p (⟨q, by omega⟩ : Fin 64) (⟨64 + o, by omega⟩ : Fin 128))))
        (max (X0 (ix3 p (⟨32 + q, by omega⟩ : Fin 64) (⟨o, by omega⟩ : Fin 128)))
             (X0 (ix3 p (⟨32 + q, by omega⟩ : Fin 64) (⟨64 + o, by omega⟩ : Fin 128))))
      + (((∑ k : Fin 128, X0 (ix3 p (⟨q, by omega⟩ : Fin 64) k) * X1 (ix3 (0 : Fin 2) k o))
          + ∑ k : Fin 128, X0 (ix3 p (⟨32 + q, by omega⟩ : Fin 64) k) * X1 (ix3 (1 : Fin 2) k o))
        + X2 (ix2 (0 : Fin 1) o))
      = down3Form X0 X1 X2 p q o := by
  unfold down3Form
  congr 1
  exact regroup3 _ _ (fun ki k => X0 (ix3 p (⟨32 * ki + q, by omega⟩ : Fin 64) k) * X1 (ix3 ki k o))
    (fun k => by simp) (fun k => by simp) _

/-! ## From blocks to the arrays -/

/-- The printed index maps over the grid: the rows' and the output's blocks move with the point along the first
    axis; the weight's and the bias's never move. -/
theorem idx_facts3 : ∀ t : Fin cfg3.N,
    win3_0.index t (0 : Fin 3) = t.val ∧ win3_0.index t (1 : Fin 3) = 0 ∧ win3_0.index t (2 : Fin 3) = 0
    ∧ win3_1.index t (0 : Fin 3) = 0 ∧ win3_1.index t (1 : Fin 3) = 0 ∧ win3_1.index t (2 : Fin 3) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

/-- Entry `(r, q', k)` of the block of rows at point `t` is entry `(16 t + r, q', k)` of the array. -/
theorem rows3_read (c : Dev nD) (t : Fin cfg3.N) (r : Fin 16) (q' : Fin 64) (k : Fin 128) (p : Fin 1024)
    (hp : p.val = 16 * t.val + r.val) :
    iblk3 V c 0 t (ix3 r q' k) = V c (Pipeline.arrRef spec3 0) (ix3 p q' k) := by
  obtain ⟨e0, e1, e2, -⟩ := idx_facts3 t
  have h : (((cfg3.win 0).blk t).view.emb (ix3 r q' k) : S1024x64x128.Idx) = ix3 p q' k := by
    funext a; apply Fin.ext
    match a with
    | ⟨0, _⟩ => show win3_0.index t (0 : Fin 3) * 16 + 1 * r.val = p.val; omega
    | ⟨1, _⟩ => show win3_0.index t (1 : Fin 3) * 64 + 1 * q'.val = q'.val; omega
    | ⟨2, _⟩ => show win3_0.index t (2 : Fin 3) * 128 + 1 * k.val = k.val; omega
  show V c (Pipeline.arrRef spec3 0) (((cfg3.win 0).blk t).view.emb (ix3 r q' k)) = _
  rw [h]

/-- The weight's block at any point is the whole weight. -/
theorem weight3_read (c : Dev nD) (t : Fin cfg3.N) (a : Fin 2) (k : Fin 128) (o : Fin 64) :
    iblk3 V c 1 t (ix3 a k o) = V c (Pipeline.arrRef spec3 1) (ix3 a k o) := by
  obtain ⟨-, -, -, e0, e1, e2, -⟩ := idx_facts3 t
  have h : (((cfg3.win 1).blk t).view.emb (ix3 a k o) : S2x128x64.Idx) = ix3 a k o := by
    funext b; apply Fin.ext
    match b with
    | ⟨0, _⟩ => show win3_1.index t (0 : Fin 3) * 2 + 1 * a.val = a.val; omega
    | ⟨1, _⟩ => show win3_1.index t (1 : Fin 3) * 128 + 1 * k.val = k.val; omega
    | ⟨2, _⟩ => show win3_1.index t (2 : Fin 3) * 64 + 1 * o.val = o.val; omega
  show V c (Pipeline.arrRef spec3 1) (((cfg3.win 1).blk t).view.emb (ix3 a k o)) = _
  rw [h]

/-- The bias's block at any point is the whole bias. -/
theorem bias3_read (c : Dev nD) (t : Fin cfg3.N) (a : Fin 1) (o : Fin 64) :
    iblk3 V c 2 t (ix2 a o) = V c (Pipeline.arrRef spec3 2) (ix2 a o) := by
  obtain ⟨-, -, -, -, -, -, e0, e1, -⟩ := idx_facts3 t
  have h : (((cfg3.win 2).blk t).view.emb (ix2 a o) : S1x64.Idx) = ix2 a o := by
    funext b; apply Fin.ext
    match b with
    | ⟨0, _⟩ => show win3_2.index t (0 : Fin 2) * 1 + 1 * a.val = a.val; omega
    | ⟨1, _⟩ => show win3_2.index t (1 : Fin 2) * 64 + 1 * o.val = o.val; omega
  show V c (Pipeline.arrRef spec3 2) (((cfg3.win 2).blk t).view.emb (ix2 a o)) = _
  rw [h]

/-- What point `t` writes back is block `t` of the stage of the input arrays as the region found them. -/
theorem flushed3_eq (c : Dev nD) (t : Fin cfg3.N) :
    (dat3 (F := Ideal) V c).flushed 3 t
      = ((cfg3.win 3).blk t).view.read (Elt Ideal)
          (down3Arr (V c (Pipeline.arrRef spec3 0)) (V c (Pipeline.arrRef spec3 1)) (V c (Pipeline.arrRef spec3 2))) := by
  show (cfg3.win 3).cut (grid3.coords t) ((dat3 V c).after 3 t) = _
  rw [after3_3]
  have ht : t.val < 64 := lt_of_lt_of_eq t.isLt N_3
  obtain ⟨-, -, -, -, -, -, -, -, e0, e1, e2⟩ := idx_facts3 t
  refine funext fun (j : S16x32x64.Idx) => ?_
  obtain ⟨r, q, o, rfl⟩ : ∃ (r : Fin 16) (q : Fin 32) (o : Fin 64), j = ix3 r q o := ⟨j 0, j 1, j 2, eq_ix3 j⟩
  have hemb : (((cfg3.win 3).blk t).view.emb (ix3 r q o) : S1024x32x64.Idx)
      = ix3 (⟨16 * t.val + r.val, by omega⟩ : Fin 1024) q o := by
    funext a; apply Fin.ext
    match a with
    | ⟨0, _⟩ => show win3_3.index t (0 : Fin 3) * 16 + 1 * r.val = 16 * t.val + r.val; omega
    | ⟨1, _⟩ => show win3_3.index t (1 : Fin 3) * 32 + 1 * q.val = q.val; omega
    | ⟨2, _⟩ => show win3_3.index t (2 : Fin 3) * 64 + 1 * o.val = o.val; omega
  show out3_3 (iblk3 V c 0 t) (iblk3 V c 1 t) (iblk3 V c 2 t) (ix3 r q o)
    = down3Arr (V c (Pipeline.arrRef spec3 0)) (V c (Pipeline.arrRef spec3 1)) (V c (Pipeline.arrRef spec3 2))
        (((cfg3.win 3).blk t).view.emb (ix3 r q o))
  rw [hemb, down3Arr_apply]
  refine (out3_3_apply (iblk3 V c 0 t) (iblk3 V c 1 t) (iblk3 V c 2 t) r q o).trans ?_
  simp only [rows3_read V c t r _ _ (⟨16 * t.val + r.val, by omega⟩ : Fin 1024) rfl, weight3_read V c t, bias3_read V c t]
  exact down3Form_of_body _ _ _ _ q o

/-- An index of the output array is in point `t`'s block iff each coordinate is in the block's range on its axis. -/
theorem mem_blk3 (t : Fin cfg3.N) (i : S1024x32x64.Idx) :
    i ∈ ((cfg3.win 3).blk t).view.set ↔ ∀ a : Fin 3, win3_3.index t a * S16x32x64.size a ≤ (i a).val
      ∧ (i a).val < win3_3.index t a * S16x32x64.size a + S16x32x64.size a := by
  show i ∈ ((View.whole main_call0_v26).slice (win3_3.rect t)).set ↔ _
  rw [View.set_slice_whole, Rect.mem_set_unit]
  exact Iff.rfl

/-- Every index of the output array is in the block of the point that holds its row: row `p` is in block `p / 16`. -/
theorem cover3 (i : S1024x32x64.Idx) :
    ∃ t : Fin cfg3.N, (cfg3.win 3).flush t = true ∧ i ∈ ((cfg3.win 3).blk t).view.set := by
  have hi0 : (i 0).val < 1024 := (i 0).isLt
  have hi1 : (i 1).val < 32 := (i 1).isLt
  have hi2 : (i 2).val < 64 := (i 2).isLt
  have hN : (i 0).val / 16 < cfg3.N := by
    show (i 0).val / 16 < grid3.N
    rw [N_3]; omega
  refine ⟨⟨(i 0).val / 16, hN⟩, flush3_3 _, ?_⟩
  obtain ⟨-, -, -, -, -, -, -, -, e0, e1, e2⟩ := idx_facts3 ⟨(i 0).val / 16, hN⟩
  have e0' : win3_3.index ⟨(i 0).val / 16, hN⟩ (0 : Fin 3) = (i 0).val / 16 := e0
  rw [mem_blk3]
  intro a
  match a with
  | ⟨0, _⟩ =>
    show win3_3.index ⟨(i 0).val / 16, hN⟩ (0 : Fin 3) * 16 ≤ (i 0).val
      ∧ (i 0).val < win3_3.index ⟨(i 0).val / 16, hN⟩ (0 : Fin 3) * 16 + 16
    omega
  | ⟨1, _⟩ =>
    show win3_3.index ⟨(i 0).val / 16, hN⟩ (1 : Fin 3) * 32 ≤ (i 1).val
      ∧ (i 1).val < win3_3.index ⟨(i 0).val / 16, hN⟩ (1 : Fin 3) * 32 + 32
    omega
  | ⟨2, _⟩ =>
    show win3_3.index ⟨(i 0).val / 16, hN⟩ (2 : Fin 3) * 64 ≤ (i 2).val
      ∧ (i 2).val < win3_3.index ⟨(i 0).val / 16, hN⟩ (2 : Fin 3) * 64 + 64
    omega

/-! ## The arrays after the region -/

/-- The inputs' arrays end as the region found them: an input window is never written back. -/
theorem kept3 (c : Dev nD) (w : Fin cfg3.W) (hw : w ≠ 3) :
    (dat3 (F := Ideal) V c).arrAt w cfg3.N = V c (Pipeline.arrRef spec3 w) := by
  match w, hw with
  | ⟨0, _⟩, _ => exact ((dat3 V c).arrAt_in 0 rfl _).trans (A_eq3 V c 0)
  | ⟨1, _⟩, _ => exact ((dat3 V c).arrAt_in 1 rfl _).trans (A_eq3 V c 1)
  | ⟨2, _⟩, _ => exact ((dat3 V c).arrAt_in 2 rfl _).trans (A_eq3 V c 2)
  | ⟨3, _⟩, hw => exact absurd rfl hw

/-- The output array after the region is the stage of the input arrays as the region found them. -/
theorem final3_arr (c : Dev nD) :
    (dat3 (F := Ideal) V c).arrAt 3 cfg3.N
      = down3Arr (V c (Pipeline.arrRef spec3 0)) (V c (Pipeline.arrRef spec3 1)) (V c (Pipeline.arrRef spec3 2)) :=
  (dat3 V c).arrAt_eq_of_cover 3 _ (fun t _ => flushed3_eq V c t) cover3

/-- The output array after the region, entry by entry. -/
theorem final3 (c : Dev nD) (p : Fin 1024) (q : Fin 32) (o : Fin 64) :
    (dat3 (F := Ideal) V c).arrAt 3 cfg3.N (ix3 p q o)
      = down3Form (V c (Pipeline.arrRef spec3 0)) (V c (Pipeline.arrRef spec3 1)) (V c (Pipeline.arrRef spec3 2)) p q o := by
  rw [final3_arr]; rfl

end Cert.ReferenceIdeal.Hand

end
-- ==== Proof.RefHost3.lean ====
/- What host stretch 3 leaves in the arrays down stage 3 reads, at an index, over the buffers' contents before it:
   the previous stage's rows regrouped as row pairs, the weights with tap and channel joined, the bias row. -/
import proofs.«178811_g2000006188366390_pallasbulk_758_10_alg».proof.Proof.Gen.ReferenceIdeal.Launch
import proofs.«178811_g2000006188366390_pallasbulk_758_10_alg».proof.Proof.Spec
import proofs.«178811_g2000006188366390_pallasbulk_758_10_alg».proof.Proof.RefHostLemmas
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads

variable (W : Valuation τ sig (Elt Ideal))

/-- Row pair p: entry (a, b) is row 2p + a / 32, column 2 (a % 32) + b / 64, channel b % 64 of the previous rows. -/
theorem host3_rows (p : Fin 1024) (a : Fin 64) (b : Fin 128) :
    (StableHlo.after (hostOps3 (F := Ideal)) W (Proc.devRef .tc main_call0_v23) : S1024x64x128.Idx → EReal) (ix3 p a b)
      = (W (Proc.devRef .tc main_call0_v21) : S2048x64x64.Idx → EReal)
          (ix3 ⟨2 * p.val + a.val / 32, by have := p.isLt; have := a.isLt; omega⟩
            ⟨2 * (a.val % 32) + b.val / 64, by have := b.isLt; omega⟩ ⟨b.val % 64, by omega⟩) := by
  have e : (StableHlo.after (hostOps3 (F := Ideal)) W (Proc.devRef .tc main_call0_v23) : S1024x64x128.Idx → EReal)
      = shapeCast S1024x64x128 (shapeCast S32x64x64x64 (W (Proc.devRef .tc main_call0_v21) : S2048x64x64.Idx → EReal)
          shapeCasts_S2048x64x64_S32x64x64x64) shapeCasts_S32x64x64x64_S1024x64x128 := by
    after_results; rfl
  exact (congrFun e _).trans (pairRows_32 _ _ _ p a b)

/-- The weights with the column tap and the channel joined. -/
theorem host3_w (ki : Fin 2) (mm : Fin 128) (o : Fin 64) :
    (StableHlo.after (hostOps3 (F := Ideal)) W (Proc.devRef .tc main_call0_v24) : S2x128x64.Idx → EReal) (ix3 ki mm o)
      = rd4 (W (Proc.devRef .tc main_arg7) : S2x2x64x64.Idx → EReal) ki.val (mm.val / 64) (mm.val % 64) o.val := by
  have e : (StableHlo.after (hostOps3 (F := Ideal)) W (Proc.devRef .tc main_call0_v24) : S2x128x64.Idx → EReal)
      = shapeCast S2x128x64 (W (Proc.devRef .tc main_arg7) : S2x2x64x64.Idx → EReal) shapeCasts_S2x2x64x64_S2x128x64 := by
    after_results; rfl
  exact (congrFun e _).trans (wPair _ _ ki mm o)

/-- The bias as a row. -/
theorem host3_b (o : Fin 64) :
    (StableHlo.after (hostOps3 (F := Ideal)) W (Proc.devRef .tc main_call0_v25) : S1x64.Idx → EReal) (ix2 0 o)
      = rd1 (W (Proc.devRef .tc main_arg8) : S64.Idx → EReal) o.val := by
  have e : (StableHlo.after (hostOps3 (F := Ideal)) W (Proc.devRef .tc main_call0_v25) : S1x64.Idx → EReal)
      = shapeCast S1x64 (W (Proc.devRef .tc main_arg8) : S64.Idx → EReal) shapeCasts_S64_S1x64 := by
    after_results; rfl
  exact (congrFun e _).trans (bias64 _ _ o)

end Cert.ReferenceIdeal.Hand

end
-- ==== Proof.RefReg3.lean ====
/- Region 3 of the reference with its host stretch, against the specification: if the rows before it are a stage of
   the specification, the rows the down stage leaves are the specification's down stage of it. -/
import proofs.«178811_g2000006188366390_pallasbulk_758_10_alg».proof.Proof.RefR3Value
import proofs.«178811_g2000006188366390_pallasbulk_758_10_alg».proof.Proof.RefHost3
import proofs.«178811_g2000006188366390_pallasbulk_758_10_alg».proof.Proof.RefStages

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads Cert.Stages

variable (Wc : Dev nD → Valuation τ sig (Elt Ideal))

/-- The contents region 3 is entered from: host stretch 3 applied to the contents before it. -/
abbrev entry3 : (c : Dev nD) → (b : Ref sig .tc) → Buf (Elt Ideal) ((c : Thread nD τ).loc b) :=
  fun c b => StableHlo.after (hostOps3 (F := Ideal)) (Wc c) b

theorem region3_spec (c : Dev nD) (v : A4)
    (hprev : ∀ (r : Fin 2048) (x : Fin 64) (o : Fin 64),
      (Wc c (Proc.devRef .tc main_call0_v21) : S2048x64x64.Idx → EReal) (ix3 r x o) = v (r.val / 64) (r.val % 64) x.val o.val)
    (p : Fin 1024) (q : Fin 32) (o : Fin 64) :
    (dat3 (F := Ideal) (entry3 Wc) c).arrAt 3 cfg3.N (ix3 p q o)
      = down v (rd4 (Wc c (Proc.devRef .tc main_arg7) : S2x2x64x64.Idx → EReal))
          (rd1 (Wc c (Proc.devRef .tc main_arg8) : S64.Idx → EReal)) (p.val / 32) (p.val % 32) q.val o.val := by
  have hp' : ∀ (r x o : Nat) (hr : r < 2048) (hx : x < 64) (ho : o < 64),
      (Wc c (Proc.devRef .tc main_call0_v21) : S2048x64x64.Idx → EReal) (ix3 ⟨r, hr⟩ ⟨x, hx⟩ ⟨o, ho⟩) = v (r / 64) (r % 64) x o :=
    fun r x o hr hx ho => hprev ⟨r, hr⟩ ⟨x, hx⟩ ⟨o, ho⟩
  refine (final3 (entry3 Wc) c p q o).trans ?_
  refine down_stage_32 _ _ _ v _ _ ?hX0 (host3_w (Wc c)) (host3_b (Wc c)) p q o
  intro p a bb
  have hpl := p.isLt; have hal := a.isLt; have hbl := bb.isLt
  exact (host3_rows (Wc c) p a bb).trans ((hp' _ _ _ _ _ _).trans (A4_congr v (by omega) (by omega) rfl rfl))

end Cert.ReferenceIdeal.Hand

end
-- ==== Proof.RefR4Value.lean ====
import proofs.«178811_g2000006188366390_pallasbulk_758_10_alg».proof.Proof.RefR4
import proofs.«178811_g2000006188366390_pallasbulk_758_10_alg».proof.Proof.LibDense
import Idealize.ShloMosaic.Lib.Pipeline.Value
import Idealize.ShloMosaic.Lib.ValueIdx
import Idealize.ShloMosaic.Lib.ValueLayout
import Idealize.ShloMosaic.Lib.Tactic

/-!
# The reference's fifth call, read: the output array as a convolution of the arrays found at entry

Over the extended reals. The three image windows hold the same 1024 rows of 34 x 64 entries
shifted by zero, one and two image rows; output entry `(r, x, o)` is the sum over the tap row
`di`, the tap column `dj` and the input channel `ci` of entry `(r, x + dj, ci)` of the
`di`-th shifted image times weight entry `(di, dj, ci, o)`, plus bias entry `o`.

The body works on a block of eight rows: it lays the 8 x 32 positions of the block out as 256
matrix rows (position `(a, x)` is row `32 a + x`), multiplies the block cut to columns
`dj … dj + 31` by the 64 x 128 matrix of tap `(di, dj)`, and adds the nine products one after
the other onto zero. That order and the order of the triple sum differ only by associativity of
addition and by adding zero on the left. Block `t` holds rows `8 t … 8 t + 7`, so row `r`
is written by grid point `r / 8`.
-/

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.ValueIdx
open Idealize.ShloMosaic.Pipeline (Dat)

/-! ## One tap at an entry -/

/-- One tap of the body at position `(a, x)` of the block and output channel `o`: the image
    block cut to columns `dj … dj + 31`, laid out as 256 rows, times the tap's 64 x 128 matrix,
    is the sum over the input channel of image entry `(a, dj + x, ci)` times matrix entry
    `(ci, o)`. Row `p` of the 256 is position `(a, x)` when `p = 32 a + x`. -/
theorem tap4_apply (dj : Nat) (hs : S8x34x64.Slices ![0, dj, 0] S8x32x64) (hc : S8x32x64.ShapeCasts S256x64)
    (hw : S1x1x64x128.ShapeCasts S64x128)
    (X : FVec Ideal S8x34x64 .f32) (Wt : FVec Ideal S1x1x64x128 .f32) (a : Fin 8) (x : Fin 32) (o : Fin 128)
    (p : Fin 256) (hp : p.val = a.val * 32 + x.val) (hdj : x.val + dj < 34) :
    matmul (F := Ideal) dot_S256x64_S64x128_S256x128_1_0_0_1_n_n none
        (shapeCast S256x64 (extractStridedSlice S8x32x64 ![0, dj, 0] X hs) hc) (shapeCast S64x128 Wt hw)
        (constant (F := Ideal) S256x128 .f32 0x00000000#32) (ix2 p o)
      = ∑ ci : Fin 64, X (ix3 a ⟨x.val + dj, hdj⟩ ci) * Wt (ix4 0 0 ci o) := by
  refine (Cert.Dense.matmul_zero_apply dot_S256x64_S64x128_S256x128_1_0_0_1_n_n_wf none _ _ p o).trans ?_
  refine Finset.sum_congr rfl fun ci _ => ?_
  congr 1
  · refine (shapeCast_apply _ hc (ix2 p ci) (ix3 a x ci) ?_).trans ?_
    · rw [Shape.rowMajor_val_two, Shape.rowMajor_val_three]
      show (a.val * 32 + x.val) * 64 + ci.val = p.val * 64 + ci.val
      rw [hp]
    · exact slice3_axis1_apply dj X hs a x ci ⟨x.val + dj, hdj⟩ (Nat.add_comm _ _)
  · refine shapeCast_apply _ hw (ix2 ci o) (ix4 0 0 ci o) ?_
    rw [Shape.rowMajor_val_two, Shape.rowMajor_val_four]
    show ((0 * 1 + 0) * 64 + ci.val) * 128 + o.val = ci.val * 128 + o.val
    omega

/-- The matrix of tap `(di, dj)` read out of the weight: its entry `(ci, o)` is weight entry
    `(di, dj, ci, o)`. -/
theorem ldTap4 (i j : Nat) (inb : ∀ a, (![i, j, 0, 0] : Fin 4 → Nat) a + S1x1x64x128.size a ≤ S3x3x64x128.size a)
    (x3 : Vec Ideal S3x3x64x128 .f32) (di dj : Fin 3) (hi : di.val = i) (hj : dj.val = j) (ci : Fin 64) (o : Fin 128) :
    View.ld x3 (Rect.unit (s := S3x3x64x128) ![i, j, 0, 0] S1x1x64x128.size inb) (ix4 0 0 ci o) = x3 (ix4 di dj ci o) := by
  show x3 _ = x3 _
  congr 1
  funext ax; apply Fin.ext
  match ax with
  | ⟨0, _⟩ => show i + 1 * 0 = di.val; omega
  | ⟨1, _⟩ => show j + 1 * 0 = dj.val; omega
  | ⟨2, _⟩ => show 0 + 1 * ci.val = ci.val; omega
  | ⟨3, _⟩ => show 0 + 1 * o.val = o.val; omega

theorem hz3_4 : (![0, 0, 0] : Fin 3 → Nat) = fun _ => 0 := funext fun a => by fin_cases a <;> rfl
theorem hz2_4 : (![0, 0] : Fin 2 → Nat) = fun _ => 0 := funext fun a => by fin_cases a <;> rfl

/-! ## The accumulated taps and the stored block at an entry -/

/-- The sum over the input channel for tap `(di, dj)` at block position `(a, x)` and output channel `o`. -/
def tapSum4 (X : Vec Ideal S8x34x64 .f32) (x3 : Vec Ideal S3x3x64x128 .f32) (di dj : Fin 3) (a : Fin 8) (x : Fin 32) (o : Fin 128) : EReal :=
  ∑ ci : Fin 64, X (ix3 a ⟨x.val + dj.val, by omega⟩ ci) * x3 (ix4 di dj ci o)

/-- One tap with its matrix read out of the weight. -/
theorem tapLd4 (X : Vec Ideal S8x34x64 .f32) (x3 : Vec Ideal S3x3x64x128 .f32) (i j : Nat)
    (inb : ∀ a, (![i, j, 0, 0] : Fin 4 → Nat) a + S1x1x64x128.size a ≤ S3x3x64x128.size a)
    (hs : S8x34x64.Slices ![0, j, 0] S8x32x64) (hc : S8x32x64.ShapeCasts S256x64) (hw : S1x1x64x128.ShapeCasts S64x128)
    (di dj : Fin 3) (hi : di.val = i) (hj : dj.val = j) (a : Fin 8) (x : Fin 32) (o : Fin 128)
    (p : Fin 256) (hp : p.val = a.val * 32 + x.val) :
    matmul (F := Ideal) (φ₁ := .f32) (φ₂ := .f32) dot_S256x64_S64x128_S256x128_1_0_0_1_n_n none
        (shapeCast S256x64 (extractStridedSlice S8x32x64 ![0, j, 0] X hs) hc)
        (shapeCast S64x128 (View.ld x3 (Rect.unit (s := S3x3x64x128) ![i, j, 0, 0] S1x1x64x128.size inb)) hw)
        (constant (F := Ideal) S256x128 .f32 0x00000000#32) (ix2 p o)
      = tapSum4 X x3 di dj a x o := by
  subst hi; subst hj
  unfold tapSum4
  refine (tap4_apply dj.val hs hc hw X _ a x o p hp (by omega)).trans ?_
  refine Finset.sum_congr rfl fun ci _ => ?_
  rw [ldTap4 di.val dj.val inb x3 di dj rfl rfl ci o]

set_option maxHeartbeats 1000000 in
/-- The body's accumulator at row `p = 32 a + x` and column `o`: the nine tap sums added one
    after the other onto zero. -/
theorem acc4_apply (x0 x1 x2 : Vec Ideal S8x34x64 .f32) (x3 : Vec Ideal S3x3x64x128 .f32) (a : Fin 8) (x : Fin 32) (o : Fin 128)
    (p : Fin 256) (hp : p.val = a.val * 32 + x.val) :
    acc4 x0 x1 x2 x3 (ix2 p o)
      = ((((((((0 + tapSum4 x0 x3 0 0 a x o) + tapSum4 x0 x3 0 1 a x o) + tapSum4 x0 x3 0 2 a x o)
          + tapSum4 x1 x3 1 0 a x o) + tapSum4 x1 x3 1 1 a x o) + tapSum4 x1 x3 1 2 a x o)
          + tapSum4 x2 x3 2 0 a x o) + tapSum4 x2 x3 2 1 a x o) + tapSum4 x2 x3 2 2 a x o := by
  unfold acc4 k4_pay5 k4_pay3 k4_pay4 k4_pay2
  dsimp only
  simp only [shapeCast_self, View.ld_unit_zero (S := S8x34x64) hz3_4]
  simp only [addf_apply, broadcast_apply]
  rw [tapLd4 x0 x3 0 0 _ _ _ _ 0 0 rfl rfl a x o p hp, tapLd4 x0 x3 0 1 _ _ _ _ 0 1 rfl rfl a x o p hp,
    tapLd4 x0 x3 0 2 _ _ _ _ 0 2 rfl rfl a x o p hp, tapLd4 x1 x3 1 0 _ _ _ _ 1 0 rfl rfl a x o p hp,
    tapLd4 x1 x3 1 1 _ _ _ _ 1 1 rfl rfl a x o p hp, tapLd4 x1 x3 1 2 _ _ _ _ 1 2 rfl rfl a x o p hp,
    tapLd4 x2 x3 2 0 _ _ _ _ 2 0 rfl rfl a x o p hp, tapLd4 x2 x3 2 1 _ _ _ _ 2 1 rfl rfl a x o p hp,
    tapLd4 x2 x3 2 2 _ _ _ _ 2 2 rfl rfl a x o p hp]
  rw [show (FloatOps.ofBits (F := Ideal) .f32 0x00000000#32) = 0 from Ideal.ofBits_zero_f32]

/-- The stored block at entry `(a, x, o)`: the triple sum over the taps and the input channel, plus the bias. -/
theorem pay4_apply (x0 x1 x2 : Vec Ideal S8x34x64 .f32) (x3 : Vec Ideal S3x3x64x128 .f32) (x4 : Vec Ideal S1x128 .f32)
    (a : Fin 8) (x : Fin 32) (o : Fin 128) :
    k4_pay1 (acc4 x0 x1 x2 x3) (View.ld x4 rBias4) (ix3 a x o)
      = (∑ di : Fin 3, ∑ dj : Fin 3, ∑ ci : Fin 64,
          (match di with | ⟨0, _⟩ => x0 | ⟨1, _⟩ => x1 | ⟨2, _⟩ => x2) (ix3 a ⟨x.val + dj.val, by omega⟩ ci) * x3 (ix4 di dj ci o))
        + x4 (ix2 0 o) := by
  unfold k4_pay1
  refine (shapeCast_apply _ _ (ix3 a x o) (ix2 (⟨a.val * 32 + x.val, by omega⟩ : Fin 256) o) ?_).trans ?_
  · rw [Shape.rowMajor_val_two, Shape.rowMajor_val_three]
    show (a.val * 32 + x.val) * 128 + o.val = (a.val * 32 + x.val) * 128 + o.val
    rfl
  rw [addf_apply, acc4_apply x0 x1 x2 x3 a x o _ rfl, broadcastTo_1b_ab_apply, shapeCast_self,
    View.ld_unit_zero (S := S1x128) hz2_4]
  simp only [Fin.sum_univ_three, tapSum4, zero_add, add_assoc]

/-! ## From the blocks to the arrays -/

/-- The convolution of the five arrays found at entry, as one array. -/
def conv4 (X0 X1 X2 : S1024x34x64.Idx → EReal) (X3 : S3x3x64x128.Idx → EReal) (X4 : S1x128.Idx → EReal)
    (r : Fin 1024) (x : Fin 32) (o : Fin 128) : EReal :=
  (∑ di : Fin 3, ∑ dj : Fin 3, ∑ ci : Fin 64,
      (match di with | ⟨0, _⟩ => X0 | ⟨1, _⟩ => X1 | ⟨2, _⟩ => X2) (ix3 r ⟨x.val + dj.val, by omega⟩ ci) * X3 (ix4 di dj ci o))
    + X4 (ix2 0 o)

variable (V : (c : Dev nD) → (b : Ref sig .tc) → Buf (Elt Ideal) ((c : Thread nD τ).loc b))

/-- The output array the call leaves, entry by entry. -/
def result4 (c : Dev nD) : S1024x32x128.Idx → EReal := fun i =>
  conv4 (V c main_call0_v32) (V c main_call0_v34) (V c main_call0_v36) (V c main_call0_v28) (V c main_call0_v37) (i 0) (i 1) (i 2)

/-- The index maps over the grid: at point `t` the image windows and the output window sit at
    block `t` of their leading axis, the weight and the bias at their only block. -/
theorem idx_facts4 : ∀ t : Fin cfg4.N,
    win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 3) = t.val ∧ win4_2.index t (1 : Fin 3) = 0 ∧ win4_2.index t (2 : Fin 3) = 0
    ∧ win4_3.index t (0 : Fin 4) = 0 ∧ win4_3.index t (1 : Fin 4) = 0 ∧ win4_3.index t (2 : Fin 4) = 0 ∧ win4_3.index t (3 : Fin 4) = 0
    ∧ win4_4.index t (0 : Fin 2) = 0 ∧ win4_4.index t (1 : Fin 2) = 0
    ∧ win4_5.index t (0 : Fin 3) = t.val ∧ win4_5.index t (1 : Fin 3) = 0 ∧ win4_5.index t (2 : Fin 3) = 0 :=
  (by decide +kernel : ∀ t : Fin grid4.N, _)

/-- Entry `(a, k, ci)` of an image window's block at point `t` is entry `(8 t + a, k, ci)` of its array. -/
theorem iblk4_0_apply (c : Dev nD) (t : Fin cfg4.N) (a : Fin 8) (k : Fin 34) (ci : Fin 64) (r : Fin 1024) (hr : r.val = t.val * 8 + a.val) :
    iblk4 V c 0 t (ix3 a k ci) = (V c main_call0_v32 : S1024x34x64.Idx → EReal) (ix3 r k ci) := by
  show V c main_call0_v32 (((cfg4.win 0).blk t).view.emb (ix3 a k ci)) = _
  obtain ⟨e0, e1, e2, -⟩ := idx_facts4 t
  refine congrArg _ (funext fun ax => Fin.ext ?_)
  match ax with
  | ⟨0, _⟩ => show win4_0.index t (0 : Fin 3) * 8 + 1 * a.val = r.val; omega
  | ⟨1, _⟩ => show win4_0.index t (1 : Fin 3) * 34 + 1 * k.val = k.val; omega
  | ⟨2, _⟩ => show win4_0.index t (2 : Fin 3) * 64 + 1 * ci.val = ci.val; omega
theorem iblk4_1_apply (c : Dev nD) (t : Fin cfg4.N) (a : Fin 8) (k : Fin 34) (ci : Fin 64) (r : Fin 1024) (hr : r.val = t.val * 8 + a.val) :
    iblk4 V c 1 t (ix3 a k ci) = (V c main_call0_v34 : S1024x34x64.Idx → EReal) (ix3 r k ci) := by
  show V c main_call0_v34 (((cfg4.win 1).blk t).view.emb (ix3 a k ci)) = _
  obtain ⟨-, -, -, e0, e1, e2, -⟩ := idx_facts4 t
  refine congrArg _ (funext fun ax => Fin.ext ?_)
  match ax with
  | ⟨0, _⟩ => show win4_1.index t (0 : Fin 3) * 8 + 1 * a.val = r.val; omega
  | ⟨1, _⟩ => show win4_1.index t (1 : Fin 3) * 34 + 1 * k.val = k.val; omega
  | ⟨2, _⟩ => show win4_1.index t (2 : Fin 3) * 64 + 1 * ci.val = ci.val; omega
theorem iblk4_2_apply (c : Dev nD) (t : Fin cfg4.N) (a : Fin 8) (k : Fin 34) (ci : Fin 64) (r : Fin 1024) (hr : r.val = t.val * 8 + a.val) :
    iblk4 V c 2 t (ix3 a k ci) = (V c main_call0_v36 : S1024x34x64.Idx → EReal) (ix3 r k ci) := by
  show V c main_call0_v36 (((cfg4.win 2).blk t).view.emb (ix3 a k ci)) = _
  obtain ⟨-, -, -, -, -, -, e0, e1, e2, -⟩ := idx_facts4 t
  refine congrArg _ (funext fun ax => Fin.ext ?_)
  match ax with
  | ⟨0, _⟩ => show win4_2.index t (0 : Fin 3) * 8 + 1 * a.val = r.val; omega
  | ⟨1, _⟩ => show win4_2.index t (1 : Fin 3) * 34 + 1 * k.val = k.val; omega
  | ⟨2, _⟩ => show win4_2.index t (2 : Fin 3) * 64 + 1 * ci.val = ci.val; omega
/-- The weight's and the bias's blocks are the arrays. -/
theorem iblk4_3_apply (c : Dev nD) (t : Fin cfg4.N) (di dj : Fin 3) (ci : Fin 64) (o : Fin 128) :
    iblk4 V c 3 t (ix4 di dj ci o) = (V c main_call0_v28 : S3x3x64x128.Idx → EReal) (ix4 di dj ci o) := by
  show V c main_call0_v28 (((cfg4.win 3).blk t).view.emb (ix4 di dj ci o)) = _
  obtain ⟨-, -, -, -, -, -, -, -, -, e0, e1, e2, e3, -⟩ := idx_facts4 t
  refine congrArg _ (funext fun ax => Fin.ext ?_)
  match ax with
  | ⟨0, _⟩ => show win4_3.index t (0 : Fin 4) * 3 + 1 * di.val = di.val; omega
  | ⟨1, _⟩ => show win4_3.index t (1 : Fin 4) * 3 + 1 * dj.val = dj.val; omega
  | ⟨2, _⟩ => show win4_3.index t (2 : Fin 4) * 64 + 1 * ci.val = ci.val; omega
  | ⟨3, _⟩ => show win4_3.index t (3 : Fin 4) * 128 + 1 * o.val = o.val; omega
theorem iblk4_4_apply (c : Dev nD) (t : Fin cfg4.N) (o : Fin 128) :
    iblk4 V c 4 t (ix2 0 o) = (V c main_call0_v37 : S1x128.Idx → EReal) (ix2 0 o) := by
  show V c main_call0_v37 (((cfg4.win 4).blk t).view.emb (ix2 0 o)) = _
  obtain ⟨-, -, -, -, -, -, -, -, -, -, -, -, -, e0, e1, -⟩ := idx_facts4 t
  refine congrArg _ (funext fun ax => Fin.ext ?_)
  match ax with
  | ⟨0, _⟩ => show win4_4.index t (0 : Fin 2) * 1 + 1 * 0 = 0; omega
  | ⟨1, _⟩ => show win4_4.index t (1 : Fin 2) * 128 + 1 * o.val = o.val; omega

/-- What point `t` writes back is block `t` of the convolution of the arrays found at entry. -/
theorem flushed4_eq (c : Dev nD) (t : Fin cfg4.N) :
    (dat4 (F := Ideal) V c).flushed 5 t = ((cfg4.win 5).blk t).view.read (Elt Ideal) (result4 V c) := by
  show (cfg4.win 5).cut (grid4.coords t) ((dat4 V c).after 5 t) = _
  rw [after4_5]
  unfold out4_5
  rw [View.canon_unit_zero hz3_4]
  have hpt : ∀ (a : Fin 8) (x : Fin 32) (o : Fin 128),
      k4_pay1 (acc4 (iblk4 V c 0 t) (iblk4 V c 1 t) (iblk4 V c 2 t) (iblk4 V c 3 t)) (View.ld (iblk4 V c 4 t) rBias4) (ix3 a x o)
        = result4 V c (((cfg4.win 5).blk t).view.emb (ix3 a x o)) := by
    intro a x o
    have hr : t.val * 8 + a.val < 1024 := by
      have ht : t.val < 128 := lt_of_lt_of_eq t.isLt (N_4 : cfg4.N = 128)
      omega
    obtain ⟨-, -, -, -, -, -, -, -, -, -, -, -, -, -, -, e0, e1, e2⟩ := idx_facts4 t
    have hemb : ((cfg4.win 5).blk t).view.emb (ix3 a x o) = (ix3 (⟨t.val * 8 + a.val, hr⟩ : Fin 1024) x o : S1024x32x128.Idx) := by
      funext ax; apply Fin.ext
      match ax with
      | ⟨0, _⟩ => show win4_5.index t (0 : Fin 3) * 8 + 1 * a.val = t.val * 8 + a.val; omega
      | ⟨1, _⟩ => show win4_5.index t (1 : Fin 3) * 32 + 1 * x.val = x.val; omega
      | ⟨2, _⟩ => show win4_5.index t (2 : Fin 3) * 128 + 1 * o.val = o.val; omega
    rw [hemb]
    refine (pay4_apply (iblk4 V c 0 t) (iblk4 V c 1 t) (iblk4 V c 2 t) (iblk4 V c 3 t) (iblk4 V c 4 t) a x o).trans ?_
    show _ = conv4 (V c main_call0_v32) (V c main_call0_v34) (V c main_call0_v36) (V c main_call0_v28) (V c main_call0_v37) ⟨t.val * 8 + a.val, hr⟩ x o
    unfold conv4
    rw [iblk4_4_apply V c t o]
    refine congrArg (· + _) ?_
    refine Finset.sum_congr rfl fun di _ => Finset.sum_congr rfl fun dj _ => Finset.sum_congr rfl fun ci _ => ?_
    rw [iblk4_3_apply V c t di dj ci o]
    refine congrArg (· * _) ?_
    match di with
    | ⟨0, _⟩ => exact iblk4_0_apply V c t a _ ci _ rfl
    | ⟨1, _⟩ => exact iblk4_1_apply V c t a _ ci _ rfl
    | ⟨2, _⟩ => exact iblk4_2_apply V c t a _ ci _ rfl
  funext j
  rw [eq_ix3 j]
  exact hpt _ _ _

/-- An entry of the output array is in point `t`'s block iff each coordinate is in the block's range. -/
theorem mem_blk4 (t : Fin cfg4.N) (i : S1024x32x128.Idx) :
    i ∈ ((cfg4.win 5).blk t).view.set ↔ ∀ a : Fin 3, win4_5.index t a * S8x32x128.size a ≤ (i a).val ∧ (i a).val < win4_5.index t a * S8x32x128.size a + S8x32x128.size a := by
  show i ∈ ((View.whole main_call0_v38).slice (win4_5.rect t)).set ↔ _
  rw [View.set_slice_whole, Rect.mem_set_unit]
  exact Iff.rfl

/-- Every entry of the output array is in the block of the point that holds its row: row `r` is in block `r / 8`. -/
theorem cover4 (i : S1024x32x128.Idx) :
    ∃ t : Fin cfg4.N, (cfg4.win 5).flush t = true ∧ i ∈ ((cfg4.win 5).blk t).view.set := by
  have h0 : (i 0).val < 1024 := (i 0).isLt
  have h1 : (i 1).val < 32 := (i 1).isLt
  have h2 : (i 2).val < 128 := (i 2).isLt
  have ht : (i 0).val / 8 < cfg4.N := lt_of_lt_of_eq (by omega : (i 0).val / 8 < 128) (N_4 : cfg4.N = 128).symm
  refine ⟨⟨(i 0).val / 8, ht⟩, flush4_5 _, ?_⟩
  rw [mem_blk4]
  obtain ⟨-, -, -, -, -, -, -, -, -, -, -, -, -, -, -, e0, e1, e2⟩ := idx_facts4 ⟨(i 0).val / 8, ht⟩
  have e0' : win4_5.index ⟨(i 0).val / 8, ht⟩ (0 : Fin 3) = (i 0).val / 8 := e0
  intro a
  match a with
  | ⟨0, _⟩ =>
    show win4_5.index ⟨(i 0).val / 8, ht⟩ (0 : Fin 3) * 8 ≤ (i 0).val ∧ (i 0).val < win4_5.index ⟨(i 0).val / 8, ht⟩ (0 : Fin 3) * 8 + 8
    omega
  | ⟨1, _⟩ =>
    show win4_5.index ⟨(i 0).val / 8, ht⟩ (1 : Fin 3) * 32 ≤ (i 1).val ∧ (i 1).val < win4_5.index ⟨(i 0).val / 8, ht⟩ (1 : Fin 3) * 32 + 32
    omega
  | ⟨2, _⟩ =>
    show win4_5.index ⟨(i 0).val / 8, ht⟩ (2 : Fin 3) * 128 ≤ (i 2).val ∧ (i 2).val < win4_5.index ⟨(i 0).val / 8, ht⟩ (2 : Fin 3) * 128 + 128
    omega

/-- The output array after the call is the convolution of the arrays found at entry. -/
theorem final4_eq (c : Dev nD) : (dat4 (F := Ideal) V c).arrAt 5 cfg4.N = result4 V c :=
  (dat4 (F := Ideal) V c).arrAt_eq_of_cover 5 (result4 V c) (fun t _ => flushed4_eq V c t) cover4

/-- The input arrays end as the call found them. -/
theorem kept4 (c : Dev nD) (w : Fin cfg4.W) (hw : w ≠ 5) :
    (dat4 (F := Ideal) V c).arrAt w cfg4.N = V c (Pipeline.arrRef spec4 w) := by
  match w with
  | ⟨0, _⟩ => exact ((dat4 (F := Ideal) V c).arrAt_in 0 rfl cfg4.N).trans (A_eq4 V c 0)
  | ⟨1, _⟩ => exact ((dat4 (F := Ideal) V c).arrAt_in 1 rfl cfg4.N).trans (A_eq4 V c 1)
  | ⟨2, _⟩ => exact ((dat4 (F := Ideal) V c).arrAt_in 2 rfl cfg4.N).trans (A_eq4 V c 2)
  | ⟨3, _⟩ => exact ((dat4 (F := Ideal) V c).arrAt_in 3 rfl cfg4.N).trans (A_eq4 V c 3)
  | ⟨4, _⟩ => exact ((dat4 (F := Ideal) V c).arrAt_in 4 rfl cfg4.N).trans (A_eq4 V c 4)
  | ⟨5, _⟩ => exact absurd rfl hw

/-- The output array after the call, entry by entry. -/
theorem final4 (c : Dev nD) (r : Fin 1024) (x : Fin 32) (o : Fin 128) :
    (dat4 (F := Ideal) V c).arrAt 5 cfg4.N (ix3 r x o)
      = conv4 (V c main_call0_v32) (V c main_call0_v34) (V c main_call0_v36) (V c main_call0_v28) (V c main_call0_v37) r x o := by
  rw [final4_eq V c]
  rfl

example : Pipeline.arrRef spec4 0 = main_call0_v32 := rfl
example : Pipeline.arrRef spec4 1 = main_call0_v34 := rfl
example : Pipeline.arrRef spec4 2 = main_call0_v36 := rfl
example : Pipeline.arrRef spec4 3 = main_call0_v28 := rfl
example : Pipeline.arrRef spec4 4 = main_call0_v37 := rfl
example : Pipeline.arrRef spec4 5 = main_call0_v38 := rfl

end Cert.ReferenceIdeal.Hand

end
-- ==== Proof.RefHost4.lean ====
/- What the fifth host stretch leaves in the arrays the last convolution reads, at an index, over the buffers'
   contents before it: the three row-shifted padded images of the last down stage's rows, the weights padded to 128
   output channels, the padded bias row. -/
import proofs.«178811_g2000006188366390_pallasbulk_758_10_alg».proof.Proof.Gen.ReferenceIdeal.Launch
import proofs.«178811_g2000006188366390_pallasbulk_758_10_alg».proof.Proof.Spec
import proofs.«178811_g2000006188366390_pallasbulk_758_10_alg».proof.Proof.RefHostLemmas
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads

variable (W : Valuation τ sig (Elt Ideal))

/-- The last down stage's 1024 rows as 32 images of 32 x 32 x 64. -/
def img64 : S32x32x32x64.Idx → EReal :=
  shapeCast S32x32x32x64 (W (Proc.devRef .tc main_call0_v26) : S1024x32x64.Idx → EReal) shapeCasts_S1024x32x64_S32x32x32x64

theorem rd4_img64 (n : Fin 32) (i : Fin 32) (j : Fin 32) (c : Fin 64) :
    rd4 (img64 W) n.val i.val j.val c.val
      = (W (Proc.devRef .tc main_call0_v26) : S1024x32x64.Idx → EReal)
          (ix3 ⟨n.val * 32 + i.val, by have := n.isLt; have := i.isLt; omega⟩ j c) :=
  rd4_rows32 _ _ n i j c

/-- Row r of the image rows shifted by 0: the padded image at (r / 32, r % 32 + 0). -/
theorem host4_x0 (r : Fin 1024) (x : Fin 34) (c : Fin 64) :
    (StableHlo.after (hostOps4 (F := Ideal)) W (Proc.devRef .tc main_call0_v32) : S1024x34x64.Idx → EReal) (ix3 r x c)
      = pad1 32 32 (rd4 (img64 W)) (r.val / 32) (r.val % 32 + 0) x.val c.val := by
  have e : (StableHlo.after (hostOps4 (F := Ideal)) W (Proc.devRef .tc main_call0_v32) : S1024x34x64.Idx → EReal)
      = shapeCast S1024x34x64 (extractStridedSlice S32x32x34x64 ![0, 0, 0, 0]
          (pad S32x34x34x64 (![0, 1, 1, 0] : Fin 4 → Nat) ![0, 1, 1, 0] ![0, 0, 0, 0] (img64 W) zs
            pads_S32x32x32x64_S32x34x34x64_000_110_110_000 h_S_)
          slices_S32x34x34x64_S32x32x34x64_0_0_0_0) shapeCasts_S32x32x34x64_S1024x34x64 := by
    after_results; rfl
  refine (congrFun e _).trans ?_
  exact shifted_32 (img64 W) zs h_S_ (zs_first h_S_) pads_S32x32x32x64_S32x34x34x64_000_110_110_000 0 (by omega)
    slices_S32x34x34x64_S32x32x34x64_0_0_0_0 shapeCasts_S32x32x34x64_S1024x34x64 r x c

/-- Row r of the image rows shifted by 1: the padded image at (r / 32, r % 32 + 1). -/
theorem host4_x1 (r : Fin 1024) (x : Fin 34) (c : Fin 64) :
    (StableHlo.after (hostOps4 (F := Ideal)) W (Proc.devRef .tc main_call0_v34) : S1024x34x64.Idx → EReal) (ix3 r x c)
      = pad1 32 32 (rd4 (img64 W)) (r.val / 32) (r.val % 32 + 1) x.val c.val := by
  have e : (StableHlo.after (hostOps4 (F := Ideal)) W (Proc.devRef .tc main_call0_v34) : S1024x34x64.Idx → EReal)
      = shapeCast S1024x34x64 (extractStridedSlice S32x32x34x64 ![0, 1, 0, 0]
          (pad S32x34x34x64 (![0, 1, 1, 0] : Fin 4 → Nat) ![0, 1, 1, 0] ![0, 0, 0, 0] (img64 W) zs
            pads_S32x32x32x64_S32x34x34x64_000_110_110_000 h_S_)
          slices_S32x34x34x64_S32x32x34x64_0_1_0_0) shapeCasts_S32x32x34x64_S1024x34x64 := by
    after_results; rfl
  refine (congrFun e _).trans ?_
  exact shifted_32 (img64 W) zs h_S_ (zs_first h_S_) pads_S32x32x32x64_S32x34x34x64_000_110_110_000 1 (by omega)
    slices_S32x34x34x64_S32x32x34x64_0_1_0_0 shapeCasts_S32x32x34x64_S1024x34x64 r x c

/-- Row r of the image rows shifted by 2: the padded image at (r / 32, r % 32 + 2). -/
theorem host4_x2 (r : Fin 1024) (x : Fin 34) (c : Fin 64) :
    (StableHlo.after (hostOps4 (F := Ideal)) W (Proc.devRef .tc main_call0_v36) : S1024x34x64.Idx → EReal) (ix3 r x c)
      = pad1 32 32 (rd4 (img64 W)) (r.val / 32) (r.val % 32 + 2) x.val c.val := by
  have e : (StableHlo.after (hostOps4 (F := Ideal)) W (Proc.devRef .tc main_call0_v36) : S1024x34x64.Idx → EReal)
      = shapeCast S1024x34x64 (extractStridedSlice S32x32x34x64 ![0, 2, 0, 0]
          (pad S32x34x34x64 (![0, 1, 1, 0] : Fin 4 → Nat) ![0, 1, 1, 0] ![0, 0, 0, 0] (img64 W) zs
            pads_S32x32x32x64_S32x34x34x64_000_110_110_000 h_S_)
          slices_S32x34x34x64_S32x32x34x64_0_2_0_0) shapeCasts_S32x32x34x64_S1024x34x64 := by
    after_results; rfl
  refine (congrFun e _).trans ?_
  exact shifted_32 (img64 W) zs h_S_ (zs_first h_S_) pads_S32x32x32x64_S32x34x34x64_000_110_110_000 2 (by omega)
    slices_S32x34x34x64_S32x32x34x64_0_2_0_0 shapeCasts_S32x32x34x64_S1024x34x64 r x c

/-- The weights padded to 128 output channels. -/
theorem host4_w (di dj : Fin 3) (c : Fin 64) (o : Fin 128) :
    (StableHlo.after (hostOps4 (F := Ideal)) W (Proc.devRef .tc main_call0_v28) : S3x3x64x128.Idx → EReal) (ix4 di dj c o)
      = rd4 (W (Proc.devRef .tc main_arg9) : S3x3x64x3.Idx → EReal) di.val dj.val c.val o.val := by
  have e : (StableHlo.after (hostOps4 (F := Ideal)) W (Proc.devRef .tc main_call0_v28) : S3x3x64x128.Idx → EReal)
      = pad S3x3x64x128 (![0, 0, 0, 0] : Fin 4 → Nat) ![0, 0, 0, 125] ![0, 0, 0, 0]
          (W (Proc.devRef .tc main_arg9) : S3x3x64x3.Idx → EReal) zs pads_S3x3x64x3_S3x3x64x128_000_000_000_01250 h_S_ := by
    after_results; rfl
  exact (congrFun e _).trans (padW2 _ zs h_S_ (zs_first h_S_) _ di dj c o)

/-- The bias padded to 128 entries, as a row. -/
theorem host4_b (o : Fin 128) :
    (StableHlo.after (hostOps4 (F := Ideal)) W (Proc.devRef .tc main_call0_v37) : S1x128.Idx → EReal) (ix2 0 o)
      = rd1 (W (Proc.devRef .tc main_arg10) : S3.Idx → EReal) o.val := by
  have e : (StableHlo.after (hostOps4 (F := Ideal)) W (Proc.devRef .tc main_call0_v37) : S1x128.Idx → EReal)
      = shapeCast S1x128 (pad S128 (![0] : Fin 1 → Nat) ![125] ![0] (W (Proc.devRef .tc main_arg10) : S3.Idx → EReal) zs
          pads_S3_S128_01250 h_S_) shapeCasts_S128_S1x128 := by
    after_results; rfl
  exact (congrFun e _).trans (biasPad128 _ zs h_S_ (zs_first h_S_) _ _ o)

end Cert.ReferenceIdeal.Hand

end
-- ==== Proof.RefReg4.lean ====
/- Region 4 of the reference with its host stretch, against the specification: if the rows before it are a stage of
   the specification, the rows the last convolution leaves are the specification's last convolution of it, on all 128
   padded output channels. -/
import proofs.«178811_g2000006188366390_pallasbulk_758_10_alg».proof.Proof.RefR4Value
import proofs.«178811_g2000006188366390_pallasbulk_758_10_alg».proof.Proof.RefHost4
import proofs.«178811_g2000006188366390_pallasbulk_758_10_alg».proof.Proof.RefStages

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads Cert.Stages

variable (Wc : Dev nD → Valuation τ sig (Elt Ideal))

/-- The contents region 4 is entered from: host stretch 4 applied to the contents before it. -/
abbrev entry4 : (c : Dev nD) → (b : Ref sig .tc) → Buf (Elt Ideal) ((c : Thread nD τ).loc b) :=
  fun c b => StableHlo.after (hostOps4 (F := Ideal)) (Wc c) b

theorem region4_spec (c : Dev nD) (v : A4)
    (hprev : ∀ (r : Fin 1024) (x : Fin 32) (o : Fin 64),
      (Wc c (Proc.devRef .tc main_call0_v26) : S1024x32x64.Idx → EReal) (ix3 r x o) = v (r.val / 32) (r.val % 32) x.val o.val)
    (r : Fin 1024) (x : Fin 32) (o : Fin 128) :
    (dat4 (F := Ideal) (entry4 Wc) c).arrAt 5 cfg4.N (ix3 r x o)
      = conv3 64 32 32 v (rd4 (Wc c (Proc.devRef .tc main_arg9) : S3x3x64x3.Idx → EReal))
          (rd1 (Wc c (Proc.devRef .tc main_arg10) : S3.Idx → EReal)) (r.val / 32) (r.val % 32) x.val o.val := by
  have hp' : ∀ (r x o : Nat) (hr : r < 1024) (hx : x < 32) (ho : o < 64),
      (Wc c (Proc.devRef .tc main_call0_v26) : S1024x32x64.Idx → EReal) (ix3 ⟨r, hr⟩ ⟨x, hx⟩ ⟨o, ho⟩) = v (r / 32) (r % 32) x o :=
    fun r x o hr hx ho => hprev ⟨r, hr⟩ ⟨x, hx⟩ ⟨o, ho⟩
  refine (final4 (entry4 Wc) c r x o).trans ?_
  unfold conv4
  refine conv_stage_32 _ _ _ (rd4 (img64 (Wc c))) v _ _ ?hX ?huv ?hW ?hB r x o
  case hX =>
    intro di
    match di with
    | ⟨0, _⟩ => exact host4_x0 (Wc c)
    | ⟨1, _⟩ => exact host4_x1 (Wc c)
    | ⟨2, _⟩ => exact host4_x2 (Wc c)
  case huv =>
    intro n i j cc hn hi hj hc
    exact (rd4_img64 (Wc c) ⟨n, hn⟩ ⟨i, hi⟩ ⟨j, hj⟩ ⟨cc, hc⟩).trans
      ((hp' (n * 32 + i) j cc (by omega) hj hc).trans (A4_congr v (by omega) (by omega) rfl rfl))
  case hW => exact host4_w (Wc c)
  case hB => exact host4_b (Wc c)

end Cert.ReferenceIdeal.Hand

end
-- ==== Proof.RefHost5.lean ====
/- What the last host stretch leaves in the result buffer, at an index, over the buffers' contents before it: the last
   convolution's rows regrouped as images, cut to 3 channels, channel-first. -/
import proofs.«178811_g2000006188366390_pallasbulk_758_10_alg».proof.Proof.Gen.ReferenceIdeal.Launch
import proofs.«178811_g2000006188366390_pallasbulk_758_10_alg».proof.Proof.Spec
import proofs.«178811_g2000006188366390_pallasbulk_758_10_alg».proof.Proof.RefHostLemmas
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads

variable (W : Valuation τ sig (Elt Ideal))

/-- Entry (n, o, h, x) of the result is row 32 n + h, column x, channel o of the last convolution's rows. -/
theorem host5_out (n : Fin 32) (o : Fin 3) (h : Fin 32) (x : Fin 32) :
    (StableHlo.after (hostOps5 (F := Ideal)) W (Proc.devRef .tc main_v0) : S32x3x32x32.Idx → EReal) (ix4 n o h x)
      = (W (Proc.devRef .tc main_call0_v38) : S1024x32x128.Idx → EReal)
          (ix3 ⟨n.val * 32 + h.val, by have := n.isLt; have := h.isLt; omega⟩ x ⟨o.val, by have := o.isLt; omega⟩) := by
  have e : (StableHlo.after (hostOps5 (F := Ideal)) W (Proc.devRef .tc main_v0) : S32x3x32x32.Idx → EReal)
      = transpose S32x3x32x32 [0, 3, 1, 2]
          (extractStridedSlice S32x32x32x3 ![0, 0, 0, 0]
            (shapeCast S32x32x32x128 (W (Proc.devRef .tc main_call0_v38) : S1024x32x128.Idx → EReal)
              shapeCasts_S1024x32x128_S32x32x32x128) slices_S32x32x32x128_S32x32x32x3_0_0_0_0)
          transposes_S32x32x32x3_S32x3x32x32_0_3_1_2 := by
    after_results; rfl
  exact (congrFun e _).trans (outTail _ _ _ _ n o h x)

end Cert.ReferenceIdeal.Hand

end
-- ==== Proof.RefValue.lean ====
/- The reference program's result is the network of the specification. Stage by stage along the run: the rows each
   region leaves are the specification's stage of the argument arrays as launched (no host stretch writes an argument
   and no region has one for an output, so each stretch finds them as launched); the last stretch regroups the last
   convolution's rows as images, keeps 3 channels and returns them channel-first. -/
import proofs.«178811_g2000006188366390_pallasbulk_758_10_alg».proof.Proof.RefRun
import proofs.«178811_g2000006188366390_pallasbulk_758_10_alg».proof.Proof.RefReg0
import proofs.«178811_g2000006188366390_pallasbulk_758_10_alg».proof.Proof.RefReg1
import proofs.«178811_g2000006188366390_pallasbulk_758_10_alg».proof.Proof.RefReg2
import proofs.«178811_g2000006188366390_pallasbulk_758_10_alg».proof.Proof.RefReg3
import proofs.«178811_g2000006188366390_pallasbulk_758_10_alg».proof.Proof.RefReg4
import proofs.«178811_g2000006188366390_pallasbulk_758_10_alg».proof.Proof.RefHost5
import proofs.«178811_g2000006188366390_pallasbulk_758_10_alg».proof.Proof.Spec

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.Spec Cert.HostReads Cert.Stages

variable (m : (ℓ : Loc nD τ sig) → Buf (Elt Ideal) ℓ) (c : Dev nD)

/-! ## A buffer no stretch writes and no region has for an array is as launched at every boundary -/

theorem W2_arg (r : Ref sig .tc) (h0 : r ∉ hostOps0_W) (g0 : ∀ w, Pipeline.arrRef spec0 w ≠ r) :
    W2 m c (Proc.devRef .tc r) = m ((c : Thread nD τ).loc r) :=
  (W2_of_ne m c r g0).trans (StableHlo.after_of_writes_sub hostOps0 _ hostOps0_writes h0)
theorem W4_arg (r : Ref sig .tc) (h0 : r ∉ hostOps0_W) (h1 : r ∉ hostOps1_W)
    (g0 : ∀ w, Pipeline.arrRef spec0 w ≠ r) (g1 : ∀ w, Pipeline.arrRef spec1 w ≠ r) :
    W4 m c (Proc.devRef .tc r) = m ((c : Thread nD τ).loc r) :=
  (W4_of_ne m c r g1).trans ((StableHlo.after_of_writes_sub hostOps1 _ hostOps1_writes h1).trans (W2_arg m c r h0 g0))
theorem W6_arg (r : Ref sig .tc) (h0 : r ∉ hostOps0_W) (h1 : r ∉ hostOps1_W) (h2 : r ∉ hostOps2_W)
    (g0 : ∀ w, Pipeline.arrRef spec0 w ≠ r) (g1 : ∀ w, Pipeline.arrRef spec1 w ≠ r) (g2 : ∀ w, Pipeline.arrRef spec2 w ≠ r) :
    W6 m c (Proc.devRef .tc r) = m ((c : Thread nD τ).loc r) :=
  (W6_of_ne m c r g2).trans ((StableHlo.after_of_writes_sub hostOps2 _ hostOps2_writes h2).trans (W4_arg m c r h0 h1 g0 g1))
theorem W8_arg (r : Ref sig .tc) (h0 : r ∉ hostOps0_W) (h1 : r ∉ hostOps1_W) (h2 : r ∉ hostOps2_W) (h3 : r ∉ hostOps3_W)
    (g0 : ∀ w, Pipeline.arrRef spec0 w ≠ r) (g1 : ∀ w, Pipeline.arrRef spec1 w ≠ r) (g2 : ∀ w, Pipeline.arrRef spec2 w ≠ r)
    (g3 : ∀ w, Pipeline.arrRef spec3 w ≠ r) :
    W8 m c (Proc.devRef .tc r) = m ((c : Thread nD τ).loc r) :=
  (W8_of_ne m c r g3).trans ((StableHlo.after_of_writes_sub hostOps3 _ hostOps3_writes h3).trans (W6_arg m c r h0 h1 h2 g0 g1 g2))

/-! ## The argument arrays and the specification's stages of them -/

/-- Argument 0 as launched. -/
abbrev arg0 : S32x3x256x256.Idx → EReal := m ((c.tc : Thread nD τ).loc main_arg0)
/-- Argument 1 as launched. -/
abbrev arg1 : S3x3x3x64.Idx → EReal := m ((c.tc : Thread nD τ).loc main_arg1)
/-- Argument 2 as launched. -/
abbrev arg2 : S64.Idx → EReal := m ((c.tc : Thread nD τ).loc main_arg2)
/-- Argument 3 as launched. -/
abbrev arg3 : S2x2x64x64.Idx → EReal := m ((c.tc : Thread nD τ).loc main_arg3)
/-- Argument 4 as launched. -/
abbrev arg4 : S64.Idx → EReal := m ((c.tc : Thread nD τ).loc main_arg4)
/-- Argument 5 as launched. -/
abbrev arg5 : S2x2x64x64.Idx → EReal := m ((c.tc : Thread nD τ).loc main_arg5)
/-- Argument 6 as launched. -/
abbrev arg6 : S64.Idx → EReal := m ((c.tc : Thread nD τ).loc main_arg6)
/-- Argument 7 as launched. -/
abbrev arg7 : S2x2x64x64.Idx → EReal := m ((c.tc : Thread nD τ).loc main_arg7)
/-- Argument 8 as launched. -/
abbrev arg8 : S64.Idx → EReal := m ((c.tc : Thread nD τ).loc main_arg8)
/-- Argument 9 as launched. -/
abbrev arg9 : S3x3x64x3.Idx → EReal := m ((c.tc : Thread nD τ).loc main_arg9)
/-- Argument 10 as launched. -/
abbrev arg10 : S3.Idx → EReal := m ((c.tc : Thread nD τ).loc main_arg10)

/-- The first convolution of the image. -/
abbrev st1 : A4 := conv3 8 256 256 (nhwc (rd4 (arg0 m c))) (rd4 (arg1 m c)) (rd1 (arg2 m c))
/-- The three down stages. -/
abbrev st2 : A4 := down (st1 m c) (rd4 (arg3 m c)) (rd1 (arg4 m c))
abbrev st3 : A4 := down (st2 m c) (rd4 (arg5 m c)) (rd1 (arg6 m c))
abbrev st4 : A4 := down (st3 m c) (rd4 (arg7 m c)) (rd1 (arg8 m c))
/-- The last convolution. -/
abbrev st5 : A4 := conv3 64 32 32 (st4 m c) (rd4 (arg9 m c)) (rd1 (arg10 m c))

/-! ## The rows each region leaves -/

theorem stageRows1 (r : Fin 8192) (x : Fin 256) (o : Fin 64) :
    (W2 m c (Proc.devRef .tc main_call0_v11) : S8192x256x64.Idx → EReal) (ix3 r x o)
      = st1 m c (r.val / 256) (r.val % 256) x.val o.val := by
  have hA : (W2 m c (Proc.devRef .tc main_call0_v11) : S8192x256x64.Idx → EReal) = (dat0 (F := Ideal) (V1 m) c).arrAt 5 cfg0.N :=
    W2_arr m c 5
  exact (congrFun hA _).trans (region0_spec (W0 m) c r x o)

theorem stageRows2 (p : Fin 4096) (q : Fin 128) (o : Fin 64) :
    (W4 m c (Proc.devRef .tc main_call0_v16) : S4096x128x64.Idx → EReal) (ix3 p q o)
      = st2 m c (p.val / 128) (p.val % 128) q.val o.val := by
  have hA : (W4 m c (Proc.devRef .tc main_call0_v16) : S4096x128x64.Idx → EReal) = (dat1 (F := Ideal) (V3 m) c).arrAt 3 cfg1.N :=
    W4_arr m c 3
  have e3 : (W2 m c (Proc.devRef .tc main_arg3) : S2x2x64x64.Idx → EReal) = arg3 m c :=
    W2_arg m c main_arg3 (by decide) (by decide)
  have e4 : (W2 m c (Proc.devRef .tc main_arg4) : S64.Idx → EReal) = arg4 m c :=
    W2_arg m c main_arg4 (by decide) (by decide)
  refine (congrFun hA _).trans ((region1_spec (W2 m) c (st1 m c) (stageRows1 m c) p q o).trans ?_)
  rw [e3, e4]

theorem stageRows3 (p : Fin 2048) (q : Fin 64) (o : Fin 64) :
    (W6 m c (Proc.devRef .tc main_call0_v21) : S2048x64x64.Idx → EReal) (ix3 p q o)
      = st3 m c (p.val / 64) (p.val % 64) q.val o.val := by
  have hA : (W6 m c (Proc.devRef .tc main_call0_v21) : S2048x64x64.Idx → EReal) = (dat2 (F := Ideal) (V5 m) c).arrAt 3 cfg2.N :=
    W6_arr m c 3
  have e5 : (W4 m c (Proc.devRef .tc main_arg5) : S2x2x64x64.Idx → EReal) = arg5 m c :=
    W4_arg m c main_arg5 (by decide) (by decide) (by decide) (by decide)
  have e6 : (W4 m c (Proc.devRef .tc main_arg6) : S64.Idx → EReal) = arg6 m c :=
    W4_arg m c main_arg6 (by decide) (by decide) (by decide) (by decide)
  refine (congrFun hA _).trans ((region2_spec (W4 m) c (st2 m c) (stageRows2 m c) p q o).trans ?_)
  rw [e5, e6]

theorem stageRows4 (p : Fin 1024) (q : Fin 32) (o : Fin 64) :
    (W8 m c (Proc.devRef .tc main_call0_v26) : S1024x32x64.Idx → EReal) (ix3 p q o)
      = st4 m c (p.val / 32) (p.val % 32) q.val o.val := by
  have hA : (W8 m c (Proc.devRef .tc main_call0_v26) : S1024x32x64.Idx → EReal) = (dat3 (F := Ideal) (V7 m) c).arrAt 3 cfg3.N :=
    W8_arr m c 3
  have e7 : (W6 m c (Proc.devRef .tc main_arg7) : S2x2x64x64.Idx → EReal) = arg7 m c :=
    W6_arg m c main_arg7 (by decide) (by decide) (by decide) (by decide) (by decide) (by decide)
  have e8 : (W6 m c (Proc.devRef .tc main_arg8) : S64.Idx → EReal) = arg8 m c :=
    W6_arg m c main_arg8 (by decide) (by decide) (by decide) (by decide) (by decide) (by decide)
  refine (congrFun hA _).trans ((region3_spec (W6 m) c (st3 m c) (stageRows3 m c) p q o).trans ?_)
  rw [e7, e8]

theorem stageRows5 (r : Fin 1024) (x : Fin 32) (o : Fin 128) :
    (W10 m c (Proc.devRef .tc main_call0_v38) : S1024x32x128.Idx → EReal) (ix3 r x o)
      = st5 m c (r.val / 32) (r.val % 32) x.val o.val := by
  have hA : (W10 m c (Proc.devRef .tc main_call0_v38) : S1024x32x128.Idx → EReal) = (dat4 (F := Ideal) (V9 m) c).arrAt 5 cfg4.N :=
    W10_arr m c 5
  have e9 : (W8 m c (Proc.devRef .tc main_arg9) : S3x3x64x3.Idx → EReal) = arg9 m c :=
    W8_arg m c main_arg9 (by decide) (by decide) (by decide) (by decide) (by decide) (by decide) (by decide) (by decide)
  have e10 : (W8 m c (Proc.devRef .tc main_arg10) : S3.Idx → EReal) = arg10 m c :=
    W8_arg m c main_arg10 (by decide) (by decide) (by decide) (by decide) (by decide) (by decide) (by decide) (by decide)
  refine (congrFun hA _).trans ((region4_spec (W8 m) c (st4 m c) (stageRows4 m c) r x o).trans ?_)
  rw [e9, e10]

/-! ## The result -/

/-- The result buffer at the return holds the network of the eleven argument arrays as launched. -/
theorem result_eq :
    (W11 m c (Proc.devRef .tc main_v0) : S32x3x32x32.Idx → EReal)
      = Cert.Spec.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  funext i
  obtain ⟨n, o, h, x, rfl⟩ : ∃ (n : Fin 32) (o : Fin 3) (h : Fin 32) (x : Fin 32), i = ix4 n o h x :=
    ⟨i 0, i 1, i 2, i 3, eq_ix4 i⟩
  have hn := n.isLt; have hh := h.isLt
  refine (host5_out (W10 m c) n o h x).trans ((stageRows5 m c _ _ _).trans ?_)
  show st5 m c ((n.val * 32 + h.val) / 32) ((n.val * 32 + h.val) % 32) x.val o.val = st5 m c n.val h.val x.val o.val
  exact A4_congr _ (by omega) (by omega) rfl rfl

end Cert.ReferenceIdeal.Hand

end
-- ==== Proof.lean ====
/-
  The proof of `Cert.Claim`: the fused down-sampling kernel against the five-kernel reference.

  Both programs compute ONE function of the eleven argument arrays, `Cert.Spec.net` (Proof/Spec.lean): a 3 x 3
  convolution with zero padding from 3 (padded to 8) to 64 channels, three times [the 2 x 2 maximum plus the 2 x 2
  convolution of stride 2 plus its bias], and a 3 x 3 convolution with zero padding from 64 to 3 channels. They differ
  only in how they tile the images and in how they group the sums (one 72-term product against nine 8-term products
  added to zero; four 64-term products after the bias against two 128-term products before it; one 576-term product
  against nine 64-term products; output channels padded to 8 against 128 before the same three are kept), and on the
  extended reals sums and products are commutative and associative and 0 * a = 0, a + 0 = a for every a, so no
  finiteness of the inputs is used.

  Each program's run is written over the library's launch theorem for a sequence of host stretches and kernel regions,
  with the result array named in the run's postcondition (Proof/KRun.lean and its word-level twin Proof/KRunBits.lean
  for the kernel — one region whose three image windows are one padded array, a scratch carried from strip to strip
  and read by the last strip of each image; Proof/RefRun.lean for the reference's five regions, the second of which
  runs 820 blocks of five rows over 4096 rows, its last block cut at the array's end). The frames are those runs with
  the result forgotten. The result arrays are then read index by index: Proof/KValue.lean and Proof/RefValue.lean prove
  each equal to `Cert.Spec.net` of the argument arrays, and the algebraic claim is the two equations side by side.
  No operation of the kernel was rewritten on the way to the extended reals, so `preserves` is `True`.
-/
import proofs.«178811_g2000006188366390_pallasbulk_758_10_alg».proof.Defs
import proofs.«178811_g2000006188366390_pallasbulk_758_10_alg».proof.Proof.Gen.Kernel
import proofs.«178811_g2000006188366390_pallasbulk_758_10_alg».proof.Proof.Gen.KernelIdeal
import proofs.«178811_g2000006188366390_pallasbulk_758_10_alg».proof.Proof.Gen.ReferenceIdeal
import proofs.«178811_g2000006188366390_pallasbulk_758_10_alg».proof.Proof.Gen.Pre_finite_inputs
import proofs.«178811_g2000006188366390_pallasbulk_758_10_alg».proof.Proof.Spec
import proofs.«178811_g2000006188366390_pallasbulk_758_10_alg».proof.Proof.KRunBits
import proofs.«178811_g2000006188366390_pallasbulk_758_10_alg».proof.Proof.KRun
import proofs.«178811_g2000006188366390_pallasbulk_758_10_alg».proof.Proof.KValue
import proofs.«178811_g2000006188366390_pallasbulk_758_10_alg».proof.Proof.RefRun
import proofs.«178811_g2000006188366390_pallasbulk_758_10_alg».proof.Proof.RefR1Value
import proofs.«178811_g2000006188366390_pallasbulk_758_10_alg».proof.Proof.RefValue

noncomputable section

namespace Cert.Proof

open Idealize.ShloMosaic Idealize.SL.Sem

/-- The word-level kernel runs to the end and leaves its arguments as launched: its run with the result forgotten. -/
theorem frame_k [Cert.Kernel.Facts] [Cert.Pre_finite_inputs.Facts] : Cert.frame_Kernel := fun m ρ _ =>
  (θ_run (Cert.Kernel.defs (F := Bits)) _ _).mono (fun _ h c => (h c).2) (Cert.Kernel.Hand.run (F := Bits) m ρ)

/-- The kernel over the extended reals runs to the end and leaves its arguments as launched: its run with the result forgotten. -/
theorem frame_ki [Cert.KernelIdeal.Facts] [Cert.Pre_finite_inputs.Facts] : Cert.frame_KernelIdeal := fun m ρ _ =>
  (θ_run (Cert.KernelIdeal.defs (F := Ideal)) _ _).mono (fun _ h c => (h c).2) (Cert.KernelIdeal.Hand.run (F := Ideal) m ρ)

/-- The reference over the extended reals runs to the end and leaves its arguments as launched: its run with the result forgotten. -/
theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2) (Cert.ReferenceIdeal.Hand.run Cert.ReferenceIdeal.Hand.rowLocal1 m ρ)

/-- No operation was rewritten: the statement is `True`. -/
theorem preserves : Cert.preserves_Kernel_KernelIdeal := trivial

/-- Over the extended reals both programs end with the network `Cert.Spec.net` of the argument arrays in the result:
    the kernel's run with its result read as the network, the reference's run with its result read as the network of
    its own arguments, which are the kernel's. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono
      (fun _ h c => ⟨(h c).1.trans (Cert.KernelIdeal.Hand.result_eq m ρ c), (h c).2⟩) (Cert.KernelIdeal.Hand.run (F := Ideal) m ρ)
  · refine (θ_run (Cert.ReferenceIdeal.defs (F := Ideal)) _ _).mono (fun _ h c => ⟨(h c).1.trans ?_, (h c).2⟩)
      (Cert.ReferenceIdeal.Hand.run Cert.ReferenceIdeal.Hand.rowLocal1 m' ρ')
    obtain ⟨h0, h1, h2, h3, h4, h5, h6, h7, h8, h9, h10⟩ := hagree c
    rw [Cert.ReferenceIdeal.Hand.result_eq m' c, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
